-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x4x12x12 : Shape := ⟨5, ![32, 128, 4, 12, 12]⟩
abbrev S128 : Shape := ⟨1, ![128]⟩
abbrev S3x3x3x128x256 : Shape := ⟨5, ![3, 3, 3, 128, 256]⟩
abbrev S256 : Shape := ⟨1, ![256]⟩
abbrev S3x3x3x256x256 : Shape := ⟨5, ![3, 3, 3, 256, 256]⟩
abbrev S128x256 : Shape := ⟨2, ![128, 256]⟩
abbrev S_ : Shape := ⟨0, ![]⟩

class Facts : Prop where
  bcast_S_S32x128x4x12x12 : S_.BroadcastsInDim S32x128x4x12x12 (![] : Fin 0 → Fin S32x128x4x12x12.rank)
  reducesTo_S32x128x4x12x12_S_d0_1_2_3_4 : S32x128x4x12x12.ReducesTo [0, 1, 2, 3, 4] S_
  h_S_ : 0 < S_.numel
  bcast_S_S128 : S_.BroadcastsInDim S128 (![] : Fin 0 → Fin S128.rank)
  reducesTo_S128_S_d0 : S128.ReducesTo [0] S_
  bcast_S_S3x3x3x128x256 : S_.BroadcastsInDim S3x3x3x128x256 (![] : Fin 0 → Fin S3x3x3x128x256.rank)
  reducesTo_S3x3x3x128x256_S_d0_1_2_3_4 : S3x3x3x128x256.ReducesTo [0, 1, 2, 3, 4] S_
  bcast_S_S256 : S_.BroadcastsInDim S256 (![] : Fin 0 → Fin S256.rank)
  reducesTo_S256_S_d0 : S256.ReducesTo [0] S_
  bcast_S_S3x3x3x256x256 : S_.BroadcastsInDim S3x3x3x256x256 (![] : Fin 0 → Fin S3x3x3x256x256.rank)
  reducesTo_S3x3x3x256x256_S_d0_1_2_3_4 : S3x3x3x256x256.ReducesTo [0, 1, 2, 3, 4] S_
  bcast_S_S128x256 : S_.BroadcastsInDim S128x256 (![] : Fin 0 → Fin S128x256.rank)
  reducesTo_S128x256_S_d0_1 : S128x256.ReducesTo [0, 1] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S3x3x3x256x256 .f32) (main_arg8 : FVec F S256 .f32) (main_arg9 : FVec F S128x256 .f32) (main_arg10 : FVec F S256 .f32) (main_v33 : IVec S_ 1) : IVec S_ 1 :=
  let main_v34 : FVec F S3x3x3x256x256 .f32 := Host.absf main_arg7
  let main_cst_12 : FVec F S_ .f32 := constant S_ .f32 0x7F800000#32
  let main_v35 : FVec F S3x3x3x256x256 .f32 := broadcastInDim S3x3x3x256x256 ![] bcast_S_S3x3x3x256x256 main_cst_12
  let main_v36 : IVec S3x3x3x256x256 1 := cmpf .olt main_v34 main_v35
  let main_c_13 : IVec S_ 1 := constantI S_ 1 1#1
  let main_v37 : IVec S_ 1 := (fun x v => Host.reduce IntOp.andi x v reducesTo_S3x3x3x256x256_S_d0_1_2_3_4 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S128x256 .f32 := Host.absf main_arg9
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S256 .f32) (main_arg5 : FVec F S256 .f32) (main_arg6 : FVec F S256 .f32) (main_arg7 : FVec F S3x3x3x256x256 .f32) (main_arg8 : FVec F S256 .f32) (main_arg9 : FVec F S128x256 .f32) (main_arg10 : FVec F S256 .f32) (main_v13 : IVec S_ 1) (main_v16 : IVec S3x3x3x128x256 1) : IVec S_ 1 :=
  let main_c_5 : IVec S_ 1 := constantI S_ 1 1#1
  let main_v17 : IVec S_ 1 := (fun x v => Host.reduce IntOp.andi x v reducesTo_S3x3x3x128x256_S_d0_1_2_3_4 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S32x128x4x12x12 .f32) (main_arg1 : FVec F S128 .f32) (main_arg2 : FVec F S128 .f32) (main_arg3 : FVec F S3x3x3x128x256 .f32) (main_arg4 : FVec F S256 .f32) (main_arg5 : FVec F S256 .f32) (main_arg6 : FVec F S256 .f32) (main_arg7 : FVec F S3x3x3x256x256 .f32) (main_arg8 : FVec F S256 .f32) (main_arg9 : FVec F S128x256 .f32) (main_arg10 : FVec F S256 .f32) : IVec S_ 1 :=
  let main_v0 : FVec F S32x128x4x12x12 .f32 := Host.absf main_arg0
  let main_cst : FVec F S_ .f32 := constant S_ .f32 0x7F800000#32
  let main_v1 : FVec F S32x128x4x12x12 .f32 := broadcastInDim S32x128x4x12x12 ![] bcast_S_S32x128x4x12x12 main_cst
  let main_v2 : IVec S32x128x4x12x12 1 := cmpf .olt main_v0 main_v1
  let main_c : IVec S_ 1 := constantI S_ 1 1#1
  let main_v3 : IVec S_ 1 := (fun x v => Host.reduce IntOp.andi x v reducesTo_S32x128x4x12x12_S_d0_1_2_3_4 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x3x3x128x256 .f32 := Host.absf main_arg3
  let main_cst_4 : FVec F S_ .f32 := constant S_ .f32 0x7F800000#32
  let main_v15 : FVec F S3x3x3x128x256 .f32 := broadcastInDim S3x3x3x128x256 ![] bcast_S_S3x3x3x128x256 main_cst_4
  let main_v16 : IVec S3x3x3x128x256 1 := cmpf .olt main_v14 main_v15
  fn_part1 (F := F) main_arg4 main_arg5 main_arg6 main_arg7 main_arg8 main_arg9 main_arg10 main_v13 main_v16
-- ==== Kernel.lean ====
abbrev S32x128x4x12x12 : Shape := ⟨5, ![32, 128, 4, 12, 12]⟩
abbrev S128 : Shape := ⟨1, ![128]⟩
abbrev S3x3x3x128x256 : Shape := ⟨5, ![3, 3, 3, 128, 256]⟩
abbrev S256 : Shape := ⟨1, ![256]⟩
abbrev S3x3x3x256x256 : Shape := ⟨5, ![3, 3, 3, 256, 256]⟩
abbrev S128x256 : Shape := ⟨2, ![128, 256]⟩
abbrev S32x4x12x12x128 : Shape := ⟨5, ![32, 4, 12, 12, 128]⟩
abbrev S32x576x128 : Shape := ⟨3, ![32, 576, 128]⟩
abbrev S3456x256 : Shape := ⟨2, ![3456, 256]⟩
abbrev S6912x256 : Shape := ⟨2, ![6912, 256]⟩
abbrev S1x256 : Shape := ⟨2, ![1, 256]⟩
abbrev S1x128 : Shape := ⟨2, ![1, 128]⟩
abbrev S32x576x256 : Shape := ⟨3, ![32, 576, 256]⟩
abbrev S1x576x128 : Shape := ⟨3, ![1, 576, 128]⟩
abbrev S1x576x256 : Shape := ⟨3, ![1, 576, 256]⟩
abbrev S6x14x14x128 : Shape := ⟨4, ![6, 14, 14, 128]⟩
abbrev S6x14x14x256 : Shape := ⟨4, ![6, 14, 14, 256]⟩
abbrev S576x128 : Shape := ⟨2, ![576, 128]⟩
abbrev S128x32 : Shape := ⟨2, ![128, 32]⟩
abbrev S32x128 : Shape := ⟨2, ![32, 128]⟩
abbrev S2x128 : Shape := ⟨2, ![2, 128]⟩
abbrev S2x32 : Shape := ⟨2, ![2, 32]⟩
abbrev S1x32 : Shape := ⟨2, ![1, 32]⟩
abbrev S4x12x12x128 : Shape := ⟨4, ![4, 12, 12, 128]⟩
abbrev S4x12x14x128 : Shape := ⟨4, ![4, 12, 14, 128]⟩
abbrev S1x12x12x128 : Shape := ⟨4, ![1, 12, 12, 128]⟩
abbrev S2x12x12x128 : Shape := ⟨4, ![2, 12, 12, 128]⟩
abbrev S2x12x14x128 : Shape := ⟨4, ![2, 12, 14, 128]⟩
abbrev S576x3456 : Shape := ⟨2, ![576, 3456]⟩
abbrev S576x256 : Shape := ⟨2, ![576, 256]⟩
abbrev S256x32 : Shape := ⟨2, ![256, 32]⟩
abbrev S32x256 : Shape := ⟨2, ![32, 256]⟩
abbrev S2x256 : Shape := ⟨2, ![2, 256]⟩
abbrev S4x12x12x256 : Shape := ⟨4, ![4, 12, 12, 256]⟩
abbrev S4x12x14x256 : Shape := ⟨4, ![4, 12, 14, 256]⟩
abbrev S1x12x12x256 : Shape := ⟨4, ![1, 12, 12, 256]⟩
abbrev S2x12x12x256 : Shape := ⟨4, ![2, 12, 12, 256]⟩
abbrev S2x12x14x256 : Shape := ⟨4, ![2, 12, 14, 256]⟩
abbrev S576x6912 : Shape := ⟨2, ![576, 6912]⟩
abbrev S32x4x12x12x256 : Shape := ⟨5, ![32, 4, 12, 12, 256]⟩
abbrev S32x256x4x12x12 : Shape := ⟨5, ![32, 256, 4, 12, 12]⟩

abbrev nBuf : Space → Nat
  | .hbm => 28
  | .vmem => 15
  | .smem => 0
  | _ => 0

abbrev bufTy : (tb : Table) → Fin (tcTables nBuf tb) → BufTy
  | .hbm, ⟨0, _⟩ => ⟨S32x128x4x12x12, .f32⟩
  | .hbm, ⟨1, _⟩ => ⟨S128, .f32⟩
  | .hbm, ⟨2, _⟩ => ⟨S128, .f32⟩
  | .hbm, ⟨3, _⟩ => ⟨S3x3x3x128x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S3x3x3x256x256, .f32⟩
  | .hbm, ⟨8, _⟩ => ⟨S256, .f32⟩
  | .hbm, ⟨9, _⟩ => ⟨S128x256, .f32⟩
  | .hbm, ⟨10, _⟩ => ⟨S256, .f32⟩
  | .hbm, ⟨11, _⟩ => ⟨S32x4x12x12x128, .f32⟩
  | .hbm, ⟨12, _⟩ => ⟨S32x576x128, .f32⟩
  | .hbm, ⟨13, _⟩ => ⟨S3456x256, .f32⟩
  | .hbm, ⟨14, _⟩ => ⟨S3456x256, .bf16⟩
  | .hbm, ⟨15, _⟩ => ⟨S6912x256, .f32⟩
  | .hbm, ⟨16, _⟩ => ⟨S6912x256, .bf16⟩
  | .hbm, ⟨17, _⟩ => ⟨S128x256, .bf16⟩
  | .hbm, ⟨18, _⟩ => ⟨S256, .f32⟩
  | .hbm, ⟨19, _⟩ => ⟨S1x256, .f32⟩
  | .hbm, ⟨20, _⟩ => ⟨S1x128, .f32⟩
  | .hbm, ⟨21, _⟩ => ⟨S1x128, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S32x576x256, .f32⟩
  | .hbm, ⟨26, _⟩ => ⟨S32x4x12x12x256, .f32⟩
  | .hbm, ⟨27, _⟩ => ⟨S32x256x4x12x12, .f32⟩
  | .local _ .vmem, ⟨0, _⟩ => ⟨S1x576x128, .f32⟩
  | .local _ .vmem, ⟨1, _⟩ => ⟨S1x576x128, .f32⟩
  | .local _ .vmem, ⟨2, _⟩ => ⟨S1x128, .f32⟩
  | .local _ .vmem, ⟨3, _⟩ => ⟨S1x128, .f32⟩
  | .local _ .vmem, ⟨4, _⟩ => ⟨S3456x256, .bf16⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S6912x256, .bf16⟩
  | .local _ .vmem, ⟨9, _⟩ => ⟨S1x256, .f32⟩
  | .local _ .vmem, ⟨10, _⟩ => ⟨S128x256, .bf16⟩
  | .local _ .vmem, ⟨11, _⟩ => ⟨S1x576x256, .f32⟩
  | .local _ .vmem, ⟨12, _⟩ => ⟨S1x576x256, .f32⟩
  | .local _ .vmem, ⟨13, _⟩ => ⟨S6x14x14x128, .bf16⟩
  | .local _ .vmem, ⟨14, _⟩ => ⟨S6x14x14x256, .bf16⟩
  | _, _ => ⟨S32x128x4x12x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x576x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3456x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6912x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x576x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S32x128x4x12x12_S32x4x12x12x128_0_2_3_4_1 : S32x128x4x12x12.Transposes [0, 2, 3, 4, 1] S32x4x12x12x128
  shapeCasts_S32x4x12x12x128_S32x576x128 : S32x4x12x12x128.ShapeCasts S32x576x128
  shapeCasts_S3x3x3x128x256_S3456x256 : S3x3x3x128x256.ShapeCasts S3456x256
  bitsLt_bf16_f32 : FTy.bits .bf16 < FTy.bits .f32
  shapeCasts_S3x3x3x256x256_S6912x256 : S3x3x3x256x256.ShapeCasts S6912x256
  shapeCasts_S256_S1x256 : S256.ShapeCasts S1x256
  shapeCasts_S128_S1x128 : S128.ShapeCasts S1x128
  inb_S1x576x128_S1x576x128_0_0_0 : ∀ a, (![0, 0, 0] : Fin 3 → Nat) a + S1x576x128.size a ≤ S1x576x128.size a
  h_S1x576x128 : 0 < S1x576x128.numel
  shapeCasts_S1x576x128_S576x128 : S1x576x128.ShapeCasts S576x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  iota_S128x32_d0_w32 : S128x32.Iotas .tc 32 [0]
  natLt_1_32 : 1 < 32
  iota_S128x32_d1_w32 : S128x32.Iotas .tc 32 [1]
  iota_S32x128_d0_w32 : S32x128.Iotas .tc 32 [0]
  iota_S32x128_d1_w32 : S32x128.Iotas .tc 32 [1]
  reduces_S576x128_S128 : S576x128.Reduces [0] S128
  concatenates_S1x128_S1x128_S2x128_d0 : Shape.Concatenates [S1x128, S1x128] S2x128 0
  slices_S2x32_o0_0_S1x32 : S2x32.Slices ![0, 0] S1x32
  slices_S2x32_o1_0_S1x32 : S2x32.Slices ![1, 0] S1x32
  concatenates_S1x32_S1x32_S2x32_d0 : Shape.Concatenates [S1x32, S1x32] S2x32 0
  slices_S2x128_o1_0_S1x128 : S2x128.Slices ![1, 0] S1x128
  slices_S2x128_o0_0_S1x128 : S2x128.Slices ![0, 0] S1x128
  broadcasts_S1x128_S576x128 : S1x128.Broadcasts S576x128
  shapeCasts_S576x128_S4x12x12x128 : S576x128.ShapeCasts S4x12x12x128
  inb_S6x14x14x128_S6x14x14x128_0_0_0_0 : ∀ a, (![0, 0, 0, 0] : Fin 4 → Nat) a + S6x14x14x128.size a ≤ S6x14x14x128.size a
  h_S6x14x14x128 : 0 < S6x14x14x128.numel
  shapeCasts_S6x14x14x128_S6x14x14x128 : S6x14x14x128.ShapeCasts S6x14x14x128
  packedbf16_S6x14x14x128_S6x14x14x128_0_0_0_0 : (Rect.unit (s := S6x14x14x128) ![0, 0, 0, 0] S6x14x14x128.size inb_S6x14x14x128_S6x14x14x128_0_0_0_0).PackedRows (EltTy.packing .bf16)
  inb_S6x14x14x128_S4x12x12x128_2_1_1_0 : ∀ a, (![2, 1, 1, 0] : Fin 4 → Nat) a + S4x12x12x128.size a ≤ S6x14x14x128.size a
  h_S4x12x12x128 : 0 < S4x12x12x128.numel
  shapeCasts_S4x12x12x128_S4x12x12x128 : S4x12x12x128.ShapeCasts S4x12x12x128
  inb_S6x14x14x128_S4x12x14x128_2_1_0_0 : ∀ a, (![2, 1, 0, 0] : Fin 4 → Nat) a + S4x12x14x128.size a ≤ S6x14x14x128.size a
  h_S4x12x14x128 : 0 < S4x12x14x128.numel
  slices_S4x12x14x128_S4x12x12x128_0_0_1_0 : S4x12x14x128.Slices ![0, 0, 1, 0] S4x12x12x128
  packedbf16_S6x14x14x128_S4x12x14x128_2_1_0_0 : (Rect.unit (s := S6x14x14x128) ![2, 1, 0, 0] S4x12x14x128.size inb_S6x14x14x128_S4x12x14x128_2_1_0_0).PackedRows (EltTy.packing .bf16)
  slices_S4x12x12x128_o0_0_0_0_S1x12x12x128 : S4x12x12x128.Slices ![0, 0, 0, 0] S1x12x12x128
  shapeCasts_S1x12x12x128_S1x12x12x128 : S1x12x12x128.ShapeCasts S1x12x12x128
  broadcasts_S1x12x12x128_S2x12x12x128 : S1x12x12x128.Broadcasts S2x12x12x128
  inb_S6x14x14x128_S2x12x12x128_0_1_1_0 : ∀ a, (![0, 1, 1, 0] : Fin 4 → Nat) a + S2x12x12x128.size a ≤ S6x14x14x128.size a
  h_S2x12x12x128 : 0 < S2x12x12x128.numel
  shapeCasts_S2x12x12x128_S2x12x12x128 : S2x12x12x128.ShapeCasts S2x12x12x128
  inb_S6x14x14x128_S2x12x14x128_0_1_0_0 : ∀ a, (![0, 1, 0, 0] : Fin 4 → Nat) a + S2x12x14x128.size a ≤ S6x14x14x128.size a
  h_S2x12x14x128 : 0 < S2x12x14x128.numel
  slices_S2x12x14x128_S2x12x12x128_0_0_1_0 : S2x12x14x128.Slices ![0, 0, 1, 0] S2x12x12x128
  packedbf16_S6x14x14x128_S2x12x14x128_0_1_0_0 : (Rect.unit (s := S6x14x14x128) ![0, 1, 0, 0] S2x12x14x128.size inb_S6x14x14x128_S2x12x14x128_0_1_0_0).PackedRows (EltTy.packing .bf16)
  inb_S6x14x14x128_S4x12x12x128_0_0_0_0 : ∀ a, (![0, 0, 0, 0] : Fin 4 → Nat) a + S4x12x12x128.size a ≤ S6x14x14x128.size a
  shapeCasts_S4x12x12x128_S576x128 : S4x12x12x128.ShapeCasts S576x128
  inb_S6x14x14x128_S4x12x12x128_0_0_1_0 : ∀ a, (![0, 0, 1, 0] : Fin 4 → Nat) a + S4x12x12x128.size a ≤ S6x14x14x128.size a
  inb_S6x14x14x128_S4x12x12x128_0_0_2_0 : ∀ a, (![0, 0, 2, 0] : Fin 4 → Nat) a + S4x12x12x128.size a ≤ S6x14x14x128.size a
  inb_S6x14x14x128_S4x12x12x128_0_1_0_0 : ∀ a, (![0, 1, 0, 0] : Fin 4 → Nat) a + S4x12x12x128.size a ≤ S6x14x14x128.size a
  inb_S6x14x14x128_S4x12x12x128_0_1_1_0 : ∀ a, (![0, 1, 1, 0] : Fin 4 → Nat) a + S4x12x12x128.size a ≤ S6x14x14x128.size a
  inb_S6x14x14x128_S4x12x12x128_0_1_2_0 : ∀ a, (![0, 1, 2, 0] : Fin 4 → Nat) a + S4x12x12x128.size a ≤ S6x14x14x128.size a
  inb_S6x14x14x128_S4x12x12x128_0_2_0_0 : ∀ a, (![0, 2, 0, 0] : Fin 4 → Nat) a + S4x12x12x128.size a ≤ S6x14x14x128.size a
  inb_S6x14x14x128_S4x12x12x128_0_2_1_0 : ∀ a, (![0, 2, 1, 0] : Fin 4 → Nat) a + S4x12x12x128.size a ≤ S6x14x14x128.size a
  inb_S6x14x14x128_S4x12x12x128_0_2_2_0 : ∀ a, (![0, 2, 2, 0] : Fin 4 → Nat) a + S4x12x12x128.size a ≤ S6x14x14x128.size a
  inb_S6x14x14x128_S4x12x12x128_1_0_0_0 : ∀ a, (![1, 0, 0, 0] : Fin 4 → Nat) a + S4x12x12x128.size a ≤ S6x14x14x128.size a
  inb_S6x14x14x128_S4x12x12x128_1_0_1_0 : ∀ a, (![1, 0, 1, 0] : Fin 4 → Nat) a + S4x12x12x128.size a ≤ S6x14x14x128.size a
  inb_S6x14x14x128_S4x12x12x128_1_0_2_0 : ∀ a, (![1, 0, 2, 0] : Fin 4 → Nat) a + S4x12x12x128.size a ≤ S6x14x14x128.size a
  inb_S6x14x14x128_S4x12x12x128_1_1_0_0 : ∀ a, (![1, 1, 0, 0] : Fin 4 → Nat) a + S4x12x12x128.size a ≤ S6x14x14x128.size a
  inb_S6x14x14x128_S4x12x12x128_1_1_1_0 : ∀ a, (![1, 1, 1, 0] : Fin 4 → Nat) a + S4x12x12x128.size a ≤ S6x14x14x128.size a
  inb_S6x14x14x128_S4x12x12x128_1_1_2_0 : ∀ a, (![1, 1, 2, 0] : Fin 4 → Nat) a + S4x12x12x128.size a ≤ S6x14x14x128.size a
  inb_S6x14x14x128_S4x12x12x128_1_2_0_0 : ∀ a, (![1, 2, 0, 0] : Fin 4 → Nat) a + S4x12x12x128.size a ≤ S6x14x14x128.size a
  inb_S6x14x14x128_S4x12x12x128_1_2_1_0 : ∀ a, (![1, 2, 1, 0] : Fin 4 → Nat) a + S4x12x12x128.size a ≤ S6x14x14x128.size a
  inb_S6x14x14x128_S4x12x12x128_1_2_2_0 : ∀ a, (![1, 2, 2, 0] : Fin 4 → Nat) a + S4x12x12x128.size a ≤ S6x14x14x128.size a
  inb_S6x14x14x128_S4x12x12x128_2_0_0_0 : ∀ a, (![2, 0, 0, 0] : Fin 4 → Nat) a + S4x12x12x128.size a ≤ S6x14x14x128.size a
  inb_S6x14x14x128_S4x12x12x128_2_0_1_0 : ∀ a, (![2, 0, 1, 0] : Fin 4 → Nat) a + S4x12x12x128.size a ≤ S6x14x14x128.size a
  inb_S6x14x14x128_S4x12x12x128_2_0_2_0 : ∀ a, (![2, 0, 2, 0] : Fin 4 → Nat) a + S4x12x12x128.size a ≤ S6x14x14x128.size a
  inb_S6x14x14x128_S4x12x12x128_2_1_0_0 : ∀ a, (![2, 1, 0, 0] : Fin 4 → Nat) a + S4x12x12x128.size a ≤ S6x14x14x128.size a
  inb_S6x14x14x128_S4x12x12x128_2_1_2_0 : ∀ a, (![2, 1, 2, 0] : Fin 4 → Nat) a + S4x12x12x128.size a ≤ S6x14x14x128.size a
  inb_S6x14x14x128_S4x12x12x128_2_2_0_0 : ∀ a, (![2, 2, 0, 0] : Fin 4 → Nat) a + S4x12x12x128.size a ≤ S6x14x14x128.size a
  inb_S6x14x14x128_S4x12x12x128_2_2_1_0 : ∀ a, (![2, 2, 1, 0] : Fin 4 → Nat) a + S4x12x12x128.size a ≤ S6x14x14x128.size a
  inb_S6x14x14x128_S4x12x12x128_2_2_2_0 : ∀ a, (![2, 2, 2, 0] : Fin 4 → Nat) a + S4x12x12x128.size a ≤ S6x14x14x128.size a
  concatenates_S576x128_S576x128_S576x128_S576x128_S576x128_S576x128_S576x128_S576x128_S576x128_S576x128_S576x128_S576x128_S576x128_S576x128_S576x128_S576x128_S576x128_S576x128_S576x128_S576x128_S576x128_S576x128_S576x128_S576x128_S576x128_S576x128_S576x128_S576x3456_d1 : Shape.Concatenates [S576x128, S576x128, S576x128, S576x128, S576x128, S576x128, S576x128, S576x128, S576x128, S576x128, S576x128, S576x128, S576x128, S576x128, S576x128, S576x128, S576x128, S576x128, S576x128, S576x128, S576x128, S576x128, S576x128, S576x128, S576x128, S576x128, S576x128] S576x3456 1
  inb_S3456x256_S3456x256_0_0 : ∀ a, (![0, 0] : Fin 2 → Nat) a + S3456x256.size a ≤ S3456x256.size a
  h_S3456x256 : 0 < S3456x256.numel
  shapeCasts_S3456x256_S3456x256 : S3456x256.ShapeCasts S3456x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S576x256 : S1x256.Broadcasts S576x256
  iota_S256x32_d0_w32 : S256x32.Iotas .tc 32 [0]
  iota_S256x32_d1_w32 : S256x32.Iotas .tc 32 [1]
  iota_S32x256_d0_w32 : S32x256.Iotas .tc 32 [0]
  iota_S32x256_d1_w32 : S32x256.Iotas .tc 32 [1]
  reduces_S576x256_S256 : S576x256.Reduces [0] S256
  concatenates_S1x256_S1x256_S2x256_d0 : Shape.Concatenates [S1x256, S1x256] S2x256 0
  slices_S2x256_o1_0_S1x256 : S2x256.Slices ![1, 0] S1x256
  slices_S2x256_o0_0_S1x256 : S2x256.Slices ![0, 0] S1x256
  shapeCasts_S576x256_S4x12x12x256 : S576x256.ShapeCasts S4x12x12x256
  inb_S6x14x14x256_S6x14x14x256_0_0_0_0 : ∀ a, (![0, 0, 0, 0] : Fin 4 → Nat) a + S6x14x14x256.size a ≤ S6x14x14x256.size a
  h_S6x14x14x256 : 0 < S6x14x14x256.numel
  shapeCasts_S6x14x14x256_S6x14x14x256 : S6x14x14x256.ShapeCasts S6x14x14x256
  packedbf16_S6x14x14x256_S6x14x14x256_0_0_0_0 : (Rect.unit (s := S6x14x14x256) ![0, 0, 0, 0] S6x14x14x256.size inb_S6x14x14x256_S6x14x14x256_0_0_0_0).PackedRows (EltTy.packing .bf16)
  inb_S6x14x14x256_S4x12x12x256_2_1_1_0 : ∀ a, (![2, 1, 1, 0] : Fin 4 → Nat) a + S4x12x12x256.size a ≤ S6x14x14x256.size a
  h_S4x12x12x256 : 0 < S4x12x12x256.numel
  shapeCasts_S4x12x12x256_S4x12x12x256 : S4x12x12x256.ShapeCasts S4x12x12x256
  inb_S6x14x14x256_S4x12x14x256_2_1_0_0 : ∀ a, (![2, 1, 0, 0] : Fin 4 → Nat) a + S4x12x14x256.size a ≤ S6x14x14x256.size a
  h_S4x12x14x256 : 0 < S4x12x14x256.numel
  slices_S4x12x14x256_S4x12x12x256_0_0_1_0 : S4x12x14x256.Slices ![0, 0, 1, 0] S4x12x12x256
  packedbf16_S6x14x14x256_S4x12x14x256_2_1_0_0 : (Rect.unit (s := S6x14x14x256) ![2, 1, 0, 0] S4x12x14x256.size inb_S6x14x14x256_S4x12x14x256_2_1_0_0).PackedRows (EltTy.packing .bf16)
  slices_S4x12x12x256_o0_0_0_0_S1x12x12x256 : S4x12x12x256.Slices ![0, 0, 0, 0] S1x12x12x256
  shapeCasts_S1x12x12x256_S1x12x12x256 : S1x12x12x256.ShapeCasts S1x12x12x256
  broadcasts_S1x12x12x256_S2x12x12x256 : S1x12x12x256.Broadcasts S2x12x12x256
  inb_S6x14x14x256_S2x12x12x256_0_1_1_0 : ∀ a, (![0, 1, 1, 0] : Fin 4 → Nat) a + S2x12x12x256.size a ≤ S6x14x14x256.size a
  h_S2x12x12x256 : 0 < S2x12x12x256.numel
  shapeCasts_S2x12x12x256_S2x12x12x256 : S2x12x12x256.ShapeCasts S2x12x12x256
  inb_S6x14x14x256_S2x12x14x256_0_1_0_0 : ∀ a, (![0, 1, 0, 0] : Fin 4 → Nat) a + S2x12x14x256.size a ≤ S6x14x14x256.size a
  h_S2x12x14x256 : 0 < S2x12x14x256.numel
  slices_S2x12x14x256_S2x12x12x256_0_0_1_0 : S2x12x14x256.Slices ![0, 0, 1, 0] S2x12x12x256
  packedbf16_S6x14x14x256_S2x12x14x256_0_1_0_0 : (Rect.unit (s := S6x14x14x256) ![0, 1, 0, 0] S2x12x14x256.size inb_S6x14x14x256_S2x12x14x256_0_1_0_0).PackedRows (EltTy.packing .bf16)
  inb_S6x14x14x256_S4x12x12x256_0_0_0_0 : ∀ a, (![0, 0, 0, 0] : Fin 4 → Nat) a + S4x12x12x256.size a ≤ S6x14x14x256.size a
  shapeCasts_S4x12x12x256_S576x256 : S4x12x12x256.ShapeCasts S576x256
  inb_S6x14x14x256_S4x12x12x256_0_0_1_0 : ∀ a, (![0, 0, 1, 0] : Fin 4 → Nat) a + S4x12x12x256.size a ≤ S6x14x14x256.size a
  inb_S6x14x14x256_S4x12x12x256_0_0_2_0 : ∀ a, (![0, 0, 2, 0] : Fin 4 → Nat) a + S4x12x12x256.size a ≤ S6x14x14x256.size a
  inb_S6x14x14x256_S4x12x12x256_0_1_0_0 : ∀ a, (![0, 1, 0, 0] : Fin 4 → Nat) a + S4x12x12x256.size a ≤ S6x14x14x256.size a
  inb_S6x14x14x256_S4x12x12x256_0_1_1_0 : ∀ a, (![0, 1, 1, 0] : Fin 4 → Nat) a + S4x12x12x256.size a ≤ S6x14x14x256.size a
  inb_S6x14x14x256_S4x12x12x256_0_1_2_0 : ∀ a, (![0, 1, 2, 0] : Fin 4 → Nat) a + S4x12x12x256.size a ≤ S6x14x14x256.size a
  inb_S6x14x14x256_S4x12x12x256_0_2_0_0 : ∀ a, (![0, 2, 0, 0] : Fin 4 → Nat) a + S4x12x12x256.size a ≤ S6x14x14x256.size a
  inb_S6x14x14x256_S4x12x12x256_0_2_1_0 : ∀ a, (![0, 2, 1, 0] : Fin 4 → Nat) a + S4x12x12x256.size a ≤ S6x14x14x256.size a
  inb_S6x14x14x256_S4x12x12x256_0_2_2_0 : ∀ a, (![0, 2, 2, 0] : Fin 4 → Nat) a + S4x12x12x256.size a ≤ S6x14x14x256.size a
  inb_S6x14x14x256_S4x12x12x256_1_0_0_0 : ∀ a, (![1, 0, 0, 0] : Fin 4 → Nat) a + S4x12x12x256.size a ≤ S6x14x14x256.size a
  inb_S6x14x14x256_S4x12x12x256_1_0_1_0 : ∀ a, (![1, 0, 1, 0] : Fin 4 → Nat) a + S4x12x12x256.size a ≤ S6x14x14x256.size a
  inb_S6x14x14x256_S4x12x12x256_1_0_2_0 : ∀ a, (![1, 0, 2, 0] : Fin 4 → Nat) a + S4x12x12x256.size a ≤ S6x14x14x256.size a
  inb_S6x14x14x256_S4x12x12x256_1_1_0_0 : ∀ a, (![1, 1, 0, 0] : Fin 4 → Nat) a + S4x12x12x256.size a ≤ S6x14x14x256.size a
  inb_S6x14x14x256_S4x12x12x256_1_1_1_0 : ∀ a, (![1, 1, 1, 0] : Fin 4 → Nat) a + S4x12x12x256.size a ≤ S6x14x14x256.size a
  inb_S6x14x14x256_S4x12x12x256_1_1_2_0 : ∀ a, (![1, 1, 2, 0] : Fin 4 → Nat) a + S4x12x12x256.size a ≤ S6x14x14x256.size a
  inb_S6x14x14x256_S4x12x12x256_1_2_0_0 : ∀ a, (![1, 2, 0, 0] : Fin 4 → Nat) a + S4x12x12x256.size a ≤ S6x14x14x256.size a
  inb_S6x14x14x256_S4x12x12x256_1_2_1_0 : ∀ a, (![1, 2, 1, 0] : Fin 4 → Nat) a + S4x12x12x256.size a ≤ S6x14x14x256.size a
  inb_S6x14x14x256_S4x12x12x256_1_2_2_0 : ∀ a, (![1, 2, 2, 0] : Fin 4 → Nat) a + S4x12x12x256.size a ≤ S6x14x14x256.size a
  inb_S6x14x14x256_S4x12x12x256_2_0_0_0 : ∀ a, (![2, 0, 0, 0] : Fin 4 → Nat) a + S4x12x12x256.size a ≤ S6x14x14x256.size a
  inb_S6x14x14x256_S4x12x12x256_2_0_1_0 : ∀ a, (![2, 0, 1, 0] : Fin 4 → Nat) a + S4x12x12x256.size a ≤ S6x14x14x256.size a
  inb_S6x14x14x256_S4x12x12x256_2_0_2_0 : ∀ a, (![2, 0, 2, 0] : Fin 4 → Nat) a + S4x12x12x256.size a ≤ S6x14x14x256.size a
  inb_S6x14x14x256_S4x12x12x256_2_1_0_0 : ∀ a, (![2, 1, 0, 0] : Fin 4 → Nat) a + S4x12x12x256.size a ≤ S6x14x14x256.size a
  inb_S6x14x14x256_S4x12x12x256_2_1_2_0 : ∀ a, (![2, 1, 2, 0] : Fin 4 → Nat) a + S4x12x12x256.size a ≤ S6x14x14x256.size a
  inb_S6x14x14x256_S4x12x12x256_2_2_0_0 : ∀ a, (![2, 2, 0, 0] : Fin 4 → Nat) a + S4x12x12x256.size a ≤ S6x14x14x256.size a
  inb_S6x14x14x256_S4x12x12x256_2_2_1_0 : ∀ a, (![2, 2, 1, 0] : Fin 4 → Nat) a + S4x12x12x256.size a ≤ S6x14x14x256.size a
  inb_S6x14x14x256_S4x12x12x256_2_2_2_0 : ∀ a, (![2, 2, 2, 0] : Fin 4 → Nat) a + S4x12x12x256.size a ≤ S6x14x14x256.size a
  concatenates_S576x256_S576x256_S576x256_S576x256_S576x256_S576x256_S576x256_S576x256_S576x256_S576x256_S576x256_S576x256_S576x256_S576x256_S576x256_S576x256_S576x256_S576x256_S576x256_S576x256_S576x256_S576x256_S576x256_S576x256_S576x256_S576x256_S576x256_S576x6912_d1 : Shape.Concatenates [S576x256, S576x256, S576x256, S576x256, S576x256, S576x256, S576x256, S576x256, S576x256, S576x256, S576x256, S576x256, S576x256, S576x256, S576x256, S576x256, S576x256, S576x256, S576x256, S576x256, S576x256, S576x256, S576x256, S576x256, S576x256, S576x256, S576x256] S576x6912 1
  inb_S6912x256_S6912x256_0_0 : ∀ a, (![0, 0] : Fin 2 → Nat) a + S6912x256.size a ≤ S6912x256.size a
  h_S6912x256 : 0 < S6912x256.numel
  shapeCasts_S6912x256_S6912x256 : S6912x256.ShapeCasts S6912x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x576x256_S1x576x256_0_0_0 : ∀ a, (![0, 0, 0] : Fin 3 → Nat) a + S1x576x256.size a ≤ S1x576x256.size a
  h_S1x576x256 : 0 < S1x576x256.numel
  shapeCasts_S1x576x256_S576x256 : S1x576x256.ShapeCasts S576x256
  shapeCasts_S576x256_S1x576x256 : S576x256.ShapeCasts S1x576x256
  shapeCasts_S32x576x256_S32x4x12x12x256 : S32x576x256.ShapeCasts S32x4x12x12x256
  transposes_S32x4x12x12x256_S32x256x4x12x12_0_4_1_2_3 : S32x4x12x12x256.Transposes [0, 4, 1, 2, 3] S32x256x4x12x12
  dot_S2x128_S128x32_S2x32_1_0_0_1_n_n_wf : DotDims.WF S2x128 S128x32 S2x32 [1] [0] [0] [1] [] []
  dot_S2x32_S32x128_S2x128_1_0_0_1_n_n_wf : DotDims.WF S2x32 S32x128 S2x128 [1] [0] [0] [1] [] []
  dot_S576x3456_S3456x256_S576x256_1_0_0_1_n_n_wf : DotDims.WF S576x3456 S3456x256 S576x256 [1] [0] [0] [1] [] []
  dot_S2x256_S256x32_S2x32_1_0_0_1_n_n_wf : DotDims.WF S2x256 S256x32 S2x32 [1] [0] [0] [1] [] []
  dot_S2x32_S32x256_S2x256_1_0_0_1_n_n_wf : DotDims.WF S2x32 S32x256 S2x256 [1] [0] [0] [1] [] []
  dot_S576x6912_S6912x256_S576x256_1_0_0_1_n_n_wf : DotDims.WF S576x6912 S6912x256 S576x256 [1] [0] [0] [1] [] []
  dot_S576x128_S128x256_S576x256_1_0_0_1_n_n_wf : DotDims.WF S576x128 S128x256 S576x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x576x128.size a ≤ S32x576x128.size a
  hwx0_0 : ∀ i : grid0.Coords, EltTy.bits .f32 = 32 ∨ (Rect.block (s := S32x576x128) S1x576x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3456x256.size a ≤ S3456x256.size a
  hwx0_3 : ∀ i : grid0.Coords, EltTy.bits .bf16 = 32 ∨ (Rect.block (s := S3456x256) S3456x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S6912x256.size a ≤ S6912x256.size a
  hwx0_7 : ∀ i : grid0.Coords, EltTy.bits .bf16 = 32 ∨ (Rect.block (s := S6912x256) S6912x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x256.size a ≤ S128x256.size a
  hwx0_9 : ∀ i : grid0.Coords, EltTy.bits .bf16 = 32 ∨ (Rect.block (s := S128x256) S128x256.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x576x256.size a ≤ S32x576x256.size a
  hwx0_10 : ∀ i : grid0.Coords, EltTy.bits .f32 = 32 ∨ (Rect.block (s := S32x576x256) S1x576x256.size (cc0_transform_10 i) (hinb0_10 i)).WholeWords (EltTy.packing .f32)

variable [Facts₀]

def dot_S2x128_S128x32_S2x32_1_0_0_1_n_n : DotDims S2x128 S128x32 S2x32 where
  lhsContracting := [1]
  rhsContracting := [0]
  lhsNonContracting := [0]
  rhsNonContracting := [1]
  lhsBatch := []
  rhsBatch := []
  wf := dot_S2x128_S128x32_S2x32_1_0_0_1_n_n_wf
def dot_S2x32_S32x128_S2x128_1_0_0_1_n_n : DotDims S2x32 S32x128 S2x128 where
  lhsContracting := [1]
  rhsContracting := [0]
  lhsNonContracting := [0]
  rhsNonContracting := [1]
  lhsBatch := []
  rhsBatch := []
  wf := dot_S2x32_S32x128_S2x128_1_0_0_1_n_n_wf
def dot_S576x3456_S3456x256_S576x256_1_0_0_1_n_n : DotDims S576x3456 S3456x256 S576x256 where
  lhsContracting := [1]
  rhsContracting := [0]
  lhsNonContracting := [0]
  rhsNonContracting := [1]
  lhsBatch := []
  rhsBatch := []
  wf := dot_S576x3456_S3456x256_S576x256_1_0_0_1_n_n_wf
def dot_S2x256_S256x32_S2x32_1_0_0_1_n_n : DotDims S2x256 S256x32 S2x32 where
  lhsContracting := [1]
  rhsContracting := [0]
  lhsNonContracting := [0]
  rhsNonContracting := [1]
  lhsBatch := []
  rhsBatch := []
  wf := dot_S2x256_S256x32_S2x32_1_0_0_1_n_n_wf
def dot_S2x32_S32x256_S2x256_1_0_0_1_n_n : DotDims S2x32 S32x256 S2x256 where
  lhsContracting := [1]
  rhsContracting := [0]
  lhsNonContracting := [0]
  rhsNonContracting := [1]
  lhsBatch := []
  rhsBatch := []
  wf := dot_S2x32_S32x256_S2x256_1_0_0_1_n_n_wf
def dot_S576x6912_S6912x256_S576x256_1_0_0_1_n_n : DotDims S576x6912 S6912x256 S576x256 where
  lhsContracting := [1]
  rhsContracting := [0]
  lhsNonContracting := [0]
  rhsNonContracting := [1]
  lhsBatch := []
  rhsBatch := []
  wf := dot_S576x6912_S6912x256_S576x256_1_0_0_1_n_n_wf
def dot_S576x128_S128x256_S576x256_1_0_0_1_n_n : DotDims S576x128 S128x256 S576x256 where
  lhsContracting := [1]
  rhsContracting := [0]
  lhsNonContracting := [0]
  rhsNonContracting := [1]
  lhsBatch := []
  rhsBatch := []
  wf := dot_S576x128_S128x256_S576x256_1_0_0_1_n_n_wf

abbrev win0_0 : Pipeline.Window sig grid0 :=
  Pipeline.Window.ofSpec (Memref.whole main_v1) S1x576x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S3456x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S6912x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S128x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S1x576x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S32x128x4x12x12 : Shape := ⟨5, ![32, 128, 4, 12, 12]⟩
abbrev S128 : Shape := ⟨1, ![128]⟩
abbrev S3x3x3x128x256 : Shape := ⟨5, ![3, 3, 3, 128, 256]⟩
abbrev S256 : Shape := ⟨1, ![256]⟩
abbrev S3x3x3x256x256 : Shape := ⟨5, ![3, 3, 3, 256, 256]⟩
abbrev S128x256 : Shape := ⟨2, ![128, 256]⟩
abbrev S32x4x12x12x128 : Shape := ⟨5, ![32, 4, 12, 12, 128]⟩
abbrev S32x576x128 : Shape := ⟨3, ![32, 576, 128]⟩
abbrev S1x128 : Shape := ⟨2, ![1, 128]⟩
abbrev S32x6x14x14x128 : Shape := ⟨5, ![32, 6, 14, 14, 128]⟩
abbrev S1x576x128 : Shape := ⟨3, ![1, 576, 128]⟩
abbrev S1x6x14x14x128 : Shape := ⟨5, ![1, 6, 14, 14, 128]⟩
abbrev S576x128 : Shape := ⟨2, ![576, 128]⟩
abbrev S128x32 : Shape := ⟨2, ![128, 32]⟩
abbrev S32x128 : Shape := ⟨2, ![32, 128]⟩
abbrev S2x128 : Shape := ⟨2, ![2, 128]⟩
abbrev S2x32 : Shape := ⟨2, ![2, 32]⟩
abbrev S1x32 : Shape := ⟨2, ![1, 32]⟩
abbrev S4x12x12x128 : Shape := ⟨4, ![4, 12, 12, 128]⟩
abbrev S1x4x12x12x128 : Shape := ⟨5, ![1, 4, 12, 12, 128]⟩
abbrev S1x12x12x128 : Shape := ⟨4, ![1, 12, 12, 128]⟩
abbrev S2x12x12x128 : Shape := ⟨4, ![2, 12, 12, 128]⟩
abbrev S1x2x12x12x128 : Shape := ⟨5, ![1, 2, 12, 12, 128]⟩
abbrev S3456x256 : Shape := ⟨2, ![3456, 256]⟩
abbrev S1x256 : Shape := ⟨2, ![1, 256]⟩
abbrev S32x576x256 : Shape := ⟨3, ![32, 576, 256]⟩
abbrev S1x576x256 : Shape := ⟨3, ![1, 576, 256]⟩
abbrev S576x3456 : Shape := ⟨2, ![576, 3456]⟩
abbrev S576x256 : Shape := ⟨2, ![576, 256]⟩
abbrev S32x4x12x12x256 : Shape := ⟨5, ![32, 4, 12, 12, 256]⟩
abbrev S32x6x14x14x256 : Shape := ⟨5, ![32, 6, 14, 14, 256]⟩
abbrev S1x6x14x14x256 : Shape := ⟨5, ![1, 6, 14, 14, 256]⟩
abbrev S256x32 : Shape := ⟨2, ![256, 32]⟩
abbrev S32x256 : Shape := ⟨2, ![32, 256]⟩
abbrev S2x256 : Shape := ⟨2, ![2, 256]⟩
abbrev S4x12x12x256 : Shape := ⟨4, ![4, 12, 12, 256]⟩
abbrev S1x4x12x12x256 : Shape := ⟨5, ![1, 4, 12, 12, 256]⟩
abbrev S1x12x12x256 : Shape := ⟨4, ![1, 12, 12, 256]⟩
abbrev S2x12x12x256 : Shape := ⟨4, ![2, 12, 12, 256]⟩
abbrev S1x2x12x12x256 : Shape := ⟨5, ![1, 2, 12, 12, 256]⟩
abbrev S6912x256 : Shape := ⟨2, ![6912, 256]⟩
abbrev S576x6912 : Shape := ⟨2, ![576, 6912]⟩
abbrev S32x256x4x12x12 : Shape := ⟨5, ![32, 256, 4, 12, 12]⟩

abbrev nBuf : Space → Nat
  | .hbm => 31
  | .vmem => 27
  | .smem => 0
  | _ => 0

abbrev bufTy : (tb : Table) → Fin (tcTables nBuf tb) → BufTy
  | .hbm, ⟨0, _⟩ => ⟨S32x128x4x12x12, .f32⟩
  | .hbm, ⟨1, _⟩ => ⟨S128, .f32⟩
  | .hbm, ⟨2, _⟩ => ⟨S128, .f32⟩
  | .hbm, ⟨3, _⟩ => ⟨S3x3x3x128x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S3x3x3x256x256, .f32⟩
  | .hbm, ⟨8, _⟩ => ⟨S256, .f32⟩
  | .hbm, ⟨9, _⟩ => ⟨S128x256, .f32⟩
  | .hbm, ⟨10, _⟩ => ⟨S256, .f32⟩
  | .hbm, ⟨11, _⟩ => ⟨S32x4x12x12x128, .f32⟩
  | .hbm, ⟨12, _⟩ => ⟨S32x576x128, .f32⟩
  | .hbm, ⟨13, _⟩ => ⟨S1x128, .f32⟩
  | .hbm, ⟨14, _⟩ => ⟨S1x128, .f32⟩
  | .hbm, ⟨15, _⟩ => ⟨S32x6x14x14x128, .f32⟩
  | .hbm, ⟨16, _⟩ => ⟨S3456x256, .f32⟩
  | .hbm, ⟨17, _⟩ => ⟨S1x256, .f32⟩
  | .hbm, ⟨18, _⟩ => ⟨S32x576x256, .f32⟩
  | .hbm, ⟨19, _⟩ => ⟨S32x4x12x12x256, .f32⟩
  | .hbm, ⟨20, _⟩ => ⟨S32x576x256, .f32⟩
  | .hbm, ⟨21, _⟩ => ⟨S1x256, .f32⟩
  | .hbm, ⟨22, _⟩ => ⟨S1x256, .f32⟩
  | .hbm, ⟨23, _⟩ => ⟨S32x6x14x14x256, .f32⟩
  | .hbm, ⟨24, _⟩ => ⟨S6912x256, .f32⟩
  | .hbm, ⟨25, _⟩ => ⟨S256, .f32⟩
  | .hbm, ⟨26, _⟩ => ⟨S1x256, .f32⟩
  | .hbm, ⟨27, _⟩ => ⟨S32x576x128, .f32⟩
  | .hbm, ⟨28, _⟩ => ⟨S32x576x256, .f32⟩
  | .hbm, ⟨29, _⟩ => ⟨S32x4x12x12x256, .f32⟩
  | .hbm, ⟨30, _⟩ => ⟨S32x256x4x12x12, .f32⟩
  | .local _ .vmem, ⟨0, _⟩ => ⟨S1x576x128, .f32⟩
  | .local _ .vmem, ⟨1, _⟩ => ⟨S1x576x128, .f32⟩
  | .local _ .vmem, ⟨2, _⟩ => ⟨S1x128, .f32⟩
  | .local _ .vmem, ⟨3, _⟩ => ⟨S1x128, .f32⟩
  | .local _ .vmem, ⟨4, _⟩ => ⟨S1x6x14x14x128, .f32⟩
  | .local _ .vmem, ⟨5, _⟩ => ⟨S1x6x14x14x128, .f32⟩
  | .local _ .vmem, ⟨6, _⟩ => ⟨S1x6x14x14x128, .f32⟩
  | .local _ .vmem, ⟨7, _⟩ => ⟨S1x6x14x14x128, .f32⟩
  | .local _ .vmem, ⟨8, _⟩ => ⟨S3456x256, .f32⟩
  | .local _ .vmem, ⟨9, _⟩ => ⟨S1x256, .f32⟩
  | .local _ .vmem, ⟨10, _⟩ => ⟨S1x576x256, .f32⟩
  | .local _ .vmem, ⟨11, _⟩ => ⟨S1x576x256, .f32⟩
  | .local _ .vmem, ⟨12, _⟩ => ⟨S1x576x256, .f32⟩
  | .local _ .vmem, ⟨13, _⟩ => ⟨S1x576x256, .f32⟩
  | .local _ .vmem, ⟨14, _⟩ => ⟨S1x256, .f32⟩
  | .local _ .vmem, ⟨15, _⟩ => ⟨S1x256, .f32⟩
  | .local _ .vmem, ⟨16, _⟩ => ⟨S1x6x14x14x256, .f32⟩
  | .local _ .vmem, ⟨17, _⟩ => ⟨S1x6x14x14x256, .f32⟩
  | .local _ .vmem, ⟨18, _⟩ => ⟨S1x6x14x14x256, .f32⟩
  | .local _ .vmem, ⟨19, _⟩ => ⟨S1x6x14x14x256, .f32⟩
  | .local _ .vmem, ⟨20, _⟩ => ⟨S6912x256, .f32⟩
  | .local _ .vmem, ⟨21, _⟩ => ⟨S1x256, .f32⟩
  | .local _ .vmem, ⟨22, _⟩ => ⟨S1x576x128, .f32⟩
  | .local _ .vmem, ⟨23, _⟩ => ⟨S1x576x128, .f32⟩
  | .local _ .vmem, ⟨24, _⟩ => ⟨S128x256, .f32⟩
  | .local _ .vmem, ⟨25, _⟩ => ⟨S1x576x256, .f32⟩
  | .local _ .vmem, ⟨26, _⟩ => ⟨S1x576x256, .f32⟩
  | _, _ => ⟨S32x128x4x12x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg5_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc3_sem4_0 : DmaSem sig := 24
abbrev cc3_sem5_0 : DmaSem sig := 25
abbrev cc3_sem5_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x576x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x6x14x14x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x6x14x14x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3456x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x576x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage2_0 : Fin 2 → Memref sig .tc .vmem S1x576x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x6x14x14x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![32], ![false]⟩

def cc3_transform_0 (i : grid3.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x6x14x14x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S6912x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x576x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1x576x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  transposes_S32x128x4x12x12_S32x4x12x12x128_0_2_3_4_1 : S32x128x4x12x12.Transposes [0, 2, 3, 4, 1] S32x4x12x12x128
  shapeCasts_S32x4x12x12x128_S32x576x128 : S32x4x12x12x128.ShapeCasts S32x576x128
  shapeCasts_S128_S1x128 : S128.ShapeCasts S1x128
  inb_S1x576x128_S1x576x128_0_0_0 : ∀ a, (![0, 0, 0] : Fin 3 → Nat) a + S1x576x128.size a ≤ S1x576x128.size a
  h_S1x576x128 : 0 < S1x576x128.numel
  shapeCasts_S1x576x128_S576x128 : S1x576x128.ShapeCasts S576x128
  iota_S128x32_d0_w32 : S128x32.Iotas .tc 32 [0]
  natLt_1_32 : 1 < 32
  iota_S128x32_d1_w32 : S128x32.Iotas .tc 32 [1]
  iota_S32x128_d0_w32 : S32x128.Iotas .tc 32 [0]
  iota_S32x128_d1_w32 : S32x128.Iotas .tc 32 [1]
  reduces_S576x128_S128 : S576x128.Reduces [0] S128
  concatenates_S1x128_S1x128_S2x128_d0 : Shape.Concatenates [S1x128, S1x128] S2x128 0
  slices_S2x32_o0_0_S1x32 : S2x32.Slices ![0, 0] S1x32
  slices_S2x32_o1_0_S1x32 : S2x32.Slices ![1, 0] S1x32
  concatenates_S1x32_S1x32_S2x32_d0 : Shape.Concatenates [S1x32, S1x32] S2x32 0
  slices_S2x128_o0_0_S1x128 : S2x128.Slices ![0, 0] S1x128
  slices_S2x128_o1_0_S1x128 : S2x128.Slices ![1, 0] S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S576x128 : S1x128.Broadcasts S576x128
  shapeCasts_S576x128_S4x12x12x128 : S576x128.ShapeCasts S4x12x12x128
  inb_S1x6x14x14x128_S1x6x14x14x128_0_0_0_0_0 : ∀ a, (![0, 0, 0, 0, 0] : Fin 5 → Nat) a + S1x6x14x14x128.size a ≤ S1x6x14x14x128.size a
  h_S1x6x14x14x128 : 0 < S1x6x14x14x128.numel
  inb_S1x6x14x14x128_S1x4x12x12x128_0_2_1_1_0 : ∀ a, (![0, 2, 1, 1, 0] : Fin 5 → Nat) a + S1x4x12x12x128.size a ≤ S1x6x14x14x128.size a
  h_S1x4x12x12x128 : 0 < S1x4x12x12x128.numel
  shapeCasts_S1x4x12x12x128_S4x12x12x128 : S1x4x12x12x128.ShapeCasts S4x12x12x128
  shapeCasts_S4x12x12x128_S1x4x12x12x128 : S4x12x12x128.ShapeCasts S1x4x12x12x128
  slices_S4x12x12x128_o0_0_0_0_S1x12x12x128 : S4x12x12x128.Slices ![0, 0, 0, 0] S1x12x12x128
  shapeCasts_S1x12x12x128_S1x12x12x128 : S1x12x12x128.ShapeCasts S1x12x12x128
  broadcasts_S1x12x12x128_S2x12x12x128 : S1x12x12x128.Broadcasts S2x12x12x128
  inb_S1x6x14x14x128_S1x2x12x12x128_0_0_1_1_0 : ∀ a, (![0, 0, 1, 1, 0] : Fin 5 → Nat) a + S1x2x12x12x128.size a ≤ S1x6x14x14x128.size a
  h_S1x2x12x12x128 : 0 < S1x2x12x12x128.numel
  shapeCasts_S1x2x12x12x128_S2x12x12x128 : S1x2x12x12x128.ShapeCasts S2x12x12x128
  shapeCasts_S2x12x12x128_S1x2x12x12x128 : S2x12x12x128.ShapeCasts S1x2x12x12x128
  shapeCasts_S3x3x3x128x256_S3456x256 : S3x3x3x128x256.ShapeCasts S3456x256
  shapeCasts_S256_S1x256 : S256.ShapeCasts S1x256
  inb_S1x6x14x14x128_S1x4x12x12x128_0_0_0_0_0 : ∀ a, (![0, 0, 0, 0, 0] : Fin 5 → Nat) a + S1x4x12x12x128.size a ≤ S1x6x14x14x128.size a
  shapeCasts_S4x12x12x128_S576x128 : S4x12x12x128.ShapeCasts S576x128
  inb_S1x6x14x14x128_S1x4x12x12x128_0_0_0_1_0 : ∀ a, (![0, 0, 0, 1, 0] : Fin 5 → Nat) a + S1x4x12x12x128.size a ≤ S1x6x14x14x128.size a
  inb_S1x6x14x14x128_S1x4x12x12x128_0_0_0_2_0 : ∀ a, (![0, 0, 0, 2, 0] : Fin 5 → Nat) a + S1x4x12x12x128.size a ≤ S1x6x14x14x128.size a
  inb_S1x6x14x14x128_S1x4x12x12x128_0_0_1_0_0 : ∀ a, (![0, 0, 1, 0, 0] : Fin 5 → Nat) a + S1x4x12x12x128.size a ≤ S1x6x14x14x128.size a
  inb_S1x6x14x14x128_S1x4x12x12x128_0_0_1_1_0 : ∀ a, (![0, 0, 1, 1, 0] : Fin 5 → Nat) a + S1x4x12x12x128.size a ≤ S1x6x14x14x128.size a
  inb_S1x6x14x14x128_S1x4x12x12x128_0_0_1_2_0 : ∀ a, (![0, 0, 1, 2, 0] : Fin 5 → Nat) a + S1x4x12x12x128.size a ≤ S1x6x14x14x128.size a
  inb_S1x6x14x14x128_S1x4x12x12x128_0_0_2_0_0 : ∀ a, (![0, 0, 2, 0, 0] : Fin 5 → Nat) a + S1x4x12x12x128.size a ≤ S1x6x14x14x128.size a
  inb_S1x6x14x14x128_S1x4x12x12x128_0_0_2_1_0 : ∀ a, (![0, 0, 2, 1, 0] : Fin 5 → Nat) a + S1x4x12x12x128.size a ≤ S1x6x14x14x128.size a
  inb_S1x6x14x14x128_S1x4x12x12x128_0_0_2_2_0 : ∀ a, (![0, 0, 2, 2, 0] : Fin 5 → Nat) a + S1x4x12x12x128.size a ≤ S1x6x14x14x128.size a
  inb_S1x6x14x14x128_S1x4x12x12x128_0_1_0_0_0 : ∀ a, (![0, 1, 0, 0, 0] : Fin 5 → Nat) a + S1x4x12x12x128.size a ≤ S1x6x14x14x128.size a
  inb_S1x6x14x14x128_S1x4x12x12x128_0_1_0_1_0 : ∀ a, (![0, 1, 0, 1, 0] : Fin 5 → Nat) a + S1x4x12x12x128.size a ≤ S1x6x14x14x128.size a
  inb_S1x6x14x14x128_S1x4x12x12x128_0_1_0_2_0 : ∀ a, (![0, 1, 0, 2, 0] : Fin 5 → Nat) a + S1x4x12x12x128.size a ≤ S1x6x14x14x128.size a
  inb_S1x6x14x14x128_S1x4x12x12x128_0_1_1_0_0 : ∀ a, (![0, 1, 1, 0, 0] : Fin 5 → Nat) a + S1x4x12x12x128.size a ≤ S1x6x14x14x128.size a
  inb_S1x6x14x14x128_S1x4x12x12x128_0_1_1_1_0 : ∀ a, (![0, 1, 1, 1, 0] : Fin 5 → Nat) a + S1x4x12x12x128.size a ≤ S1x6x14x14x128.size a
  inb_S1x6x14x14x128_S1x4x12x12x128_0_1_1_2_0 : ∀ a, (![0, 1, 1, 2, 0] : Fin 5 → Nat) a + S1x4x12x12x128.size a ≤ S1x6x14x14x128.size a
  inb_S1x6x14x14x128_S1x4x12x12x128_0_1_2_0_0 : ∀ a, (![0, 1, 2, 0, 0] : Fin 5 → Nat) a + S1x4x12x12x128.size a ≤ S1x6x14x14x128.size a
  inb_S1x6x14x14x128_S1x4x12x12x128_0_1_2_1_0 : ∀ a, (![0, 1, 2, 1, 0] : Fin 5 → Nat) a + S1x4x12x12x128.size a ≤ S1x6x14x14x128.size a
  inb_S1x6x14x14x128_S1x4x12x12x128_0_1_2_2_0 : ∀ a, (![0, 1, 2, 2, 0] : Fin 5 → Nat) a + S1x4x12x12x128.size a ≤ S1x6x14x14x128.size a
  inb_S1x6x14x14x128_S1x4x12x12x128_0_2_0_0_0 : ∀ a, (![0, 2, 0, 0, 0] : Fin 5 → Nat) a + S1x4x12x12x128.size a ≤ S1x6x14x14x128.size a
  inb_S1x6x14x14x128_S1x4x12x12x128_0_2_0_1_0 : ∀ a, (![0, 2, 0, 1, 0] : Fin 5 → Nat) a + S1x4x12x12x128.size a ≤ S1x6x14x14x128.size a
  inb_S1x6x14x14x128_S1x4x12x12x128_0_2_0_2_0 : ∀ a, (![0, 2, 0, 2, 0] : Fin 5 → Nat) a + S1x4x12x12x128.size a ≤ S1x6x14x14x128.size a
  inb_S1x6x14x14x128_S1x4x12x12x128_0_2_1_0_0 : ∀ a, (![0, 2, 1, 0, 0] : Fin 5 → Nat) a + S1x4x12x12x128.size a ≤ S1x6x14x14x128.size a
  inb_S1x6x14x14x128_S1x4x12x12x128_0_2_1_2_0 : ∀ a, (![0, 2, 1, 2, 0] : Fin 5 → Nat) a + S1x4x12x12x128.size a ≤ S1x6x14x14x128.size a
  inb_S1x6x14x14x128_S1x4x12x12x128_0_2_2_0_0 : ∀ a, (![0, 2, 2, 0, 0] : Fin 5 → Nat) a + S1x4x12x12x128.size a ≤ S1x6x14x14x128.size a
  inb_S1x6x14x14x128_S1x4x12x12x128_0_2_2_1_0 : ∀ a, (![0, 2, 2, 1, 0] : Fin 5 → Nat) a + S1x4x12x12x128.size a ≤ S1x6x14x14x128.size a
  inb_S1x6x14x14x128_S1x4x12x12x128_0_2_2_2_0 : ∀ a, (![0, 2, 2, 2, 0] : Fin 5 → Nat) a + S1x4x12x12x128.size a ≤ S1x6x14x14x128.size a
  concatenates_S576x128_S576x128_S576x128_S576x128_S576x128_S576x128_S576x128_S576x128_S576x128_S576x128_S576x128_S576x128_S576x128_S576x128_S576x128_S576x128_S576x128_S576x128_S576x128_S576x128_S576x128_S576x128_S576x128_S576x128_S576x128_S576x128_S576x128_S576x3456_d1 : Shape.Concatenates [S576x128, S576x128, S576x128, S576x128, S576x128, S576x128, S576x128, S576x128, S576x128, S576x128, S576x128, S576x128, S576x128, S576x128, S576x128, S576x128, S576x128, S576x128, S576x128, S576x128, S576x128, S576x128, S576x128, S576x128, S576x128, S576x128, S576x128] S576x3456 1
  inb_S3456x256_S3456x256_0_0 : ∀ a, (![0, 0] : Fin 2 → Nat) a + S3456x256.size a ≤ S3456x256.size a
  h_S3456x256 : 0 < S3456x256.numel
  shapeCasts_S3456x256_S3456x256 : S3456x256.ShapeCasts S3456x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S576x256 : S1x256.Broadcasts S576x256
  inb_S1x576x256_S1x576x256_0_0_0 : ∀ a, (![0, 0, 0] : Fin 3 → Nat) a + S1x576x256.size a ≤ S1x576x256.size a
  h_S1x576x256 : 0 < S1x576x256.numel
  shapeCasts_S1x576x256_S576x256 : S1x576x256.ShapeCasts S576x256
  shapeCasts_S576x256_S1x576x256 : S576x256.ShapeCasts S1x576x256
  shapeCasts_S32x576x256_S32x4x12x12x256 : S32x576x256.ShapeCasts S32x4x12x12x256
  shapeCasts_S32x4x12x12x256_S32x576x256 : S32x4x12x12x256.ShapeCasts S32x576x256
  iota_S256x32_d0_w32 : S256x32.Iotas .tc 32 [0]
  iota_S256x32_d1_w32 : S256x32.Iotas .tc 32 [1]
  iota_S32x256_d0_w32 : S32x256.Iotas .tc 32 [0]
  iota_S32x256_d1_w32 : S32x256.Iotas .tc 32 [1]
  reduces_S576x256_S256 : S576x256.Reduces [0] S256
  concatenates_S1x256_S1x256_S2x256_d0 : Shape.Concatenates [S1x256, S1x256] S2x256 0
  slices_S2x256_o0_0_S1x256 : S2x256.Slices ![0, 0] S1x256
  slices_S2x256_o1_0_S1x256 : S2x256.Slices ![1, 0] S1x256
  shapeCasts_S576x256_S4x12x12x256 : S576x256.ShapeCasts S4x12x12x256
  inb_S1x6x14x14x256_S1x6x14x14x256_0_0_0_0_0 : ∀ a, (![0, 0, 0, 0, 0] : Fin 5 → Nat) a + S1x6x14x14x256.size a ≤ S1x6x14x14x256.size a
  h_S1x6x14x14x256 : 0 < S1x6x14x14x256.numel
  inb_S1x6x14x14x256_S1x4x12x12x256_0_2_1_1_0 : ∀ a, (![0, 2, 1, 1, 0] : Fin 5 → Nat) a + S1x4x12x12x256.size a ≤ S1x6x14x14x256.size a
  h_S1x4x12x12x256 : 0 < S1x4x12x12x256.numel
  shapeCasts_S1x4x12x12x256_S4x12x12x256 : S1x4x12x12x256.ShapeCasts S4x12x12x256
  shapeCasts_S4x12x12x256_S1x4x12x12x256 : S4x12x12x256.ShapeCasts S1x4x12x12x256
  slices_S4x12x12x256_o0_0_0_0_S1x12x12x256 : S4x12x12x256.Slices ![0, 0, 0, 0] S1x12x12x256
  shapeCasts_S1x12x12x256_S1x12x12x256 : S1x12x12x256.ShapeCasts S1x12x12x256
  broadcasts_S1x12x12x256_S2x12x12x256 : S1x12x12x256.Broadcasts S2x12x12x256
  inb_S1x6x14x14x256_S1x2x12x12x256_0_0_1_1_0 : ∀ a, (![0, 0, 1, 1, 0] : Fin 5 → Nat) a + S1x2x12x12x256.size a ≤ S1x6x14x14x256.size a
  h_S1x2x12x12x256 : 0 < S1x2x12x12x256.numel
  shapeCasts_S1x2x12x12x256_S2x12x12x256 : S1x2x12x12x256.ShapeCasts S2x12x12x256
  shapeCasts_S2x12x12x256_S1x2x12x12x256 : S2x12x12x256.ShapeCasts S1x2x12x12x256
  shapeCasts_S3x3x3x256x256_S6912x256 : S3x3x3x256x256.ShapeCasts S6912x256
  inb_S1x6x14x14x256_S1x4x12x12x256_0_0_0_0_0 : ∀ a, (![0, 0, 0, 0, 0] : Fin 5 → Nat) a + S1x4x12x12x256.size a ≤ S1x6x14x14x256.size a
  shapeCasts_S4x12x12x256_S576x256 : S4x12x12x256.ShapeCasts S576x256
  inb_S1x6x14x14x256_S1x4x12x12x256_0_0_0_1_0 : ∀ a, (![0, 0, 0, 1, 0] : Fin 5 → Nat) a + S1x4x12x12x256.size a ≤ S1x6x14x14x256.size a
  inb_S1x6x14x14x256_S1x4x12x12x256_0_0_0_2_0 : ∀ a, (![0, 0, 0, 2, 0] : Fin 5 → Nat) a + S1x4x12x12x256.size a ≤ S1x6x14x14x256.size a
  inb_S1x6x14x14x256_S1x4x12x12x256_0_0_1_0_0 : ∀ a, (![0, 0, 1, 0, 0] : Fin 5 → Nat) a + S1x4x12x12x256.size a ≤ S1x6x14x14x256.size a
  inb_S1x6x14x14x256_S1x4x12x12x256_0_0_1_1_0 : ∀ a, (![0, 0, 1, 1, 0] : Fin 5 → Nat) a + S1x4x12x12x256.size a ≤ S1x6x14x14x256.size a
  inb_S1x6x14x14x256_S1x4x12x12x256_0_0_1_2_0 : ∀ a, (![0, 0, 1, 2, 0] : Fin 5 → Nat) a + S1x4x12x12x256.size a ≤ S1x6x14x14x256.size a
  inb_S1x6x14x14x256_S1x4x12x12x256_0_0_2_0_0 : ∀ a, (![0, 0, 2, 0, 0] : Fin 5 → Nat) a + S1x4x12x12x256.size a ≤ S1x6x14x14x256.size a
  inb_S1x6x14x14x256_S1x4x12x12x256_0_0_2_1_0 : ∀ a, (![0, 0, 2, 1, 0] : Fin 5 → Nat) a + S1x4x12x12x256.size a ≤ S1x6x14x14x256.size a
  inb_S1x6x14x14x256_S1x4x12x12x256_0_0_2_2_0 : ∀ a, (![0, 0, 2, 2, 0] : Fin 5 → Nat) a + S1x4x12x12x256.size a ≤ S1x6x14x14x256.size a
  inb_S1x6x14x14x256_S1x4x12x12x256_0_1_0_0_0 : ∀ a, (![0, 1, 0, 0, 0] : Fin 5 → Nat) a + S1x4x12x12x256.size a ≤ S1x6x14x14x256.size a
  inb_S1x6x14x14x256_S1x4x12x12x256_0_1_0_1_0 : ∀ a, (![0, 1, 0, 1, 0] : Fin 5 → Nat) a + S1x4x12x12x256.size a ≤ S1x6x14x14x256.size a
  inb_S1x6x14x14x256_S1x4x12x12x256_0_1_0_2_0 : ∀ a, (![0, 1, 0, 2, 0] : Fin 5 → Nat) a + S1x4x12x12x256.size a ≤ S1x6x14x14x256.size a
  inb_S1x6x14x14x256_S1x4x12x12x256_0_1_1_0_0 : ∀ a, (![0, 1, 1, 0, 0] : Fin 5 → Nat) a + S1x4x12x12x256.size a ≤ S1x6x14x14x256.size a
  inb_S1x6x14x14x256_S1x4x12x12x256_0_1_1_1_0 : ∀ a, (![0, 1, 1, 1, 0] : Fin 5 → Nat) a + S1x4x12x12x256.size a ≤ S1x6x14x14x256.size a
  inb_S1x6x14x14x256_S1x4x12x12x256_0_1_1_2_0 : ∀ a, (![0, 1, 1, 2, 0] : Fin 5 → Nat) a + S1x4x12x12x256.size a ≤ S1x6x14x14x256.size a
  inb_S1x6x14x14x256_S1x4x12x12x256_0_1_2_0_0 : ∀ a, (![0, 1, 2, 0, 0] : Fin 5 → Nat) a + S1x4x12x12x256.size a ≤ S1x6x14x14x256.size a
  inb_S1x6x14x14x256_S1x4x12x12x256_0_1_2_1_0 : ∀ a, (![0, 1, 2, 1, 0] : Fin 5 → Nat) a + S1x4x12x12x256.size a ≤ S1x6x14x14x256.size a
  inb_S1x6x14x14x256_S1x4x12x12x256_0_1_2_2_0 : ∀ a, (![0, 1, 2, 2, 0] : Fin 5 → Nat) a + S1x4x12x12x256.size a ≤ S1x6x14x14x256.size a
  inb_S1x6x14x14x256_S1x4x12x12x256_0_2_0_0_0 : ∀ a, (![0, 2, 0, 0, 0] : Fin 5 → Nat) a + S1x4x12x12x256.size a ≤ S1x6x14x14x256.size a
  inb_S1x6x14x14x256_S1x4x12x12x256_0_2_0_1_0 : ∀ a, (![0, 2, 0, 1, 0] : Fin 5 → Nat) a + S1x4x12x12x256.size a ≤ S1x6x14x14x256.size a
  inb_S1x6x14x14x256_S1x4x12x12x256_0_2_0_2_0 : ∀ a, (![0, 2, 0, 2, 0] : Fin 5 → Nat) a + S1x4x12x12x256.size a ≤ S1x6x14x14x256.size a
  inb_S1x6x14x14x256_S1x4x12x12x256_0_2_1_0_0 : ∀ a, (![0, 2, 1, 0, 0] : Fin 5 → Nat) a + S1x4x12x12x256.size a ≤ S1x6x14x14x256.size a
  inb_S1x6x14x14x256_S1x4x12x12x256_0_2_1_2_0 : ∀ a, (![0, 2, 1, 2, 0] : Fin 5 → Nat) a + S1x4x12x12x256.size a ≤ S1x6x14x14x256.size a
  inb_S1x6x14x14x256_S1x4x12x12x256_0_2_2_0_0 : ∀ a, (![0, 2, 2, 0, 0] : Fin 5 → Nat) a + S1x4x12x12x256.size a ≤ S1x6x14x14x256.size a
  inb_S1x6x14x14x256_S1x4x12x12x256_0_2_2_1_0 : ∀ a, (![0, 2, 2, 1, 0] : Fin 5 → Nat) a + S1x4x12x12x256.size a ≤ S1x6x14x14x256.size a
  inb_S1x6x14x14x256_S1x4x12x12x256_0_2_2_2_0 : ∀ a, (![0, 2, 2, 2, 0] : Fin 5 → Nat) a + S1x4x12x12x256.size a ≤ S1x6x14x14x256.size a
  concatenates_S576x256_S576x256_S576x256_S576x256_S576x256_S576x256_S576x256_S576x256_S576x256_S576x256_S576x256_S576x256_S576x256_S576x256_S576x256_S576x256_S576x256_S576x256_S576x256_S576x256_S576x256_S576x256_S576x256_S576x256_S576x256_S576x256_S576x256_S576x6912_d1 : Shape.Concatenates [S576x256, S576x256, S576x256, S576x256, S576x256, S576x256, S576x256, S576x256, S576x256, S576x256, S576x256, S576x256, S576x256, S576x256, S576x256, S576x256, S576x256, S576x256, S576x256, S576x256, S576x256, S576x256, S576x256, S576x256, S576x256, S576x256, S576x256] S576x6912 1
  inb_S6912x256_S6912x256_0_0 : ∀ a, (![0, 0] : Fin 2 → Nat) a + S6912x256.size a ≤ S6912x256.size a
  h_S6912x256 : 0 < S6912x256.numel
  shapeCasts_S6912x256_S6912x256 : S6912x256.ShapeCasts S6912x256
  inb_S128x256_S128x256_0_0 : ∀ a, (![0, 0] : Fin 2 → Nat) a + S128x256.size a ≤ S128x256.size a
  h_S128x256 : 0 < S128x256.numel
  transposes_S32x4x12x12x256_S32x256x4x12x12_0_4_1_2_3 : S32x4x12x12x256.Transposes [0, 4, 1, 2, 3] S32x256x4x12x12
  dot_S2x128_S128x32_S2x32_1_0_0_1_n_n_wf : DotDims.WF S2x128 S128x32 S2x32 [1] [0] [0] [1] [] []
  dot_S2x32_S32x128_S2x128_1_0_0_1_n_n_wf : DotDims.WF S2x32 S32x128 S2x128 [1] [0] [0] [1] [] []
  dot_S576x3456_S3456x256_S576x256_1_0_0_1_n_n_wf : DotDims.WF S576x3456 S3456x256 S576x256 [1] [0] [0] [1] [] []
  dot_S2x256_S256x32_S2x32_1_0_0_1_n_n_wf : DotDims.WF S2x256 S256x32 S2x32 [1] [0] [0] [1] [] []
  dot_S2x32_S32x256_S2x256_1_0_0_1_n_n_wf : DotDims.WF S2x32 S32x256 S2x256 [1] [0] [0] [1] [] []
  dot_S576x6912_S6912x256_S576x256_1_0_0_1_n_n_wf : DotDims.WF S576x6912 S6912x256 S576x256 [1] [0] [0] [1] [] []
  dot_S576x128_S128x256_S576x256_1_0_0_1_n_n_wf : DotDims.WF S576x128 S128x256 S576x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x576x128.size a ≤ S32x576x128.size a
  hwx0_0 : ∀ i : grid0.Coords, EltTy.bits .f32 = 32 ∨ (Rect.block (s := S32x576x128) S1x576x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x6x14x14x128.size a ≤ S32x6x14x14x128.size a
  hwx0_3 : ∀ i : grid0.Coords, EltTy.bits .f32 = 32 ∨ (Rect.block (s := S32x6x14x14x128) S1x6x14x14x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x6x14x14x128.size a ≤ S32x6x14x14x128.size a
  hwx1_0 : ∀ i : grid1.Coords, EltTy.bits .f32 = 32 ∨ (Rect.block (s := S32x6x14x14x128) S1x6x14x14x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3456x256.size a ≤ S3456x256.size a
  hwx1_1 : ∀ i : grid1.Coords, EltTy.bits .f32 = 32 ∨ (Rect.block (s := S3456x256) S3456x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x576x256.size a ≤ S32x576x256.size a
  hwx1_3 : ∀ i : grid1.Coords, EltTy.bits .f32 = 32 ∨ (Rect.block (s := S32x576x256) S1x576x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x576x256.size a ≤ S32x576x256.size a
  hwx2_0 : ∀ i : grid2.Coords, EltTy.bits .f32 = 32 ∨ (Rect.block (s := S32x576x256) S1x576x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x6x14x14x256.size a ≤ S32x6x14x14x256.size a
  hwx2_3 : ∀ i : grid2.Coords, EltTy.bits .f32 = 32 ∨ (Rect.block (s := S32x6x14x14x256) S1x6x14x14x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x6x14x14x256.size a ≤ S32x6x14x14x256.size a
  hwx3_0 : ∀ i : grid3.Coords, EltTy.bits .f32 = 32 ∨ (Rect.block (s := S32x6x14x14x256) S1x6x14x14x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S6912x256.size a ≤ S6912x256.size a
  hwx3_1 : ∀ i : grid3.Coords, EltTy.bits .f32 = 32 ∨ (Rect.block (s := S6912x256) S6912x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x576x128.size a ≤ S32x576x128.size a
  hwx3_3 : ∀ i : grid3.Coords, EltTy.bits .f32 = 32 ∨ (Rect.block (s := S32x576x128) S1x576x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x256.size a ≤ S128x256.size a
  hwx3_4 : ∀ i : grid3.Coords, EltTy.bits .f32 = 32 ∨ (Rect.block (s := S128x256) S128x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x576x256.size a ≤ S32x576x256.size a
  hwx3_5 : ∀ i : grid3.Coords, EltTy.bits .f32 = 32 ∨ (Rect.block (s := S32x576x256) S1x576x256.size (cc3_transform_5 i) (hinb3_5 i)).WholeWords (EltTy.packing .f32)

variable [Facts₀]

def dot_S2x128_S128x32_S2x32_1_0_0_1_n_n : DotDims S2x128 S128x32 S2x32 where
  lhsContracting := [1]
  rhsContracting := [0]
  lhsNonContracting := [0]
  rhsNonContracting := [1]
  lhsBatch := []
  rhsBatch := []
  wf := dot_S2x128_S128x32_S2x32_1_0_0_1_n_n_wf
def dot_S2x32_S32x128_S2x128_1_0_0_1_n_n : DotDims S2x32 S32x128 S2x128 where
  lhsContracting := [1]
  rhsContracting := [0]
  lhsNonContracting := [0]
  rhsNonContracting := [1]
  lhsBatch := []
  rhsBatch := []
  wf := dot_S2x32_S32x128_S2x128_1_0_0_1_n_n_wf
def dot_S576x3456_S3456x256_S576x256_1_0_0_1_n_n : DotDims S576x3456 S3456x256 S576x256 where
  lhsContracting := [1]
  rhsContracting := [0]
  lhsNonContracting := [0]
  rhsNonContracting := [1]
  lhsBatch := []
  rhsBatch := []
  wf := dot_S576x3456_S3456x256_S576x256_1_0_0_1_n_n_wf
def dot_S2x256_S256x32_S2x32_1_0_0_1_n_n : DotDims S2x256 S256x32 S2x32 where
  lhsContracting := [1]
  rhsContracting := [0]
  lhsNonContracting := [0]
  rhsNonContracting := [1]
  lhsBatch := []
  rhsBatch := []
  wf := dot_S2x256_S256x32_S2x32_1_0_0_1_n_n_wf
def dot_S2x32_S32x256_S2x256_1_0_0_1_n_n : DotDims S2x32 S32x256 S2x256 where
  lhsContracting := [1]
  rhsContracting := [0]
  lhsNonContracting := [0]
  rhsNonContracting := [1]
  lhsBatch := []
  rhsBatch := []
  wf := dot_S2x32_S32x256_S2x256_1_0_0_1_n_n_wf
def dot_S576x6912_S6912x256_S576x256_1_0_0_1_n_n : DotDims S576x6912 S6912x256 S576x256 where
  lhsContracting := [1]
  rhsContracting := [0]
  lhsNonContracting := [0]
  rhsNonContracting := [1]
  lhsBatch := []
  rhsBatch := []
  wf := dot_S576x6912_S6912x256_S576x256_1_0_0_1_n_n_wf
def dot_S576x128_S128x256_S576x256_1_0_0_1_n_n : DotDims S576x128 S128x256 S576x256 where
  lhsContracting := [1]
  rhsContracting := [0]
  lhsNonContracting := [0]
  rhsNonContracting := [1]
  lhsBatch := []
  rhsBatch := []
  wf := dot_S576x128_S128x256_S576x256_1_0_0_1_n_n_wf

abbrev win0_0 : Pipeline.Window sig grid0 :=
  Pipeline.Window.ofSpec (Memref.whole main_v1) S1x576x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x6x14x14x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S1x6x14x14x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S3456x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x576x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v9) S1x576x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1x6x14x14x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v12) S1x6x14x14x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S6912x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v15) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v16) S1x576x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S128x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v17) S1x576x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== Proof.KRun.lean ====
import proofs.«168336_g2000006919451318_pallasbulk_203_2_alg».proof.Proof.Gen.Kernel.Launch
import proofs.«168336_g2000006919451318_pallasbulk_203_2_alg».proof.Proof.Gen.Kernel.Skeleton
import proofs.«168336_g2000006919451318_pallasbulk_203_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The fused block body run once, on any staging memrefs

The body of the fused residual block reads its ten input blocks (the sample, the two affine pairs, the two flattened
filter banks, the two bias rows, the shortcut matrix), fills the two padded activation buffers it keeps in
scratch, and stores ONE whole block of the output window. Run symbolically, the stores it leaves in the
output window's buffer are a list of pieces (here one, the whole block); that list is the witness below, and the
two scratch buffers come back at contents nobody needs to name. -/

set_option maxHeartbeats 4000000 in
/-- The pieces the body leaves in the output window's staging buffer, WITH the proof that on whole memrefs — the
    ten inputs at their contents, the output and the two scratch buffers at anything — the body runs to the
    continuation holding the inputs as they were, the output's buffer with those pieces written, and the scratch
    buffers at some contents. -/
noncomputable def kernelRun (c : Dev nD) (i : grid0.Coords) (arg1 : Memref sig .tc .vmem S1x576x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S3456x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S6912x256 .bf16) (harg8 : arg8.IsWhole) (arg9 : Memref sig .tc .vmem S1x256 .f32) (harg9 : arg9.IsWhole) (arg10 : Memref sig .tc .vmem S128x256 .bf16) (harg10 : arg10.IsWhole) (arg11 : Memref sig .tc .vmem S1x576x256 .f32) (harg11 : arg11.IsWhole) (arg12 : Memref sig .tc .vmem S6x14x14x128 .bf16) (harg12 : arg12.IsWhole) (arg13 : Memref sig .tc .vmem S6x14x14x256 .bf16) (harg13 : arg13.IsWhole)
    (x0 : Vec F S1x576x128 .f32) (x1 : Vec F S1x128 .f32) (x2 : Vec F S1x128 .f32) (x3 : Vec F S3456x256 .bf16) (x4 : Vec F S1x256 .f32) (x5 : Vec F S1x256 .f32) (x6 : Vec F S1x256 .f32) (x7 : Vec F S6912x256 .bf16) (x8 : Vec F S1x256 .f32) (x9 : Vec F S128x256 .bf16) :
    { L : List (View.Piece (Elt F) S1x576x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
                ∗ (∃ f, arg11.view.loc (c : Thread nD τ) ↦[arg11.view.set]{fullShare} arg11.view.writes (Elt F) f L)
                ∗ (∃ d, owns (c : Thread nD τ) arg12 fullShare d) ∗ (∃ d, owns (c : Thread nD τ) arg13 fullShare d)) -∗ K ⟨⟩))
          ⊢ wp frame (wpE (defs₀ (F := F)) Variants.none c none) E (cc0__block_kernel i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__block_kernel_eq_skeleton]; unfold cc0__block_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _; iexists _; isplitr
      swap; · iexact H11
      ipureintro; rfl
    iexists _; iexists _; isplitr
    swap; · iexact H12
    ipureintro; rfl

end Cert.Kernel.Body

end
-- ==== Proof.KFrame.lean ====
import proofs.«168336_g2000006919451318_pallasbulk_203_2_alg».proof.Proof.Gen.Kernel.Launch
import proofs.«168336_g2000006919451318_pallasbulk_203_2_alg».proof.Proof.Gen.Kernel.Skeleton
import proofs.«168336_g2000006919451318_pallasbulk_203_2_alg».proof.Proof.Gen.Kernel.Points
import proofs.«168336_g2000006919451318_pallasbulk_203_2_alg».proof.Proof.Gen.Kernel.Frame
import proofs.«168336_g2000006919451318_pallasbulk_203_2_alg».proof.Proof.KRun
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The block body at every grid point: proof data, obligation, run, frame

One grid point is one sample. The ten input windows are read and left in place; the output window's block is
stored whole; the two padded activation buffers are scratch the body fills before it reads them, so nothing is
carried from one sample to the next and the region's invariant is the same at every point. -/

/-- Each window's current staging memref at point `t`, as the pipeline passes it to the body, and its wholeness. -/
abbrev ms0 (t : Fin cfg0.N) : Memref sig .tc .vmem S1x576x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S3456x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S6912x256 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S128x256 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x576x256 .f32 := win0_10.stage (cfg0.slots t 10)
abbrev hs10 (t : Fin cfg0.N) : (ms10 t).IsWhole := hstage0_10 ((cfg0.slots t 10).cast nbuf0_10)
/-- The two padded activation buffers: whole scoped buffers of the kernel's own, passed beside the windows. -/
abbrev sc0 : Memref sig .tc .vmem S6x14x14x128 .bf16 := Memref.whole cc0_scratch0
abbrev sc1 : Memref sig .tc .vmem S6x14x14x256 .bf16 := Memref.whole cc0_scratch1

/-- One staging buffer of the output window, through which its contents are stated (the choice does not matter once
    the pieces cover the block). -/
abbrev VO : View sig .tc .vmem S1x576x256 .f32 := (Memref.whole cc0_stg10_0 : Memref sig .tc .vmem S1x576x256 .f32).view

/-- The region's invariant with the two scratch buffers as memrefs owned at some contents, beside the generator
    register at some state: what the body is handed and what it gives back. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The body's one store is the whole output block, so its pieces cover the block. -/
theorem cover_out (c : Dev nD) (i : grid0.Coords) (arg1 : Memref sig .tc .vmem S1x576x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S3456x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S6912x256 .bf16) (harg8 : arg8.IsWhole) (arg9 : Memref sig .tc .vmem S1x256 .f32) (harg9 : arg9.IsWhole) (arg10 : Memref sig .tc .vmem S128x256 .bf16) (harg10 : arg10.IsWhole) (arg11 : Memref sig .tc .vmem S1x576x256 .f32) (harg11 : arg11.IsWhole) (arg12 : Memref sig .tc .vmem S6x14x14x128 .bf16) (harg12 : arg12.IsWhole) (arg13 : Memref sig .tc .vmem S6x14x14x256 .bf16) (harg13 : arg13.IsWhole)
    (x0 : Vec F S1x576x128 .f32) (x1 : Vec F S1x128 .f32) (x2 : Vec F S1x128 .f32) (x3 : Vec F S3456x256 .bf16) (x4 : Vec F S1x256 .f32) (x5 : Vec F S1x256 .f32) (x6 : Vec F S1x256 .f32) (x7 : Vec F S6912x256 .bf16) (x8 : Vec F S1x256 .f32) (x9 : Vec F S128x256 .bf16) (y : S1x576x256.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1, y ∈ pc.1.set :=
  View.cover_of_tiledL (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1 S1x576x256.size (by sl_kernel_rfl) y

/-- What the body leaves in the output window's staging buffer: its pieces read back over junk. -/
def outBlk (c : Dev nD) (i : grid0.Coords) (arg1 : Memref sig .tc .vmem S1x576x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S3456x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S6912x256 .bf16) (harg8 : arg8.IsWhole) (arg9 : Memref sig .tc .vmem S1x256 .f32) (harg9 : arg9.IsWhole) (arg10 : Memref sig .tc .vmem S128x256 .bf16) (harg10 : arg10.IsWhole) (arg11 : Memref sig .tc .vmem S1x576x256 .f32) (harg11 : arg11.IsWhole) (arg12 : Memref sig .tc .vmem S6x14x14x128 .bf16) (harg12 : arg12.IsWhole) (arg13 : Memref sig .tc .vmem S6x14x14x256 .bf16) (harg13 : arg13.IsWhole)
    (x0 : Vec F S1x576x128 .f32) (x1 : Vec F S1x128 .f32) (x2 : Vec F S1x128 .f32) (x3 : Vec F S3456x256 .bf16) (x4 : Vec F S1x256 .f32) (x5 : Vec F S1x256 .f32) (x6 : Vec F S1x256 .f32) (x7 : Vec F S6912x256 .bf16) (x8 : Vec F S1x256 .f32) (x9 : Vec F S128x256 .bf16) : Vec F S1x576x256 .f32 :=
  VO.read (Elt F) (VO.writes (Elt F) VO.junk (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1)

/-- The proof data of the one pipeline on core `c`: the arrays as the region finds them; after the body at point `t`
    each input's buffer at its block and the output's at `outBlk` of the point's input blocks; the invariant the
    scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outBlk c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) :
    (dats m 0 c).after 10 t = outBlk c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t))

set_option maxHeartbeats 4000000 in
/-- The body at any point: the inputs' memrefs hold their blocks, the invariant lends the two scratch buffers at
    anything and takes them back at anything, so the run applies; the output's pieces cover its block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  rw [show (dats m 0 c).Φ t.castSucc = Pipeline.ΦA spec0 c from rfl, PhiA_eq]
  unfold outBlk
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  iintro ⟨H0, H1, H2, H3, H4, H5, H6, H7, H8, H9, ⟨%e10, H10⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _; isplitr
  swap; · iexact H10
  ipureintro; exact View.read_writes_of_cover _ _ _ _ _ (cover_out c _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, and every final state has every array of the pipeline at what the
    proof data says and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Body

end
-- ==== Proof.KIRun.lean ====
import proofs.«168336_g2000006919451318_pallasbulk_203_2_alg».proof.Proof.Gen.KernelIdeal.Launch
import proofs.«168336_g2000006919451318_pallasbulk_203_2_alg».proof.Proof.Gen.KernelIdeal.Skeleton
import proofs.«168336_g2000006919451318_pallasbulk_203_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The fused block body run once, on any staging memrefs

The body of the fused residual block reads its ten input blocks (the sample, the two affine pairs, the two flattened
filter banks, the two bias rows, the shortcut matrix), fills the two padded activation buffers it keeps in
scratch, and stores ONE whole block of the output window. Run symbolically, the stores it leaves in the
output window's buffer are a list of pieces (here one, the whole block); that list is the witness below, and the
two scratch buffers come back at contents nobody needs to name. -/

set_option maxHeartbeats 4000000 in
/-- The pieces the body leaves in the output window's staging buffer, WITH the proof that on whole memrefs — the
    ten inputs at their contents, the output and the two scratch buffers at anything — the body runs to the
    continuation holding the inputs as they were, the output's buffer with those pieces written, and the scratch
    buffers at some contents. -/
noncomputable def kernelRun (c : Dev nD) (i : grid0.Coords) (arg1 : Memref sig .tc .vmem S1x576x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S3456x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S6912x256 .bf16) (harg8 : arg8.IsWhole) (arg9 : Memref sig .tc .vmem S1x256 .f32) (harg9 : arg9.IsWhole) (arg10 : Memref sig .tc .vmem S128x256 .bf16) (harg10 : arg10.IsWhole) (arg11 : Memref sig .tc .vmem S1x576x256 .f32) (harg11 : arg11.IsWhole) (arg12 : Memref sig .tc .vmem S6x14x14x128 .bf16) (harg12 : arg12.IsWhole) (arg13 : Memref sig .tc .vmem S6x14x14x256 .bf16) (harg13 : arg13.IsWhole)
    (x0 : Vec F S1x576x128 .f32) (x1 : Vec F S1x128 .f32) (x2 : Vec F S1x128 .f32) (x3 : Vec F S3456x256 .bf16) (x4 : Vec F S1x256 .f32) (x5 : Vec F S1x256 .f32) (x6 : Vec F S1x256 .f32) (x7 : Vec F S6912x256 .bf16) (x8 : Vec F S1x256 .f32) (x9 : Vec F S128x256 .bf16) :
    { L : List (View.Piece (Elt F) S1x576x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
                ∗ (∃ f, arg11.view.loc (c : Thread nD τ) ↦[arg11.view.set]{fullShare} arg11.view.writes (Elt F) f L)
                ∗ (∃ d, owns (c : Thread nD τ) arg12 fullShare d) ∗ (∃ d, owns (c : Thread nD τ) arg13 fullShare d)) -∗ K ⟨⟩))
          ⊢ wp frame (wpE (defs₀ (F := F)) Variants.none c none) E (cc0__block_kernel i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__block_kernel_eq_skeleton]; unfold cc0__block_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _; iexists _; isplitr
      swap; · iexact H11
      ipureintro; rfl
    iexists _; iexists _; isplitr
    swap; · iexact H12
    ipureintro; rfl

end Cert.KernelIdeal.Body

end
-- ==== Proof.KIFrame.lean ====
import proofs.«168336_g2000006919451318_pallasbulk_203_2_alg».proof.Proof.Gen.KernelIdeal.Launch
import proofs.«168336_g2000006919451318_pallasbulk_203_2_alg».proof.Proof.Gen.KernelIdeal.Skeleton
import proofs.«168336_g2000006919451318_pallasbulk_203_2_alg».proof.Proof.Gen.KernelIdeal.Points
import proofs.«168336_g2000006919451318_pallasbulk_203_2_alg».proof.Proof.Gen.KernelIdeal.Frame
import proofs.«168336_g2000006919451318_pallasbulk_203_2_alg».proof.Proof.KIRun
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The block body at every grid point: proof data, obligation, run, frame

One grid point is one sample. The ten input windows are read and left in place; the output window's block is
stored whole; the two padded activation buffers are scratch the body fills before it reads them, so nothing is
carried from one sample to the next and the region's invariant is the same at every point. -/

/-- Each window's current staging memref at point `t`, as the pipeline passes it to the body, and its wholeness. -/
abbrev ms0 (t : Fin cfg0.N) : Memref sig .tc .vmem S1x576x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S3456x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S6912x256 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S128x256 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x576x256 .f32 := win0_10.stage (cfg0.slots t 10)
abbrev hs10 (t : Fin cfg0.N) : (ms10 t).IsWhole := hstage0_10 ((cfg0.slots t 10).cast nbuf0_10)
/-- The two padded activation buffers: whole scoped buffers of the kernel's own, passed beside the windows. -/
abbrev sc0 : Memref sig .tc .vmem S6x14x14x128 .bf16 := Memref.whole cc0_scratch0
abbrev sc1 : Memref sig .tc .vmem S6x14x14x256 .bf16 := Memref.whole cc0_scratch1

/-- One staging buffer of the output window, through which its contents are stated (the choice does not matter once
    the pieces cover the block). -/
abbrev VO : View sig .tc .vmem S1x576x256 .f32 := (Memref.whole cc0_stg10_0 : Memref sig .tc .vmem S1x576x256 .f32).view

/-- The region's invariant with the two scratch buffers as memrefs owned at some contents, beside the generator
    register at some state: what the body is handed and what it gives back. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The body's one store is the whole output block, so its pieces cover the block. -/
theorem cover_out (c : Dev nD) (i : grid0.Coords) (arg1 : Memref sig .tc .vmem S1x576x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S3456x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S6912x256 .bf16) (harg8 : arg8.IsWhole) (arg9 : Memref sig .tc .vmem S1x256 .f32) (harg9 : arg9.IsWhole) (arg10 : Memref sig .tc .vmem S128x256 .bf16) (harg10 : arg10.IsWhole) (arg11 : Memref sig .tc .vmem S1x576x256 .f32) (harg11 : arg11.IsWhole) (arg12 : Memref sig .tc .vmem S6x14x14x128 .bf16) (harg12 : arg12.IsWhole) (arg13 : Memref sig .tc .vmem S6x14x14x256 .bf16) (harg13 : arg13.IsWhole)
    (x0 : Vec F S1x576x128 .f32) (x1 : Vec F S1x128 .f32) (x2 : Vec F S1x128 .f32) (x3 : Vec F S3456x256 .bf16) (x4 : Vec F S1x256 .f32) (x5 : Vec F S1x256 .f32) (x6 : Vec F S1x256 .f32) (x7 : Vec F S6912x256 .bf16) (x8 : Vec F S1x256 .f32) (x9 : Vec F S128x256 .bf16) (y : S1x576x256.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1, y ∈ pc.1.set :=
  View.cover_of_tiledL (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1 S1x576x256.size (by sl_kernel_rfl) y

/-- What the body leaves in the output window's staging buffer: its pieces read back over junk. -/
def outBlk (c : Dev nD) (i : grid0.Coords) (arg1 : Memref sig .tc .vmem S1x576x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S3456x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S6912x256 .bf16) (harg8 : arg8.IsWhole) (arg9 : Memref sig .tc .vmem S1x256 .f32) (harg9 : arg9.IsWhole) (arg10 : Memref sig .tc .vmem S128x256 .bf16) (harg10 : arg10.IsWhole) (arg11 : Memref sig .tc .vmem S1x576x256 .f32) (harg11 : arg11.IsWhole) (arg12 : Memref sig .tc .vmem S6x14x14x128 .bf16) (harg12 : arg12.IsWhole) (arg13 : Memref sig .tc .vmem S6x14x14x256 .bf16) (harg13 : arg13.IsWhole)
    (x0 : Vec F S1x576x128 .f32) (x1 : Vec F S1x128 .f32) (x2 : Vec F S1x128 .f32) (x3 : Vec F S3456x256 .bf16) (x4 : Vec F S1x256 .f32) (x5 : Vec F S1x256 .f32) (x6 : Vec F S1x256 .f32) (x7 : Vec F S6912x256 .bf16) (x8 : Vec F S1x256 .f32) (x9 : Vec F S128x256 .bf16) : Vec F S1x576x256 .f32 :=
  VO.read (Elt F) (VO.writes (Elt F) VO.junk (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1)

/-- The proof data of the one pipeline on core `c`: the arrays as the region finds them; after the body at point `t`
    each input's buffer at its block and the output's at `outBlk` of the point's input blocks; the invariant the
    scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outBlk c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) :
    (dats m 0 c).after 10 t = outBlk c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t))

set_option maxHeartbeats 4000000 in
/-- The body at any point: the inputs' memrefs hold their blocks, the invariant lends the two scratch buffers at
    anything and takes them back at anything, so the run applies; the output's pieces cover its block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  rw [show (dats m 0 c).Φ t.castSucc = Pipeline.ΦA spec0 c from rfl, PhiA_eq]
  unfold outBlk
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  iintro ⟨H0, H1, H2, H3, H4, H5, H6, H7, H8, H9, ⟨%e10, H10⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _; isplitr
  swap; · iexact H10
  ipureintro; exact View.read_writes_of_cover _ _ _ _ _ (cover_out c _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, and every final state has every array of the pipeline at what the
    proof data says and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Body

end
-- ==== Proof.RefReg0.lean ====
import proofs.«168336_g2000006919451318_pallasbulk_203_2_alg».proof.Proof.Gen.ReferenceIdeal.Launch
import proofs.«168336_g2000006919451318_pallasbulk_203_2_alg».proof.Proof.Gen.ReferenceIdeal.Skeleton
import proofs.«168336_g2000006919451318_pallasbulk_203_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-! # Region 0 of the reference: group normalisation and SiLU of one sample's [576, 128] block, written into a [6, 14, 14, 128] block that is zero outside the interior, holds the activations in the interior, and repeats the first frame in the two leading frames: three overlapping stores, the first of them the whole block

One grid point is one sample. The body is run once symbolically on any staging memrefs; the pieces it leaves in the
output window's buffer are the witness of that run and cover the block. Everything is stated at a PARAMETER `V`, the
buffers' contents when the region is entered, which the program's run instantiates. -/

set_option maxHeartbeats 4000000 in
/-- The pieces the body leaves in the output window's staging buffer, WITH the proof that on whole memrefs — the
    inputs at their contents, the output at anything — the body runs to the continuation holding the inputs as they
    were and the output's buffer with those pieces written. -/
noncomputable def kernelRun (c : Dev nD) (i : grid0.Coords) (arg1 : Memref sig .tc .vmem S1x576x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x6x14x14x128 .f32) (harg4 : arg4.IsWhole)
    (x0 : Vec F S1x576x128 .f32) (x1 : Vec F S1x128 .f32) (x2 : Vec F S1x128 .f32) :
    { L : List (View.Piece (Elt F) S1x6x14x14x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L)) -∗ K ⟨⟩))
          ⊢ wp frame (wpE (defs₀ (F := F)) Variants.none c none) E (cc0_gn_silu_pad_kernel i arg1 harg1 arg2 harg2 arg3 harg3 arg4 harg4) K } := by
  refine ⟨?_, fun E K => ?run⟩
  case run =>
    simp only [cc0_gn_silu_pad_kernel_eq_skeleton]; unfold cc0_gn_silu_pad_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0
    obtain rfl := harg2.eq_unread hf1
    obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The body's pieces cover the output block. -/
theorem cover_out (c : Dev nD) (i : grid0.Coords) (arg1 : Memref sig .tc .vmem S1x576x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x6x14x14x128 .f32) (harg4 : arg4.IsWhole)
    (x0 : Vec F S1x576x128 .f32) (x1 : Vec F S1x128 .f32) (x2 : Vec F S1x128 .f32) (y : S1x6x14x14x128.Idx) :
    ∃ pc ∈ (kernelRun c i arg1 harg1 arg2 harg2 arg3 harg3 arg4 harg4 x0 x1 x2).1, y ∈ pc.1.set :=
  View.cover_of_wholeMem (kernelRun c i arg1 harg1 arg2 harg2 arg3 harg3 arg4 harg4 x0 x1 x2).1 (by sl_whole_mem) y

/-- One staging buffer of the output window, through which its contents are stated. -/
abbrev VO : View sig .tc .vmem S1x6x14x14x128 .f32 := (Memref.whole cc0_stg3_0 : Memref sig .tc .vmem S1x6x14x14x128 .f32).view

/-- What the body leaves in the output window's staging buffer: its pieces read back over junk. -/
def outBlk (c : Dev nD) (i : grid0.Coords) (arg1 : Memref sig .tc .vmem S1x576x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x6x14x14x128 .f32) (harg4 : arg4.IsWhole)
    (x0 : Vec F S1x576x128 .f32) (x1 : Vec F S1x128 .f32) (x2 : Vec F S1x128 .f32) : Vec F S1x6x14x14x128 .f32 :=
  VO.read (Elt F) (VO.writes (Elt F) VO.junk (kernelRun c i arg1 harg1 arg2 harg2 arg3 harg3 arg4 harg4 x0 x1 x2).1)

/-- Each window's current staging memref at point `t`, as the pipeline passes it to the body, and its wholeness. -/
abbrev ms0 (t : Fin cfg0.N) : Memref sig .tc .vmem S1x576x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x6x14x14x128 .f32 := win0_3.stage (cfg0.slots t 3)
abbrev hs3 (t : Fin cfg0.N) : (ms3 t).IsWhole := hstage0_3 ((cfg0.slots t 3).cast nbuf0_3)

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is the entry contents and whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the entry contents and whose body leaves the block in place. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the entry contents and whose body leaves the block in place. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The proof data of this region's pipeline on core `c`: the arrays as the region finds them; after the body at point
    `t` each input's buffer at its block and the output's at `outBlk` of the point's input blocks; the invariant the
    scoped rest and the generator register; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outBlk c (grid0.coords t) (ms0 t) (hs0 t) (ms1 t) (hs1 t) (ms2 t) (hs2 t) (ms3 t) (hs3 t) (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = outBlk c (grid0.coords t) (ms0 t) (hs0 t) (ms1 t) (hs1 t) (ms2 t) (hs2 t) (ms3 t) (hs3 t) (iblk V c 0 t) (iblk V c 1 t) (iblk V c 2 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t))

set_option maxHeartbeats 4000000 in
/-- The body at any point: the inputs' memrefs hold their blocks, so the run applies; the invariant and the core's dues
    pass through unread; the output's pieces cover its block. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  unfold outBlk
  iintro ⟨HΦ, Ho, ⟨%d0, H0⟩, ⟨%d1, H1⟩, ⟨%d2, H2⟩, ⟨%d3, H3⟩⟩
  iapply ((kernelRun c (grid0.coords t) _ _ _ _ _ _ _ _ (iblk V c 0 t) (iblk V c 1 t) (iblk V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover_out c _ _ _ _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

end Cert.ReferenceIdeal.Reg0

end
-- ==== Proof.RefReg1.lean ====
import proofs.«168336_g2000006919451318_pallasbulk_203_2_alg».proof.Proof.Gen.ReferenceIdeal.Launch
import proofs.«168336_g2000006919451318_pallasbulk_203_2_alg».proof.Proof.Gen.ReferenceIdeal.Skeleton
import proofs.«168336_g2000006919451318_pallasbulk_203_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-! # Region 1 of the reference: the 27 shifted [4, 12, 12, 128] windows of one padded sample laid side by side as a [576, 3456] matrix, multiplied with the flattened [3456, 256] filter bank, plus the bias row: one whole-block store

One grid point is one sample. The body is run once symbolically on any staging memrefs; the pieces it leaves in the
output window's buffer are the witness of that run and cover the block. Everything is stated at a PARAMETER `V`, the
buffers' contents when the region is entered, which the program's run instantiates. -/

set_option maxHeartbeats 4000000 in
/-- The pieces the body leaves in the output window's staging buffer, WITH the proof that on whole memrefs — the
    inputs at their contents, the output at anything — the body runs to the continuation holding the inputs as they
    were and the output's buffer with those pieces written. -/
noncomputable def kernelRun (c : Dev nD) (i : grid1.Coords) (arg1 : Memref sig .tc .vmem S1x6x14x14x128 .f32) (harg1 : arg1.IsWhole) (arg2 : Memref sig .tc .vmem S3456x256 .f32) (harg2 : arg2.IsWhole) (arg3 : Memref sig .tc .vmem S1x256 .f32) (harg3 : arg3.IsWhole) (arg4 : Memref sig .tc .vmem S1x576x256 .f32) (harg4 : arg4.IsWhole)
    (x0 : Vec F S1x6x14x14x128 .f32) (x1 : Vec F S3456x256 .f32) (x2 : Vec F S1x256 .f32) :
    { L : List (View.Piece (Elt F) S1x576x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L)) -∗ K ⟨⟩))
          ⊢ wp frame (wpE (defs₀ (F := F)) Variants.none c none) E (cc1_causal_conv3d_kernel i arg1 harg1 arg2 harg2 arg3 harg3 arg4 harg4) K } := by
  refine ⟨?_, fun E K => ?run⟩
  case run =>
    simp only [cc1_causal_conv3d_kernel_eq_skeleton]; unfold cc1_causal_conv3d_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0
    obtain rfl := harg2.eq_unread hf1
    obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The body's pieces cover the output block. -/
theorem cover_out (c : Dev nD) (i : grid1.Coords) (arg1 : Memref sig .tc .vmem S1x6x14x14x128 .f32) (harg1 : arg1.IsWhole) (arg2 : Memref sig .tc .vmem S3456x256 .f32) (harg2 : arg2.IsWhole) (arg3 : Memref sig .tc .vmem S1x256 .f32) (harg3 : arg3.IsWhole) (arg4 : Memref sig .tc .vmem S1x576x256 .f32) (harg4 : arg4.IsWhole)
    (x0 : Vec F S1x6x14x14x128 .f32) (x1 : Vec F S3456x256 .f32) (x2 : Vec F S1x256 .f32) (y : S1x576x256.Idx) :
    ∃ pc ∈ (kernelRun c i arg1 harg1 arg2 harg2 arg3 harg3 arg4 harg4 x0 x1 x2).1, y ∈ pc.1.set :=
  View.cover_of_tiledL (kernelRun c i arg1 harg1 arg2 harg2 arg3 harg3 arg4 harg4 x0 x1 x2).1 S1x576x256.size (by sl_kernel_rfl) y

/-- One staging buffer of the output window, through which its contents are stated. -/
abbrev VO : View sig .tc .vmem S1x576x256 .f32 := (Memref.whole cc1_stg3_0 : Memref sig .tc .vmem S1x576x256 .f32).view

/-- What the body leaves in the output window's staging buffer: its pieces read back over junk. -/
def outBlk (c : Dev nD) (i : grid1.Coords) (arg1 : Memref sig .tc .vmem S1x6x14x14x128 .f32) (harg1 : arg1.IsWhole) (arg2 : Memref sig .tc .vmem S3456x256 .f32) (harg2 : arg2.IsWhole) (arg3 : Memref sig .tc .vmem S1x256 .f32) (harg3 : arg3.IsWhole) (arg4 : Memref sig .tc .vmem S1x576x256 .f32) (harg4 : arg4.IsWhole)
    (x0 : Vec F S1x6x14x14x128 .f32) (x1 : Vec F S3456x256 .f32) (x2 : Vec F S1x256 .f32) : Vec F S1x576x256 .f32 :=
  VO.read (Elt F) (VO.writes (Elt F) VO.junk (kernelRun c i arg1 harg1 arg2 harg2 arg3 harg3 arg4 harg4 x0 x1 x2).1)

/-- Each window's current staging memref at point `t`, as the pipeline passes it to the body, and its wholeness. -/
abbrev ms0 (t : Fin cfg1.N) : Memref sig .tc .vmem S1x6x14x14x128 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S3456x256 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x256 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x576x256 .f32 := win1_3.stage (cfg1.slots t 3)
abbrev hs3 (t : Fin cfg1.N) : (ms3 t).IsWhole := hstage1_3 ((cfg1.slots t 3).cast nbuf1_3)

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is the entry contents and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the entry contents and whose body leaves the block in place. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the entry contents and whose body leaves the block in place. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The proof data of this region's pipeline on core `c`: the arrays as the region finds them; after the body at point
    `t` each input's buffer at its block and the output's at `outBlk` of the point's input blocks; the invariant the
    scoped rest and the generator register; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outBlk c (grid1.coords t) (ms0 t) (hs0 t) (ms1 t) (hs1 t) (ms2 t) (hs2 t) (ms3 t) (hs3 t) (iblk V c 0 t) (iblk V c 1 t) (iblk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) :
    (dat V c).after 3 t = outBlk c (grid1.coords t) (ms0 t) (hs0 t) (ms1 t) (hs1 t) (ms2 t) (hs2 t) (ms3 t) (hs3 t) (iblk V c 0 t) (iblk V c 1 t) (iblk V c 2 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t))

set_option maxHeartbeats 4000000 in
/-- The body at any point: the inputs' memrefs hold their blocks, so the run applies; the invariant and the core's dues
    pass through unread; the output's pieces cover its block. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  unfold outBlk
  iintro ⟨HΦ, Ho, ⟨%d0, H0⟩, ⟨%d1, H1⟩, ⟨%d2, H2⟩, ⟨%d3, H3⟩⟩
  iapply ((kernelRun c (grid1.coords t) _ _ _ _ _ _ _ _ (iblk V c 0 t) (iblk V c 1 t) (iblk V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover_out c _ _ _ _ _ _ _ _ _ _ _ _)

/-- The library's body obligation, at every point. -/
theorem body_obligation (c : Dev nD) : BodyObligation (dat (F := F) V c) (defs₀ (F := F)) Variants.none () Set.univ := fun t => by
  rw [bigSep_W1, bigSep_W1]
  exact sound_body V c t

end Cert.ReferenceIdeal.Reg1

end
-- ==== Proof.RefReg2.lean ====
import proofs.«168336_g2000006919451318_pallasbulk_203_2_alg».proof.Proof.Gen.ReferenceIdeal.Launch
import proofs.«168336_g2000006919451318_pallasbulk_203_2_alg».proof.Proof.Gen.ReferenceIdeal.Skeleton
import proofs.«168336_g2000006919451318_pallasbulk_203_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-! # Region 2 of the reference: group normalisation and SiLU of one sample's [576, 256] block, written into a [6, 14, 14, 256] block that is zero outside the interior, holds the activations in the interior, and repeats the first frame in the two leading frames: three overlapping stores, the first of them the whole block

One grid point is one sample. The body is run once symbolically on any staging memrefs; the pieces it leaves in the
output window's buffer are the witness of that run and cover the block. Everything is stated at a PARAMETER `V`, the
buffers' contents when the region is entered, which the program's run instantiates. -/

set_option maxHeartbeats 4000000 in
/-- The pieces the body leaves in the output window's staging buffer, WITH the proof that on whole memrefs — the
    inputs at their contents, the output at anything — the body runs to the continuation holding the inputs as they
    were and the output's buffer with those pieces written. -/
noncomputable def kernelRun (c : Dev nD) (i : grid2.Coords) (arg1 : Memref sig .tc .vmem S1x576x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x6x14x14x256 .f32) (harg4 : arg4.IsWhole)
    (x0 : Vec F S1x576x256 .f32) (x1 : Vec F S1x256 .f32) (x2 : Vec F S1x256 .f32) :
    { L : List (View.Piece (Elt F) S1x6x14x14x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L)) -∗ K ⟨⟩))
          ⊢ wp frame (wpE (defs₀ (F := F)) Variants.none c none) E (cc2_gn_silu_pad_kernel i arg1 harg1 arg2 harg2 arg3 harg3 arg4 harg4) K } := by
  refine ⟨?_, fun E K => ?run⟩
  case run =>
    simp only [cc2_gn_silu_pad_kernel_eq_skeleton]; unfold cc2_gn_silu_pad_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0
    obtain rfl := harg2.eq_unread hf1
    obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The body's pieces cover the output block. -/
theorem cover_out (c : Dev nD) (i : grid2.Coords) (arg1 : Memref sig .tc .vmem S1x576x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x6x14x14x256 .f32) (harg4 : arg4.IsWhole)
    (x0 : Vec F S1x576x256 .f32) (x1 : Vec F S1x256 .f32) (x2 : Vec F S1x256 .f32) (y : S1x6x14x14x256.Idx) :
    ∃ pc ∈ (kernelRun c i arg1 harg1 arg2 harg2 arg3 harg3 arg4 harg4 x0 x1 x2).1, y ∈ pc.1.set :=
  View.cover_of_wholeMem (kernelRun c i arg1 harg1 arg2 harg2 arg3 harg3 arg4 harg4 x0 x1 x2).1 (by sl_whole_mem) y

/-- One staging buffer of the output window, through which its contents are stated. -/
abbrev VO : View sig .tc .vmem S1x6x14x14x256 .f32 := (Memref.whole cc2_stg3_0 : Memref sig .tc .vmem S1x6x14x14x256 .f32).view

/-- What the body leaves in the output window's staging buffer: its pieces read back over junk. -/
def outBlk (c : Dev nD) (i : grid2.Coords) (arg1 : Memref sig .tc .vmem S1x576x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x6x14x14x256 .f32) (harg4 : arg4.IsWhole)
    (x0 : Vec F S1x576x256 .f32) (x1 : Vec F S1x256 .f32) (x2 : Vec F S1x256 .f32) : Vec F S1x6x14x14x256 .f32 :=
  VO.read (Elt F) (VO.writes (Elt F) VO.junk (kernelRun c i arg1 harg1 arg2 harg2 arg3 harg3 arg4 harg4 x0 x1 x2).1)

/-- Each window's current staging memref at point `t`, as the pipeline passes it to the body, and its wholeness. -/
abbrev ms0 (t : Fin cfg2.N) : Memref sig .tc .vmem S1x576x256 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S1x256 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x256 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1x6x14x14x256 .f32 := win2_3.stage (cfg2.slots t 3)
abbrev hs3 (t : Fin cfg2.N) : (ms3 t).IsWhole := hstage2_3 ((cfg2.slots t 3).cast nbuf2_3)

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is the entry contents and whose body leaves the block in place. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the entry contents and whose body leaves the block in place. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the entry contents and whose body leaves the block in place. -/
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The proof data of this region's pipeline on core `c`: the arrays as the region finds them; after the body at point
    `t` each input's buffer at its block and the output's at `outBlk` of the point's input blocks; the invariant the
    scoped rest and the generator register; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => outBlk c (grid2.coords t) (ms0 t) (hs0 t) (ms1 t) (hs1 t) (ms2 t) (hs2 t) (ms3 t) (hs3 t) (iblk V c 0 t) (iblk V c 1 t) (iblk V c 2 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) :
    (dat V c).after 3 t = outBlk c (grid2.coords t) (ms0 t) (hs0 t) (ms1 t) (hs1 t) (ms2 t) (hs2 t) (ms3 t) (hs3 t) (iblk V c 0 t) (iblk V c 1 t) (iblk V c 2 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t))

set_option maxHeartbeats 4000000 in
/-- The body at any point: the inputs' memrefs hold their blocks, so the run applies; the invariant and the core's dues
    pass through unread; the output's pieces cover its block. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl,
    after_0, after_1, after_2, after_3]
  unfold outBlk
  iintro ⟨HΦ, Ho, ⟨%d0, H0⟩, ⟨%d1, H1⟩, ⟨%d2, H2⟩, ⟨%d3, H3⟩⟩
  iapply ((kernelRun c (grid2.coords t) _ _ _ _ _ _ _ _ (iblk V c 0 t) (iblk V c 1 t) (iblk V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover_out c _ _ _ _ _ _ _ _ _ _ _ _)

/-- The library's body obligation, at every point. -/
theorem body_obligation (c : Dev nD) : BodyObligation (dat (F := F) V c) (defs₀ (F := F)) Variants.none () Set.univ := fun t => by
  rw [bigSep_W2, bigSep_W2]
  exact sound_body V c t

end Cert.ReferenceIdeal.Reg2

end
-- ==== Proof.RefReg3.lean ====
import proofs.«168336_g2000006919451318_pallasbulk_203_2_alg».proof.Proof.Gen.ReferenceIdeal.Launch
import proofs.«168336_g2000006919451318_pallasbulk_203_2_alg».proof.Proof.Gen.ReferenceIdeal.Skeleton
import proofs.«168336_g2000006919451318_pallasbulk_203_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Reg3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-! # Region 3 of the reference: the 27 shifted [4, 12, 12, 256] windows of one padded sample laid side by side as a [576, 6912] matrix, multiplied with the flattened [6912, 256] filter bank, plus the summed bias row, plus the sample's [576, 128] block multiplied with the [128, 256] shortcut matrix: one whole-block store

One grid point is one sample. The body is run once symbolically on any staging memrefs; the pieces it leaves in the
output window's buffer are the witness of that run and cover the block. Everything is stated at a PARAMETER `V`, the
buffers' contents when the region is entered, which the program's run instantiates. -/

set_option maxHeartbeats 4000000 in
/-- The pieces the body leaves in the output window's staging buffer, WITH the proof that on whole memrefs — the
    inputs at their contents, the output at anything — the body runs to the continuation holding the inputs as they
    were and the output's buffer with those pieces written. -/
noncomputable def kernelRun (c : Dev nD) (i : grid3.Coords) (arg1 : Memref sig .tc .vmem S1x6x14x14x256 .f32) (harg1 : arg1.IsWhole) (arg2 : Memref sig .tc .vmem S6912x256 .f32) (harg2 : arg2.IsWhole) (arg3 : Memref sig .tc .vmem S1x256 .f32) (harg3 : arg3.IsWhole) (arg4 : Memref sig .tc .vmem S1x576x128 .f32) (harg4 : arg4.IsWhole) (arg5 : Memref sig .tc .vmem S128x256 .f32) (harg5 : arg5.IsWhole) (arg6 : Memref sig .tc .vmem S1x576x256 .f32) (harg6 : arg6.IsWhole)
    (x0 : Vec F S1x6x14x14x256 .f32) (x1 : Vec F S6912x256 .f32) (x2 : Vec F S1x256 .f32) (x3 : Vec F S1x576x128 .f32) (x4 : Vec F S128x256 .f32) :
    { L : List (View.Piece (Elt F) S1x576x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L)) -∗ K ⟨⟩))
          ⊢ wp frame (wpE (defs₀ (F := F)) Variants.none c none) E (cc3_causal_conv3d_kernel i arg1 harg1 arg2 harg2 arg3 harg3 arg4 harg4 arg5 harg5 arg6 harg6) K } := by
  refine ⟨?_, fun E K => ?run⟩
  case run =>
    simp only [cc3_causal_conv3d_kernel_eq_skeleton]; unfold cc3_causal_conv3d_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0
    obtain rfl := harg2.eq_unread hf1
    obtain rfl := harg3.eq_unread hf2
    obtain rfl := harg4.eq_unread hf3
    obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

/-- The body's pieces cover the output block. -/
theorem cover_out (c : Dev nD) (i : grid3.Coords) (arg1 : Memref sig .tc .vmem S1x6x14x14x256 .f32) (harg1 : arg1.IsWhole) (arg2 : Memref sig .tc .vmem S6912x256 .f32) (harg2 : arg2.IsWhole) (arg3 : Memref sig .tc .vmem S1x256 .f32) (harg3 : arg3.IsWhole) (arg4 : Memref sig .tc .vmem S1x576x128 .f32) (harg4 : arg4.IsWhole) (arg5 : Memref sig .tc .vmem S128x256 .f32) (harg5 : arg5.IsWhole) (arg6 : Memref sig .tc .vmem S1x576x256 .f32) (harg6 : arg6.IsWhole)
    (x0 : Vec F S1x6x14x14x256 .f32) (x1 : Vec F S6912x256 .f32) (x2 : Vec F S1x256 .f32) (x3 : Vec F S1x576x128 .f32) (x4 : Vec F S128x256 .f32) (y : S1x576x256.Idx) :
    ∃ pc ∈ (kernelRun c i arg1 harg1 arg2 harg2 arg3 harg3 arg4 harg4 arg5 harg5 arg6 harg6 x0 x1 x2 x3 x4).1, y ∈ pc.1.set :=
  View.cover_of_tiledL (kernelRun c i arg1 harg1 arg2 harg2 arg3 harg3 arg4 harg4 arg5 harg5 arg6 harg6 x0 x1 x2 x3 x4).1 S1x576x256.size (by sl_kernel_rfl) y

/-- One staging buffer of the output window, through which its contents are stated. -/
abbrev VO : View sig .tc .vmem S1x576x256 .f32 := (Memref.whole cc3_stg5_0 : Memref sig .tc .vmem S1x576x256 .f32).view

/-- What the body leaves in the output window's staging buffer: its pieces read back over junk. -/
def outBlk (c : Dev nD) (i : grid3.Coords) (arg1 : Memref sig .tc .vmem S1x6x14x14x256 .f32) (harg1 : arg1.IsWhole) (arg2 : Memref sig .tc .vmem S6912x256 .f32) (harg2 : arg2.IsWhole) (arg3 : Memref sig .tc .vmem S1x256 .f32) (harg3 : arg3.IsWhole) (arg4 : Memref sig .tc .vmem S1x576x128 .f32) (harg4 : arg4.IsWhole) (arg5 : Memref sig .tc .vmem S128x256 .f32) (harg5 : arg5.IsWhole) (arg6 : Memref sig .tc .vmem S1x576x256 .f32) (harg6 : arg6.IsWhole)
    (x0 : Vec F S1x6x14x14x256 .f32) (x1 : Vec F S6912x256 .f32) (x2 : Vec F S1x256 .f32) (x3 : Vec F S1x576x128 .f32) (x4 : Vec F S128x256 .f32) : Vec F S1x576x256 .f32 :=
  VO.read (Elt F) (VO.writes (Elt F) VO.junk (kernelRun c i arg1 harg1 arg2 harg2 arg3 harg3 arg4 harg4 arg5 harg5 arg6 harg6 x0 x1 x2 x3 x4).1)

/-- Each window's current staging memref at point `t`, as the pipeline passes it to the body, and its wholeness. -/
abbrev ms0 (t : Fin cfg3.N) : Memref sig .tc .vmem S1x6x14x14x256 .f32 := win3_0.stage (cfg3.slots t 0)
abbrev hs0 (t : Fin cfg3.N) : (ms0 t).IsWhole := hstage3_0 ((cfg3.slots t 0).cast nbuf3_0)
abbrev ms1 (t : Fin cfg3.N) : Memref sig .tc .vmem S6912x256 .f32 := win3_1.stage (cfg3.slots t 1)
abbrev hs1 (t : Fin cfg3.N) : (ms1 t).IsWhole := hstage3_1 ((cfg3.slots t 1).cast nbuf3_1)
abbrev ms2 (t : Fin cfg3.N) : Memref sig .tc .vmem S1x256 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S1x576x128 .f32 := win3_3.stage (cfg3.slots t 3)
abbrev hs3 (t : Fin cfg3.N) : (ms3 t).IsWhole := hstage3_3 ((cfg3.slots t 3).cast nbuf3_3)
abbrev ms4 (t : Fin cfg3.N) : Memref sig .tc .vmem S128x256 .f32 := win3_4.stage (cfg3.slots t 4)
abbrev hs4 (t : Fin cfg3.N) : (ms4 t).IsWhole := hstage3_4 ((cfg3.slots t 4).cast nbuf3_4)
abbrev ms5 (t : Fin cfg3.N) : Memref sig .tc .vmem S1x576x256 .f32 := win3_5.stage (cfg3.slots t 5)
abbrev hs5 (t : Fin cfg3.N) : (ms5 t).IsWhole := hstage3_5 ((cfg3.slots t 5).cast nbuf3_5)

variable (V : (c : Dev nD) → (b : Ref sig .tc) → Buf (Elt F) ((c : Thread nD τ).loc b))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is the entry contents and whose body leaves the block in place. -/
theorem before_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the entry contents and whose body leaves the block in place. -/
theorem before_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the entry contents and whose body leaves the block in place. -/
theorem before_2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the entry contents and whose body leaves the block in place. -/
theorem before_3_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is the entry contents and whose body leaves the block in place. -/
theorem before_4_of {c : Dev nD} (dat : Dat τ (Elt F) Unit ℕ (UR sig nD τ) ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The proof data of this region's pipeline on core `c`: the arrays as the region finds them; after the body at point
    `t` each input's buffer at its block and the output's at `outBlk` of the point's input blocks; the invariant the
    scoped rest and the generator register; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outBlk c (grid3.coords t) (ms0 t) (hs0 t) (ms1 t) (hs1 t) (ms2 t) (hs2 t) (ms3 t) (hs3 t) (ms4 t) (hs4 t) (ms5 t) (hs5 t) (iblk V c 0 t) (iblk V c 1 t) (iblk V c 2 t) (iblk V c 3 t) (iblk V c 4 t)
  Φ _ := Pipeline.ΦA spec3 c
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = iblk V c 4 t := by dsimp only [dat]
theorem after_5 (c : Dev nD) (t : Fin cfg3.N) :
    (dat V c).after 5 t = outBlk c (grid3.coords t) (ms0 t) (hs0 t) (ms1 t) (hs1 t) (ms2 t) (hs2 t) (ms3 t) (hs3 t) (ms4 t) (hs4 t) (ms5 t) (hs5 t) (iblk V c 0 t) (iblk V c 1 t) (iblk V c 2 t) (iblk V c 3 t) (iblk V c 4 t) := by dsimp only [dat]

theorem before_0 (c : Dev nD) (t : Fin cfg3.N) (d) : (dat V c).before 0 t d = iblk V c 0 t :=
  before_0_of V (dat V c) (A_eq V c 0) (after_0 V c) t d
theorem before_1 (c : Dev nD) (t : Fin cfg3.N) (d) : (dat V c).before 1 t d = iblk V c 1 t :=
  before_1_of V (dat V c) (A_eq V c 1) (after_1 V c) t d
theorem before_2 (c : Dev nD) (t : Fin cfg3.N) (d) : (dat V c).before 2 t d = iblk V c 2 t :=
  before_2_of V (dat V c) (A_eq V c 2) (after_2 V c) t d
theorem before_3 (c : Dev nD) (t : Fin cfg3.N) (d) : (dat V c).before 3 t d = iblk V c 3 t :=
  before_3_of V (dat V c) (A_eq V c 3) (after_3 V c) t d
theorem before_4 (c : Dev nD) (t : Fin cfg3.N) (d) : (dat V c).before 4 t d = iblk V c 4 t :=
  before_4_of V (dat V c) (A_eq V c 4) (after_4 V c) t d

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg3.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t))

set_option maxHeartbeats 4000000 in
/-- The body at any point: the inputs' memrefs hold their blocks, so the run applies; the invariant and the core's dues
    pass through unread; the output's pieces cover its block. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  unfold outBlk
  iintro ⟨HΦ, Ho, ⟨%d0, H0⟩, ⟨%d1, H1⟩, ⟨%d2, H2⟩, ⟨%d3, H3⟩, ⟨%d4, H4⟩, ⟨%d5, H5⟩⟩
  iapply ((kernelRun c (grid3.coords t) _ _ _ _ _ _ _ _ _ _ _ _ (iblk V c 0 t) (iblk V c 1 t) (iblk V c 2 t) (iblk V c 3 t) (iblk V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover_out c _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W3, bigSep_W3]
  exact sound_body V c t

end Cert.ReferenceIdeal.Reg3

end
-- ==== Proof.RefRun.lean ====
import proofs.«168336_g2000006919451318_pallasbulk_203_2_alg».proof.Proof.RefReg0
import proofs.«168336_g2000006919451318_pallasbulk_203_2_alg».proof.Proof.RefReg1
import proofs.«168336_g2000006919451318_pallasbulk_203_2_alg».proof.Proof.RefReg2
import proofs.«168336_g2000006919451318_pallasbulk_203_2_alg».proof.Proof.RefReg3
import proofs.«168336_g2000006919451318_pallasbulk_203_2_alg».proof.Proof.Gen.ReferenceIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The reference's run: nine segments from the launch to the return

The reference is five stretches of host operations (transposes, reshapes, one sum of two bias rows) around four
kernel regions: normalise-and-pad, convolve, normalise-and-pad, convolve with the shortcut. The buffers' contents at
each of the ten segment boundaries are a fold from the launch memory: a host stretch applies its operations, a region
replaces its arrays by what its write-backs leave and keeps every other buffer. The result and every argument are
read off the last boundary's contents. -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, the output's write-backs
    folded), every other buffer as entered. -/
def W2 (c : Dev nD) : Valuation τ sig (Elt F) :=
  Pipeline.withArrays spec0 c (W1 m ρ c) fun w => (Reg0.dat (V1 m ρ) c).arrAt w cfg0.N
theorem W2_arr (c : Dev nD) (w : Fin cfg0.W) :
    W2 m ρ c (Proc.devRef .tc (Pipeline.arrRef spec0 w)) = (Reg0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Reg0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations between region 0 and what follows. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (the inputs as entered, the output's write-backs
    folded), every other buffer as entered. -/
def W4 (c : Dev nD) : Valuation τ sig (Elt F) :=
  Pipeline.withArrays spec1 c (W3 m ρ c) fun w => (Reg1.dat (V3 m ρ) c).arrAt w cfg1.N
theorem W4_arr (c : Dev nD) (w : Fin cfg1.W) :
    W4 m ρ c (Proc.devRef .tc (Pipeline.arrRef spec1 w)) = (Reg1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Reg1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host operations between region 1 and what follows. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (the inputs as entered, the output's write-backs
    folded), every other buffer as entered. -/
def W6 (c : Dev nD) : Valuation τ sig (Elt F) :=
  Pipeline.withArrays spec2 c (W5 m ρ c) fun w => (Reg2.dat (V5 m ρ) c).arrAt w cfg2.N
theorem W6_arr (c : Dev nD) (w : Fin cfg2.W) :
    W6 m ρ c (Proc.devRef .tc (Pipeline.arrRef spec2 w)) = (Reg2.dat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (Reg2.dat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host operations between region 2 and what follows. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

/-- At region 3's exit: its arrays at what the pipeline leaves (the inputs as entered, the output's write-backs
    folded), every other buffer as entered. -/
def W8 (c : Dev nD) : Valuation τ sig (Elt F) :=
  Pipeline.withArrays spec3 c (W7 m ρ c) fun w => (Reg3.dat (V7 m ρ) c).arrAt w cfg3.N
theorem W8_arr (c : Dev nD) (w : Fin cfg3.W) :
    W8 m ρ c (Proc.devRef .tc (Pipeline.arrRef spec3 w)) = (Reg3.dat (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (Reg3.dat (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host operations between region 3 and what follows. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b

/-! ### The arguments end as launched: no host operation and no region writes one -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := (StableHlo.after_of_writes_sub hostOps4 _ hostOps4_writes (by decide : main_arg0 ∉ hostOps4_W))
    _ = W7 m ρ c (Proc.devRef .tc main_arg0) := (W8_of_ne m ρ c main_arg0 (by decide))
    _ = W6 m ρ c (Proc.devRef .tc main_arg0) := (StableHlo.after_of_writes_sub hostOps3 _ hostOps3_writes (by decide : main_arg0 ∉ hostOps3_W))
    _ = W5 m ρ c (Proc.devRef .tc main_arg0) := (W6_of_ne m ρ c main_arg0 (by decide))
    _ = W4 m ρ c (Proc.devRef .tc main_arg0) := (StableHlo.after_of_writes_sub hostOps2 _ hostOps2_writes (by decide : main_arg0 ∉ hostOps2_W))
    _ = W3 m ρ c (Proc.devRef .tc main_arg0) := (W4_of_ne m ρ c main_arg0 (by decide))
    _ = W2 m ρ c (Proc.devRef .tc main_arg0) := (StableHlo.after_of_writes_sub hostOps1 _ hostOps1_writes (by decide : main_arg0 ∉ hostOps1_W))
    _ = W1 m ρ c (Proc.devRef .tc main_arg0) := (W2_of_ne m ρ c main_arg0 (by decide))
    _ = W0 m ρ c (Proc.devRef .tc main_arg0) := (StableHlo.after_of_writes_sub hostOps0 _ hostOps0_writes (by decide : main_arg0 ∉ hostOps0_W))
    _ = m ((c : Thread nD τ).loc main_arg0) := rfl
theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := (StableHlo.after_of_writes_sub hostOps4 _ hostOps4_writes (by decide : main_arg1 ∉ hostOps4_W))
    _ = W7 m ρ c (Proc.devRef .tc main_arg1) := (W8_of_ne m ρ c main_arg1 (by decide))
    _ = W6 m ρ c (Proc.devRef .tc main_arg1) := (StableHlo.after_of_writes_sub hostOps3 _ hostOps3_writes (by decide : main_arg1 ∉ hostOps3_W))
    _ = W5 m ρ c (Proc.devRef .tc main_arg1) := (W6_of_ne m ρ c main_arg1 (by decide))
    _ = W4 m ρ c (Proc.devRef .tc main_arg1) := (StableHlo.after_of_writes_sub hostOps2 _ hostOps2_writes (by decide : main_arg1 ∉ hostOps2_W))
    _ = W3 m ρ c (Proc.devRef .tc main_arg1) := (W4_of_ne m ρ c main_arg1 (by decide))
    _ = W2 m ρ c (Proc.devRef .tc main_arg1) := (StableHlo.after_of_writes_sub hostOps1 _ hostOps1_writes (by decide : main_arg1 ∉ hostOps1_W))
    _ = W1 m ρ c (Proc.devRef .tc main_arg1) := (W2_of_ne m ρ c main_arg1 (by decide))
    _ = W0 m ρ c (Proc.devRef .tc main_arg1) := (StableHlo.after_of_writes_sub hostOps0 _ hostOps0_writes (by decide : main_arg1 ∉ hostOps0_W))
    _ = m ((c : Thread nD τ).loc main_arg1) := rfl
theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := (StableHlo.after_of_writes_sub hostOps4 _ hostOps4_writes (by decide : main_arg2 ∉ hostOps4_W))
    _ = W7 m ρ c (Proc.devRef .tc main_arg2) := (W8_of_ne m ρ c main_arg2 (by decide))
    _ = W6 m ρ c (Proc.devRef .tc main_arg2) := (StableHlo.after_of_writes_sub hostOps3 _ hostOps3_writes (by decide : main_arg2 ∉ hostOps3_W))
    _ = W5 m ρ c (Proc.devRef .tc main_arg2) := (W6_of_ne m ρ c main_arg2 (by decide))
    _ = W4 m ρ c (Proc.devRef .tc main_arg2) := (StableHlo.after_of_writes_sub hostOps2 _ hostOps2_writes (by decide : main_arg2 ∉ hostOps2_W))
    _ = W3 m ρ c (Proc.devRef .tc main_arg2) := (W4_of_ne m ρ c main_arg2 (by decide))
    _ = W2 m ρ c (Proc.devRef .tc main_arg2) := (StableHlo.after_of_writes_sub hostOps1 _ hostOps1_writes (by decide : main_arg2 ∉ hostOps1_W))
    _ = W1 m ρ c (Proc.devRef .tc main_arg2) := (W2_of_ne m ρ c main_arg2 (by decide))
    _ = W0 m ρ c (Proc.devRef .tc main_arg2) := (StableHlo.after_of_writes_sub hostOps0 _ hostOps0_writes (by decide : main_arg2 ∉ hostOps0_W))
    _ = m ((c : Thread nD τ).loc main_arg2) := rfl
theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := (StableHlo.after_of_writes_sub hostOps4 _ hostOps4_writes (by decide : main_arg3 ∉ hostOps4_W))
    _ = W7 m ρ c (Proc.devRef .tc main_arg3) := (W8_of_ne m ρ c main_arg3 (by decide))
    _ = W6 m ρ c (Proc.devRef .tc main_arg3) := (StableHlo.after_of_writes_sub hostOps3 _ hostOps3_writes (by decide : main_arg3 ∉ hostOps3_W))
    _ = W5 m ρ c (Proc.devRef .tc main_arg3) := (W6_of_ne m ρ c main_arg3 (by decide))
    _ = W4 m ρ c (Proc.devRef .tc main_arg3) := (StableHlo.after_of_writes_sub hostOps2 _ hostOps2_writes (by decide : main_arg3 ∉ hostOps2_W))
    _ = W3 m ρ c (Proc.devRef .tc main_arg3) := (W4_of_ne m ρ c main_arg3 (by decide))
    _ = W2 m ρ c (Proc.devRef .tc main_arg3) := (StableHlo.after_of_writes_sub hostOps1 _ hostOps1_writes (by decide : main_arg3 ∉ hostOps1_W))
    _ = W1 m ρ c (Proc.devRef .tc main_arg3) := (W2_of_ne m ρ c main_arg3 (by decide))
    _ = W0 m ρ c (Proc.devRef .tc main_arg3) := (StableHlo.after_of_writes_sub hostOps0 _ hostOps0_writes (by decide : main_arg3 ∉ hostOps0_W))
    _ = m ((c : Thread nD τ).loc main_arg3) := rfl
theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := (StableHlo.after_of_writes_sub hostOps4 _ hostOps4_writes (by decide : main_arg4 ∉ hostOps4_W))
    _ = W7 m ρ c (Proc.devRef .tc main_arg4) := (W8_of_ne m ρ c main_arg4 (by decide))
    _ = W6 m ρ c (Proc.devRef .tc main_arg4) := (StableHlo.after_of_writes_sub hostOps3 _ hostOps3_writes (by decide : main_arg4 ∉ hostOps3_W))
    _ = W5 m ρ c (Proc.devRef .tc main_arg4) := (W6_of_ne m ρ c main_arg4 (by decide))
    _ = W4 m ρ c (Proc.devRef .tc main_arg4) := (StableHlo.after_of_writes_sub hostOps2 _ hostOps2_writes (by decide : main_arg4 ∉ hostOps2_W))
    _ = W3 m ρ c (Proc.devRef .tc main_arg4) := (W4_of_ne m ρ c main_arg4 (by decide))
    _ = W2 m ρ c (Proc.devRef .tc main_arg4) := (StableHlo.after_of_writes_sub hostOps1 _ hostOps1_writes (by decide : main_arg4 ∉ hostOps1_W))
    _ = W1 m ρ c (Proc.devRef .tc main_arg4) := (W2_of_ne m ρ c main_arg4 (by decide))
    _ = W0 m ρ c (Proc.devRef .tc main_arg4) := (StableHlo.after_of_writes_sub hostOps0 _ hostOps0_writes (by decide : main_arg4 ∉ hostOps0_W))
    _ = m ((c : Thread nD τ).loc main_arg4) := rfl
theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := (StableHlo.after_of_writes_sub hostOps4 _ hostOps4_writes (by decide : main_arg5 ∉ hostOps4_W))
    _ = W7 m ρ c (Proc.devRef .tc main_arg5) := (W8_of_ne m ρ c main_arg5 (by decide))
    _ = W6 m ρ c (Proc.devRef .tc main_arg5) := (StableHlo.after_of_writes_sub hostOps3 _ hostOps3_writes (by decide : main_arg5 ∉ hostOps3_W))
    _ = W5 m ρ c (Proc.devRef .tc main_arg5) := (W6_of_ne m ρ c main_arg5 (by decide))
    _ = W4 m ρ c (Proc.devRef .tc main_arg5) := (StableHlo.after_of_writes_sub hostOps2 _ hostOps2_writes (by decide : main_arg5 ∉ hostOps2_W))
    _ = W3 m ρ c (Proc.devRef .tc main_arg5) := (W4_of_ne m ρ c main_arg5 (by decide))
    _ = W2 m ρ c (Proc.devRef .tc main_arg5) := (StableHlo.after_of_writes_sub hostOps1 _ hostOps1_writes (by decide : main_arg5 ∉ hostOps1_W))
    _ = W1 m ρ c (Proc.devRef .tc main_arg5) := (W2_of_ne m ρ c main_arg5 (by decide))
    _ = W0 m ρ c (Proc.devRef .tc main_arg5) := (StableHlo.after_of_writes_sub hostOps0 _ hostOps0_writes (by decide : main_arg5 ∉ hostOps0_W))
    _ = m ((c : Thread nD τ).loc main_arg5) := rfl
theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := (StableHlo.after_of_writes_sub hostOps4 _ hostOps4_writes (by decide : main_arg6 ∉ hostOps4_W))
    _ = W7 m ρ c (Proc.devRef .tc main_arg6) := (W8_of_ne m ρ c main_arg6 (by decide))
    _ = W6 m ρ c (Proc.devRef .tc main_arg6) := (StableHlo.after_of_writes_sub hostOps3 _ hostOps3_writes (by decide : main_arg6 ∉ hostOps3_W))
    _ = W5 m ρ c (Proc.devRef .tc main_arg6) := (W6_of_ne m ρ c main_arg6 (by decide))
    _ = W4 m ρ c (Proc.devRef .tc main_arg6) := (StableHlo.after_of_writes_sub hostOps2 _ hostOps2_writes (by decide : main_arg6 ∉ hostOps2_W))
    _ = W3 m ρ c (Proc.devRef .tc main_arg6) := (W4_of_ne m ρ c main_arg6 (by decide))
    _ = W2 m ρ c (Proc.devRef .tc main_arg6) := (StableHlo.after_of_writes_sub hostOps1 _ hostOps1_writes (by decide : main_arg6 ∉ hostOps1_W))
    _ = W1 m ρ c (Proc.devRef .tc main_arg6) := (W2_of_ne m ρ c main_arg6 (by decide))
    _ = W0 m ρ c (Proc.devRef .tc main_arg6) := (StableHlo.after_of_writes_sub hostOps0 _ hostOps0_writes (by decide : main_arg6 ∉ hostOps0_W))
    _ = m ((c : Thread nD τ).loc main_arg6) := rfl
theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := (StableHlo.after_of_writes_sub hostOps4 _ hostOps4_writes (by decide : main_arg7 ∉ hostOps4_W))
    _ = W7 m ρ c (Proc.devRef .tc main_arg7) := (W8_of_ne m ρ c main_arg7 (by decide))
    _ = W6 m ρ c (Proc.devRef .tc main_arg7) := (StableHlo.after_of_writes_sub hostOps3 _ hostOps3_writes (by decide : main_arg7 ∉ hostOps3_W))
    _ = W5 m ρ c (Proc.devRef .tc main_arg7) := (W6_of_ne m ρ c main_arg7 (by decide))
    _ = W4 m ρ c (Proc.devRef .tc main_arg7) := (StableHlo.after_of_writes_sub hostOps2 _ hostOps2_writes (by decide : main_arg7 ∉ hostOps2_W))
    _ = W3 m ρ c (Proc.devRef .tc main_arg7) := (W4_of_ne m ρ c main_arg7 (by decide))
    _ = W2 m ρ c (Proc.devRef .tc main_arg7) := (StableHlo.after_of_writes_sub hostOps1 _ hostOps1_writes (by decide : main_arg7 ∉ hostOps1_W))
    _ = W1 m ρ c (Proc.devRef .tc main_arg7) := (W2_of_ne m ρ c main_arg7 (by decide))
    _ = W0 m ρ c (Proc.devRef .tc main_arg7) := (StableHlo.after_of_writes_sub hostOps0 _ hostOps0_writes (by decide : main_arg7 ∉ hostOps0_W))
    _ = m ((c : Thread nD τ).loc main_arg7) := rfl
theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := (StableHlo.after_of_writes_sub hostOps4 _ hostOps4_writes (by decide : main_arg8 ∉ hostOps4_W))
    _ = W7 m ρ c (Proc.devRef .tc main_arg8) := (W8_of_ne m ρ c main_arg8 (by decide))
    _ = W6 m ρ c (Proc.devRef .tc main_arg8) := (StableHlo.after_of_writes_sub hostOps3 _ hostOps3_writes (by decide : main_arg8 ∉ hostOps3_W))
    _ = W5 m ρ c (Proc.devRef .tc main_arg8) := (W6_of_ne m ρ c main_arg8 (by decide))
    _ = W4 m ρ c (Proc.devRef .tc main_arg8) := (StableHlo.after_of_writes_sub hostOps2 _ hostOps2_writes (by decide : main_arg8 ∉ hostOps2_W))
    _ = W3 m ρ c (Proc.devRef .tc main_arg8) := (W4_of_ne m ρ c main_arg8 (by decide))
    _ = W2 m ρ c (Proc.devRef .tc main_arg8) := (StableHlo.after_of_writes_sub hostOps1 _ hostOps1_writes (by decide : main_arg8 ∉ hostOps1_W))
    _ = W1 m ρ c (Proc.devRef .tc main_arg8) := (W2_of_ne m ρ c main_arg8 (by decide))
    _ = W0 m ρ c (Proc.devRef .tc main_arg8) := (StableHlo.after_of_writes_sub hostOps0 _ hostOps0_writes (by decide : main_arg8 ∉ hostOps0_W))
    _ = m ((c : Thread nD τ).loc main_arg8) := rfl
theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := (StableHlo.after_of_writes_sub hostOps4 _ hostOps4_writes (by decide : main_arg9 ∉ hostOps4_W))
    _ = W7 m ρ c (Proc.devRef .tc main_arg9) := ((W8_arr m ρ c 4).trans (((Reg3.dat (V7 m ρ) c).arrAt_in 4 rfl _).trans (Reg3.A_eq (V7 m ρ) c 4)))
    _ = W6 m ρ c (Proc.devRef .tc main_arg9) := (StableHlo.after_of_writes_sub hostOps3 _ hostOps3_writes (by decide : main_arg9 ∉ hostOps3_W))
    _ = W5 m ρ c (Proc.devRef .tc main_arg9) := (W6_of_ne m ρ c main_arg9 (by decide))
    _ = W4 m ρ c (Proc.devRef .tc main_arg9) := (StableHlo.after_of_writes_sub hostOps2 _ hostOps2_writes (by decide : main_arg9 ∉ hostOps2_W))
    _ = W3 m ρ c (Proc.devRef .tc main_arg9) := (W4_of_ne m ρ c main_arg9 (by decide))
    _ = W2 m ρ c (Proc.devRef .tc main_arg9) := (StableHlo.after_of_writes_sub hostOps1 _ hostOps1_writes (by decide : main_arg9 ∉ hostOps1_W))
    _ = W1 m ρ c (Proc.devRef .tc main_arg9) := (W2_of_ne m ρ c main_arg9 (by decide))
    _ = W0 m ρ c (Proc.devRef .tc main_arg9) := (StableHlo.after_of_writes_sub hostOps0 _ hostOps0_writes (by decide : main_arg9 ∉ hostOps0_W))
    _ = m ((c : Thread nD τ).loc main_arg9) := rfl
theorem W9_main_arg10 (c : Dev nD) : W9 m ρ c (Proc.devRef .tc main_arg10) = m ((c : Thread nD τ).loc main_arg10) :=
  calc W9 m ρ c (Proc.devRef .tc main_arg10)
    _ = W8 m ρ c (Proc.devRef .tc main_arg10) := (StableHlo.after_of_writes_sub hostOps4 _ hostOps4_writes (by decide : main_arg10 ∉ hostOps4_W))
    _ = W7 m ρ c (Proc.devRef .tc main_arg10) := (W8_of_ne m ρ c main_arg10 (by decide))
    _ = W6 m ρ c (Proc.devRef .tc main_arg10) := (StableHlo.after_of_writes_sub hostOps3 _ hostOps3_writes (by decide : main_arg10 ∉ hostOps3_W))
    _ = W5 m ρ c (Proc.devRef .tc main_arg10) := (W6_of_ne m ρ c main_arg10 (by decide))
    _ = W4 m ρ c (Proc.devRef .tc main_arg10) := (StableHlo.after_of_writes_sub hostOps2 _ hostOps2_writes (by decide : main_arg10 ∉ hostOps2_W))
    _ = W3 m ρ c (Proc.devRef .tc main_arg10) := (W4_of_ne m ρ c main_arg10 (by decide))
    _ = W2 m ρ c (Proc.devRef .tc main_arg10) := (StableHlo.after_of_writes_sub hostOps1 _ hostOps1_writes (by decide : main_arg10 ∉ hostOps1_W))
    _ = W1 m ρ c (Proc.devRef .tc main_arg10) := (W2_of_ne m ρ c main_arg10 (by decide))
    _ = W0 m ρ c (Proc.devRef .tc main_arg10) := (StableHlo.after_of_writes_sub hostOps0 _ hostOps0_writes (by decide : main_arg10 ∉ hostOps0_W))
    _ = m ((c : Thread nD τ).loc main_arg10) := rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => Reg0.dat (V1 m ρ) c
  | ⟨1, _⟩ => fun c => Reg1.dat (V3 m ρ) c
  | ⟨2, _⟩ => fun c => Reg2.dat (V5 m ρ) c
  | ⟨3, _⟩ => fun c => Reg3.dat (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 over the thread state: entered from every unscoped buffer at the contents before it, left at the contents
    after it. Its arrays are split out of the unscoped buffers and put back at the exit contents; the generator register
    goes into the region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at the exit contents; the generator register
    goes into the region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it. Its arrays are split out of the unscoped buffers and put back at the exit contents; the generator register
    goes into the region's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents before it, left at the contents
    after it. Its arrays are split out of the unscoped buffers and put back at the exit contents; the generator register
    goes into the region's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Reg3.body_obligation (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has the result at the last boundary's contents and every argument array as launched. -/
theorem run : θ_run defs (onTc (τ := τ) (main (F := F))) ⟨m, fun _ => 0, ρ⟩ (fun r => ∀ c : Dev nD,
      r.2.mem ((c.tc : Thread nD τ).loc main_v19) = W9 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v19 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run m ρ)

end Cert.ReferenceIdeal.Run

end
-- ==== Proof.OutCanon.lean ====
import proofs.«168336_g2000006919451318_pallasbulk_203_2_alg».proof.Proof.KIFrame
import proofs.«168336_g2000006919451318_pallasbulk_203_2_alg».proof.Proof.RefReg0
import proofs.«168336_g2000006919451318_pallasbulk_203_2_alg».proof.Proof.RefReg1
import proofs.«168336_g2000006919451318_pallasbulk_203_2_alg».proof.Proof.RefReg2
import proofs.«168336_g2000006919451318_pallasbulk_203_2_alg».proof.Proof.RefReg3

set_option maxRecDepth 16384

noncomputable section

open Idealize.ShloMosaic Idealize.ShloMosaic.TcCoe

namespace Cert.Bridge

/-! # An output block is the contents its stored pieces describe

The proof data name each output block as the stored pieces read back over arbitrary prior contents; that is the
pieces' own canonical contents, whatever the buffer held before. -/

/-- The fused kernel's output block. -/
theorem outK_canon {F : FTy → Type} [FloatOps F] (c : Dev Cert.KernelIdeal.nD) (i : Cert.KernelIdeal.grid0.Coords) (arg1 : Memref Cert.KernelIdeal.sig .tc .vmem Cert.KernelIdeal.S1x576x128 .f32) (harg1 : arg1.IsWhole) (arg2 : Memref Cert.KernelIdeal.sig .tc .vmem Cert.KernelIdeal.S1x128 .f32) (harg2 : arg2.IsWhole) (arg3 : Memref Cert.KernelIdeal.sig .tc .vmem Cert.KernelIdeal.S1x128 .f32) (harg3 : arg3.IsWhole) (arg4 : Memref Cert.KernelIdeal.sig .tc .vmem Cert.KernelIdeal.S3456x256 .bf16) (harg4 : arg4.IsWhole) (arg5 : Memref Cert.KernelIdeal.sig .tc .vmem Cert.KernelIdeal.S1x256 .f32) (harg5 : arg5.IsWhole) (arg6 : Memref Cert.KernelIdeal.sig .tc .vmem Cert.KernelIdeal.S1x256 .f32) (harg6 : arg6.IsWhole) (arg7 : Memref Cert.KernelIdeal.sig .tc .vmem Cert.KernelIdeal.S1x256 .f32) (harg7 : arg7.IsWhole) (arg8 : Memref Cert.KernelIdeal.sig .tc .vmem Cert.KernelIdeal.S6912x256 .bf16) (harg8 : arg8.IsWhole) (arg9 : Memref Cert.KernelIdeal.sig .tc .vmem Cert.KernelIdeal.S1x256 .f32) (harg9 : arg9.IsWhole) (arg10 : Memref Cert.KernelIdeal.sig .tc .vmem Cert.KernelIdeal.S128x256 .bf16) (harg10 : arg10.IsWhole) (arg11 : Memref Cert.KernelIdeal.sig .tc .vmem Cert.KernelIdeal.S1x576x256 .f32) (harg11 : arg11.IsWhole) (arg12 : Memref Cert.KernelIdeal.sig .tc .vmem Cert.KernelIdeal.S6x14x14x128 .bf16) (harg12 : arg12.IsWhole) (arg13 : Memref Cert.KernelIdeal.sig .tc .vmem Cert.KernelIdeal.S6x14x14x256 .bf16) (harg13 : arg13.IsWhole) (x0 : Vec F Cert.KernelIdeal.S1x576x128 .f32) (x1 : Vec F Cert.KernelIdeal.S1x128 .f32) (x2 : Vec F Cert.KernelIdeal.S1x128 .f32) (x3 : Vec F Cert.KernelIdeal.S3456x256 .bf16) (x4 : Vec F Cert.KernelIdeal.S1x256 .f32) (x5 : Vec F Cert.KernelIdeal.S1x256 .f32) (x6 : Vec F Cert.KernelIdeal.S1x256 .f32) (x7 : Vec F Cert.KernelIdeal.S6912x256 .bf16) (x8 : Vec F Cert.KernelIdeal.S1x256 .f32) (x9 : Vec F Cert.KernelIdeal.S128x256 .bf16) :
    Cert.KernelIdeal.Body.outBlk c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 = View.canon (Val := Elt F) (Cert.KernelIdeal.Body.kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1 := by
  unfold Cert.KernelIdeal.Body.outBlk
  exact View.read_writes_junk_eq_canon _ _

/-- What region 0's body leaves in its output block is the contents its stored pieces describe. -/
theorem out0_canon {F : FTy → Type} [FloatOps F] (c : Dev Cert.ReferenceIdeal.nD) (i : Cert.ReferenceIdeal.grid0.Coords) (arg1 : Memref Cert.ReferenceIdeal.sig .tc .vmem Cert.ReferenceIdeal.S1x576x128 .f32) (harg1 : arg1.IsWhole) (arg2 : Memref Cert.ReferenceIdeal.sig .tc .vmem Cert.ReferenceIdeal.S1x128 .f32) (harg2 : arg2.IsWhole) (arg3 : Memref Cert.ReferenceIdeal.sig .tc .vmem Cert.ReferenceIdeal.S1x128 .f32) (harg3 : arg3.IsWhole) (arg4 : Memref Cert.ReferenceIdeal.sig .tc .vmem Cert.ReferenceIdeal.S1x6x14x14x128 .f32) (harg4 : arg4.IsWhole) (x0 : Vec F Cert.ReferenceIdeal.S1x576x128 .f32) (x1 : Vec F Cert.ReferenceIdeal.S1x128 .f32) (x2 : Vec F Cert.ReferenceIdeal.S1x128 .f32) :
    Cert.ReferenceIdeal.Reg0.outBlk c i arg1 harg1 arg2 harg2 arg3 harg3 arg4 harg4 x0 x1 x2 = View.canon (Val := Elt F) (Cert.ReferenceIdeal.Reg0.kernelRun c i arg1 harg1 arg2 harg2 arg3 harg3 arg4 harg4 x0 x1 x2).1 := by
  unfold Cert.ReferenceIdeal.Reg0.outBlk
  exact View.read_writes_junk_eq_canon _ _

/-- What region 1's body leaves in its output block is the contents its stored pieces describe. -/
theorem out1_canon {F : FTy → Type} [FloatOps F] (c : Dev Cert.ReferenceIdeal.nD) (i : Cert.ReferenceIdeal.grid1.Coords) (arg1 : Memref Cert.ReferenceIdeal.sig .tc .vmem Cert.ReferenceIdeal.S1x6x14x14x128 .f32) (harg1 : arg1.IsWhole) (arg2 : Memref Cert.ReferenceIdeal.sig .tc .vmem Cert.ReferenceIdeal.S3456x256 .f32) (harg2 : arg2.IsWhole) (arg3 : Memref Cert.ReferenceIdeal.sig .tc .vmem Cert.ReferenceIdeal.S1x256 .f32) (harg3 : arg3.IsWhole) (arg4 : Memref Cert.ReferenceIdeal.sig .tc .vmem Cert.ReferenceIdeal.S1x576x256 .f32) (harg4 : arg4.IsWhole) (x0 : Vec F Cert.ReferenceIdeal.S1x6x14x14x128 .f32) (x1 : Vec F Cert.ReferenceIdeal.S3456x256 .f32) (x2 : Vec F Cert.ReferenceIdeal.S1x256 .f32) :
    Cert.ReferenceIdeal.Reg1.outBlk c i arg1 harg1 arg2 harg2 arg3 harg3 arg4 harg4 x0 x1 x2 = View.canon (Val := Elt F) (Cert.ReferenceIdeal.Reg1.kernelRun c i arg1 harg1 arg2 harg2 arg3 harg3 arg4 harg4 x0 x1 x2).1 := by
  unfold Cert.ReferenceIdeal.Reg1.outBlk
  exact View.read_writes_junk_eq_canon _ _

/-- What region 2's body leaves in its output block is the contents its stored pieces describe. -/
theorem out2_canon {F : FTy → Type} [FloatOps F] (c : Dev Cert.ReferenceIdeal.nD) (i : Cert.ReferenceIdeal.grid2.Coords) (arg1 : Memref Cert.ReferenceIdeal.sig .tc .vmem Cert.ReferenceIdeal.S1x576x256 .f32) (harg1 : arg1.IsWhole) (arg2 : Memref Cert.ReferenceIdeal.sig .tc .vmem Cert.ReferenceIdeal.S1x256 .f32) (harg2 : arg2.IsWhole) (arg3 : Memref Cert.ReferenceIdeal.sig .tc .vmem Cert.ReferenceIdeal.S1x256 .f32) (harg3 : arg3.IsWhole) (arg4 : Memref Cert.ReferenceIdeal.sig .tc .vmem Cert.ReferenceIdeal.S1x6x14x14x256 .f32) (harg4 : arg4.IsWhole) (x0 : Vec F Cert.ReferenceIdeal.S1x576x256 .f32) (x1 : Vec F Cert.ReferenceIdeal.S1x256 .f32) (x2 : Vec F Cert.ReferenceIdeal.S1x256 .f32) :
    Cert.ReferenceIdeal.Reg2.outBlk c i arg1 harg1 arg2 harg2 arg3 harg3 arg4 harg4 x0 x1 x2 = View.canon (Val := Elt F) (Cert.ReferenceIdeal.Reg2.kernelRun c i arg1 harg1 arg2 harg2 arg3 harg3 arg4 harg4 x0 x1 x2).1 := by
  unfold Cert.ReferenceIdeal.Reg2.outBlk
  exact View.read_writes_junk_eq_canon _ _

/-- What region 3's body leaves in its output block is the contents its stored pieces describe. -/
theorem out3_canon {F : FTy → Type} [FloatOps F] (c : Dev Cert.ReferenceIdeal.nD) (i : Cert.ReferenceIdeal.grid3.Coords) (arg1 : Memref Cert.ReferenceIdeal.sig .tc .vmem Cert.ReferenceIdeal.S1x6x14x14x256 .f32) (harg1 : arg1.IsWhole) (arg2 : Memref Cert.ReferenceIdeal.sig .tc .vmem Cert.ReferenceIdeal.S6912x256 .f32) (harg2 : arg2.IsWhole) (arg3 : Memref Cert.ReferenceIdeal.sig .tc .vmem Cert.ReferenceIdeal.S1x256 .f32) (harg3 : arg3.IsWhole) (arg4 : Memref Cert.ReferenceIdeal.sig .tc .vmem Cert.ReferenceIdeal.S1x576x128 .f32) (harg4 : arg4.IsWhole) (arg5 : Memref Cert.ReferenceIdeal.sig .tc .vmem Cert.ReferenceIdeal.S128x256 .f32) (harg5 : arg5.IsWhole) (arg6 : Memref Cert.ReferenceIdeal.sig .tc .vmem Cert.ReferenceIdeal.S1x576x256 .f32) (harg6 : arg6.IsWhole) (x0 : Vec F Cert.ReferenceIdeal.S1x6x14x14x256 .f32) (x1 : Vec F Cert.ReferenceIdeal.S6912x256 .f32) (x2 : Vec F Cert.ReferenceIdeal.S1x256 .f32) (x3 : Vec F Cert.ReferenceIdeal.S1x576x128 .f32) (x4 : Vec F Cert.ReferenceIdeal.S128x256 .f32) :
    Cert.ReferenceIdeal.Reg3.outBlk c i arg1 harg1 arg2 harg2 arg3 harg3 arg4 harg4 arg5 harg5 arg6 harg6 x0 x1 x2 x3 x4 = View.canon (Val := Elt F) (Cert.ReferenceIdeal.Reg3.kernelRun c i arg1 harg1 arg2 harg2 arg3 harg3 arg4 harg4 arg5 harg5 arg6 harg6 x0 x1 x2 x3 x4).1 := by
  unfold Cert.ReferenceIdeal.Reg3.outBlk
  exact View.read_writes_junk_eq_canon _ _

end Cert.Bridge

end
-- ==== Proof.KIBlocks.lean ====
import proofs.«168336_g2000006919451318_pallasbulk_203_2_alg».proof.Proof.Gen.KernelIdeal.Launch
import proofs.«168336_g2000006919451318_pallasbulk_203_2_alg».proof.Proof.Gen.KernelIdeal.Skeleton
import proofs.«168336_g2000006919451318_pallasbulk_203_2_alg».proof.Proof.Gen.KernelIdeal.Points
import proofs.«168336_g2000006919451318_pallasbulk_203_2_alg».proof.Proof.Gen.KernelIdeal.Frame
import proofs.«168336_g2000006919451318_pallasbulk_203_2_alg».proof.Proof.KIFrame
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The output array, sample by sample

Grid point `t` writes block `t` of the [32, 576, 256] output array and no other point touches it, so after the run
block `t` of the array is what point `t` left in the output window's buffer. -/

/-- Distinct grid points write distinct blocks of the output array. -/
theorem idx_inj_out : ∀ t t' : Fin cfg0.N, win0_10.index t = win0_10.index t' → t = t' :=
  (by decide +kernel : ∀ t t' : Fin grid0.N, win0_10.index t = win0_10.index t' → t = t')

theorem disjoint_out : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj_out t t' h)

/-- Block `t` of the output array after the run is what point `t` wrote back. -/
theorem blocks_out (c : Dev nD) (t : Fin cfg0.N) :
    ((cfg0.win 10).blk t).view.read (Elt F) ((dats m 0 c).arrAt 10 cfg0.N) = (dats m 0 c).flushed 10 t :=
  (dats m 0 c).read_blk_arrAt_eq_flushed 10 disjoint_out cfg0.N t t.isLt (flush0_10 t)

/-- What point `t` writes back is what the body left in the output window's buffer. -/
theorem flushed_out (c : Dev nD) (t : Fin cfg0.N) :
    (dats m 0 c).flushed 10 t = (cfg0.win 10).cut (grid0.coords t)
      (outBlk c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t)) := by
  show (cfg0.win 10).cut (grid0.coords t) ((dats m 0 c).after 10 t) = _
  rw [after_10]

end Cert.KernelIdeal.Body

end
-- ==== Proof.RefBlocks.lean ====
import proofs.«168336_g2000006919451318_pallasbulk_203_2_alg».proof.Proof.RefReg0
import proofs.«168336_g2000006919451318_pallasbulk_203_2_alg».proof.Proof.RefReg1
import proofs.«168336_g2000006919451318_pallasbulk_203_2_alg».proof.Proof.RefReg2
import proofs.«168336_g2000006919451318_pallasbulk_203_2_alg».proof.Proof.RefReg3
import Idealize.ShloMosaic.Lib.Pipeline.Value

set_option maxRecDepth 16384

noncomputable section

open Idealize.ShloMosaic Idealize.ShloMosaic.TcCoe Idealize.SL.Sem
open Idealize.ShloMosaic.Pipeline (Dat)
open Cert.ReferenceIdeal Cert.ReferenceIdeal.Gen

/-! # The reference's region outputs, sample by sample

In every region grid point `t` writes block `t` of the region's output array and no other point touches it, so after
the region block `t` of that array is what point `t` left in the output window's buffer. -/

namespace Cert.ReferenceIdeal.Reg0

variable {F : FTy → Type} [FloatOps F]
variable (V : (c : Dev nD) → (b : Ref sig .tc) → Buf (Elt F) ((c : Thread nD τ).loc b))

/-- Distinct grid points write distinct blocks of region 0's output array. -/
theorem idx_inj_out : ∀ t t' : Fin cfg0.N, win0_3.index t = win0_3.index t' → t = t' :=
  (by decide +kernel : ∀ t t' : Fin grid0.N, win0_3.index t = win0_3.index t' → t = t')

theorem disjoint_out : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj_out t t' h)

/-- Block `t` of region 0's output array after the region is what point `t` wrote back. -/
theorem blocks_out (c : Dev nD) (t : Fin cfg0.N) :
    ((cfg0.win 3).blk t).view.read (Elt F) ((dat V c).arrAt 3 cfg0.N) = (dat V c).flushed 3 t :=
  (dat V c).read_blk_arrAt_eq_flushed 3 disjoint_out cfg0.N t t.isLt (flush0_3 t)

/-- What point `t` writes back is what the body left in the output window's buffer. -/
theorem flushed_out (c : Dev nD) (t : Fin cfg0.N) :
    (dat V c).flushed 3 t = (cfg0.win 3).cut (grid0.coords t)
      (outBlk c (grid0.coords t) (ms0 t) (hs0 t) (ms1 t) (hs1 t) (ms2 t) (hs2 t) (ms3 t) (hs3 t) (iblk V c 0 t) (iblk V c 1 t) (iblk V c 2 t)) := by
  show (cfg0.win 3).cut (grid0.coords t) ((dat V c).after 3 t) = _
  rw [after_3]

end Cert.ReferenceIdeal.Reg0

namespace Cert.ReferenceIdeal.Reg1

variable {F : FTy → Type} [FloatOps F]
variable (V : (c : Dev nD) → (b : Ref sig .tc) → Buf (Elt F) ((c : Thread nD τ).loc b))

/-- Distinct grid points write distinct blocks of region 1's output array. -/
theorem idx_inj_out : ∀ t t' : Fin cfg1.N, win1_3.index t = win1_3.index t' → t = t' :=
  (by decide +kernel : ∀ t t' : Fin grid1.N, win1_3.index t = win1_3.index t' → t = t')

theorem disjoint_out : ∀ t t' : Fin cfg1.N, (cfg1.win 3).flush t = true → (cfg1.win 3).flush t' = true → t ≠ t' →
    Disjoint ((cfg1.win 3).blk t).view.set ((cfg1.win 3).blk t').view.set :=
  fun t t' _ _ hne => (cfg1.win 3).disjoint_blk fun h => hne (idx_inj_out t t' h)

/-- Block `t` of region 1's output array after the region is what point `t` wrote back. -/
theorem blocks_out (c : Dev nD) (t : Fin cfg1.N) :
    ((cfg1.win 3).blk t).view.read (Elt F) ((dat V c).arrAt 3 cfg1.N) = (dat V c).flushed 3 t :=
  (dat V c).read_blk_arrAt_eq_flushed 3 disjoint_out cfg1.N t t.isLt (flush1_3 t)

/-- What point `t` writes back is what the body left in the output window's buffer. -/
theorem flushed_out (c : Dev nD) (t : Fin cfg1.N) :
    (dat V c).flushed 3 t = (cfg1.win 3).cut (grid1.coords t)
      (outBlk c (grid1.coords t) (ms0 t) (hs0 t) (ms1 t) (hs1 t) (ms2 t) (hs2 t) (ms3 t) (hs3 t) (iblk V c 0 t) (iblk V c 1 t) (iblk V c 2 t)) := by
  show (cfg1.win 3).cut (grid1.coords t) ((dat V c).after 3 t) = _
  rw [after_3]

end Cert.ReferenceIdeal.Reg1

namespace Cert.ReferenceIdeal.Reg2

variable {F : FTy → Type} [FloatOps F]
variable (V : (c : Dev nD) → (b : Ref sig .tc) → Buf (Elt F) ((c : Thread nD τ).loc b))

/-- Distinct grid points write distinct blocks of region 2's output array. -/
theorem idx_inj_out : ∀ t t' : Fin cfg2.N, win2_3.index t = win2_3.index t' → t = t' :=
  (by decide +kernel : ∀ t t' : Fin grid2.N, win2_3.index t = win2_3.index t' → t = t')

theorem disjoint_out : ∀ t t' : Fin cfg2.N, (cfg2.win 3).flush t = true → (cfg2.win 3).flush t' = true → t ≠ t' →
    Disjoint ((cfg2.win 3).blk t).view.set ((cfg2.win 3).blk t').view.set :=
  fun t t' _ _ hne => (cfg2.win 3).disjoint_blk fun h => hne (idx_inj_out t t' h)

/-- Block `t` of region 2's output array after the region is what point `t` wrote back. -/
theorem blocks_out (c : Dev nD) (t : Fin cfg2.N) :
    ((cfg2.win 3).blk t).view.read (Elt F) ((dat V c).arrAt 3 cfg2.N) = (dat V c).flushed 3 t :=
  (dat V c).read_blk_arrAt_eq_flushed 3 disjoint_out cfg2.N t t.isLt (flush2_3 t)

/-- What point `t` writes back is what the body left in the output window's buffer. -/
theorem flushed_out (c : Dev nD) (t : Fin cfg2.N) :
    (dat V c).flushed 3 t = (cfg2.win 3).cut (grid2.coords t)
      (outBlk c (grid2.coords t) (ms0 t) (hs0 t) (ms1 t) (hs1 t) (ms2 t) (hs2 t) (ms3 t) (hs3 t) (iblk V c 0 t) (iblk V c 1 t) (iblk V c 2 t)) := by
  show (cfg2.win 3).cut (grid2.coords t) ((dat V c).after 3 t) = _
  rw [after_3]

end Cert.ReferenceIdeal.Reg2

namespace Cert.ReferenceIdeal.Reg3

variable {F : FTy → Type} [FloatOps F]
variable (V : (c : Dev nD) → (b : Ref sig .tc) → Buf (Elt F) ((c : Thread nD τ).loc b))

/-- Distinct grid points write distinct blocks of region 3's output array. -/
theorem idx_inj_out : ∀ t t' : Fin cfg3.N, win3_5.index t = win3_5.index t' → t = t' :=
  (by decide +kernel : ∀ t t' : Fin grid3.N, win3_5.index t = win3_5.index t' → t = t')

theorem disjoint_out : ∀ t t' : Fin cfg3.N, (cfg3.win 5).flush t = true → (cfg3.win 5).flush t' = true → t ≠ t' →
    Disjoint ((cfg3.win 5).blk t).view.set ((cfg3.win 5).blk t').view.set :=
  fun t t' _ _ hne => (cfg3.win 5).disjoint_blk fun h => hne (idx_inj_out t t' h)

/-- Block `t` of region 3's output array after the region is what point `t` wrote back. -/
theorem blocks_out (c : Dev nD) (t : Fin cfg3.N) :
    ((cfg3.win 5).blk t).view.read (Elt F) ((dat V c).arrAt 5 cfg3.N) = (dat V c).flushed 5 t :=
  (dat V c).read_blk_arrAt_eq_flushed 5 disjoint_out cfg3.N t t.isLt (flush3_5 t)

/-- What point `t` writes back is what the body left in the output window's buffer. -/
theorem flushed_out (c : Dev nD) (t : Fin cfg3.N) :
    (dat V c).flushed 5 t = (cfg3.win 5).cut (grid3.coords t)
      (outBlk c (grid3.coords t) (ms0 t) (hs0 t) (ms1 t) (hs1 t) (ms2 t) (hs2 t) (ms3 t) (hs3 t) (ms4 t) (hs4 t) (ms5 t) (hs5 t) (iblk V c 0 t) (iblk V c 1 t) (iblk V c 2 t) (iblk V c 3 t) (iblk V c 4 t)) := by
  show (cfg3.win 5).cut (grid3.coords t) ((dat V c).after 5 t) = _
  rw [after_5]

end Cert.ReferenceIdeal.Reg3

end
-- ==== Proof.WinReads.lean ====
import proofs.«168336_g2000006919451318_pallasbulk_203_2_alg».proof.Proof.Gen.KernelIdeal.Launch
import proofs.«168336_g2000006919451318_pallasbulk_203_2_alg».proof.Proof.Gen.KernelIdeal.Points
import proofs.«168336_g2000006919451318_pallasbulk_203_2_alg».proof.Proof.Gen.ReferenceIdeal.Launch
import proofs.«168336_g2000006919451318_pallasbulk_203_2_alg».proof.Proof.Gen.ReferenceIdeal.Points
import Idealize.ShloMosaic.Lib.Pipeline.Value
import Idealize.ShloMosaic.Lib.ValueIdx
noncomputable section
namespace Cert.WinReads
open Idealize.ShloMosaic Idealize.ShloMosaic.ValueIdx
variable {F : FTy → Type} [FloatOps F]

/-! ## The kernel program's pipeline -/

section KernelSide
open Cert.KernelIdeal

/-- cfg0's window 0 has block index `(t, 0, 0)` at grid point `t`. -/
theorem ki_idx_0 : ∀ t : Fin cfg0.N, win0_0.index t = ![t.val, 0, 0] :=
  (by decide +kernel : ∀ t : Fin grid0.N, win0_0.index t = ![t.val, 0, 0])

/-- cfg0's window 0: the block at grid point `t`, read at `(0, p, q)`, is the array at `(t, p, q)`. -/
theorem ki_read_0 (t : Fin cfg0.N) (A : S32x576x128.Idx → Elt F .f32) (p : Fin 576) (q : Fin 128) :
    ((cfg0.win 0).blk t).view.read (Elt F) A (ix3 (0 : Fin 1) p q)
      = A (ix3 (⟨t.val, lt_of_lt_of_eq t.isLt Gen.N_0⟩ : Fin 32) p q) := by
  show A (((cfg0.win 0).blk t).view.emb (ix3 (0 : Fin 1) p q)) = _
  congr 1
  funext a; apply Fin.ext
  match a with
  | ⟨0, _⟩ =>
    show win0_0.index t (0 : Fin 3) * 1 + 1 * 0 = t.val
    have e0 : win0_0.index t (0 : Fin 3) = t.val := congrFun (ki_idx_0 t) 0
    omega
  | ⟨1, _⟩ =>
    show win0_0.index t (1 : Fin 3) * 576 + 1 * p.val = p.val
    have e1 : win0_0.index t (1 : Fin 3) = 0 := congrFun (ki_idx_0 t) 1
    omega
  | ⟨2, _⟩ =>
    show win0_0.index t (2 : Fin 3) * 128 + 1 * q.val = q.val
    have e2 : win0_0.index t (2 : Fin 3) = 0 := congrFun (ki_idx_0 t) 2
    omega

/-- cfg0's window 1 has block index `(0, 0)` at every grid point. -/
theorem ki_idx_1 : ∀ t : Fin cfg0.N, win0_1.index t = ![0, 0] :=
  (by decide +kernel : ∀ t : Fin grid0.N, win0_1.index t = ![0, 0])

/-- cfg0's window 1: the block at every grid point, read back, is the whole array. -/
theorem ki_read_1 (t : Fin cfg0.N) (A : S1x128.Idx → Elt F .f32) :
    ((cfg0.win 1).blk t).view.read (Elt F) A = A := by
  funext y
  show A (((cfg0.win 1).blk t).view.emb y) = A y
  congr 1
  funext a; apply Fin.ext
  match a with
  | ⟨0, _⟩ =>
    show win0_1.index t (0 : Fin 2) * 1 + 1 * (y 0).val = (y 0).val
    have e0 : win0_1.index t (0 : Fin 2) = 0 := congrFun (ki_idx_1 t) 0
    omega
  | ⟨1, _⟩ =>
    show win0_1.index t (1 : Fin 2) * 128 + 1 * (y 1).val = (y 1).val
    have e1 : win0_1.index t (1 : Fin 2) = 0 := congrFun (ki_idx_1 t) 1
    omega

/-- cfg0's window 2 has block index `(0, 0)` at every grid point. -/
theorem ki_idx_2 : ∀ t : Fin cfg0.N, win0_2.index t = ![0, 0] :=
  (by decide +kernel : ∀ t : Fin grid0.N, win0_2.index t = ![0, 0])

/-- cfg0's window 2: the block at every grid point, read back, is the whole array. -/
theorem ki_read_2 (t : Fin cfg0.N) (A : S1x128.Idx → Elt F .f32) :
    ((cfg0.win 2).blk t).view.read (Elt F) A = A := by
  funext y
  show A (((cfg0.win 2).blk t).view.emb y) = A y
  congr 1
  funext a; apply Fin.ext
  match a with
  | ⟨0, _⟩ =>
    show win0_2.index t (0 : Fin 2) * 1 + 1 * (y 0).val = (y 0).val
    have e0 : win0_2.index t (0 : Fin 2) = 0 := congrFun (ki_idx_2 t) 0
    omega
  | ⟨1, _⟩ =>
    show win0_2.index t (1 : Fin 2) * 128 + 1 * (y 1).val = (y 1).val
    have e1 : win0_2.index t (1 : Fin 2) = 0 := congrFun (ki_idx_2 t) 1
    omega

/-- cfg0's window 3 has block index `(0, 0)` at every grid point. -/
theorem ki_idx_3 : ∀ t : Fin cfg0.N, win0_3.index t = ![0, 0] :=
  (by decide +kernel : ∀ t : Fin grid0.N, win0_3.index t = ![0, 0])

/-- cfg0's window 3: the block at every grid point, read back, is the whole array. -/
theorem ki_read_3 (t : Fin cfg0.N) (A : S3456x256.Idx → Elt F .bf16) :
    ((cfg0.win 3).blk t).view.read (Elt F) A = A := by
  funext y
  show A (((cfg0.win 3).blk t).view.emb y) = A y
  congr 1
  funext a; apply Fin.ext
  match a with
  | ⟨0, _⟩ =>
    show win0_3.index t (0 : Fin 2) * 3456 + 1 * (y 0).val = (y 0).val
    have e0 : win0_3.index t (0 : Fin 2) = 0 := congrFun (ki_idx_3 t) 0
    omega
  | ⟨1, _⟩ =>
    show win0_3.index t (1 : Fin 2) * 256 + 1 * (y 1).val = (y 1).val
    have e1 : win0_3.index t (1 : Fin 2) = 0 := congrFun (ki_idx_3 t) 1
    omega

/-- cfg0's window 4 has block index `(0, 0)` at every grid point. -/
theorem ki_idx_4 : ∀ t : Fin cfg0.N, win0_4.index t = ![0, 0] :=
  (by decide +kernel : ∀ t : Fin grid0.N, win0_4.index t = ![0, 0])

/-- cfg0's window 4: the block at every grid point, read back, is the whole array. -/
theorem ki_read_4 (t : Fin cfg0.N) (A : S1x256.Idx → Elt F .f32) :
    ((cfg0.win 4).blk t).view.read (Elt F) A = A := by
  funext y
  show A (((cfg0.win 4).blk t).view.emb y) = A y
  congr 1
  funext a; apply Fin.ext
  match a with
  | ⟨0, _⟩ =>
    show win0_4.index t (0 : Fin 2) * 1 + 1 * (y 0).val = (y 0).val
    have e0 : win0_4.index t (0 : Fin 2) = 0 := congrFun (ki_idx_4 t) 0
    omega
  | ⟨1, _⟩ =>
    show win0_4.index t (1 : Fin 2) * 256 + 1 * (y 1).val = (y 1).val
    have e1 : win0_4.index t (1 : Fin 2) = 0 := congrFun (ki_idx_4 t) 1
    omega

/-- cfg0's window 5 has block index `(0, 0)` at every grid point. -/
theorem ki_idx_5 : ∀ t : Fin cfg0.N, win0_5.index t = ![0, 0] :=
  (by decide +kernel : ∀ t : Fin grid0.N, win0_5.index t = ![0, 0])

/-- cfg0's window 5: the block at every grid point, read back, is the whole array. -/
theorem ki_read_5 (t : Fin cfg0.N) (A : S1x256.Idx → Elt F .f32) :
    ((cfg0.win 5).blk t).view.read (Elt F) A = A := by
  funext y
  show A (((cfg0.win 5).blk t).view.emb y) = A y
  congr 1
  funext a; apply Fin.ext
  match a with
  | ⟨0, _⟩ =>
    show win0_5.index t (0 : Fin 2) * 1 + 1 * (y 0).val = (y 0).val
    have e0 : win0_5.index t (0 : Fin 2) = 0 := congrFun (ki_idx_5 t) 0
    omega
  | ⟨1, _⟩ =>
    show win0_5.index t (1 : Fin 2) * 256 + 1 * (y 1).val = (y 1).val
    have e1 : win0_5.index t (1 : Fin 2) = 0 := congrFun (ki_idx_5 t) 1
    omega

/-- cfg0's window 6 has block index `(0, 0)` at every grid point. -/
theorem ki_idx_6 : ∀ t : Fin cfg0.N, win0_6.index t = ![0, 0] :=
  (by decide +kernel : ∀ t : Fin grid0.N, win0_6.index t = ![0, 0])

/-- cfg0's window 6: the block at every grid point, read back, is the whole array. -/
theorem ki_read_6 (t : Fin cfg0.N) (A : S1x256.Idx → Elt F .f32) :
    ((cfg0.win 6).blk t).view.read (Elt F) A = A := by
  funext y
  show A (((cfg0.win 6).blk t).view.emb y) = A y
  congr 1
  funext a; apply Fin.ext
  match a with
  | ⟨0, _⟩ =>
    show win0_6.index t (0 : Fin 2) * 1 + 1 * (y 0).val = (y 0).val
    have e0 : win0_6.index t (0 : Fin 2) = 0 := congrFun (ki_idx_6 t) 0
    omega
  | ⟨1, _⟩ =>
    show win0_6.index t (1 : Fin 2) * 256 + 1 * (y 1).val = (y 1).val
    have e1 : win0_6.index t (1 : Fin 2) = 0 := congrFun (ki_idx_6 t) 1
    omega

/-- cfg0's window 7 has block index `(0, 0)` at every grid point. -/
theorem ki_idx_7 : ∀ t : Fin cfg0.N, win0_7.index t = ![0, 0] :=
  (by decide +kernel : ∀ t : Fin grid0.N, win0_7.index t = ![0, 0])

/-- cfg0's window 7: the block at every grid point, read back, is the whole array. -/
theorem ki_read_7 (t : Fin cfg0.N) (A : S6912x256.Idx → Elt F .bf16) :
    ((cfg0.win 7).blk t).view.read (Elt F) A = A := by
  funext y
  show A (((cfg0.win 7).blk t).view.emb y) = A y
  congr 1
  funext a; apply Fin.ext
  match a with
  | ⟨0, _⟩ =>
    show win0_7.index t (0 : Fin 2) * 6912 + 1 * (y 0).val = (y 0).val
    have e0 : win0_7.index t (0 : Fin 2) = 0 := congrFun (ki_idx_7 t) 0
    omega
  | ⟨1, _⟩ =>
    show win0_7.index t (1 : Fin 2) * 256 + 1 * (y 1).val = (y 1).val
    have e1 : win0_7.index t (1 : Fin 2) = 0 := congrFun (ki_idx_7 t) 1
    omega

/-- cfg0's window 8 has block index `(0, 0)` at every grid point. -/
theorem ki_idx_8 : ∀ t : Fin cfg0.N, win0_8.index t = ![0, 0] :=
  (by decide +kernel : ∀ t : Fin grid0.N, win0_8.index t = ![0, 0])

/-- cfg0's window 8: the block at every grid point, read back, is the whole array. -/
theorem ki_read_8 (t : Fin cfg0.N) (A : S1x256.Idx → Elt F .f32) :
    ((cfg0.win 8).blk t).view.read (Elt F) A = A := by
  funext y
  show A (((cfg0.win 8).blk t).view.emb y) = A y
  congr 1
  funext a; apply Fin.ext
  match a with
  | ⟨0, _⟩ =>
    show win0_8.index t (0 : Fin 2) * 1 + 1 * (y 0).val = (y 0).val
    have e0 : win0_8.index t (0 : Fin 2) = 0 := congrFun (ki_idx_8 t) 0
    omega
  | ⟨1, _⟩ =>
    show win0_8.index t (1 : Fin 2) * 256 + 1 * (y 1).val = (y 1).val
    have e1 : win0_8.index t (1 : Fin 2) = 0 := congrFun (ki_idx_8 t) 1
    omega

/-- cfg0's window 9 has block index `(0, 0)` at every grid point. -/
theorem ki_idx_9 : ∀ t : Fin cfg0.N, win0_9.index t = ![0, 0] :=
  (by decide +kernel : ∀ t : Fin grid0.N, win0_9.index t = ![0, 0])

/-- cfg0's window 9: the block at every grid point, read back, is the whole array. -/
theorem ki_read_9 (t : Fin cfg0.N) (A : S128x256.Idx → Elt F .bf16) :
    ((cfg0.win 9).blk t).view.read (Elt F) A = A := by
  funext y
  show A (((cfg0.win 9).blk t).view.emb y) = A y
  congr 1
  funext a; apply Fin.ext
  match a with
  | ⟨0, _⟩ =>
    show win0_9.index t (0 : Fin 2) * 128 + 1 * (y 0).val = (y 0).val
    have e0 : win0_9.index t (0 : Fin 2) = 0 := congrFun (ki_idx_9 t) 0
    omega
  | ⟨1, _⟩ =>
    show win0_9.index t (1 : Fin 2) * 256 + 1 * (y 1).val = (y 1).val
    have e1 : win0_9.index t (1 : Fin 2) = 0 := congrFun (ki_idx_9 t) 1
    omega

/-- cfg0's window 10 has block index `(t, 0, 0)` at grid point `t`. -/
theorem ki_idx_10 : ∀ t : Fin cfg0.N, win0_10.index t = ![t.val, 0, 0] :=
  (by decide +kernel : ∀ t : Fin grid0.N, win0_10.index t = ![t.val, 0, 0])

/-- cfg0's window 10: the block at grid point `t`, read at `(0, p, q)`, is the array at `(t, p, q)`. -/
theorem ki_read_10 (t : Fin cfg0.N) (A : S32x576x256.Idx → Elt F .f32) (p : Fin 576) (q : Fin 256) :
    ((cfg0.win 10).blk t).view.read (Elt F) A (ix3 (0 : Fin 1) p q)
      = A (ix3 (⟨t.val, lt_of_lt_of_eq t.isLt Gen.N_0⟩ : Fin 32) p q) := by
  show A (((cfg0.win 10).blk t).view.emb (ix3 (0 : Fin 1) p q)) = _
  congr 1
  funext a; apply Fin.ext
  match a with
  | ⟨0, _⟩ =>
    show win0_10.index t (0 : Fin 3) * 1 + 1 * 0 = t.val
    have e0 : win0_10.index t (0 : Fin 3) = t.val := congrFun (ki_idx_10 t) 0
    omega
  | ⟨1, _⟩ =>
    show win0_10.index t (1 : Fin 3) * 576 + 1 * p.val = p.val
    have e1 : win0_10.index t (1 : Fin 3) = 0 := congrFun (ki_idx_10 t) 1
    omega
  | ⟨2, _⟩ =>
    show win0_10.index t (2 : Fin 3) * 256 + 1 * q.val = q.val
    have e2 : win0_10.index t (2 : Fin 3) = 0 := congrFun (ki_idx_10 t) 2
    omega

end KernelSide

/-! ## The reference program's four pipelines -/

section ReferenceSide
open Cert.ReferenceIdeal

/-- cfg0's window 0 has block index `(t, 0, 0)` at grid point `t`. -/
theorem r0_idx_0 : ∀ t : Fin cfg0.N, win0_0.index t = ![t.val, 0, 0] :=
  (by decide +kernel : ∀ t : Fin grid0.N, win0_0.index t = ![t.val, 0, 0])

/-- cfg0's window 0: the block at grid point `t`, read at `(0, p, q)`, is the array at `(t, p, q)`. -/
theorem r0_read_0 (t : Fin cfg0.N) (A : S32x576x128.Idx → Elt F .f32) (p : Fin 576) (q : Fin 128) :
    ((cfg0.win 0).blk t).view.read (Elt F) A (ix3 (0 : Fin 1) p q)
      = A (ix3 (⟨t.val, lt_of_lt_of_eq t.isLt Gen.N_0⟩ : Fin 32) p q) := by
  show A (((cfg0.win 0).blk t).view.emb (ix3 (0 : Fin 1) p q)) = _
  congr 1
  funext a; apply Fin.ext
  match a with
  | ⟨0, _⟩ =>
    show win0_0.index t (0 : Fin 3) * 1 + 1 * 0 = t.val
    have e0 : win0_0.index t (0 : Fin 3) = t.val := congrFun (r0_idx_0 t) 0
    omega
  | ⟨1, _⟩ =>
    show win0_0.index t (1 : Fin 3) * 576 + 1 * p.val = p.val
    have e1 : win0_0.index t (1 : Fin 3) = 0 := congrFun (r0_idx_0 t) 1
    omega
  | ⟨2, _⟩ =>
    show win0_0.index t (2 : Fin 3) * 128 + 1 * q.val = q.val
    have e2 : win0_0.index t (2 : Fin 3) = 0 := congrFun (r0_idx_0 t) 2
    omega

/-- cfg0's window 1 has block index `(0, 0)` at every grid point. -/
theorem r0_idx_1 : ∀ t : Fin cfg0.N, win0_1.index t = ![0, 0] :=
  (by decide +kernel : ∀ t : Fin grid0.N, win0_1.index t = ![0, 0])

/-- cfg0's window 1: the block at every grid point, read back, is the whole array. -/
theorem r0_read_1 (t : Fin cfg0.N) (A : S1x128.Idx → Elt F .f32) :
    ((cfg0.win 1).blk t).view.read (Elt F) A = A := by
  funext y
  show A (((cfg0.win 1).blk t).view.emb y) = A y
  congr 1
  funext a; apply Fin.ext
  match a with
  | ⟨0, _⟩ =>
    show win0_1.index t (0 : Fin 2) * 1 + 1 * (y 0).val = (y 0).val
    have e0 : win0_1.index t (0 : Fin 2) = 0 := congrFun (r0_idx_1 t) 0
    omega
  | ⟨1, _⟩ =>
    show win0_1.index t (1 : Fin 2) * 128 + 1 * (y 1).val = (y 1).val
    have e1 : win0_1.index t (1 : Fin 2) = 0 := congrFun (r0_idx_1 t) 1
    omega

/-- cfg0's window 2 has block index `(0, 0)` at every grid point. -/
theorem r0_idx_2 : ∀ t : Fin cfg0.N, win0_2.index t = ![0, 0] :=
  (by decide +kernel : ∀ t : Fin grid0.N, win0_2.index t = ![0, 0])

/-- cfg0's window 2: the block at every grid point, read back, is the whole array. -/
theorem r0_read_2 (t : Fin cfg0.N) (A : S1x128.Idx → Elt F .f32) :
    ((cfg0.win 2).blk t).view.read (Elt F) A = A := by
  funext y
  show A (((cfg0.win 2).blk t).view.emb y) = A y
  congr 1
  funext a; apply Fin.ext
  match a with
  | ⟨0, _⟩ =>
    show win0_2.index t (0 : Fin 2) * 1 + 1 * (y 0).val = (y 0).val
    have e0 : win0_2.index t (0 : Fin 2) = 0 := congrFun (r0_idx_2 t) 0
    omega
  | ⟨1, _⟩ =>
    show win0_2.index t (1 : Fin 2) * 128 + 1 * (y 1).val = (y 1).val
    have e1 : win0_2.index t (1 : Fin 2) = 0 := congrFun (r0_idx_2 t) 1
    omega

/-- cfg0's window 3 has block index `(t, 0, 0, 0, 0)` at grid point `t`. -/
theorem r0_idx_3 : ∀ t : Fin cfg0.N, win0_3.index t = ![t.val, 0, 0, 0, 0] :=
  (by decide +kernel : ∀ t : Fin grid0.N, win0_3.index t = ![t.val, 0, 0, 0, 0])

/-- cfg0's window 3: the block at grid point `t`, read at `(0, f, h, w, c)`, is the array at `(t, f, h, w, c)`. -/
theorem r0_read_3 (t : Fin cfg0.N) (A : S32x6x14x14x128.Idx → Elt F .f32) (f : Fin 6) (h : Fin 14) (w : Fin 14) (c : Fin 128) :
    ((cfg0.win 3).blk t).view.read (Elt F) A (ix5 (0 : Fin 1) f h w c)
      = A (ix5 (⟨t.val, lt_of_lt_of_eq t.isLt Gen.N_0⟩ : Fin 32) f h w c) := by
  show A (((cfg0.win 3).blk t).view.emb (ix5 (0 : Fin 1) f h w c)) = _
  congr 1
  funext a; apply Fin.ext
  match a with
  | ⟨0, _⟩ =>
    show win0_3.index t (0 : Fin 5) * 1 + 1 * 0 = t.val
    have e0 : win0_3.index t (0 : Fin 5) = t.val := congrFun (r0_idx_3 t) 0
    omega
  | ⟨1, _⟩ =>
    show win0_3.index t (1 : Fin 5) * 6 + 1 * f.val = f.val
    have e1 : win0_3.index t (1 : Fin 5) = 0 := congrFun (r0_idx_3 t) 1
    omega
  | ⟨2, _⟩ =>
    show win0_3.index t (2 : Fin 5) * 14 + 1 * h.val = h.val
    have e2 : win0_3.index t (2 : Fin 5) = 0 := congrFun (r0_idx_3 t) 2
    omega
  | ⟨3, _⟩ =>
    show win0_3.index t (3 : Fin 5) * 14 + 1 * w.val = w.val
    have e3 : win0_3.index t (3 : Fin 5) = 0 := congrFun (r0_idx_3 t) 3
    omega
  | ⟨4, _⟩ =>
    show win0_3.index t (4 : Fin 5) * 128 + 1 * c.val = c.val
    have e4 : win0_3.index t (4 : Fin 5) = 0 := congrFun (r0_idx_3 t) 4
    omega

/-- cfg1's window 0 has block index `(t, 0, 0, 0, 0)` at grid point `t`. -/
theorem r1_idx_0 : ∀ t : Fin cfg1.N, win1_0.index t = ![t.val, 0, 0, 0, 0] :=
  (by decide +kernel : ∀ t : Fin grid1.N, win1_0.index t = ![t.val, 0, 0, 0, 0])

/-- cfg1's window 0: the block at grid point `t`, read at `(0, f, h, w, c)`, is the array at `(t, f, h, w, c)`. -/
theorem r1_read_0 (t : Fin cfg1.N) (A : S32x6x14x14x128.Idx → Elt F .f32) (f : Fin 6) (h : Fin 14) (w : Fin 14) (c : Fin 128) :
    ((cfg1.win 0).blk t).view.read (Elt F) A (ix5 (0 : Fin 1) f h w c)
      = A (ix5 (⟨t.val, lt_of_lt_of_eq t.isLt Gen.N_1⟩ : Fin 32) f h w c) := by
  show A (((cfg1.win 0).blk t).view.emb (ix5 (0 : Fin 1) f h w c)) = _
  congr 1
  funext a; apply Fin.ext
  match a with
  | ⟨0, _⟩ =>
    show win1_0.index t (0 : Fin 5) * 1 + 1 * 0 = t.val
    have e0 : win1_0.index t (0 : Fin 5) = t.val := congrFun (r1_idx_0 t) 0
    omega
  | ⟨1, _⟩ =>
    show win1_0.index t (1 : Fin 5) * 6 + 1 * f.val = f.val
    have e1 : win1_0.index t (1 : Fin 5) = 0 := congrFun (r1_idx_0 t) 1
    omega
  | ⟨2, _⟩ =>
    show win1_0.index t (2 : Fin 5) * 14 + 1 * h.val = h.val
    have e2 : win1_0.index t (2 : Fin 5) = 0 := congrFun (r1_idx_0 t) 2
    omega
  | ⟨3, _⟩ =>
    show win1_0.index t (3 : Fin 5) * 14 + 1 * w.val = w.val
    have e3 : win1_0.index t (3 : Fin 5) = 0 := congrFun (r1_idx_0 t) 3
    omega
  | ⟨4, _⟩ =>
    show win1_0.index t (4 : Fin 5) * 128 + 1 * c.val = c.val
    have e4 : win1_0.index t (4 : Fin 5) = 0 := congrFun (r1_idx_0 t) 4
    omega

/-- cfg1's window 1 has block index `(0, 0)` at every grid point. -/
theorem r1_idx_1 : ∀ t : Fin cfg1.N, win1_1.index t = ![0, 0] :=
  (by decide +kernel : ∀ t : Fin grid1.N, win1_1.index t = ![0, 0])

/-- cfg1's window 1: the block at every grid point, read back, is the whole array. -/
theorem r1_read_1 (t : Fin cfg1.N) (A : S3456x256.Idx → Elt F .f32) :
    ((cfg1.win 1).blk t).view.read (Elt F) A = A := by
  funext y
  show A (((cfg1.win 1).blk t).view.emb y) = A y
  congr 1
  funext a; apply Fin.ext
  match a with
  | ⟨0, _⟩ =>
    show win1_1.index t (0 : Fin 2) * 3456 + 1 * (y 0).val = (y 0).val
    have e0 : win1_1.index t (0 : Fin 2) = 0 := congrFun (r1_idx_1 t) 0
    omega
  | ⟨1, _⟩ =>
    show win1_1.index t (1 : Fin 2) * 256 + 1 * (y 1).val = (y 1).val
    have e1 : win1_1.index t (1 : Fin 2) = 0 := congrFun (r1_idx_1 t) 1
    omega

/-- cfg1's window 2 has block index `(0, 0)` at every grid point. -/
theorem r1_idx_2 : ∀ t : Fin cfg1.N, win1_2.index t = ![0, 0] :=
  (by decide +kernel : ∀ t : Fin grid1.N, win1_2.index t = ![0, 0])

/-- cfg1's window 2: the block at every grid point, read back, is the whole array. -/
theorem r1_read_2 (t : Fin cfg1.N) (A : S1x256.Idx → Elt F .f32) :
    ((cfg1.win 2).blk t).view.read (Elt F) A = A := by
  funext y
  show A (((cfg1.win 2).blk t).view.emb y) = A y
  congr 1
  funext a; apply Fin.ext
  match a with
  | ⟨0, _⟩ =>
    show win1_2.index t (0 : Fin 2) * 1 + 1 * (y 0).val = (y 0).val
    have e0 : win1_2.index t (0 : Fin 2) = 0 := congrFun (r1_idx_2 t) 0
    omega
  | ⟨1, _⟩ =>
    show win1_2.index t (1 : Fin 2) * 256 + 1 * (y 1).val = (y 1).val
    have e1 : win1_2.index t (1 : Fin 2) = 0 := congrFun (r1_idx_2 t) 1
    omega

/-- cfg1's window 3 has block index `(t, 0, 0)` at grid point `t`. -/
theorem r1_idx_3 : ∀ t : Fin cfg1.N, win1_3.index t = ![t.val, 0, 0] :=
  (by decide +kernel : ∀ t : Fin grid1.N, win1_3.index t = ![t.val, 0, 0])

/-- cfg1's window 3: the block at grid point `t`, read at `(0, p, q)`, is the array at `(t, p, q)`. -/
theorem r1_read_3 (t : Fin cfg1.N) (A : S32x576x256.Idx → Elt F .f32) (p : Fin 576) (q : Fin 256) :
    ((cfg1.win 3).blk t).view.read (Elt F) A (ix3 (0 : Fin 1) p q)
      = A (ix3 (⟨t.val, lt_of_lt_of_eq t.isLt Gen.N_1⟩ : Fin 32) p q) := by
  show A (((cfg1.win 3).blk t).view.emb (ix3 (0 : Fin 1) p q)) = _
  congr 1
  funext a; apply Fin.ext
  match a with
  | ⟨0, _⟩ =>
    show win1_3.index t (0 : Fin 3) * 1 + 1 * 0 = t.val
    have e0 : win1_3.index t (0 : Fin 3) = t.val := congrFun (r1_idx_3 t) 0
    omega
  | ⟨1, _⟩ =>
    show win1_3.index t (1 : Fin 3) * 576 + 1 * p.val = p.val
    have e1 : win1_3.index t (1 : Fin 3) = 0 := congrFun (r1_idx_3 t) 1
    omega
  | ⟨2, _⟩ =>
    show win1_3.index t (2 : Fin 3) * 256 + 1 * q.val = q.val
    have e2 : win1_3.index t (2 : Fin 3) = 0 := congrFun (r1_idx_3 t) 2
    omega

/-- cfg2's window 0 has block index `(t, 0, 0)` at grid point `t`. -/
theorem r2_idx_0 : ∀ t : Fin cfg2.N, win2_0.index t = ![t.val, 0, 0] :=
  (by decide +kernel : ∀ t : Fin grid2.N, win2_0.index t = ![t.val, 0, 0])

/-- cfg2's window 0: the block at grid point `t`, read at `(0, p, q)`, is the array at `(t, p, q)`. -/
theorem r2_read_0 (t : Fin cfg2.N) (A : S32x576x256.Idx → Elt F .f32) (p : Fin 576) (q : Fin 256) :
    ((cfg2.win 0).blk t).view.read (Elt F) A (ix3 (0 : Fin 1) p q)
      = A (ix3 (⟨t.val, lt_of_lt_of_eq t.isLt Gen.N_2⟩ : Fin 32) p q) := by
  show A (((cfg2.win 0).blk t).view.emb (ix3 (0 : Fin 1) p q)) = _
  congr 1
  funext a; apply Fin.ext
  match a with
  | ⟨0, _⟩ =>
    show win2_0.index t (0 : Fin 3) * 1 + 1 * 0 = t.val
    have e0 : win2_0.index t (0 : Fin 3) = t.val := congrFun (r2_idx_0 t) 0
    omega
  | ⟨1, _⟩ =>
    show win2_0.index t (1 : Fin 3) * 576 + 1 * p.val = p.val
    have e1 : win2_0.index t (1 : Fin 3) = 0 := congrFun (r2_idx_0 t) 1
    omega
  | ⟨2, _⟩ =>
    show win2_0.index t (2 : Fin 3) * 256 + 1 * q.val = q.val
    have e2 : win2_0.index t (2 : Fin 3) = 0 := congrFun (r2_idx_0 t) 2
    omega

/-- cfg2's window 1 has block index `(0, 0)` at every grid point. -/
theorem r2_idx_1 : ∀ t : Fin cfg2.N, win2_1.index t = ![0, 0] :=
  (by decide +kernel : ∀ t : Fin grid2.N, win2_1.index t = ![0, 0])

/-- cfg2's window 1: the block at every grid point, read back, is the whole array. -/
theorem r2_read_1 (t : Fin cfg2.N) (A : S1x256.Idx → Elt F .f32) :
    ((cfg2.win 1).blk t).view.read (Elt F) A = A := by
  funext y
  show A (((cfg2.win 1).blk t).view.emb y) = A y
  congr 1
  funext a; apply Fin.ext
  match a with
  | ⟨0, _⟩ =>
    show win2_1.index t (0 : Fin 2) * 1 + 1 * (y 0).val = (y 0).val
    have e0 : win2_1.index t (0 : Fin 2) = 0 := congrFun (r2_idx_1 t) 0
    omega
  | ⟨1, _⟩ =>
    show win2_1.index t (1 : Fin 2) * 256 + 1 * (y 1).val = (y 1).val
    have e1 : win2_1.index t (1 : Fin 2) = 0 := congrFun (r2_idx_1 t) 1
    omega

/-- cfg2's window 2 has block index `(0, 0)` at every grid point. -/
theorem r2_idx_2 : ∀ t : Fin cfg2.N, win2_2.index t = ![0, 0] :=
  (by decide +kernel : ∀ t : Fin grid2.N, win2_2.index t = ![0, 0])

/-- cfg2's window 2: the block at every grid point, read back, is the whole array. -/
theorem r2_read_2 (t : Fin cfg2.N) (A : S1x256.Idx → Elt F .f32) :
    ((cfg2.win 2).blk t).view.read (Elt F) A = A := by
  funext y
  show A (((cfg2.win 2).blk t).view.emb y) = A y
  congr 1
  funext a; apply Fin.ext
  match a with
  | ⟨0, _⟩ =>
    show win2_2.index t (0 : Fin 2) * 1 + 1 * (y 0).val = (y 0).val
    have e0 : win2_2.index t (0 : Fin 2) = 0 := congrFun (r2_idx_2 t) 0
    omega
  | ⟨1, _⟩ =>
    show win2_2.index t (1 : Fin 2) * 256 + 1 * (y 1).val = (y 1).val
    have e1 : win2_2.index t (1 : Fin 2) = 0 := congrFun (r2_idx_2 t) 1
    omega

/-- cfg2's window 3 has block index `(t, 0, 0, 0, 0)` at grid point `t`. -/
theorem r2_idx_3 : ∀ t : Fin cfg2.N, win2_3.index t = ![t.val, 0, 0, 0, 0] :=
  (by decide +kernel : ∀ t : Fin grid2.N, win2_3.index t = ![t.val, 0, 0, 0, 0])

/-- cfg2's window 3: the block at grid point `t`, read at `(0, f, h, w, c)`, is the array at `(t, f, h, w, c)`. -/
theorem r2_read_3 (t : Fin cfg2.N) (A : S32x6x14x14x256.Idx → Elt F .f32) (f : Fin 6) (h : Fin 14) (w : Fin 14) (c : Fin 256) :
    ((cfg2.win 3).blk t).view.read (Elt F) A (ix5 (0 : Fin 1) f h w c)
      = A (ix5 (⟨t.val, lt_of_lt_of_eq t.isLt Gen.N_2⟩ : Fin 32) f h w c) := by
  show A (((cfg2.win 3).blk t).view.emb (ix5 (0 : Fin 1) f h w c)) = _
  congr 1
  funext a; apply Fin.ext
  match a with
  | ⟨0, _⟩ =>
    show win2_3.index t (0 : Fin 5) * 1 + 1 * 0 = t.val
    have e0 : win2_3.index t (0 : Fin 5) = t.val := congrFun (r2_idx_3 t) 0
    omega
  | ⟨1, _⟩ =>
    show win2_3.index t (1 : Fin 5) * 6 + 1 * f.val = f.val
    have e1 : win2_3.index t (1 : Fin 5) = 0 := congrFun (r2_idx_3 t) 1
    omega
  | ⟨2, _⟩ =>
    show win2_3.index t (2 : Fin 5) * 14 + 1 * h.val = h.val
    have e2 : win2_3.index t (2 : Fin 5) = 0 := congrFun (r2_idx_3 t) 2
    omega
  | ⟨3, _⟩ =>
    show win2_3.index t (3 : Fin 5) * 14 + 1 * w.val = w.val
    have e3 : win2_3.index t (3 : Fin 5) = 0 := congrFun (r2_idx_3 t) 3
    omega
  | ⟨4, _⟩ =>
    show win2_3.index t (4 : Fin 5) * 256 + 1 * c.val = c.val
    have e4 : win2_3.index t (4 : Fin 5) = 0 := congrFun (r2_idx_3 t) 4
    omega

/-- cfg3's window 0 has block index `(t, 0, 0, 0, 0)` at grid point `t`. -/
theorem r3_idx_0 : ∀ t : Fin cfg3.N, win3_0.index t = ![t.val, 0, 0, 0, 0] :=
  (by decide +kernel : ∀ t : Fin grid3.N, win3_0.index t = ![t.val, 0, 0, 0, 0])

/-- cfg3's window 0: the block at grid point `t`, read at `(0, f, h, w, c)`, is the array at `(t, f, h, w, c)`. -/
theorem r3_read_0 (t : Fin cfg3.N) (A : S32x6x14x14x256.Idx → Elt F .f32) (f : Fin 6) (h : Fin 14) (w : Fin 14) (c : Fin 256) :
    ((cfg3.win 0).blk t).view.read (Elt F) A (ix5 (0 : Fin 1) f h w c)
      = A (ix5 (⟨t.val, lt_of_lt_of_eq t.isLt Gen.N_3⟩ : Fin 32) f h w c) := by
  show A (((cfg3.win 0).blk t).view.emb (ix5 (0 : Fin 1) f h w c)) = _
  congr 1
  funext a; apply Fin.ext
  match a with
  | ⟨0, _⟩ =>
    show win3_0.index t (0 : Fin 5) * 1 + 1 * 0 = t.val
    have e0 : win3_0.index t (0 : Fin 5) = t.val := congrFun (r3_idx_0 t) 0
    omega
  | ⟨1, _⟩ =>
    show win3_0.index t (1 : Fin 5) * 6 + 1 * f.val = f.val
    have e1 : win3_0.index t (1 : Fin 5) = 0 := congrFun (r3_idx_0 t) 1
    omega
  | ⟨2, _⟩ =>
    show win3_0.index t (2 : Fin 5) * 14 + 1 * h.val = h.val
    have e2 : win3_0.index t (2 : Fin 5) = 0 := congrFun (r3_idx_0 t) 2
    omega
  | ⟨3, _⟩ =>
    show win3_0.index t (3 : Fin 5) * 14 + 1 * w.val = w.val
    have e3 : win3_0.index t (3 : Fin 5) = 0 := congrFun (r3_idx_0 t) 3
    omega
  | ⟨4, _⟩ =>
    show win3_0.index t (4 : Fin 5) * 256 + 1 * c.val = c.val
    have e4 : win3_0.index t (4 : Fin 5) = 0 := congrFun (r3_idx_0 t) 4
    omega

/-- cfg3's window 1 has block index `(0, 0)` at every grid point. -/
theorem r3_idx_1 : ∀ t : Fin cfg3.N, win3_1.index t = ![0, 0] :=
  (by decide +kernel : ∀ t : Fin grid3.N, win3_1.index t = ![0, 0])

/-- cfg3's window 1: the block at every grid point, read back, is the whole array. -/
theorem r3_read_1 (t : Fin cfg3.N) (A : S6912x256.Idx → Elt F .f32) :
    ((cfg3.win 1).blk t).view.read (Elt F) A = A := by
  funext y
  show A (((cfg3.win 1).blk t).view.emb y) = A y
  congr 1
  funext a; apply Fin.ext
  match a with
  | ⟨0, _⟩ =>
    show win3_1.index t (0 : Fin 2) * 6912 + 1 * (y 0).val = (y 0).val
    have e0 : win3_1.index t (0 : Fin 2) = 0 := congrFun (r3_idx_1 t) 0
    omega
  | ⟨1, _⟩ =>
    show win3_1.index t (1 : Fin 2) * 256 + 1 * (y 1).val = (y 1).val
    have e1 : win3_1.index t (1 : Fin 2) = 0 := congrFun (r3_idx_1 t) 1
    omega

/-- cfg3's window 2 has block index `(0, 0)` at every grid point. -/
theorem r3_idx_2 : ∀ t : Fin cfg3.N, win3_2.index t = ![0, 0] :=
  (by decide +kernel : ∀ t : Fin grid3.N, win3_2.index t = ![0, 0])

/-- cfg3's window 2: the block at every grid point, read back, is the whole array. -/
theorem r3_read_2 (t : Fin cfg3.N) (A : S1x256.Idx → Elt F .f32) :
    ((cfg3.win 2).blk t).view.read (Elt F) A = A := by
  funext y
  show A (((cfg3.win 2).blk t).view.emb y) = A y
  congr 1
  funext a; apply Fin.ext
  match a with
  | ⟨0, _⟩ =>
    show win3_2.index t (0 : Fin 2) * 1 + 1 * (y 0).val = (y 0).val
    have e0 : win3_2.index t (0 : Fin 2) = 0 := congrFun (r3_idx_2 t) 0
    omega
  | ⟨1, _⟩ =>
    show win3_2.index t (1 : Fin 2) * 256 + 1 * (y 1).val = (y 1).val
    have e1 : win3_2.index t (1 : Fin 2) = 0 := congrFun (r3_idx_2 t) 1
    omega

/-- cfg3's window 3 has block index `(t, 0, 0)` at grid point `t`. -/
theorem r3_idx_3 : ∀ t : Fin cfg3.N, win3_3.index t = ![t.val, 0, 0] :=
  (by decide +kernel : ∀ t : Fin grid3.N, win3_3.index t = ![t.val, 0, 0])

/-- cfg3's window 3: the block at grid point `t`, read at `(0, p, q)`, is the array at `(t, p, q)`. -/
theorem r3_read_3 (t : Fin cfg3.N) (A : S32x576x128.Idx → Elt F .f32) (p : Fin 576) (q : Fin 128) :
    ((cfg3.win 3).blk t).view.read (Elt F) A (ix3 (0 : Fin 1) p q)
      = A (ix3 (⟨t.val, lt_of_lt_of_eq t.isLt Gen.N_3⟩ : Fin 32) p q) := by
  show A (((cfg3.win 3).blk t).view.emb (ix3 (0 : Fin 1) p q)) = _
  congr 1
  funext a; apply Fin.ext
  match a with
  | ⟨0, _⟩ =>
    show win3_3.index t (0 : Fin 3) * 1 + 1 * 0 = t.val
    have e0 : win3_3.index t (0 : Fin 3) = t.val := congrFun (r3_idx_3 t) 0
    omega
  | ⟨1, _⟩ =>
    show win3_3.index t (1 : Fin 3) * 576 + 1 * p.val = p.val
    have e1 : win3_3.index t (1 : Fin 3) = 0 := congrFun (r3_idx_3 t) 1
    omega
  | ⟨2, _⟩ =>
    show win3_3.index t (2 : Fin 3) * 128 + 1 * q.val = q.val
    have e2 : win3_3.index t (2 : Fin 3) = 0 := congrFun (r3_idx_3 t) 2
    omega

/-- cfg3's window 4 has block index `(0, 0)` at every grid point. -/
theorem r3_idx_4 : ∀ t : Fin cfg3.N, win3_4.index t = ![0, 0] :=
  (by decide +kernel : ∀ t : Fin grid3.N, win3_4.index t = ![0, 0])

/-- cfg3's window 4: the block at every grid point, read back, is the whole array. -/
theorem r3_read_4 (t : Fin cfg3.N) (A : S128x256.Idx → Elt F .f32) :
    ((cfg3.win 4).blk t).view.read (Elt F) A = A := by
  funext y
  show A (((cfg3.win 4).blk t).view.emb y) = A y
  congr 1
  funext a; apply Fin.ext
  match a with
  | ⟨0, _⟩ =>
    show win3_4.index t (0 : Fin 2) * 128 + 1 * (y 0).val = (y 0).val
    have e0 : win3_4.index t (0 : Fin 2) = 0 := congrFun (r3_idx_4 t) 0
    omega
  | ⟨1, _⟩ =>
    show win3_4.index t (1 : Fin 2) * 256 + 1 * (y 1).val = (y 1).val
    have e1 : win3_4.index t (1 : Fin 2) = 0 := congrFun (r3_idx_4 t) 1
    omega

/-- cfg3's window 5 has block index `(t, 0, 0)` at grid point `t`. -/
theorem r3_idx_5 : ∀ t : Fin cfg3.N, win3_5.index t = ![t.val, 0, 0] :=
  (by decide +kernel : ∀ t : Fin grid3.N, win3_5.index t = ![t.val, 0, 0])

/-- cfg3's window 5: the block at grid point `t`, read at `(0, p, q)`, is the array at `(t, p, q)`. -/
theorem r3_read_5 (t : Fin cfg3.N) (A : S32x576x256.Idx → Elt F .f32) (p : Fin 576) (q : Fin 256) :
    ((cfg3.win 5).blk t).view.read (Elt F) A (ix3 (0 : Fin 1) p q)
      = A (ix3 (⟨t.val, lt_of_lt_of_eq t.isLt Gen.N_3⟩ : Fin 32) p q) := by
  show A (((cfg3.win 5).blk t).view.emb (ix3 (0 : Fin 1) p q)) = _
  congr 1
  funext a; apply Fin.ext
  match a with
  | ⟨0, _⟩ =>
    show win3_5.index t (0 : Fin 3) * 1 + 1 * 0 = t.val
    have e0 : win3_5.index t (0 : Fin 3) = t.val := congrFun (r3_idx_5 t) 0
    omega
  | ⟨1, _⟩ =>
    show win3_5.index t (1 : Fin 3) * 576 + 1 * p.val = p.val
    have e1 : win3_5.index t (1 : Fin 3) = 0 := congrFun (r3_idx_5 t) 1
    omega
  | ⟨2, _⟩ =>
    show win3_5.index t (2 : Fin 3) * 256 + 1 * q.val = q.val
    have e2 : win3_5.index t (2 : Fin 3) = 0 := congrFun (r3_idx_5 t) 2
    omega

end ReferenceSide

end Cert.WinReads
-- ==== Proof.ChainIn.lean ====
import proofs.«168336_g2000006919451318_pallasbulk_203_2_alg».proof.Proof.RefRun
import proofs.«168336_g2000006919451318_pallasbulk_203_2_alg».proof.Proof.RefBlocks
import proofs.«168336_g2000006919451318_pallasbulk_203_2_alg».proof.Proof.WinReads
set_option maxRecDepth 16384
noncomputable section
namespace Cert.Bridge.Chain
open Idealize.ShloMosaic Idealize.ShloMosaic.TcCoe Idealize.ShloMosaic.ValueIdx
open Cert.ReferenceIdeal Cert.ReferenceIdeal.Gen Cert.ReferenceIdeal.Run
variable {F : FTy → Type} [FloatOps F]

/-- An index of a block with a unit leading axis, six frames and fourteen rows and columns is `(0, f, h, w, k)`. -/
theorem idx5_unit {C : Nat} (y : (⟨5, ![1, 6, 14, 14, C]⟩ : Shape).Idx) :
    ∃ (f : Fin 6) (h w : Fin 14) (k : Fin C), y = ix5 (0 : Fin 1) f h w k :=
  ⟨y 1, y 2, y 3, y 4, by
    funext a
    match a with
    | ⟨0, _⟩ => exact Fin.ext (by have h0 : (y 0).val < 1 := (y 0).isLt; show (y 0).val = 0; omega)
    | ⟨1, _⟩ => rfl
    | ⟨2, _⟩ => rfl
    | ⟨3, _⟩ => rfl
    | ⟨4, _⟩ => rfl⟩

/-- An index of a block with a unit leading axis and 576 rows is `(0, p, q)`. -/
theorem idx3_unit {C : Nat} (y : (⟨3, ![1, 576, C]⟩ : Shape).Idx) :
    ∃ (p : Fin 576) (q : Fin C), y = ix3 (0 : Fin 1) p q :=
  ⟨y 1, y 2, by
    funext a
    match a with
    | ⟨0, _⟩ => exact Fin.ext (by have h0 : (y 0).val < 1 := (y 0).isLt; show (y 0).val = 0; omega)
    | ⟨1, _⟩ => rfl
    | ⟨2, _⟩ => rfl⟩

/-- Region 1's first window at point `t1` and region 0's output window at point `t0` read the same block of any
    array, when the two points are the same sample. -/
theorem read01 (t0 : Fin cfg0.N) (t1 : Fin cfg1.N) (ht : t1.val = t0.val) (X : S32x6x14x14x128.Idx → Elt F .f32) :
    (((cfg1.win 0).blk t1).view.read (Elt F) X : S1x6x14x14x128.Idx → Elt F .f32)
      = ((cfg0.win 3).blk t0).view.read (Elt F) X := by
  funext y
  obtain ⟨f, h, w, k, rfl⟩ := idx5_unit y
  refine (Cert.WinReads.r1_read_0 t1 X f h w k).trans ?_
  refine Eq.trans ?_ (Cert.WinReads.r0_read_3 t0 X f h w k).symm
  have e : (⟨t1.val, lt_of_lt_of_eq t1.isLt N_1⟩ : Fin 32) = ⟨t0.val, lt_of_lt_of_eq t0.isLt N_0⟩ := Fin.ext ht
  rw [e]

/-- Region 2's first window at point `t2` and region 1's output window at point `t1` read the same block of any
    array, when the two points are the same sample. -/
theorem read12 (t1 : Fin cfg1.N) (t2 : Fin cfg2.N) (ht : t2.val = t1.val) (X : S32x576x256.Idx → Elt F .f32) :
    (((cfg2.win 0).blk t2).view.read (Elt F) X : S1x576x256.Idx → Elt F .f32)
      = ((cfg1.win 3).blk t1).view.read (Elt F) X := by
  funext y
  obtain ⟨p, q, rfl⟩ := idx3_unit y
  refine (Cert.WinReads.r2_read_0 t2 X p q).trans ?_
  refine Eq.trans ?_ (Cert.WinReads.r1_read_3 t1 X p q).symm
  have e : (⟨t2.val, lt_of_lt_of_eq t2.isLt N_2⟩ : Fin 32) = ⟨t1.val, lt_of_lt_of_eq t1.isLt N_1⟩ := Fin.ext ht
  rw [e]

/-- Region 3's first window at point `t3` and region 2's output window at point `t2` read the same block of any
    array, when the two points are the same sample. -/
theorem read23 (t2 : Fin cfg2.N) (t3 : Fin cfg3.N) (ht : t3.val = t2.val) (X : S32x6x14x14x256.Idx → Elt F .f32) :
    (((cfg3.win 0).blk t3).view.read (Elt F) X : S1x6x14x14x256.Idx → Elt F .f32)
      = ((cfg2.win 3).blk t2).view.read (Elt F) X := by
  funext y
  obtain ⟨f, h, w, k, rfl⟩ := idx5_unit y
  refine (Cert.WinReads.r3_read_0 t3 X f h w k).trans ?_
  refine Eq.trans ?_ (Cert.WinReads.r2_read_3 t2 X f h w k).symm
  have e : (⟨t3.val, lt_of_lt_of_eq t3.isLt N_3⟩ : Fin 32) = ⟨t2.val, lt_of_lt_of_eq t2.isLt N_2⟩ := Fin.ext ht
  rw [e]

variable (m : (ℓ : Loc nD τ sig) → Buf (Elt F) ℓ) (ρ : Dev nD → PrngReg)

/-- Region 1 enters with region 0's output array as its first operand: the host operations between them do not
    write it. -/
theorem arr01 (c : Dev nD) :
    V3 m ρ c (Pipeline.arrRef spec1 0) = (Reg0.dat (V1 m ρ) c).arrAt 3 cfg0.N :=
  (StableHlo.after_of_writes_sub hostOps1 (W2 m ρ c) hostOps1_writes (by decide : main_v4 ∉ hostOps1_W)).trans
    (W2_arr m ρ c 3)

/-- Region 2 enters with region 1's output array as its first operand: the two host reshapes between them, to five
    axes and back, cancel. -/
theorem arr12 (c : Dev nD) :
    V5 m ρ c (Pipeline.arrRef spec2 0) = (Reg1.dat (V3 m ρ) c).arrAt 3 cfg1.N := by
  refine Eq.trans ?_ (W4_arr m ρ c 3)
  show StableHlo.after hostOps2 (W4 m ρ c) (Proc.devRef .tc main_v9) = W4 m ρ c (Proc.devRef .tc main_v7)
  generalize W4 m ρ c = Wv
  after_results
  funext i
  exact congrFun (shapeCast_shapeCast (Wv (Proc.devRef .tc main_v7)) _ _) i

/-- Region 3 enters with region 2's output array as its first operand: the host operations between them do not
    write it. -/
theorem arr23 (c : Dev nD) :
    V7 m ρ c (Pipeline.arrRef spec3 0) = (Reg2.dat (V5 m ρ) c).arrAt 3 cfg2.N :=
  (StableHlo.after_of_writes_sub hostOps3 (W6 m ρ c) hostOps3_writes (by decide : main_v12 ∉ hostOps3_W)).trans
    (W6_arr m ρ c 3)

/-- The block region 1 reads at a sample is the block region 0's body left for that sample. -/
theorem chain01 (c : Dev nD) (t0 : Fin cfg0.N) (t1 : Fin cfg1.N) (ht : t1.val = t0.val) :
    Reg1.iblk (V3 m ρ) c 0 t1
      = Reg0.outBlk c (grid0.coords t0) (Reg0.ms0 t0) (Reg0.hs0 t0) (Reg0.ms1 t0) (Reg0.hs1 t0) (Reg0.ms2 t0) (Reg0.hs2 t0)
          (Reg0.ms3 t0) (Reg0.hs3 t0) (Reg0.iblk (V1 m ρ) c 0 t0) (Reg0.iblk (V1 m ρ) c 1 t0) (Reg0.iblk (V1 m ρ) c 2 t0) := by
  unfold Reg1.iblk
  rw [arr01 m ρ c]
  refine (read01 t0 t1 ht _).trans ?_
  rw [Reg0.blocks_out, Reg0.flushed_out]
  rfl

/-- The block region 2 reads at a sample is the block region 1's body left for that sample. -/
theorem chain12 (c : Dev nD) (t1 : Fin cfg1.N) (t2 : Fin cfg2.N) (ht : t2.val = t1.val) :
    Reg2.iblk (V5 m ρ) c 0 t2
      = Reg1.outBlk c (grid1.coords t1) (Reg1.ms0 t1) (Reg1.hs0 t1) (Reg1.ms1 t1) (Reg1.hs1 t1) (Reg1.ms2 t1) (Reg1.hs2 t1)
          (Reg1.ms3 t1) (Reg1.hs3 t1) (Reg1.iblk (V3 m ρ) c 0 t1) (Reg1.iblk (V3 m ρ) c 1 t1) (Reg1.iblk (V3 m ρ) c 2 t1) := by
  unfold Reg2.iblk
  rw [arr12 m ρ c]
  refine (read12 t1 t2 ht _).trans ?_
  rw [Reg1.blocks_out, Reg1.flushed_out]
  rfl

/-- The block region 3 reads at a sample is the block region 2's body left for that sample. -/
theorem chain23 (c : Dev nD) (t2 : Fin cfg2.N) (t3 : Fin cfg3.N) (ht : t3.val = t2.val) :
    Reg3.iblk (V7 m ρ) c 0 t3
      = Reg2.outBlk c (grid2.coords t2) (Reg2.ms0 t2) (Reg2.hs0 t2) (Reg2.ms1 t2) (Reg2.hs1 t2) (Reg2.ms2 t2) (Reg2.hs2 t2)
          (Reg2.ms3 t2) (Reg2.hs3 t2) (Reg2.iblk (V5 m ρ) c 0 t2) (Reg2.iblk (V5 m ρ) c 1 t2) (Reg2.iblk (V5 m ρ) c 2 t2) := by
  unfold Reg3.iblk
  rw [arr23 m ρ c]
  refine (read23 t2 t3 ht _).trans ?_
  rw [Reg2.blocks_out, Reg2.flushed_out]
  rfl

end Cert.Bridge.Chain
-- ==== Proof.Flushed.lean ====
import proofs.«168336_g2000006919451318_pallasbulk_203_2_alg».proof.Proof.OutCanon
import proofs.«168336_g2000006919451318_pallasbulk_203_2_alg».proof.Proof.KIBlocks
import proofs.«168336_g2000006919451318_pallasbulk_203_2_alg».proof.Proof.RefBlocks
import proofs.«168336_g2000006919451318_pallasbulk_203_2_alg».proof.Proof.ChainIn

set_option maxRecDepth 16384

noncomputable section

open Idealize.ShloMosaic Idealize.ShloMosaic.TcCoe

namespace Cert.Bridge

/-! # What each program writes back at a sample, as the contents of its runs' pieces

The fused kernel writes back the contents of its one run's pieces over the sample's ten input blocks. The reference's
fourth call writes back the contents of its run's pieces over what the third call left at the sample, which is the
contents of the third run's pieces over what the second left, and so on down to the first call's inputs. -/

variable {F : FTy → Type} [FloatOps F]

set_option maxHeartbeats 1000000 in
/-- The fused kernel's write-back at a sample. -/
theorem ker_flushed (m : (ℓ : Loc Cert.KernelIdeal.nD Cert.KernelIdeal.τ Cert.KernelIdeal.sig) → Buf (Elt F) ℓ) (c : Dev Cert.KernelIdeal.nD) (t : Fin Cert.KernelIdeal.cfg0.N) :
    (Cert.KernelIdeal.Body.dats m 0 c).flushed 10 t
      = View.canon (Val := Elt F) (Cert.KernelIdeal.Body.kernelRun c (Cert.KernelIdeal.grid0.coords t) (Cert.KernelIdeal.Body.ms0 t) (Cert.KernelIdeal.Body.hs0 t) (Cert.KernelIdeal.Body.ms1 t) (Cert.KernelIdeal.Body.hs1 t) (Cert.KernelIdeal.Body.ms2 t) (Cert.KernelIdeal.Body.hs2 t) (Cert.KernelIdeal.Body.ms3 t) (Cert.KernelIdeal.Body.hs3 t) (Cert.KernelIdeal.Body.ms4 t) (Cert.KernelIdeal.Body.hs4 t) (Cert.KernelIdeal.Body.ms5 t) (Cert.KernelIdeal.Body.hs5 t) (Cert.KernelIdeal.Body.ms6 t) (Cert.KernelIdeal.Body.hs6 t) (Cert.KernelIdeal.Body.ms7 t) (Cert.KernelIdeal.Body.hs7 t) (Cert.KernelIdeal.Body.ms8 t) (Cert.KernelIdeal.Body.hs8 t) (Cert.KernelIdeal.Body.ms9 t) (Cert.KernelIdeal.Body.hs9 t) (Cert.KernelIdeal.Body.ms10 t) (Cert.KernelIdeal.Body.hs10 t) Cert.KernelIdeal.Body.sc0 (Memref.isWhole_whole _) Cert.KernelIdeal.Body.sc1 (Memref.isWhole_whole _)
          (Cert.KernelIdeal.Gen.iblk m c 0 t) (Cert.KernelIdeal.Gen.iblk m c 1 t) (Cert.KernelIdeal.Gen.iblk m c 2 t) (Cert.KernelIdeal.Gen.iblk m c 3 t) (Cert.KernelIdeal.Gen.iblk m c 4 t) (Cert.KernelIdeal.Gen.iblk m c 5 t) (Cert.KernelIdeal.Gen.iblk m c 6 t) (Cert.KernelIdeal.Gen.iblk m c 7 t) (Cert.KernelIdeal.Gen.iblk m c 8 t) (Cert.KernelIdeal.Gen.iblk m c 9 t)).1 := by
  rw [Cert.KernelIdeal.Body.flushed_out m c t]
  exact outK_canon c _ _ _ _ _ _ _ _ _ _ _ _ _ _ _ _ _ _ _ _ _ _ _ _ _ _ _ _ _ _ _ _ _ _ _ _ _

set_option maxHeartbeats 1000000 in
/-- The reference's write-back at a sample, through its four calls. -/
theorem ref_flushed (m' : (ℓ : Loc Cert.ReferenceIdeal.nD Cert.ReferenceIdeal.τ Cert.ReferenceIdeal.sig) → Buf (Elt F) ℓ) (ρ' : Dev Cert.ReferenceIdeal.nD → PrngReg) (c : Dev Cert.ReferenceIdeal.nD)
    (t0 : Fin Cert.ReferenceIdeal.cfg0.N) (t1 : Fin Cert.ReferenceIdeal.cfg1.N) (t2 : Fin Cert.ReferenceIdeal.cfg2.N) (t3 : Fin Cert.ReferenceIdeal.cfg3.N)
    (h01 : t1.val = t0.val) (h12 : t2.val = t1.val) (h23 : t3.val = t2.val) :
    (Cert.ReferenceIdeal.Reg3.dat (Cert.ReferenceIdeal.Run.V7 m' ρ') c).flushed 5 t3
      = View.canon (Val := Elt F) (Cert.ReferenceIdeal.Reg3.kernelRun c (Cert.ReferenceIdeal.grid3.coords t3) (Cert.ReferenceIdeal.Reg3.ms0 t3) (Cert.ReferenceIdeal.Reg3.hs0 t3) (Cert.ReferenceIdeal.Reg3.ms1 t3) (Cert.ReferenceIdeal.Reg3.hs1 t3) (Cert.ReferenceIdeal.Reg3.ms2 t3) (Cert.ReferenceIdeal.Reg3.hs2 t3) (Cert.ReferenceIdeal.Reg3.ms3 t3) (Cert.ReferenceIdeal.Reg3.hs3 t3) (Cert.ReferenceIdeal.Reg3.ms4 t3) (Cert.ReferenceIdeal.Reg3.hs4 t3) (Cert.ReferenceIdeal.Reg3.ms5 t3) (Cert.ReferenceIdeal.Reg3.hs5 t3)
        (View.canon (Val := Elt F) (Cert.ReferenceIdeal.Reg2.kernelRun c (Cert.ReferenceIdeal.grid2.coords t2) (Cert.ReferenceIdeal.Reg2.ms0 t2) (Cert.ReferenceIdeal.Reg2.hs0 t2) (Cert.ReferenceIdeal.Reg2.ms1 t2) (Cert.ReferenceIdeal.Reg2.hs1 t2) (Cert.ReferenceIdeal.Reg2.ms2 t2) (Cert.ReferenceIdeal.Reg2.hs2 t2) (Cert.ReferenceIdeal.Reg2.ms3 t2) (Cert.ReferenceIdeal.Reg2.hs3 t2)
          (View.canon (Val := Elt F) (Cert.ReferenceIdeal.Reg1.kernelRun c (Cert.ReferenceIdeal.grid1.coords t1) (Cert.ReferenceIdeal.Reg1.ms0 t1) (Cert.ReferenceIdeal.Reg1.hs0 t1) (Cert.ReferenceIdeal.Reg1.ms1 t1) (Cert.ReferenceIdeal.Reg1.hs1 t1) (Cert.ReferenceIdeal.Reg1.ms2 t1) (Cert.ReferenceIdeal.Reg1.hs2 t1) (Cert.ReferenceIdeal.Reg1.ms3 t1) (Cert.ReferenceIdeal.Reg1.hs3 t1)
            (View.canon (Val := Elt F) (Cert.ReferenceIdeal.Reg0.kernelRun c (Cert.ReferenceIdeal.grid0.coords t0) (Cert.ReferenceIdeal.Reg0.ms0 t0) (Cert.ReferenceIdeal.Reg0.hs0 t0) (Cert.ReferenceIdeal.Reg0.ms1 t0) (Cert.ReferenceIdeal.Reg0.hs1 t0) (Cert.ReferenceIdeal.Reg0.ms2 t0) (Cert.ReferenceIdeal.Reg0.hs2 t0) (Cert.ReferenceIdeal.Reg0.ms3 t0) (Cert.ReferenceIdeal.Reg0.hs3 t0) (Cert.ReferenceIdeal.Reg0.iblk (Cert.ReferenceIdeal.Run.V1 m' ρ') c 0 t0) (Cert.ReferenceIdeal.Reg0.iblk (Cert.ReferenceIdeal.Run.V1 m' ρ') c 1 t0) (Cert.ReferenceIdeal.Reg0.iblk (Cert.ReferenceIdeal.Run.V1 m' ρ') c 2 t0)).1)
            (Cert.ReferenceIdeal.Reg1.iblk (Cert.ReferenceIdeal.Run.V3 m' ρ') c 1 t1) (Cert.ReferenceIdeal.Reg1.iblk (Cert.ReferenceIdeal.Run.V3 m' ρ') c 2 t1)).1)
          (Cert.ReferenceIdeal.Reg2.iblk (Cert.ReferenceIdeal.Run.V5 m' ρ') c 1 t2) (Cert.ReferenceIdeal.Reg2.iblk (Cert.ReferenceIdeal.Run.V5 m' ρ') c 2 t2)).1)
        (Cert.ReferenceIdeal.Reg3.iblk (Cert.ReferenceIdeal.Run.V7 m' ρ') c 1 t3) (Cert.ReferenceIdeal.Reg3.iblk (Cert.ReferenceIdeal.Run.V7 m' ρ') c 2 t3) (Cert.ReferenceIdeal.Reg3.iblk (Cert.ReferenceIdeal.Run.V7 m' ρ') c 3 t3) (Cert.ReferenceIdeal.Reg3.iblk (Cert.ReferenceIdeal.Run.V7 m' ρ') c 4 t3)).1 := by
  rw [Cert.ReferenceIdeal.Reg3.flushed_out (Cert.ReferenceIdeal.Run.V7 m' ρ') c t3]
  refine Eq.trans (out3_canon c _ _ _ _ _ _ _ _ _ _ _ _ _ _ _ _ _ _) ?_
  rw [Cert.Bridge.Chain.chain23 m' ρ' c t2 t3 h23, out2_canon, Cert.Bridge.Chain.chain12 m' ρ' c t1 t2 h12, out1_canon,
    Cert.Bridge.Chain.chain01 m' ρ' c t0 t1 h01, out0_canon]

end Cert.Bridge

end
-- ==== Proof.LibPadScratch.lean ====
import Idealize.ShloMosaic.Lib.Pipeline.FrameBody
import Idealize.ShloMosaic.Lib.Pipeline.Value
import Idealize.ShloMosaic.Lib.ValueIdx

/-!
# Reading back a padded activation buffer

A buffer of shape `[6, 14, 14, C]` (frames, rows, columns, channels) is written three times: all of it with `z`; then
the box of frames 2..5, rows 1..12, all columns with "the box as just read back, its columns 1..12 replaced by `y`";
then the box of frames 0..1, rows 1..12, all columns with "the box as just read back, its columns 1..12 replaced by
`yb`". Afterwards it holds `yb` at `(a, h+1, w+1, c)` for `a < 2`, `y` at `(t+2, h+1, w+1, c)`, and `z` wherever the
row or the column is 0 or 13. The general step is `canon_blend_inner` / `canon_blend_outer`: a write of a box read
back with an inner window replaced leaves the replacement on the window and the earlier contents everywhere else.
-/

noncomputable section

namespace Cert.PadLib

open Idealize.ShloMosaic Idealize.ShloMosaic.ValueIdx

variable {Val : EltTy → Type} [∀ e, Nonempty (Val e)] {e : EltTy} {sig : RefSig} {κ : Kind} {sp : Space}

/-- The padded scratch buffer's shape: frames, rows, columns, channels. -/
abbrev S6 (C : Nat) : Shape := ⟨4, ![6, 14, 14, C]⟩
/-- The main block of activations. -/
abbrev S4 (C : Nat) : Shape := ⟨4, ![4, 12, 12, C]⟩
/-- The main block widened to all fourteen columns. -/
abbrev S4w (C : Nat) : Shape := ⟨4, ![4, 12, 14, C]⟩
/-- The front block of activations. -/
abbrev S2 (C : Nat) : Shape := ⟨4, ![2, 12, 12, C]⟩
/-- The front block widened to all fourteen columns. -/
abbrev S2w (C : Nat) : Shape := ⟨4, ![2, 12, 14, C]⟩

/-- The three writes the padded buffer receives, last write first: the whole buffer with `z`; frames 2..5, rows 1..12,
    all columns with the box read back and its columns 1..12 replaced by `y`; frames 0..1, rows 1..12, all columns
    with the box read back and its columns 1..12 replaced by `yb`. -/
def scratchPieces (C : Nat) (v : View sig κ sp (S6 C) e)
    (inb1 : ∀ a, (![0, 0, 0, 0] : Fin 4 → Nat) a + (S6 C).size a ≤ (S6 C).size a)
    (inb2 : ∀ a, (![2, 1, 0, 0] : Fin 4 → Nat) a + (S4w C).size a ≤ (S6 C).size a)
    (inb3 : ∀ a, (![0, 1, 0, 0] : Fin 4 → Nat) a + (S2w C).size a ≤ (S6 C).size a)
    (hs2 : (S4w C).Slices ![0, 0, 1, 0] (S4 C)) (hs3 : (S2w C).Slices ![0, 0, 1, 0] (S2 C))
    (z : (S6 C).Idx → Val e) (y : (S4 C).Idx → Val e) (yb : (S2 C).Idx → Val e) : List (View.Piece Val (S6 C) e) :=
  let p1 : View.Piece Val (S6 C) e := ⟨Rect.unit (s := S6 C) ![0, 0, 0, 0] (S6 C).size inb1, z⟩
  let p2 : View.Piece Val (S6 C) e := ⟨Rect.unit (s := S6 C) ![2, 1, 0, 0] (S4w C).size inb2,
    updateSlice (v.readCov [p1] (Rect.unit (s := S6 C) ![2, 1, 0, 0] (S4w C).size inb2).toLoadRect) y ![0, 0, 1, 0] hs2⟩
  let p3 : View.Piece Val (S6 C) e := ⟨Rect.unit (s := S6 C) ![0, 1, 0, 0] (S2w C).size inb3,
    updateSlice (v.readCov [p2, p1] (Rect.unit (s := S6 C) ![0, 1, 0, 0] (S2w C).size inb3).toLoadRect) yb ![0, 0, 1, 0] hs3⟩
  [p3, p2, p1]

section Blend
variable {S u : Shape}

/-- Inside the replaced window, `updateSlice` is the update: at an index whose coordinates are the window's start plus
    those of `x`, it is `upd x`. -/
theorem updateSlice_inner {α : Type} (f : S.Idx → α) (upd : u.Idx → α) (start : Fin S.rank → Nat)
    (h : S.Slices start u) (i : S.Idx) (x : u.Idx)
    (hx : ∀ a : Fin S.rank, (i a).val = start a + (x (a.cast h.1.symm)).val) :
    updateSlice f upd start h i = upd x := by
  have hin : ∀ a : Fin S.rank, start a ≤ (i a).val ∧ (i a).val < start a + u.size (a.cast h.1.symm) := fun a => by
    have h1 := hx a
    have h2 := (x (a.cast h.1.symm)).isLt
    omega
  unfold updateSlice
  rw [dif_pos hin]
  congr 1
  funext b
  apply Fin.ext
  have h1 := hx (b.cast h.1)
  have e : (b.cast h.1).cast h.1.symm = b := rfl
  rw [e] at h1
  show (i (b.cast h.1)).val - start (b.cast h.1) = (x b).val
  omega

/-- Outside the replaced window, `updateSlice` is the operand. -/
theorem updateSlice_outer {α : Type} (f : S.Idx → α) (upd : u.Idx → α) (start : Fin S.rank → Nat)
    (h : S.Slices start u) (i : S.Idx)
    (hx : ¬ ∀ a : Fin S.rank, start a ≤ (i a).val ∧ (i a).val < start a + u.size (a.cast h.1.symm)) :
    updateSlice f upd start h i = f i := by
  unfold updateSlice
  rw [dif_neg hx]

/-- The embedding of a unit rectangle's inner index adds the offsets, axis by axis. -/
theorem unit_emb_val (off size : Fin S.rank → Nat) (inb : ∀ a, off a + size a ≤ S.size a)
    (x : (Rect.unit (s := S) off size inb).shape.Idx) (a : Fin S.rank) :
    (((Rect.unit (s := S) off size inb).emb x) a).val = off a + (x a).val := by
  rw [Rect.emb_apply]; simp only [Rect.off_unit, Rect.stride_unit, Nat.one_mul]

/-- A write of "the box read back, with an inner window replaced by `upd`" leaves `upd` on the window: at the index whose
    coordinates are the box's offsets plus the window's start plus those of `x`, the contents are `upd x`. -/
theorem canon_blend_inner (v : View sig κ sp S e) (off size : Fin S.rank → Nat) (inb : ∀ a, off a + size a ≤ S.size a)
    (start : Fin S.rank → Nat) (hs : (Rect.unit (s := S) off size inb).shape.Slices start u)
    (upd : u.Idx → Val e) (L' : List (View.Piece Val S e)) (i : S.Idx) (x : u.Idx)
    (hx : ∀ a : Fin S.rank, (i a).val = off a + start a + (x (a.cast hs.1.symm)).val) :
    View.canon (⟨Rect.unit (s := S) off size inb,
      updateSlice (v.readCov L' (Rect.unit (s := S) off size inb).toLoadRect) upd start hs⟩ :: L') i = upd x := by
  have hm : i ∈ (Rect.unit (s := S) off size inb).set := by
    rw [Rect.mem_set_unit]
    intro a
    have h1 := hx a
    have h2 : start a + u.size (a.cast hs.1.symm) ≤ size a := hs.2 a
    have h3 := (x (a.cast hs.1.symm)).isLt
    omega
  obtain ⟨x', rfl⟩ := (Rect.unit (s := S) off size inb).exists_idx_of_mem hm
  refine (View.canon_cons_emb (Rect.unit (s := S) off size inb) _ L' x').trans ?_
  refine updateSlice_inner (S := (Rect.unit (s := S) off size inb).shape) _ upd start hs x' x fun a => ?_
  have h1 := hx a
  have h2 := unit_emb_val off size inb x' a
  have h3 : (((Rect.unit (s := S) off size inb).emb x') a).val = (((Rect.unit (s := S) off size inb).idx x') a).val := rfl
  omega

/-- The same write leaves the earlier contents off the window: at an index outside "offsets plus start, of the window's
    extents" the contents are those of the earlier writes. -/
theorem canon_blend_outer (v : View sig κ sp S e) (off size : Fin S.rank → Nat) (inb : ∀ a, off a + size a ≤ S.size a)
    (start : Fin S.rank → Nat) (hs : (Rect.unit (s := S) off size inb).shape.Slices start u)
    (upd : u.Idx → Val e) (L' : List (View.Piece Val S e)) (i : S.Idx)
    (hx : ¬ ∀ a : Fin S.rank, off a + start a ≤ (i a).val ∧ (i a).val < off a + start a + u.size (a.cast hs.1.symm)) :
    View.canon (⟨Rect.unit (s := S) off size inb,
      updateSlice (v.readCov L' (Rect.unit (s := S) off size inb).toLoadRect) upd start hs⟩ :: L') i = View.canon L' i := by
  by_cases hm : i ∈ (Rect.unit (s := S) off size inb).set
  · obtain ⟨x', rfl⟩ := (Rect.unit (s := S) off size inb).exists_idx_of_mem hm
    refine (View.canon_cons_emb (Rect.unit (s := S) off size inb) _ L' x').trans ?_
    rw [updateSlice_outer (S := (Rect.unit (s := S) off size inb).shape), View.readCov_eq_canon']
    intro hall
    apply hx
    intro a
    have h1 := hall a
    have h2 := unit_emb_val off size inb x' a
    have h3 : (((Rect.unit (s := S) off size inb).emb x') a).val = (((Rect.unit (s := S) off size inb).idx x') a).val := rfl
    omega
  · exact View.canon_cons_of_not_mem _ L' hm

end Blend

/-- A write of the whole shape at offsets zero leaves its payload everywhere. -/
theorem canon_whole_zero {S : Shape} (off : Fin S.rank → Nat) (hoff : ∀ a, off a = 0)
    (inb : ∀ a, off a + S.size a ≤ S.size a) (z : S.Idx → Val e) (L' : List (View.Piece Val S e)) (i : S.Idx) :
    View.canon (⟨Rect.unit (s := S) off S.size inb, z⟩ :: L') i = z i := by
  have he : (Rect.unit (s := S) off S.size inb).emb i = i :=
    funext fun a => Fin.ext ((unit_emb_val off S.size inb i a).trans (by rw [hoff a, Nat.zero_add]))
  exact (congrArg (View.canon _) he.symm).trans (View.canon_cons_emb (Rect.unit (s := S) off S.size inb) z L' i)

section Scratch
variable {C : Nat} (v : View sig κ sp (S6 C) e)
    (inb1 : ∀ a, (![0, 0, 0, 0] : Fin 4 → Nat) a + (S6 C).size a ≤ (S6 C).size a)
    (inb2 : ∀ a, (![2, 1, 0, 0] : Fin 4 → Nat) a + (S4w C).size a ≤ (S6 C).size a)
    (inb3 : ∀ a, (![0, 1, 0, 0] : Fin 4 → Nat) a + (S2w C).size a ≤ (S6 C).size a)
    (hs2 : (S4w C).Slices ![0, 0, 1, 0] (S4 C)) (hs3 : (S2w C).Slices ![0, 0, 1, 0] (S2 C))
    (z : (S6 C).Idx → Val e) (y : (S4 C).Idx → Val e) (yb : (S2 C).Idx → Val e)

/-- After the three writes the buffer holds `yb` on frames 0..1, rows 1..12, columns 1..12. -/
theorem canon_scratch_front (a : Fin 2) (h w : Fin 12) (c : Fin C) :
    View.canon (scratchPieces C v inb1 inb2 inb3 hs2 hs3 z y yb)
      (ix4 (⟨a.val, by omega⟩ : Fin 6) (⟨h.val + 1, by omega⟩ : Fin 14) (⟨w.val + 1, by omega⟩ : Fin 14) c)
      = yb (ix4 a h w c) := by
  unfold scratchPieces
  refine canon_blend_inner v _ _ inb3 _ hs3 yb _ _ (ix4 a h w c) fun ax => ?_
  match ax with
  | ⟨0, _⟩ => show a.val = 0 + 0 + a.val; omega
  | ⟨1, _⟩ => show h.val + 1 = 1 + 0 + h.val; omega
  | ⟨2, _⟩ => show w.val + 1 = 0 + 1 + w.val; omega
  | ⟨3, _⟩ => show c.val = 0 + 0 + c.val; omega

/-- After the three writes the buffer holds `y` on frames 2..5, rows 1..12, columns 1..12. -/
theorem canon_scratch_main (t : Fin 4) (h w : Fin 12) (c : Fin C) :
    View.canon (scratchPieces C v inb1 inb2 inb3 hs2 hs3 z y yb)
      (ix4 (⟨t.val + 2, by omega⟩ : Fin 6) (⟨h.val + 1, by omega⟩ : Fin 14) (⟨w.val + 1, by omega⟩ : Fin 14) c)
      = y (ix4 t h w c) := by
  unfold scratchPieces
  refine (canon_blend_outer v _ _ inb3 _ hs3 yb _ _ ?_).trans ?_
  · intro hall
    have h0 : t.val + 2 < 0 + 0 + 2 := (hall (0 : Fin 4)).2
    omega
  · refine canon_blend_inner v _ _ inb2 _ hs2 y _ _ (ix4 t h w c) fun ax => ?_
    match ax with
    | ⟨0, _⟩ => show t.val + 2 = 2 + 0 + t.val; omega
    | ⟨1, _⟩ => show h.val + 1 = 1 + 0 + h.val; omega
    | ⟨2, _⟩ => show w.val + 1 = 0 + 1 + w.val; omega
    | ⟨3, _⟩ => show c.val = 0 + 0 + c.val; omega

/-- After the three writes the buffer holds `z` wherever the row or the column is 0 or 13. -/
theorem canon_scratch_border (i : (S6 C).Idx)
    (hb : (i 1).val = 0 ∨ (i 1).val = 13 ∨ (i 2).val = 0 ∨ (i 2).val = 13) :
    View.canon (scratchPieces C v inb1 inb2 inb3 hs2 hs3 z y yb) i = z i := by
  unfold scratchPieces
  refine (canon_blend_outer v _ _ inb3 _ hs3 yb _ i ?_).trans ?_
  · intro hall
    have h1 : 1 + 0 ≤ (i 1).val ∧ (i 1).val < 1 + 0 + 12 := hall (1 : Fin 4)
    have h2 : 0 + 1 ≤ (i 2).val ∧ (i 2).val < 0 + 1 + 12 := hall (2 : Fin 4)
    omega
  · refine (canon_blend_outer v _ _ inb2 _ hs2 y _ i ?_).trans ?_
    · intro hall
      have h1 : 1 + 0 ≤ (i 1).val ∧ (i 1).val < 1 + 0 + 12 := hall (1 : Fin 4)
      have h2 : 0 + 1 ≤ (i 2).val ∧ (i 2).val < 0 + 1 + 12 := hall (2 : Fin 4)
      omega
    · refine canon_whole_zero _ (fun ax => ?_) inb1 z _ i
      match ax with
      | ⟨0, _⟩ => rfl
      | ⟨1, _⟩ => rfl
      | ⟨2, _⟩ => rfl
      | ⟨3, _⟩ => rfl

/-- A load of the `[4, 12, 12, C]` window at offsets `(kt, kh, kw, 0)` reads the buffer's contents at the shifted
    index. -/
theorem readCov_scratch_window (kt kh kw : Nat) (hkt : kt ≤ 2) (hkh : kh ≤ 2) (hkw : kw ≤ 2)
    (inb : ∀ a, (![kt, kh, kw, 0] : Fin 4 → Nat) a + (S4 C).size a ≤ (S6 C).size a) (x : (S4 C).Idx) :
    v.readCov (scratchPieces C v inb1 inb2 inb3 hs2 hs3 z y yb)
        (Rect.unit (s := S6 C) ![kt, kh, kw, 0] (S4 C).size inb).toLoadRect x
      = View.canon (scratchPieces C v inb1 inb2 inb3 hs2 hs3 z y yb)
          (ix4 (⟨kt + (x 0).val, by have h : (x 0).val < 4 := (x 0).isLt; omega⟩ : Fin 6)
            (⟨kh + (x 1).val, by have h : (x 1).val < 12 := (x 1).isLt; omega⟩ : Fin 14)
            (⟨kw + (x 2).val, by have h : (x 2).val < 12 := (x 2).isLt; omega⟩ : Fin 14) (x 3 : Fin C)) := by
  rw [View.readCov_eq_canon']
  refine congrArg (View.canon _) (funext fun ax => ?_)
  match ax with
  | ⟨0, _⟩ => exact Fin.ext (show kt + 1 * (x 0).val = kt + (x 0).val by omega)
  | ⟨1, _⟩ => exact Fin.ext (show kh + 1 * (x 1).val = kh + (x 1).val by omega)
  | ⟨2, _⟩ => exact Fin.ext (show kw + 1 * (x 2).val = kw + (x 2).val by omega)
  | ⟨3, _⟩ => exact Fin.ext (show 0 + 1 * (x 3).val = (x 3).val by omega)

end Scratch

end Cert.PadLib
-- ==== Proof.LibPadBlock.lean ====
import Idealize.ShloMosaic.Lib.Pipeline.FrameBody
import Idealize.ShloMosaic.Lib.Pipeline.Value
import Idealize.ShloMosaic.Lib.ValueIdx
noncomputable section
namespace Cert.PadLib
open Idealize.ShloMosaic Idealize.ShloMosaic.ValueIdx
variable {Val : EltTy → Type} [∀ e, Nonempty (Val e)] {e : EltTy} {sig : RefSig} {κ : Kind} {sp : Space}

/-- The padded block: one sample, six frames, fourteen rows, fourteen columns, `C` channels. -/
abbrev B6 (C : Nat) : Shape := ⟨5, ![1, 6, 14, 14, C]⟩
/-- The interior of the last four frames: twelve rows and columns. -/
abbrev B4 (C : Nat) : Shape := ⟨5, ![1, 4, 12, 12, C]⟩
/-- The interior of the first two frames. -/
abbrev B2 (C : Nat) : Shape := ⟨5, ![1, 2, 12, 12, C]⟩

/-- The three writes that fill the padded block, last write first: the interior of the first two frames, the interior
    of the last four frames, and the whole block. -/
def blockPieces (C : Nat)
    (inb1 : ∀ a, (![0, 0, 0, 0, 0] : Fin 5 → Nat) a + (B6 C).size a ≤ (B6 C).size a)
    (inb2 : ∀ a, (![0, 2, 1, 1, 0] : Fin 5 → Nat) a + (B4 C).size a ≤ (B6 C).size a)
    (inb3 : ∀ a, (![0, 0, 1, 1, 0] : Fin 5 → Nat) a + (B2 C).size a ≤ (B6 C).size a)
    (z : (B6 C).Idx → Val e) (y : (B4 C).Idx → Val e) (yb : (B2 C).Idx → Val e) : List (View.Piece Val (B6 C) e) :=
  [⟨Rect.unit (s := B6 C) ![0, 0, 1, 1, 0] (B2 C).size inb3, yb⟩, ⟨Rect.unit (s := B6 C) ![0, 2, 1, 1, 0] (B4 C).size inb2, y⟩, ⟨Rect.unit (s := B6 C) ![0, 0, 0, 0, 0] (B6 C).size inb1, z⟩]

variable {C : Nat}
    {inb1 : ∀ a, (![0, 0, 0, 0, 0] : Fin 5 → Nat) a + (B6 C).size a ≤ (B6 C).size a}
    {inb2 : ∀ a, (![0, 2, 1, 1, 0] : Fin 5 → Nat) a + (B4 C).size a ≤ (B6 C).size a}
    {inb3 : ∀ a, (![0, 0, 1, 1, 0] : Fin 5 → Nat) a + (B2 C).size a ≤ (B6 C).size a}
    {z : (B6 C).Idx → Val e} {y : (B4 C).Idx → Val e} {yb : (B2 C).Idx → Val e}

/-- Off the rectangle of the last write, the contents are what the earlier writes leave (the rectangle and its payload
    given separately). -/
theorem canon_skip {S : Shape} (r : Rect S) (w : r.shape.Idx → Val e) (L : List (View.Piece Val S e)) {i : S.Idx}
    (h : i ∉ r.set) : View.canon (⟨r, w⟩ :: L) i = View.canon L i :=
  View.canon_cons_of_not_mem ⟨r, w⟩ L h

/-- The first-two-frames box places its index `(0, a, h, w, c)` at `(0, a, h + 1, w + 1, c)` of the block. -/
theorem emb_front (a : Fin 2) (h w : Fin 12) (c : Fin C) :
    (Rect.unit (s := B6 C) ![0, 0, 1, 1, 0] (B2 C).size inb3).emb (ix5 (0 : Fin 1) a h w c)
      = ix5 (0 : Fin 1) (⟨a.val, by omega⟩ : Fin 6) (⟨h.val + 1, by omega⟩ : Fin 14) (⟨w.val + 1, by omega⟩ : Fin 14) c := by
  funext d
  match d with
  | ⟨0, _⟩ => exact Fin.ext (by show 0 + 1 * 0 = 0; omega)
  | ⟨1, _⟩ => exact Fin.ext (by show 0 + 1 * a.val = a.val; omega)
  | ⟨2, _⟩ => exact Fin.ext (by show 1 + 1 * h.val = h.val + 1; omega)
  | ⟨3, _⟩ => exact Fin.ext (by show 1 + 1 * w.val = w.val + 1; omega)
  | ⟨4, _⟩ => exact Fin.ext (by show 0 + 1 * c.val = c.val; omega)

/-- The last-four-frames box places its index `(0, t, h, w, c)` at `(0, t + 2, h + 1, w + 1, c)` of the block. -/
theorem emb_main (t : Fin 4) (h w : Fin 12) (c : Fin C) :
    (Rect.unit (s := B6 C) ![0, 2, 1, 1, 0] (B4 C).size inb2).emb (ix5 (0 : Fin 1) t h w c)
      = ix5 (0 : Fin 1) (⟨t.val + 2, by omega⟩ : Fin 6) (⟨h.val + 1, by omega⟩ : Fin 14) (⟨w.val + 1, by omega⟩ : Fin 14) c := by
  funext d
  match d with
  | ⟨0, _⟩ => exact Fin.ext (by show 0 + 1 * 0 = 0; omega)
  | ⟨1, _⟩ => exact Fin.ext (by show 2 + 1 * t.val = t.val + 2; omega)
  | ⟨2, _⟩ => exact Fin.ext (by show 1 + 1 * h.val = h.val + 1; omega)
  | ⟨3, _⟩ => exact Fin.ext (by show 1 + 1 * w.val = w.val + 1; omega)
  | ⟨4, _⟩ => exact Fin.ext (by show 0 + 1 * c.val = c.val; omega)

/-- The whole-block box places every index at itself. -/
theorem emb_all (i : (B6 C).Idx) :
    (Rect.unit (s := B6 C) ![0, 0, 0, 0, 0] (B6 C).size inb1).emb i = i := by
  funext d
  match d with
  | ⟨0, _⟩ => exact Fin.ext (by show 0 + 1 * (i 0).val = (i 0).val; omega)
  | ⟨1, _⟩ => exact Fin.ext (by show 0 + 1 * (i 1).val = (i 1).val; omega)
  | ⟨2, _⟩ => exact Fin.ext (by show 0 + 1 * (i 2).val = (i 2).val; omega)
  | ⟨3, _⟩ => exact Fin.ext (by show 0 + 1 * (i 3).val = (i 3).val; omega)
  | ⟨4, _⟩ => exact Fin.ext (by show 0 + 1 * (i 4).val = (i 4).val; omega)

/-- An index whose frame is at least 2, or whose row or column is 0 or 13, lies outside the first-two-frames box. -/
theorem not_mem_front (i : (B6 C).Idx)
    (hb : 2 ≤ (i 1).val ∨ (i 2).val = 0 ∨ (i 2).val = 13 ∨ (i 3).val = 0 ∨ (i 3).val = 13) :
    i ∉ (Rect.unit (s := B6 C) ![0, 0, 1, 1, 0] (B2 C).size inb3).set := by
  intro hm
  have hall := Rect.mem_set_unit.mp hm
  have h1 : (i 1).val < 0 + 2 := (hall 1).2
  have h2l : 1 ≤ (i 2).val := (hall 2).1
  have h2u : (i 2).val < 1 + 12 := (hall 2).2
  have h3l : 1 ≤ (i 3).val := (hall 3).1
  have h3u : (i 3).val < 1 + 12 := (hall 3).2
  omega

/-- An index whose frame is below 2, or whose row or column is 0 or 13, lies outside the last-four-frames box. -/
theorem not_mem_main (i : (B6 C).Idx)
    (hb : (i 1).val < 2 ∨ (i 2).val = 0 ∨ (i 2).val = 13 ∨ (i 3).val = 0 ∨ (i 3).val = 13) :
    i ∉ (Rect.unit (s := B6 C) ![0, 2, 1, 1, 0] (B4 C).size inb2).set := by
  intro hm
  have hall := Rect.mem_set_unit.mp hm
  have h1 : 2 ≤ (i 1).val := (hall 1).1
  have h2l : 1 ≤ (i 2).val := (hall 2).1
  have h2u : (i 2).val < 1 + 12 := (hall 2).2
  have h3l : 1 ≤ (i 3).val := (hall 3).1
  have h3u : (i 3).val < 1 + 12 := (hall 3).2
  omega

/-- After the three writes the block holds the first-two-frames payload at `(0, a, h + 1, w + 1, c)`. -/
theorem canon_block_front (a : Fin 2) (h w : Fin 12) (c : Fin C) :
    View.canon (blockPieces C inb1 inb2 inb3 z y yb)
        (ix5 (0 : Fin 1) (⟨a.val, by omega⟩ : Fin 6) (⟨h.val + 1, by omega⟩ : Fin 14) (⟨w.val + 1, by omega⟩ : Fin 14) c)
      = yb (ix5 (0 : Fin 1) a h w c) := by
  unfold blockPieces
  rw [← emb_front (inb3 := inb3) a h w c]
  exact View.canon_cons_emb _ _ _ _

/-- After the three writes the block holds the last-four-frames payload at `(0, t + 2, h + 1, w + 1, c)`. -/
theorem canon_block_main (t : Fin 4) (h w : Fin 12) (c : Fin C) :
    View.canon (blockPieces C inb1 inb2 inb3 z y yb)
        (ix5 (0 : Fin 1) (⟨t.val + 2, by omega⟩ : Fin 6) (⟨h.val + 1, by omega⟩ : Fin 14) (⟨w.val + 1, by omega⟩ : Fin 14) c)
      = y (ix5 (0 : Fin 1) t h w c) := by
  unfold blockPieces
  refine (canon_skip (Rect.unit (s := B6 C) ![0, 0, 1, 1, 0] (B2 C).size inb3) yb _
    (not_mem_front (inb3 := inb3) _ (Or.inl (by show 2 ≤ t.val + 2; omega)))).trans ?_
  rw [← emb_main (inb2 := inb2) t h w c]
  exact View.canon_cons_emb _ _ _ _

/-- After the three writes the block holds the first, whole-block payload wherever the row or the column is 0 or 13. -/
theorem canon_block_border (i : (B6 C).Idx)
    (hb : (i 2).val = 0 ∨ (i 2).val = 13 ∨ (i 3).val = 0 ∨ (i 3).val = 13) :
    View.canon (blockPieces C inb1 inb2 inb3 z y yb) i = z i := by
  unfold blockPieces
  refine (canon_skip (Rect.unit (s := B6 C) ![0, 0, 1, 1, 0] (B2 C).size inb3) yb _
    (not_mem_front (inb3 := inb3) i (Or.inr hb))).trans ?_
  refine (canon_skip (Rect.unit (s := B6 C) ![0, 2, 1, 1, 0] (B4 C).size inb2) y _
    (not_mem_main (inb2 := inb2) i (Or.inr hb))).trans ?_
  refine (congrArg (View.canon _) (emb_all (inb1 := inb1) i).symm).trans ?_
  exact View.canon_cons_emb _ _ _ _

/-- A load of the block through the twelve-by-twelve, four-frame window at offsets `(0, kt, kh, kw, 0)` reads the
    block at `(0, kt + t, kh + h, kw + w, c)`. -/
theorem ld_block_window {kt kh kw : Nat} (hkt : kt ≤ 2) (hkh : kh ≤ 2) (hkw : kw ≤ 2)
    (inb : ∀ a, (![0, kt, kh, kw, 0] : Fin 5 → Nat) a + (B4 C).size a ≤ (B6 C).size a)
    (X : (B6 C).Idx → Val e) (x : (B4 C).Idx) :
    View.ld X (Rect.unit (s := B6 C) ![0, kt, kh, kw, 0] (B4 C).size inb) x
      = X (ix5 (0 : Fin 1) (⟨kt + (x 1).val, by have h : (x 1).val < 4 := (x 1).isLt; omega⟩ : Fin 6)
            (⟨kh + (x 2).val, by have h : (x 2).val < 12 := (x 2).isLt; omega⟩ : Fin 14)
            (⟨kw + (x 3).val, by have h : (x 3).val < 12 := (x 3).isLt; omega⟩ : Fin 14) (x 4)) := by
  show X _ = X _
  congr 1
  funext d
  match d with
  | ⟨0, _⟩ => exact Fin.ext (by have h : (x 0).val < 1 := (x 0).isLt; show 0 + 1 * (x 0).val = 0; omega)
  | ⟨1, _⟩ => exact Fin.ext (by show kt + 1 * (x 1).val = kt + (x 1).val; omega)
  | ⟨2, _⟩ => exact Fin.ext (by show kh + 1 * (x 2).val = kh + (x 2).val; omega)
  | ⟨3, _⟩ => exact Fin.ext (by show kw + 1 * (x 3).val = kw + (x 3).val; omega)
  | ⟨4, _⟩ => exact Fin.ext (by show 0 + 1 * (x 4).val = (x 4).val; omega)

end Cert.PadLib
-- ==== Proof.CorePay.lean ====
import proofs.«168336_g2000006919451318_pallasbulk_203_2_alg».proof.Proof.KIRun
import proofs.«168336_g2000006919451318_pallasbulk_203_2_alg».proof.Proof.RefReg0
import proofs.«168336_g2000006919451318_pallasbulk_203_2_alg».proof.Proof.RefReg1
import proofs.«168336_g2000006919451318_pallasbulk_203_2_alg».proof.Proof.RefReg2
import proofs.«168336_g2000006919451318_pallasbulk_203_2_alg».proof.Proof.RefReg3
import proofs.«168336_g2000006919451318_pallasbulk_203_2_alg».proof.Proof.LibPadScratch
import proofs.«168336_g2000006919451318_pallasbulk_203_2_alg».proof.Proof.LibPadBlock
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

open Idealize.ShloMosaic Idealize.ShloMosaic.TcCoe Idealize.ShloMosaic.ValueIdx

namespace Cert.Bridge

/-! # What the two programs store into their padded buffers is the same, entry by entry

On the extended reals a change of float format is the identity, so the fused kernel's bf16 activations are the
reference's f32 ones. The kernel keeps them as [4, 12, 12, C] and [2, 12, 12, C] pieces, the reference as the same
pieces behind a leading unit axis. -/

theorem hz2 : (![0, 0] : Fin 2 → Nat) = fun _ => 0 := funext fun a => by fin_cases a <;> rfl
theorem hz3 : (![0, 0, 0] : Fin 3 → Nat) = fun _ => 0 := funext fun a => by fin_cases a <;> rfl

/-- Dropping the leading unit coordinate of a five-coordinate index. -/
theorem ix5_tail {n1 n2 n3 n4 : Nat} (a : Fin n1) (b : Fin n2) (d : Fin n3) (c : Fin n4) :
    (fun k : Fin 4 => (ix5 (0 : Fin 1) a b d c) k.succ) = ix4 a b d c := by
  funext k; match k with | ⟨0, _⟩ => rfl | ⟨1, _⟩ => rfl | ⟨2, _⟩ => rfl | ⟨3, _⟩ => rfl

/-- The bf16 zero word denotes zero. -/
theorem ofBits_zero_bf16 : Ideal.ofBits .bf16 0x0000#16 = 0 := by simp [Ideal.ofBits, Ideal.ieee]

/-- The two zero words denote the same extended real. -/
theorem zero_words : FloatOps.ofBits (F := Ideal) .bf16 0#16 = FloatOps.ofBits (F := Ideal) .f32 0#32 := by
  rw [Ideal.ofBits_def, Ideal.ofBits_def]
  exact ofBits_zero_bf16.trans Ideal.ofBits_zero_f32.symm

/-! ## First stage, 128 channels -/

/-- The zero fill of the scratch buffer is the zero fill of the block. -/
theorem zero128 (a : Fin 6) (b d : Fin 14) (c : Fin 128) :
    Cert.KernelIdeal.Gen.k0_pay13 (F := Ideal) (ix4 a b d c) = Cert.ReferenceIdeal.Gen.k0_pay2 (F := Ideal) (ix5 (0 : Fin 1) a b d c) := by
  unfold Cert.KernelIdeal.Gen.k0_pay13 Cert.ReferenceIdeal.Gen.k0_pay2
  rw [shapeCast_self]
  exact zero_words

/-- The interior activations: the scratch's [4, 12, 12, 128] piece is the block's with its unit axis dropped. -/
theorem inner128 (v88 : FVec Ideal Cert.ReferenceIdeal.S1x128 .f32) (v90 : FVec Ideal Cert.ReferenceIdeal.S576x128 .f32)
    (t : Fin 4) (h w : Fin 12) (c : Fin 128) :
    Cert.KernelIdeal.Gen.k0_pay14 (F := Ideal) v88 v90 (ix4 t h w c) = Cert.ReferenceIdeal.Gen.k0_pay3 (F := Ideal) v88 v90 (ix5 (0 : Fin 1) t h w c) := by
  unfold Cert.KernelIdeal.Gen.k0_pay14 Cert.ReferenceIdeal.Gen.k0_pay3
  rw [shapeCast_self]
  refine Eq.trans ?_ (shapeCast_addUnit_apply _ _ _ _).symm
  rw [ix5_tail]
  rfl

/-- The replicated leading frames likewise. -/
theorem front128 (v88 : FVec Ideal Cert.ReferenceIdeal.S1x128 .f32) (v90 : FVec Ideal Cert.ReferenceIdeal.S576x128 .f32)
    (a : Fin 2) (h w : Fin 12) (c : Fin 128) :
    Cert.KernelIdeal.Gen.k0_pay15 (F := Ideal) v88 v90 (ix4 a h w c) = Cert.ReferenceIdeal.Gen.k0_pay4 (F := Ideal) v88 v90 (ix5 (0 : Fin 1) a h w c) := by
  unfold Cert.KernelIdeal.Gen.k0_pay15 Cert.ReferenceIdeal.Gen.k0_pay4
  rw [shapeCast_self]
  refine Eq.trans ?_ (shapeCast_addUnit_apply _ _ _ _).symm
  rw [ix5_tail]
  rfl

/-! ## Second stage, 256 channels: both programs normalise the same [576, 256] hidden activations `hid` -/

/-- The zero fill. -/
theorem zero256 (a : Fin 6) (b d : Fin 14) (c : Fin 256) :
    Cert.KernelIdeal.Gen.k0_pay48 (F := Ideal) (ix4 a b d c) = Cert.ReferenceIdeal.Gen.k2_pay2 (F := Ideal) (ix5 (0 : Fin 1) a b d c) := by
  unfold Cert.KernelIdeal.Gen.k0_pay48 Cert.ReferenceIdeal.Gen.k2_pay2
  rw [shapeCast_self]
  exact zero_words

/-- The kernel's second-stage activations as one [4, 12, 12, 256] piece of the hidden activations and the two affine rows. -/
abbrev actK (hid : FVec Ideal Cert.ReferenceIdeal.S576x256 .f32) (g b : Vec Ideal Cert.ReferenceIdeal.S1x256 .f32) : FVec Ideal Cert.KernelIdeal.S4x12x12x256 .bf16 :=
  Cert.KernelIdeal.Gen.k0_pay49 (F := Ideal) hid (Cert.KernelIdeal.Gen.k0_pay41 g) (Cert.KernelIdeal.Gen.k0_pay42 b) Cert.KernelIdeal.Gen.k0_pay45
    (Cert.KernelIdeal.Gen.k0_pay46 hid Cert.KernelIdeal.Body.kernelRun.sl.v176 (8#32) Cert.KernelIdeal.Gen.k0_pay43 Cert.KernelIdeal.Gen.k0_pay44)
abbrev actKfront (hid : FVec Ideal Cert.ReferenceIdeal.S576x256 .f32) (g b : Vec Ideal Cert.ReferenceIdeal.S1x256 .f32) : FVec Ideal Cert.KernelIdeal.S2x12x12x256 .bf16 :=
  Cert.KernelIdeal.Gen.k0_pay50 (F := Ideal) hid (Cert.KernelIdeal.Gen.k0_pay41 g) (Cert.KernelIdeal.Gen.k0_pay42 b) Cert.KernelIdeal.Gen.k0_pay45
    (Cert.KernelIdeal.Gen.k0_pay46 hid Cert.KernelIdeal.Body.kernelRun.sl.v176 (8#32) Cert.KernelIdeal.Gen.k0_pay43 Cert.KernelIdeal.Gen.k0_pay44)
/-- The reference's scale and shift rows of the same. -/
abbrev shiftR (hid : FVec Ideal Cert.ReferenceIdeal.S576x256 .f32) (g b : Vec Ideal Cert.ReferenceIdeal.S1x256 .f32) : FVec Ideal Cert.ReferenceIdeal.S1x256 .f32 :=
  Cert.ReferenceIdeal.Gen.k2_pay11 (F := Ideal) hid Cert.ReferenceIdeal.Gen.k2_pay6 Cert.ReferenceIdeal.Reg2.kernelRun.sl.v31 Cert.ReferenceIdeal.Reg2.kernelRun.sl.v32 (8#32) Cert.ReferenceIdeal.Gen.k2_pay7 Cert.ReferenceIdeal.Gen.k2_pay8 (1#32) (0#32) g b
abbrev scaledR (hid : FVec Ideal Cert.ReferenceIdeal.S576x256 .f32) (g : Vec Ideal Cert.ReferenceIdeal.S1x256 .f32) : FVec Ideal Cert.ReferenceIdeal.S576x256 .f32 :=
  Cert.ReferenceIdeal.Gen.k2_pay12 (F := Ideal) hid Cert.ReferenceIdeal.Gen.k2_pay6 Cert.ReferenceIdeal.Reg2.kernelRun.sl.v31 Cert.ReferenceIdeal.Reg2.kernelRun.sl.v32 (8#32) Cert.ReferenceIdeal.Gen.k2_pay7 Cert.ReferenceIdeal.Gen.k2_pay8 (1#32) (0#32) g

theorem inner256 (hid : FVec Ideal Cert.ReferenceIdeal.S576x256 .f32) (g b : Vec Ideal Cert.ReferenceIdeal.S1x256 .f32)
    (t : Fin 4) (h w : Fin 12) (c : Fin 256) :
    actK hid g b (ix4 t h w c) = Cert.ReferenceIdeal.Gen.k2_pay3 (F := Ideal) (shiftR hid g b) (scaledR hid g) (ix5 (0 : Fin 1) t h w c) := by
  unfold actK Cert.KernelIdeal.Gen.k0_pay49 Cert.ReferenceIdeal.Gen.k2_pay3
  rw [shapeCast_self]
  refine Eq.trans ?_ (shapeCast_addUnit_apply _ _ _ _).symm
  rw [ix5_tail]
  rfl

theorem front256 (hid : FVec Ideal Cert.ReferenceIdeal.S576x256 .f32) (g b : Vec Ideal Cert.ReferenceIdeal.S1x256 .f32)
    (a : Fin 2) (h w : Fin 12) (c : Fin 256) :
    actKfront hid g b (ix4 a h w c) = Cert.ReferenceIdeal.Gen.k2_pay4 (F := Ideal) (shiftR hid g b) (scaledR hid g) (ix5 (0 : Fin 1) a h w c) := by
  unfold actKfront Cert.KernelIdeal.Gen.k0_pay50 Cert.ReferenceIdeal.Gen.k2_pay4
  rw [shapeCast_self]
  refine Eq.trans ?_ (shapeCast_addUnit_apply _ _ _ _).symm
  rw [ix5_tail]
  rfl

end Cert.Bridge

end
-- ==== Proof.LibPadBridge.lean ====
import proofs.«168336_g2000006919451318_pallasbulk_203_2_alg».proof.Proof.LibPadScratch
import proofs.«168336_g2000006919451318_pallasbulk_203_2_alg».proof.Proof.LibPadBlock

/-!
# The padded scratch buffer and the padded block hold the same values

The scratch buffer of shape `[6, 14, 14, C]` after its three writes and the block of shape `[1, 6, 14, 14, C]` after its
three stores hold the same value at `(a, b, d, c)` and `(0, a, b, d, c)`, through a map `conv` of the values, as soon as
their three payloads agree through `conv`: on the border both hold the fill, on the first two frames' interior both
hold the front payload, on the last four frames' interior both hold the main payload. Hence every shifted window load
of the one is the shifted window load of the other.
-/

noncomputable section

namespace Cert.PadLib

open Idealize.ShloMosaic Idealize.ShloMosaic.ValueIdx

variable {Val : EltTy → Type} [∀ e, Nonempty (Val e)] {e e' : EltTy} {sig : RefSig} {κ : Kind} {sp : Space} {C : Nat}
    (v : View sig κ sp (S6 C) e)
    (inb1 : ∀ a, (![0, 0, 0, 0] : Fin 4 → Nat) a + (S6 C).size a ≤ (S6 C).size a)
    (inb2 : ∀ a, (![2, 1, 0, 0] : Fin 4 → Nat) a + (S4w C).size a ≤ (S6 C).size a)
    (inb3 : ∀ a, (![0, 1, 0, 0] : Fin 4 → Nat) a + (S2w C).size a ≤ (S6 C).size a)
    (hs2 : (S4w C).Slices ![0, 0, 1, 0] (S4 C)) (hs3 : (S2w C).Slices ![0, 0, 1, 0] (S2 C))
    (z : (S6 C).Idx → Val e) (y : (S4 C).Idx → Val e) (yb : (S2 C).Idx → Val e)
    (inb1' : ∀ a, (![0, 0, 0, 0, 0] : Fin 5 → Nat) a + (B6 C).size a ≤ (B6 C).size a)
    (inb2' : ∀ a, (![0, 2, 1, 1, 0] : Fin 5 → Nat) a + (B4 C).size a ≤ (B6 C).size a)
    (inb3' : ∀ a, (![0, 0, 1, 1, 0] : Fin 5 → Nat) a + (B2 C).size a ≤ (B6 C).size a)
    (z' : (B6 C).Idx → Val e') (y' : (B4 C).Idx → Val e') (yb' : (B2 C).Idx → Val e')
    (conv : Val e → Val e')
    (hz : ∀ (a : Fin 6) (b d : Fin 14) (c : Fin C), conv (z (ix4 a b d c)) = z' (ix5 (0 : Fin 1) a b d c))
    (hy : ∀ (t : Fin 4) (h w : Fin 12) (c : Fin C), conv (y (ix4 t h w c)) = y' (ix5 (0 : Fin 1) t h w c))
    (hyb : ∀ (a : Fin 2) (h w : Fin 12) (c : Fin C), conv (yb (ix4 a h w c)) = yb' (ix5 (0 : Fin 1) a h w c))

include hyb in
/-- On the interior of the first two frames the two buffers agree: both hold the front payload. -/
theorem canon_scratch_eq_block_front (a : Fin 6) (b d : Fin 14) (c : Fin C) (a' : Fin 2) (h w : Fin 12)
    (ha : a.val = a'.val) (hb : b.val = h.val + 1) (hd : d.val = w.val + 1) :
    conv (View.canon (scratchPieces C v inb1 inb2 inb3 hs2 hs3 z y yb) (ix4 a b d c))
      = View.canon (blockPieces C inb1' inb2' inb3' z' y' yb') (ix5 (0 : Fin 1) a b d c) := by
  obtain rfl : a = (⟨a'.val, Nat.lt_of_lt_of_le a'.isLt (by decide)⟩ : Fin 6) := Fin.ext ha
  obtain rfl : b = (⟨h.val + 1, Nat.lt_of_lt_of_le (Nat.succ_lt_succ h.isLt) (by decide)⟩ : Fin 14) := Fin.ext hb
  obtain rfl : d = (⟨w.val + 1, Nat.lt_of_lt_of_le (Nat.succ_lt_succ w.isLt) (by decide)⟩ : Fin 14) := Fin.ext hd
  exact (congrArg conv (canon_scratch_front v inb1 inb2 inb3 hs2 hs3 z y yb a' h w c)).trans
    ((hyb a' h w c).trans (canon_block_front (inb1 := inb1') (inb2 := inb2') (inb3 := inb3') (z := z') (y := y')
      (yb := yb') a' h w c).symm)

include hy in
/-- On the interior of the last four frames the two buffers agree: both hold the main payload. -/
theorem canon_scratch_eq_block_main (a : Fin 6) (b d : Fin 14) (c : Fin C) (t : Fin 4) (h w : Fin 12)
    (ha : a.val = t.val + 2) (hb : b.val = h.val + 1) (hd : d.val = w.val + 1) :
    conv (View.canon (scratchPieces C v inb1 inb2 inb3 hs2 hs3 z y yb) (ix4 a b d c))
      = View.canon (blockPieces C inb1' inb2' inb3' z' y' yb') (ix5 (0 : Fin 1) a b d c) := by
  obtain rfl : a = (⟨t.val + 2, Nat.lt_of_lt_of_le (Nat.add_lt_add_right t.isLt 2) (by decide)⟩ : Fin 6) := Fin.ext ha
  obtain rfl : b = (⟨h.val + 1, Nat.lt_of_lt_of_le (Nat.succ_lt_succ h.isLt) (by decide)⟩ : Fin 14) := Fin.ext hb
  obtain rfl : d = (⟨w.val + 1, Nat.lt_of_lt_of_le (Nat.succ_lt_succ w.isLt) (by decide)⟩ : Fin 14) := Fin.ext hd
  exact (congrArg conv (canon_scratch_main v inb1 inb2 inb3 hs2 hs3 z y yb t h w c)).trans
    ((hy t h w c).trans (canon_block_main (inb1 := inb1') (inb2 := inb2') (inb3 := inb3') (z := z') (y := y')
      (yb := yb') t h w c).symm)

include hz hy hyb in
/-- After their three writes the scratch buffer at `(a, b, d, c)` and the block at `(0, a, b, d, c)` hold the same
    value, through `conv`, when the three payloads agree through `conv`. -/
theorem canon_scratch_eq_block (a : Fin 6) (b d : Fin 14) (c : Fin C) :
    conv (View.canon (scratchPieces C v inb1 inb2 inb3 hs2 hs3 z y yb) (ix4 a b d c))
      = View.canon (blockPieces C inb1' inb2' inb3' z' y' yb') (ix5 (0 : Fin 1) a b d c) := by
  by_cases hbd : b.val = 0 ∨ b.val = 13 ∨ d.val = 0 ∨ d.val = 13
  · exact (congrArg conv (canon_scratch_border v inb1 inb2 inb3 hs2 hs3 z y yb (ix4 a b d c) hbd)).trans
      ((hz a b d c).trans (canon_block_border (inb1 := inb1') (inb2 := inb2') (inb3 := inb3') (z := z') (y := y')
        (yb := yb') (ix5 (0 : Fin 1) a b d c) hbd).symm)
  · have hb14 := b.isLt
    have hd14 := d.isLt
    by_cases ha : a.val < 2
    · exact canon_scratch_eq_block_front v inb1 inb2 inb3 hs2 hs3 z y yb inb1' inb2' inb3' z' y' yb' conv hyb
        a b d c ⟨a.val, ha⟩ ⟨b.val - 1, by omega⟩ ⟨d.val - 1, by omega⟩ rfl
        (by show b.val = b.val - 1 + 1; omega) (by show d.val = d.val - 1 + 1; omega)
    · have ha6 := a.isLt
      exact canon_scratch_eq_block_main v inb1 inb2 inb3 hs2 hs3 z y yb inb1' inb2' inb3' z' y' yb' conv hy
        a b d c ⟨a.val - 2, by omega⟩ ⟨b.val - 1, by omega⟩ ⟨d.val - 1, by omega⟩
        (by show a.val = a.val - 2 + 2; omega)
        (by show b.val = b.val - 1 + 1; omega) (by show d.val = d.val - 1 + 1; omega)

include hz hy hyb in
/-- Every shifted window load of the scratch buffer is the shifted window load of the block, through `conv`. -/
theorem window_scratch_eq_block (kt kh kw : Nat) (hkt : kt ≤ 2) (hkh : kh ≤ 2) (hkw : kw ≤ 2)
    (inb : ∀ a, (![kt, kh, kw, 0] : Fin 4 → Nat) a + (S4 C).size a ≤ (S6 C).size a)
    (inb' : ∀ a, (![0, kt, kh, kw, 0] : Fin 5 → Nat) a + (B4 C).size a ≤ (B6 C).size a)
    (t : Fin 4) (h w : Fin 12) (c : Fin C) :
    conv (v.readCov (scratchPieces C v inb1 inb2 inb3 hs2 hs3 z y yb)
        (Rect.unit (s := S6 C) ![kt, kh, kw, 0] (S4 C).size inb).toLoadRect (ix4 t h w c))
      = View.ld (View.canon (blockPieces C inb1' inb2' inb3' z' y' yb'))
          (Rect.unit (s := B6 C) ![0, kt, kh, kw, 0] (B4 C).size inb') (ix5 (0 : Fin 1) t h w c) := by
  refine (congrArg conv (readCov_scratch_window v inb1 inb2 inb3 hs2 hs3 z y yb kt kh kw hkt hkh hkw inb
    (ix4 t h w c))).trans ?_
  refine Eq.trans ?_ (ld_block_window hkt hkh hkw inb' (View.canon (blockPieces C inb1' inb2' inb3' z' y' yb'))
    (ix5 (0 : Fin 1) t h w c)).symm
  exact canon_scratch_eq_block v inb1 inb2 inb3 hs2 hs3 z y yb inb1' inb2' inb3' z' y' yb' conv hz hy hyb
    (⟨kt + t.val, by omega⟩ : Fin 6) (⟨kh + h.val, by omega⟩ : Fin 14) (⟨kw + w.val, by omega⟩ : Fin 14) c

end Cert.PadLib
-- ==== Proof.CoreTaps.lean ====
import proofs.«168336_g2000006919451318_pallasbulk_203_2_alg».proof.Proof.CorePay
import proofs.«168336_g2000006919451318_pallasbulk_203_2_alg».proof.Proof.LibPadBridge

set_option maxRecDepth 16384

noncomputable section

open Idealize.ShloMosaic Idealize.ShloMosaic.TcCoe Idealize.ShloMosaic.ValueIdx Cert.PadLib

namespace Cert.Bridge

/-! # Every shifted window the convolutions read is the same in the two programs -/

/-- One shifted [4, 12, 12, 128] window: read back from the kernel's scratch buffer it is the reference's load of the same
    window of its padded block, with the block's unit axis dropped. -/
theorem tap128 {κ : Kind} {sp : Space} (v : View Cert.KernelIdeal.sig κ sp Cert.KernelIdeal.S6x14x14x128 .bf16) (v88 : FVec Ideal Cert.ReferenceIdeal.S1x128 .f32) (v90 : FVec Ideal Cert.ReferenceIdeal.S576x128 .f32)
    (kt kh kw : Nat) (hkt : kt ≤ 2) (hkh : kh ≤ 2) (hkw : kw ≤ 2)
    (inb : ∀ a, (![kt, kh, kw, 0] : Fin 4 → Nat) a + Cert.KernelIdeal.S4x12x12x128.size a ≤ Cert.KernelIdeal.S6x14x14x128.size a)
    (inb' : ∀ a, (![0, kt, kh, kw, 0] : Fin 5 → Nat) a + Cert.ReferenceIdeal.S1x4x12x12x128.size a ≤ Cert.ReferenceIdeal.S1x6x14x14x128.size a)
    (hc : Cert.ReferenceIdeal.S1x4x12x12x128.ShapeCasts Cert.ReferenceIdeal.S4x12x12x128) :
    v.readCov (Val := Elt Ideal) (scratchPieces 128 v Cert.KernelIdeal.Gen.inb_S6x14x14x128_S6x14x14x128_0_0_0_0 Cert.KernelIdeal.Gen.inb_S6x14x14x128_S4x12x14x128_2_1_0_0 Cert.KernelIdeal.Gen.inb_S6x14x14x128_S2x12x14x128_0_1_0_0 Cert.KernelIdeal.Gen.slices_S4x12x14x128_S4x12x12x128_0_0_1_0 Cert.KernelIdeal.Gen.slices_S2x12x14x128_S2x12x12x128_0_0_1_0
          (Cert.KernelIdeal.Gen.k0_pay13 (F := Ideal)) (Cert.KernelIdeal.Gen.k0_pay14 (F := Ideal) v88 v90) (Cert.KernelIdeal.Gen.k0_pay15 (F := Ideal) v88 v90))
        (Rect.unit (s := Cert.KernelIdeal.S6x14x14x128) ![kt, kh, kw, 0] Cert.KernelIdeal.S4x12x12x128.size inb).toLoadRect
      = shapeCast Cert.ReferenceIdeal.S4x12x12x128
          (View.ld (View.canon (Val := Elt Ideal) (blockPieces 128 Cert.ReferenceIdeal.Gen.inb_S1x6x14x14x128_S1x6x14x14x128_0_0_0_0_0 Cert.ReferenceIdeal.Gen.inb_S1x6x14x14x128_S1x4x12x12x128_0_2_1_1_0 Cert.ReferenceIdeal.Gen.inb_S1x6x14x14x128_S1x2x12x12x128_0_0_1_1_0 (Cert.ReferenceIdeal.Gen.k0_pay2 (F := Ideal)) (Cert.ReferenceIdeal.Gen.k0_pay3 (F := Ideal) v88 v90) (Cert.ReferenceIdeal.Gen.k0_pay4 (F := Ideal) v88 v90)))
            (Rect.unit (s := Cert.ReferenceIdeal.S1x6x14x14x128) ![0, kt, kh, kw, 0] Cert.ReferenceIdeal.S1x4x12x12x128.size inb')) hc := by
  funext x
  obtain ⟨t, h, w, c, rfl⟩ : ∃ (t : Fin 4) (h w : Fin 12) (c : Fin 128), x = ix4 t h w c := ⟨x 0, x 1, x 2, x 3, eq_ix4 x⟩
  refine (window_scratch_eq_block (Val := Elt Ideal) (e := .bf16) (e' := .f32) (C := 128) v Cert.KernelIdeal.Gen.inb_S6x14x14x128_S6x14x14x128_0_0_0_0 Cert.KernelIdeal.Gen.inb_S6x14x14x128_S4x12x14x128_2_1_0_0 Cert.KernelIdeal.Gen.inb_S6x14x14x128_S2x12x14x128_0_1_0_0 Cert.KernelIdeal.Gen.slices_S4x12x14x128_S4x12x12x128_0_0_1_0 Cert.KernelIdeal.Gen.slices_S2x12x14x128_S2x12x12x128_0_0_1_0
    (Cert.KernelIdeal.Gen.k0_pay13 (F := Ideal)) (Cert.KernelIdeal.Gen.k0_pay14 (F := Ideal) v88 v90) (Cert.KernelIdeal.Gen.k0_pay15 (F := Ideal) v88 v90) Cert.ReferenceIdeal.Gen.inb_S1x6x14x14x128_S1x6x14x14x128_0_0_0_0_0 Cert.ReferenceIdeal.Gen.inb_S1x6x14x14x128_S1x4x12x12x128_0_2_1_1_0 Cert.ReferenceIdeal.Gen.inb_S1x6x14x14x128_S1x2x12x12x128_0_0_1_1_0 (Cert.ReferenceIdeal.Gen.k0_pay2 (F := Ideal)) (Cert.ReferenceIdeal.Gen.k0_pay3 (F := Ideal) v88 v90) (Cert.ReferenceIdeal.Gen.k0_pay4 (F := Ideal) v88 v90)
    (fun u => u) zero128 (inner128 v88 v90) (front128 v88 v90)
    kt kh kw hkt hkh hkw inb inb' t h w c).trans ?_
  refine Eq.trans ?_ (shapeCast_dropUnit_apply _ _ hc _).symm
  refine congrArg _ (funext fun k => ?_)
  match k with
  | ⟨0, _⟩ => rfl
  | ⟨1, _⟩ => rfl
  | ⟨2, _⟩ => rfl
  | ⟨3, _⟩ => rfl
  | ⟨4, _⟩ => rfl

/-- One shifted [4, 12, 12, 256] window: read back from the kernel's scratch buffer it is the reference's load of the same
    window of its padded block, with the block's unit axis dropped. -/
theorem tap256 {κ : Kind} {sp : Space} (v : View Cert.KernelIdeal.sig κ sp Cert.KernelIdeal.S6x14x14x256 .bf16) (hid : FVec Ideal Cert.ReferenceIdeal.S576x256 .f32) (g b : Vec Ideal Cert.ReferenceIdeal.S1x256 .f32)
    (kt kh kw : Nat) (hkt : kt ≤ 2) (hkh : kh ≤ 2) (hkw : kw ≤ 2)
    (inb : ∀ a, (![kt, kh, kw, 0] : Fin 4 → Nat) a + Cert.KernelIdeal.S4x12x12x256.size a ≤ Cert.KernelIdeal.S6x14x14x256.size a)
    (inb' : ∀ a, (![0, kt, kh, kw, 0] : Fin 5 → Nat) a + Cert.ReferenceIdeal.S1x4x12x12x256.size a ≤ Cert.ReferenceIdeal.S1x6x14x14x256.size a)
    (hc : Cert.ReferenceIdeal.S1x4x12x12x256.ShapeCasts Cert.ReferenceIdeal.S4x12x12x256) :
    v.readCov (Val := Elt Ideal) (scratchPieces 256 v Cert.KernelIdeal.Gen.inb_S6x14x14x256_S6x14x14x256_0_0_0_0 Cert.KernelIdeal.Gen.inb_S6x14x14x256_S4x12x14x256_2_1_0_0 Cert.KernelIdeal.Gen.inb_S6x14x14x256_S2x12x14x256_0_1_0_0 Cert.KernelIdeal.Gen.slices_S4x12x14x256_S4x12x12x256_0_0_1_0 Cert.KernelIdeal.Gen.slices_S2x12x14x256_S2x12x12x256_0_0_1_0
          (Cert.KernelIdeal.Gen.k0_pay48 (F := Ideal)) (actK hid g b) (actKfront hid g b))
        (Rect.unit (s := Cert.KernelIdeal.S6x14x14x256) ![kt, kh, kw, 0] Cert.KernelIdeal.S4x12x12x256.size inb).toLoadRect
      = shapeCast Cert.ReferenceIdeal.S4x12x12x256
          (View.ld (View.canon (Val := Elt Ideal) (blockPieces 256 Cert.ReferenceIdeal.Gen.inb_S1x6x14x14x256_S1x6x14x14x256_0_0_0_0_0 Cert.ReferenceIdeal.Gen.inb_S1x6x14x14x256_S1x4x12x12x256_0_2_1_1_0 Cert.ReferenceIdeal.Gen.inb_S1x6x14x14x256_S1x2x12x12x256_0_0_1_1_0 (Cert.ReferenceIdeal.Gen.k2_pay2 (F := Ideal)) (Cert.ReferenceIdeal.Gen.k2_pay3 (F := Ideal) (shiftR hid g b) (scaledR hid g)) (Cert.ReferenceIdeal.Gen.k2_pay4 (F := Ideal) (shiftR hid g b) (scaledR hid g))))
            (Rect.unit (s := Cert.ReferenceIdeal.S1x6x14x14x256) ![0, kt, kh, kw, 0] Cert.ReferenceIdeal.S1x4x12x12x256.size inb')) hc := by
  funext x
  obtain ⟨t, h, w, c, rfl⟩ : ∃ (t : Fin 4) (h w : Fin 12) (c : Fin 256), x = ix4 t h w c := ⟨x 0, x 1, x 2, x 3, eq_ix4 x⟩
  refine (window_scratch_eq_block (Val := Elt Ideal) (e := .bf16) (e' := .f32) (C := 256) v Cert.KernelIdeal.Gen.inb_S6x14x14x256_S6x14x14x256_0_0_0_0 Cert.KernelIdeal.Gen.inb_S6x14x14x256_S4x12x14x256_2_1_0_0 Cert.KernelIdeal.Gen.inb_S6x14x14x256_S2x12x14x256_0_1_0_0 Cert.KernelIdeal.Gen.slices_S4x12x14x256_S4x12x12x256_0_0_1_0 Cert.KernelIdeal.Gen.slices_S2x12x14x256_S2x12x12x256_0_0_1_0
    (Cert.KernelIdeal.Gen.k0_pay48 (F := Ideal)) (actK hid g b) (actKfront hid g b) Cert.ReferenceIdeal.Gen.inb_S1x6x14x14x256_S1x6x14x14x256_0_0_0_0_0 Cert.ReferenceIdeal.Gen.inb_S1x6x14x14x256_S1x4x12x12x256_0_2_1_1_0 Cert.ReferenceIdeal.Gen.inb_S1x6x14x14x256_S1x2x12x12x256_0_0_1_1_0 (Cert.ReferenceIdeal.Gen.k2_pay2 (F := Ideal)) (Cert.ReferenceIdeal.Gen.k2_pay3 (F := Ideal) (shiftR hid g b) (scaledR hid g)) (Cert.ReferenceIdeal.Gen.k2_pay4 (F := Ideal) (shiftR hid g b) (scaledR hid g))
    (fun u => u) zero256 (inner256 hid g b) (front256 hid g b)
    kt kh kw hkt hkh hkw inb inb' t h w c).trans ?_
  refine Eq.trans ?_ (shapeCast_dropUnit_apply _ _ hc _).symm
  refine congrArg _ (funext fun k => ?_)
  match k with
  | ⟨0, _⟩ => rfl
  | ⟨1, _⟩ => rfl
  | ⟨2, _⟩ => rfl
  | ⟨3, _⟩ => rfl
  | ⟨4, _⟩ => rfl

end Cert.Bridge

end
-- ==== Proof.CoreLists.lean ====
import proofs.«168336_g2000006919451318_pallasbulk_203_2_alg».proof.Proof.CoreTaps

set_option maxRecDepth 16384

noncomputable section

open Idealize.ShloMosaic Idealize.ShloMosaic.TcCoe Idealize.ShloMosaic.ValueIdx Cert.PadLib

namespace Cert.Bridge

/-! # The runs' piece lists are the padded buffer's three writes

What the symbolic runs found in the kernel's two scratch buffers and in the reference's two padded output blocks are
exactly the three writes of the padded-buffer lemmas, with the programs' own zero fill, interior and replicated-frame
payloads; and the scale and shift rows the two programs normalise with are the same terms. -/

variable (c : Dev 1)
variable (a1 : Memref Cert.KernelIdeal.sig .tc .vmem Cert.KernelIdeal.S1x576x128 .f32) (h1 : a1.IsWhole) (a2 : Memref Cert.KernelIdeal.sig .tc .vmem Cert.KernelIdeal.S1x128 .f32) (h2 : a2.IsWhole) (a3 : Memref Cert.KernelIdeal.sig .tc .vmem Cert.KernelIdeal.S1x128 .f32) (h3 : a3.IsWhole) (a4 : Memref Cert.KernelIdeal.sig .tc .vmem Cert.KernelIdeal.S3456x256 .bf16) (h4 : a4.IsWhole) (a5 : Memref Cert.KernelIdeal.sig .tc .vmem Cert.KernelIdeal.S1x256 .f32) (h5 : a5.IsWhole) (a6 : Memref Cert.KernelIdeal.sig .tc .vmem Cert.KernelIdeal.S1x256 .f32) (h6 : a6.IsWhole) (a7 : Memref Cert.KernelIdeal.sig .tc .vmem Cert.KernelIdeal.S1x256 .f32) (h7 : a7.IsWhole) (a8 : Memref Cert.KernelIdeal.sig .tc .vmem Cert.KernelIdeal.S6912x256 .bf16) (h8 : a8.IsWhole) (a9 : Memref Cert.KernelIdeal.sig .tc .vmem Cert.KernelIdeal.S1x256 .f32) (h9 : a9.IsWhole) (a10 : Memref Cert.KernelIdeal.sig .tc .vmem Cert.KernelIdeal.S128x256 .bf16) (h10 : a10.IsWhole) (a11 : Memref Cert.KernelIdeal.sig .tc .vmem Cert.KernelIdeal.S1x576x256 .f32) (h11 : a11.IsWhole) (a12 : Memref Cert.KernelIdeal.sig .tc .vmem Cert.KernelIdeal.S6x14x14x128 .bf16) (h12 : a12.IsWhole) (a13 : Memref Cert.KernelIdeal.sig .tc .vmem Cert.KernelIdeal.S6x14x14x256 .bf16) (h13 : a13.IsWhole)
variable (i0 : Cert.ReferenceIdeal.grid0.Coords) (r0a1 : Memref Cert.ReferenceIdeal.sig .tc .vmem Cert.ReferenceIdeal.S1x576x128 .f32) (r0h1 : r0a1.IsWhole) (r0a2 : Memref Cert.ReferenceIdeal.sig .tc .vmem Cert.ReferenceIdeal.S1x128 .f32) (r0h2 : r0a2.IsWhole) (r0a3 : Memref Cert.ReferenceIdeal.sig .tc .vmem Cert.ReferenceIdeal.S1x128 .f32) (r0h3 : r0a3.IsWhole) (r0a4 : Memref Cert.ReferenceIdeal.sig .tc .vmem Cert.ReferenceIdeal.S1x6x14x14x128 .f32) (r0h4 : r0a4.IsWhole)
variable (i2 : Cert.ReferenceIdeal.grid2.Coords) (r2a1 : Memref Cert.ReferenceIdeal.sig .tc .vmem Cert.ReferenceIdeal.S1x576x256 .f32) (r2h1 : r2a1.IsWhole) (r2a2 : Memref Cert.ReferenceIdeal.sig .tc .vmem Cert.ReferenceIdeal.S1x256 .f32) (r2h2 : r2a2.IsWhole) (r2a3 : Memref Cert.ReferenceIdeal.sig .tc .vmem Cert.ReferenceIdeal.S1x256 .f32) (r2h3 : r2a3.IsWhole) (r2a4 : Memref Cert.ReferenceIdeal.sig .tc .vmem Cert.ReferenceIdeal.S1x6x14x14x256 .f32) (r2h4 : r2a4.IsWhole)
variable (X : Vec Ideal Cert.ReferenceIdeal.S1x576x128 .f32) (G1 B1 : Vec Ideal Cert.ReferenceIdeal.S1x128 .f32) (W1 : Vec Ideal Cert.ReferenceIdeal.S3456x256 .f32) (C1 : Vec Ideal Cert.ReferenceIdeal.S1x256 .f32) (G2 B2 : Vec Ideal Cert.ReferenceIdeal.S1x256 .f32) (W2 : Vec Ideal Cert.ReferenceIdeal.S6912x256 .f32) (C2 : Vec Ideal Cert.ReferenceIdeal.S1x256 .f32) (NW : Vec Ideal Cert.ReferenceIdeal.S128x256 .f32)

/-- First stage: the shift row is the same term in the two programs. -/
theorem shift1_eq : Cert.KernelIdeal.Body.kernelRun.sl.r_3 (F := Ideal) c a1 h1 a2 h2 a3 h3 X G1 B1 = Cert.ReferenceIdeal.Reg0.kernelRun.sl.r_1 (F := Ideal) c r0a1 r0h1 r0a2 r0h2 r0a3 r0h3 X G1 B1 := by
  unfold Cert.KernelIdeal.Body.kernelRun.sl.r_3 Cert.ReferenceIdeal.Reg0.kernelRun.sl.r_1 Cert.KernelIdeal.Body.kernelRun.sl.r Cert.KernelIdeal.Body.kernelRun.sl.r_1 Cert.KernelIdeal.Body.kernelRun.sl.r_2 Cert.ReferenceIdeal.Reg0.kernelRun.sl.r
  simp only [View.readAt_eq_ld, Memref.IsWhole.read_unread]
  rw [View.ld_unit_zero hz3, View.ld_unit_zero hz2, View.ld_unit_zero hz2]
  rfl

/-- First stage: the scaled activations are the same term. -/
theorem scaled1_eq : Cert.KernelIdeal.Body.kernelRun.sl.r_4 (F := Ideal) c a1 h1 a2 h2 X G1 = Cert.ReferenceIdeal.Reg0.kernelRun.sl.r_2 (F := Ideal) c r0a1 r0h1 r0a2 r0h2 X G1 := by
  unfold Cert.KernelIdeal.Body.kernelRun.sl.r_4 Cert.ReferenceIdeal.Reg0.kernelRun.sl.r_2 Cert.KernelIdeal.Body.kernelRun.sl.r Cert.KernelIdeal.Body.kernelRun.sl.r_1 Cert.ReferenceIdeal.Reg0.kernelRun.sl.r
  simp only [View.readAt_eq_ld, Memref.IsWhole.read_unread]
  rw [View.ld_unit_zero hz3, View.ld_unit_zero hz2]
  rfl

/-- The first scratch buffer's three writes. -/
theorem scratch1_eq : Cert.KernelIdeal.Body.kernelRun.sl.H11_3 (F := Ideal) c a1 h1 a2 h2 a3 h3 a12 X G1 B1
    = scratchPieces 128 a12.view Cert.KernelIdeal.Gen.inb_S6x14x14x128_S6x14x14x128_0_0_0_0 Cert.KernelIdeal.Gen.inb_S6x14x14x128_S4x12x14x128_2_1_0_0
        Cert.KernelIdeal.Gen.inb_S6x14x14x128_S2x12x14x128_0_1_0_0 Cert.KernelIdeal.Gen.slices_S4x12x14x128_S4x12x12x128_0_0_1_0 Cert.KernelIdeal.Gen.slices_S2x12x14x128_S2x12x12x128_0_0_1_0
        (Cert.KernelIdeal.Gen.k0_pay13 (F := Ideal))
        (Cert.KernelIdeal.Gen.k0_pay14 (F := Ideal) (Cert.KernelIdeal.Body.kernelRun.sl.r_3 c a1 h1 a2 h2 a3 h3 X G1 B1) (Cert.KernelIdeal.Body.kernelRun.sl.r_4 c a1 h1 a2 h2 X G1))
        (Cert.KernelIdeal.Gen.k0_pay15 (F := Ideal) (Cert.KernelIdeal.Body.kernelRun.sl.r_3 c a1 h1 a2 h2 a3 h3 X G1 B1) (Cert.KernelIdeal.Body.kernelRun.sl.r_4 c a1 h1 a2 h2 X G1)) := rfl

/-- The reference's first padded block's three stores. -/
theorem block1_eq : (Cert.ReferenceIdeal.Reg0.kernelRun (F := Ideal) c i0 r0a1 r0h1 r0a2 r0h2 r0a3 r0h3 r0a4 r0h4 X G1 B1).1
    = blockPieces 128 Cert.ReferenceIdeal.Gen.inb_S1x6x14x14x128_S1x6x14x14x128_0_0_0_0_0 Cert.ReferenceIdeal.Gen.inb_S1x6x14x14x128_S1x4x12x12x128_0_2_1_1_0
        Cert.ReferenceIdeal.Gen.inb_S1x6x14x14x128_S1x2x12x12x128_0_0_1_1_0 (Cert.ReferenceIdeal.Gen.k0_pay2 (F := Ideal))
        (Cert.ReferenceIdeal.Gen.k0_pay3 (F := Ideal) (Cert.ReferenceIdeal.Reg0.kernelRun.sl.r_1 c r0a1 r0h1 r0a2 r0h2 r0a3 r0h3 X G1 B1) (Cert.ReferenceIdeal.Reg0.kernelRun.sl.r_2 c r0a1 r0h1 r0a2 r0h2 X G1))
        (Cert.ReferenceIdeal.Gen.k0_pay4 (F := Ideal) (Cert.ReferenceIdeal.Reg0.kernelRun.sl.r_1 c r0a1 r0h1 r0a2 r0h2 r0a3 r0h3 X G1 B1) (Cert.ReferenceIdeal.Reg0.kernelRun.sl.r_2 c r0a1 r0h1 r0a2 r0h2 X G1)) := rfl

/-- The hidden activations after the first convolution, as the kernel's run names them. -/
abbrev hidK : FVec Ideal Cert.ReferenceIdeal.S576x256 .f32 := Cert.KernelIdeal.Body.kernelRun.sl.r_9 (F := Ideal) c a1 h1 a2 h2 a3 h3 a4 h4 a5 h5 a12 X G1 B1 W1 C1

/-- The kernel's second-stage interior payload, as its run spells it, is the normalised hidden activations. -/
theorem act2_eq : (Cert.KernelIdeal.Gen.k0_pay49 (F := Ideal) (Cert.KernelIdeal.Body.kernelRun.sl.r_9 (F := Ideal) c a1 h1 a2 h2 a3 h3 a4 h4 a5 h5 a12 X G1 B1 W1 C1) (Cert.KernelIdeal.Body.kernelRun.sl.r_10 c a6 h6 G2) (Cert.KernelIdeal.Body.kernelRun.sl.r_11 c a7 h7 B2) Cert.KernelIdeal.Gen.k0_pay45 (Cert.KernelIdeal.Body.kernelRun.sl.r_12 (F := Ideal) c a1 h1 a2 h2 a3 h3 a4 h4 a5 h5 a12 X G1 B1 W1 C1)) = actK (hidK c a1 h1 a2 h2 a3 h3 a4 h4 a5 h5 a12 X G1 B1 W1 C1) G2 B2 := by
  have e6 : (View.readAt (Elt Ideal) a6.view (Rect.unit (s := Cert.KernelIdeal.S1x256) ![0, 0] Cert.KernelIdeal.S1x256.size Cert.KernelIdeal.Gen.inb_S1x256_S1x256_0_0).toLoadRect (h6.unread G2)) = G2 := by
    rw [View.readAt_eq_ld, Memref.IsWhole.read_unread, View.ld_unit_zero hz2]
  have e7 : (View.readAt (Elt Ideal) a7.view (Rect.unit (s := Cert.KernelIdeal.S1x256) ![0, 0] Cert.KernelIdeal.S1x256.size Cert.KernelIdeal.Gen.inb_S1x256_S1x256_0_0).toLoadRect (h7.unread B2)) = B2 := by
    rw [View.readAt_eq_ld, Memref.IsWhole.read_unread, View.ld_unit_zero hz2]
  refine Eq.trans (b := actK (Cert.KernelIdeal.Body.kernelRun.sl.r_9 (F := Ideal) c a1 h1 a2 h2 a3 h3 a4 h4 a5 h5 a12 X G1 B1 W1 C1) (View.readAt (Elt Ideal) a6.view (Rect.unit (s := Cert.KernelIdeal.S1x256) ![0, 0] Cert.KernelIdeal.S1x256.size Cert.KernelIdeal.Gen.inb_S1x256_S1x256_0_0).toLoadRect (h6.unread G2)) (View.readAt (Elt Ideal) a7.view (Rect.unit (s := Cert.KernelIdeal.S1x256) ![0, 0] Cert.KernelIdeal.S1x256.size Cert.KernelIdeal.Gen.inb_S1x256_S1x256_0_0).toLoadRect (h7.unread B2))) rfl ?_
  rw [e6, e7]

/-- Likewise its replicated-frame payload. -/
theorem act2front_eq : (Cert.KernelIdeal.Gen.k0_pay50 (F := Ideal) (Cert.KernelIdeal.Body.kernelRun.sl.r_9 (F := Ideal) c a1 h1 a2 h2 a3 h3 a4 h4 a5 h5 a12 X G1 B1 W1 C1) (Cert.KernelIdeal.Body.kernelRun.sl.r_10 c a6 h6 G2) (Cert.KernelIdeal.Body.kernelRun.sl.r_11 c a7 h7 B2) Cert.KernelIdeal.Gen.k0_pay45 (Cert.KernelIdeal.Body.kernelRun.sl.r_12 (F := Ideal) c a1 h1 a2 h2 a3 h3 a4 h4 a5 h5 a12 X G1 B1 W1 C1)) = actKfront (hidK c a1 h1 a2 h2 a3 h3 a4 h4 a5 h5 a12 X G1 B1 W1 C1) G2 B2 := by
  have e6 : (View.readAt (Elt Ideal) a6.view (Rect.unit (s := Cert.KernelIdeal.S1x256) ![0, 0] Cert.KernelIdeal.S1x256.size Cert.KernelIdeal.Gen.inb_S1x256_S1x256_0_0).toLoadRect (h6.unread G2)) = G2 := by
    rw [View.readAt_eq_ld, Memref.IsWhole.read_unread, View.ld_unit_zero hz2]
  have e7 : (View.readAt (Elt Ideal) a7.view (Rect.unit (s := Cert.KernelIdeal.S1x256) ![0, 0] Cert.KernelIdeal.S1x256.size Cert.KernelIdeal.Gen.inb_S1x256_S1x256_0_0).toLoadRect (h7.unread B2)) = B2 := by
    rw [View.readAt_eq_ld, Memref.IsWhole.read_unread, View.ld_unit_zero hz2]
  refine Eq.trans (b := actKfront (Cert.KernelIdeal.Body.kernelRun.sl.r_9 (F := Ideal) c a1 h1 a2 h2 a3 h3 a4 h4 a5 h5 a12 X G1 B1 W1 C1) (View.readAt (Elt Ideal) a6.view (Rect.unit (s := Cert.KernelIdeal.S1x256) ![0, 0] Cert.KernelIdeal.S1x256.size Cert.KernelIdeal.Gen.inb_S1x256_S1x256_0_0).toLoadRect (h6.unread G2)) (View.readAt (Elt Ideal) a7.view (Rect.unit (s := Cert.KernelIdeal.S1x256) ![0, 0] Cert.KernelIdeal.S1x256.size Cert.KernelIdeal.Gen.inb_S1x256_S1x256_0_0).toLoadRect (h7.unread B2))) rfl ?_
  rw [e6, e7]

set_option maxHeartbeats 1000000 in
/-- The second scratch buffer's three writes, with the payloads as the run spells them. -/
theorem scratch2_lit : Cert.KernelIdeal.Body.kernelRun.sl.H12_3 (F := Ideal) c a1 h1 a2 h2 a3 h3 a4 h4 a5 h5 a6 h6 a7 h7 a12 a13 X G1 B1 W1 C1 G2 B2
    = scratchPieces (Val := Elt Ideal) 256 a13.view Cert.KernelIdeal.Gen.inb_S6x14x14x256_S6x14x14x256_0_0_0_0 Cert.KernelIdeal.Gen.inb_S6x14x14x256_S4x12x14x256_2_1_0_0
        Cert.KernelIdeal.Gen.inb_S6x14x14x256_S2x12x14x256_0_1_0_0 Cert.KernelIdeal.Gen.slices_S4x12x14x256_S4x12x12x256_0_0_1_0 Cert.KernelIdeal.Gen.slices_S2x12x14x256_S2x12x12x256_0_0_1_0
        (Cert.KernelIdeal.Gen.k0_pay48 (F := Ideal)) (Cert.KernelIdeal.Gen.k0_pay49 (F := Ideal) (Cert.KernelIdeal.Body.kernelRun.sl.r_9 (F := Ideal) c a1 h1 a2 h2 a3 h3 a4 h4 a5 h5 a12 X G1 B1 W1 C1) (Cert.KernelIdeal.Body.kernelRun.sl.r_10 c a6 h6 G2) (Cert.KernelIdeal.Body.kernelRun.sl.r_11 c a7 h7 B2) Cert.KernelIdeal.Gen.k0_pay45 (Cert.KernelIdeal.Body.kernelRun.sl.r_12 (F := Ideal) c a1 h1 a2 h2 a3 h3 a4 h4 a5 h5 a12 X G1 B1 W1 C1)) (Cert.KernelIdeal.Gen.k0_pay50 (F := Ideal) (Cert.KernelIdeal.Body.kernelRun.sl.r_9 (F := Ideal) c a1 h1 a2 h2 a3 h3 a4 h4 a5 h5 a12 X G1 B1 W1 C1) (Cert.KernelIdeal.Body.kernelRun.sl.r_10 c a6 h6 G2) (Cert.KernelIdeal.Body.kernelRun.sl.r_11 c a7 h7 B2) Cert.KernelIdeal.Gen.k0_pay45 (Cert.KernelIdeal.Body.kernelRun.sl.r_12 (F := Ideal) c a1 h1 a2 h2 a3 h3 a4 h4 a5 h5 a12 X G1 B1 W1 C1)) := rfl

/-- The second scratch buffer's three writes. -/
theorem scratch2_eq : Cert.KernelIdeal.Body.kernelRun.sl.H12_3 (F := Ideal) c a1 h1 a2 h2 a3 h3 a4 h4 a5 h5 a6 h6 a7 h7 a12 a13 X G1 B1 W1 C1 G2 B2
    = scratchPieces (Val := Elt Ideal) 256 a13.view Cert.KernelIdeal.Gen.inb_S6x14x14x256_S6x14x14x256_0_0_0_0 Cert.KernelIdeal.Gen.inb_S6x14x14x256_S4x12x14x256_2_1_0_0
        Cert.KernelIdeal.Gen.inb_S6x14x14x256_S2x12x14x256_0_1_0_0 Cert.KernelIdeal.Gen.slices_S4x12x14x256_S4x12x12x256_0_0_1_0 Cert.KernelIdeal.Gen.slices_S2x12x14x256_S2x12x12x256_0_0_1_0
        (Cert.KernelIdeal.Gen.k0_pay48 (F := Ideal)) (actK (hidK c a1 h1 a2 h2 a3 h3 a4 h4 a5 h5 a12 X G1 B1 W1 C1) G2 B2) (actKfront (hidK c a1 h1 a2 h2 a3 h3 a4 h4 a5 h5 a12 X G1 B1 W1 C1) G2 B2) := by
  rw [scratch2_lit, act2_eq, act2front_eq]

/-- The reference's second padded block's three stores, from any [1, 576, 256] hidden block. -/
theorem block2_eq (Hb : Vec Ideal Cert.ReferenceIdeal.S1x576x256 .f32) :
    (Cert.ReferenceIdeal.Reg2.kernelRun (F := Ideal) c i2 r2a1 r2h1 r2a2 r2h2 r2a3 r2h3 r2a4 r2h4 Hb G2 B2).1
    = blockPieces 256 Cert.ReferenceIdeal.Gen.inb_S1x6x14x14x256_S1x6x14x14x256_0_0_0_0_0 Cert.ReferenceIdeal.Gen.inb_S1x6x14x14x256_S1x4x12x12x256_0_2_1_1_0
        Cert.ReferenceIdeal.Gen.inb_S1x6x14x14x256_S1x2x12x12x256_0_0_1_1_0 (Cert.ReferenceIdeal.Gen.k2_pay2 (F := Ideal))
        (Cert.ReferenceIdeal.Gen.k2_pay3 (F := Ideal) (shiftR (shapeCast Cert.ReferenceIdeal.S576x256 Hb Cert.ReferenceIdeal.Gen.shapeCasts_S1x576x256_S576x256) G2 B2) (scaledR (shapeCast Cert.ReferenceIdeal.S576x256 Hb Cert.ReferenceIdeal.Gen.shapeCasts_S1x576x256_S576x256) G2))
        (Cert.ReferenceIdeal.Gen.k2_pay4 (F := Ideal) (shiftR (shapeCast Cert.ReferenceIdeal.S576x256 Hb Cert.ReferenceIdeal.Gen.shapeCasts_S1x576x256_S576x256) G2 B2) (scaledR (shapeCast Cert.ReferenceIdeal.S576x256 Hb Cert.ReferenceIdeal.Gen.shapeCasts_S1x576x256_S576x256) G2)) := by
  unfold Cert.ReferenceIdeal.Reg2.kernelRun Cert.ReferenceIdeal.Reg2.kernelRun.sl.r_1 Cert.ReferenceIdeal.Reg2.kernelRun.sl.r_2 Cert.ReferenceIdeal.Reg2.kernelRun.sl.r
  dsimp only
  simp only [View.readAt_eq_ld, Memref.IsWhole.read_unread]
  rw [View.ld_unit_zero hz3, View.ld_unit_zero hz2, View.ld_unit_zero hz2]
  rfl

end Cert.Bridge

end
-- ==== Proof.Core1.lean ====
import proofs.«168336_g2000006919451318_pallasbulk_203_2_alg».proof.Proof.CoreLists

set_option maxRecDepth 16384

noncomputable section

open Idealize.ShloMosaic Idealize.ShloMosaic.TcCoe Idealize.ShloMosaic.ValueIdx Cert.PadLib

namespace Cert.Bridge

/-! # One sample through the two programs: the first convolution

With the 27 shifted windows of the padded first-stage activations the same on both sides, the hidden activations —
the windows side by side times the flattened filter bank, plus the bias row — are the same term. -/

variable (c : Dev 1)
variable (a1 : Memref Cert.KernelIdeal.sig .tc .vmem Cert.KernelIdeal.S1x576x128 .f32) (h1 : a1.IsWhole) (a2 : Memref Cert.KernelIdeal.sig .tc .vmem Cert.KernelIdeal.S1x128 .f32) (h2 : a2.IsWhole) (a3 : Memref Cert.KernelIdeal.sig .tc .vmem Cert.KernelIdeal.S1x128 .f32) (h3 : a3.IsWhole) (a4 : Memref Cert.KernelIdeal.sig .tc .vmem Cert.KernelIdeal.S3456x256 .bf16) (h4 : a4.IsWhole) (a5 : Memref Cert.KernelIdeal.sig .tc .vmem Cert.KernelIdeal.S1x256 .f32) (h5 : a5.IsWhole) (a6 : Memref Cert.KernelIdeal.sig .tc .vmem Cert.KernelIdeal.S1x256 .f32) (h6 : a6.IsWhole) (a7 : Memref Cert.KernelIdeal.sig .tc .vmem Cert.KernelIdeal.S1x256 .f32) (h7 : a7.IsWhole) (a8 : Memref Cert.KernelIdeal.sig .tc .vmem Cert.KernelIdeal.S6912x256 .bf16) (h8 : a8.IsWhole) (a9 : Memref Cert.KernelIdeal.sig .tc .vmem Cert.KernelIdeal.S1x256 .f32) (h9 : a9.IsWhole) (a10 : Memref Cert.KernelIdeal.sig .tc .vmem Cert.KernelIdeal.S128x256 .bf16) (h10 : a10.IsWhole) (a11 : Memref Cert.KernelIdeal.sig .tc .vmem Cert.KernelIdeal.S1x576x256 .f32) (h11 : a11.IsWhole) (a12 : Memref Cert.KernelIdeal.sig .tc .vmem Cert.KernelIdeal.S6x14x14x128 .bf16) (h12 : a12.IsWhole) (a13 : Memref Cert.KernelIdeal.sig .tc .vmem Cert.KernelIdeal.S6x14x14x256 .bf16) (h13 : a13.IsWhole)
variable (i0 : Cert.ReferenceIdeal.grid0.Coords) (r0a1 : Memref Cert.ReferenceIdeal.sig .tc .vmem Cert.ReferenceIdeal.S1x576x128 .f32) (r0h1 : r0a1.IsWhole) (r0a2 : Memref Cert.ReferenceIdeal.sig .tc .vmem Cert.ReferenceIdeal.S1x128 .f32) (r0h2 : r0a2.IsWhole) (r0a3 : Memref Cert.ReferenceIdeal.sig .tc .vmem Cert.ReferenceIdeal.S1x128 .f32) (r0h3 : r0a3.IsWhole) (r0a4 : Memref Cert.ReferenceIdeal.sig .tc .vmem Cert.ReferenceIdeal.S1x6x14x14x128 .f32) (r0h4 : r0a4.IsWhole)
variable (i1 : Cert.ReferenceIdeal.grid1.Coords) (r1a1 : Memref Cert.ReferenceIdeal.sig .tc .vmem Cert.ReferenceIdeal.S1x6x14x14x128 .f32) (r1h1 : r1a1.IsWhole) (r1a2 : Memref Cert.ReferenceIdeal.sig .tc .vmem Cert.ReferenceIdeal.S3456x256 .f32) (r1h2 : r1a2.IsWhole) (r1a3 : Memref Cert.ReferenceIdeal.sig .tc .vmem Cert.ReferenceIdeal.S1x256 .f32) (r1h3 : r1a3.IsWhole) (r1a4 : Memref Cert.ReferenceIdeal.sig .tc .vmem Cert.ReferenceIdeal.S1x576x256 .f32) (r1h4 : r1a4.IsWhole)
variable (X : Vec Ideal Cert.ReferenceIdeal.S1x576x128 .f32) (G1 B1 : Vec Ideal Cert.ReferenceIdeal.S1x128 .f32) (W1 : Vec Ideal Cert.ReferenceIdeal.S3456x256 .f32) (C1 : Vec Ideal Cert.ReferenceIdeal.S1x256 .f32) (G2 B2 : Vec Ideal Cert.ReferenceIdeal.S1x256 .f32) (W2 : Vec Ideal Cert.ReferenceIdeal.S6912x256 .f32) (C2 : Vec Ideal Cert.ReferenceIdeal.S1x256 .f32) (NW : Vec Ideal Cert.ReferenceIdeal.S128x256 .f32)

set_option maxHeartbeats 4000000 in
/-- The kernel's hidden activations, given a leading unit axis, are the block the reference's first convolution stores. -/
theorem hidden_eq :
    shapeCast Cert.ReferenceIdeal.S1x576x256 (hidK c a1 h1 a2 h2 a3 h3 a4 h4 a5 h5 a12 X G1 B1 W1 C1) Cert.ReferenceIdeal.Gen.shapeCasts_S576x256_S1x576x256
      = View.canon (Val := Elt Ideal) (Cert.ReferenceIdeal.Reg1.kernelRun (F := Ideal) c i1 r1a1 r1h1 r1a2 r1h2 r1a3 r1h3 r1a4 r1h4
          (View.canon (Val := Elt Ideal) (Cert.ReferenceIdeal.Reg0.kernelRun (F := Ideal) c i0 r0a1 r0h1 r0a2 r0h2 r0a3 r0h3 r0a4 r0h4 X G1 B1).1) W1 C1).1 := by
  unfold Cert.ReferenceIdeal.Reg1.kernelRun
  dsimp only
  rw [View.canon_unit_zero hz3]
  unfold hidK Cert.KernelIdeal.Body.kernelRun.sl.r_9 Cert.ReferenceIdeal.Reg1.kernelRun.sl.v81
  simp only [Cert.KernelIdeal.Body.kernelRun.sl.r_5, Cert.KernelIdeal.Body.kernelRun.sl.r_6, Cert.KernelIdeal.Body.kernelRun.sl.r_7, Cert.KernelIdeal.Body.kernelRun.sl.r_8, Cert.KernelIdeal.Body.kernelRun.sl.v110, Cert.KernelIdeal.Body.kernelRun.sl.v112, Cert.KernelIdeal.Body.kernelRun.sl.v114, Cert.KernelIdeal.Body.kernelRun.sl.v116, Cert.KernelIdeal.Body.kernelRun.sl.v118, Cert.KernelIdeal.Body.kernelRun.sl.v119, Cert.KernelIdeal.Body.kernelRun.sl.v120, Cert.KernelIdeal.Body.kernelRun.sl.v121, Cert.KernelIdeal.Body.kernelRun.sl.v122, Cert.KernelIdeal.Body.kernelRun.sl.v123, Cert.KernelIdeal.Body.kernelRun.sl.v124, Cert.KernelIdeal.Body.kernelRun.sl.v125, Cert.KernelIdeal.Body.kernelRun.sl.v126, Cert.KernelIdeal.Body.kernelRun.sl.v127, Cert.KernelIdeal.Body.kernelRun.sl.v128, Cert.KernelIdeal.Body.kernelRun.sl.v129, Cert.KernelIdeal.Body.kernelRun.sl.v130, Cert.KernelIdeal.Body.kernelRun.sl.v131, Cert.KernelIdeal.Body.kernelRun.sl.v132, Cert.KernelIdeal.Body.kernelRun.sl.v133, Cert.KernelIdeal.Body.kernelRun.sl.v134, Cert.KernelIdeal.Body.kernelRun.sl.v135, Cert.KernelIdeal.Body.kernelRun.sl.v136, Cert.KernelIdeal.Body.kernelRun.sl.v137, Cert.KernelIdeal.Body.kernelRun.sl.v138, Cert.KernelIdeal.Body.kernelRun.sl.v139, Cert.KernelIdeal.Body.kernelRun.sl.v140, Cert.KernelIdeal.Body.kernelRun.sl.v141, Cert.KernelIdeal.Body.kernelRun.sl.v142, Cert.KernelIdeal.Body.kernelRun.sl.v143, Cert.KernelIdeal.Body.kernelRun.sl.v144, Cert.KernelIdeal.Body.kernelRun.sl.v145, Cert.KernelIdeal.Body.kernelRun.sl.v146, Cert.KernelIdeal.Body.kernelRun.sl.v147, Cert.KernelIdeal.Body.kernelRun.sl.v148, Cert.KernelIdeal.Body.kernelRun.sl.v149, Cert.KernelIdeal.Body.kernelRun.sl.v150, Cert.KernelIdeal.Body.kernelRun.sl.v151, Cert.KernelIdeal.Body.kernelRun.sl.v152, Cert.KernelIdeal.Body.kernelRun.sl.v153, Cert.KernelIdeal.Body.kernelRun.sl.v154, Cert.KernelIdeal.Body.kernelRun.sl.v155, Cert.KernelIdeal.Body.kernelRun.sl.v156, Cert.KernelIdeal.Body.kernelRun.sl.v157, Cert.KernelIdeal.Body.kernelRun.sl.v158, Cert.KernelIdeal.Body.kernelRun.sl.v160, Cert.KernelIdeal.Body.kernelRun.sl.v162,
    Cert.ReferenceIdeal.Reg1.kernelRun.sl.v1, Cert.ReferenceIdeal.Reg1.kernelRun.sl.v10, Cert.ReferenceIdeal.Reg1.kernelRun.sl.v11, Cert.ReferenceIdeal.Reg1.kernelRun.sl.v13, Cert.ReferenceIdeal.Reg1.kernelRun.sl.v14, Cert.ReferenceIdeal.Reg1.kernelRun.sl.v16, Cert.ReferenceIdeal.Reg1.kernelRun.sl.v17, Cert.ReferenceIdeal.Reg1.kernelRun.sl.v19, Cert.ReferenceIdeal.Reg1.kernelRun.sl.v2, Cert.ReferenceIdeal.Reg1.kernelRun.sl.v20, Cert.ReferenceIdeal.Reg1.kernelRun.sl.v22, Cert.ReferenceIdeal.Reg1.kernelRun.sl.v23, Cert.ReferenceIdeal.Reg1.kernelRun.sl.v25, Cert.ReferenceIdeal.Reg1.kernelRun.sl.v26, Cert.ReferenceIdeal.Reg1.kernelRun.sl.v28, Cert.ReferenceIdeal.Reg1.kernelRun.sl.v29, Cert.ReferenceIdeal.Reg1.kernelRun.sl.v31, Cert.ReferenceIdeal.Reg1.kernelRun.sl.v32, Cert.ReferenceIdeal.Reg1.kernelRun.sl.v34, Cert.ReferenceIdeal.Reg1.kernelRun.sl.v35, Cert.ReferenceIdeal.Reg1.kernelRun.sl.v37, Cert.ReferenceIdeal.Reg1.kernelRun.sl.v38, Cert.ReferenceIdeal.Reg1.kernelRun.sl.v4, Cert.ReferenceIdeal.Reg1.kernelRun.sl.v40, Cert.ReferenceIdeal.Reg1.kernelRun.sl.v41, Cert.ReferenceIdeal.Reg1.kernelRun.sl.v43, Cert.ReferenceIdeal.Reg1.kernelRun.sl.v44, Cert.ReferenceIdeal.Reg1.kernelRun.sl.v46, Cert.ReferenceIdeal.Reg1.kernelRun.sl.v47, Cert.ReferenceIdeal.Reg1.kernelRun.sl.v49, Cert.ReferenceIdeal.Reg1.kernelRun.sl.v5, Cert.ReferenceIdeal.Reg1.kernelRun.sl.v50, Cert.ReferenceIdeal.Reg1.kernelRun.sl.v52, Cert.ReferenceIdeal.Reg1.kernelRun.sl.v53, Cert.ReferenceIdeal.Reg1.kernelRun.sl.v55, Cert.ReferenceIdeal.Reg1.kernelRun.sl.v56, Cert.ReferenceIdeal.Reg1.kernelRun.sl.v58, Cert.ReferenceIdeal.Reg1.kernelRun.sl.v59, Cert.ReferenceIdeal.Reg1.kernelRun.sl.v61, Cert.ReferenceIdeal.Reg1.kernelRun.sl.v62, Cert.ReferenceIdeal.Reg1.kernelRun.sl.v64, Cert.ReferenceIdeal.Reg1.kernelRun.sl.v65, Cert.ReferenceIdeal.Reg1.kernelRun.sl.v7, Cert.ReferenceIdeal.Reg1.kernelRun.sl.v8]
  simp only [View.readAt_eq_ld, Memref.IsWhole.read_unread, View.ld_unit_zero (S := Cert.ReferenceIdeal.S3456x256) hz2, View.ld_unit_zero (S := Cert.ReferenceIdeal.S1x256) hz2]
  rw [scratch1_eq, block1_eq c i0 r0a1 r0h1 r0a2 r0h2 r0a3 r0h3 r0a4 r0h4 X G1 B1, shift1_eq c a1 h1 a2 h2 a3 h3 r0a1 r0h1 r0a2 r0h2 r0a3 r0h3 X G1 B1, scaled1_eq c a1 h1 a2 h2 r0a1 r0h1 r0a2 r0h2 X G1]
  rw [tap128 a12.view (Cert.ReferenceIdeal.Reg0.kernelRun.sl.r_1 c r0a1 r0h1 r0a2 r0h2 r0a3 r0h3 X G1 B1) (Cert.ReferenceIdeal.Reg0.kernelRun.sl.r_2 c r0a1 r0h1 r0a2 r0h2 X G1) 0 0 0 (by decide) (by decide) (by decide) _ Cert.ReferenceIdeal.Gen.inb_S1x6x14x14x128_S1x4x12x12x128_0_0_0_0_0 Cert.ReferenceIdeal.Gen.shapeCasts_S1x4x12x12x128_S4x12x12x128]
  rw [tap128 a12.view (Cert.ReferenceIdeal.Reg0.kernelRun.sl.r_1 c r0a1 r0h1 r0a2 r0h2 r0a3 r0h3 X G1 B1) (Cert.ReferenceIdeal.Reg0.kernelRun.sl.r_2 c r0a1 r0h1 r0a2 r0h2 X G1) 0 0 1 (by decide) (by decide) (by decide) _ Cert.ReferenceIdeal.Gen.inb_S1x6x14x14x128_S1x4x12x12x128_0_0_0_1_0 Cert.ReferenceIdeal.Gen.shapeCasts_S1x4x12x12x128_S4x12x12x128]
  rw [tap128 a12.view (Cert.ReferenceIdeal.Reg0.kernelRun.sl.r_1 c r0a1 r0h1 r0a2 r0h2 r0a3 r0h3 X G1 B1) (Cert.ReferenceIdeal.Reg0.kernelRun.sl.r_2 c r0a1 r0h1 r0a2 r0h2 X G1) 0 0 2 (by decide) (by decide) (by decide) _ Cert.ReferenceIdeal.Gen.inb_S1x6x14x14x128_S1x4x12x12x128_0_0_0_2_0 Cert.ReferenceIdeal.Gen.shapeCasts_S1x4x12x12x128_S4x12x12x128]
  rw [tap128 a12.view (Cert.ReferenceIdeal.Reg0.kernelRun.sl.r_1 c r0a1 r0h1 r0a2 r0h2 r0a3 r0h3 X G1 B1) (Cert.ReferenceIdeal.Reg0.kernelRun.sl.r_2 c r0a1 r0h1 r0a2 r0h2 X G1) 0 1 0 (by decide) (by decide) (by decide) _ Cert.ReferenceIdeal.Gen.inb_S1x6x14x14x128_S1x4x12x12x128_0_0_1_0_0 Cert.ReferenceIdeal.Gen.shapeCasts_S1x4x12x12x128_S4x12x12x128]
  rw [tap128 a12.view (Cert.ReferenceIdeal.Reg0.kernelRun.sl.r_1 c r0a1 r0h1 r0a2 r0h2 r0a3 r0h3 X G1 B1) (Cert.ReferenceIdeal.Reg0.kernelRun.sl.r_2 c r0a1 r0h1 r0a2 r0h2 X G1) 0 1 1 (by decide) (by decide) (by decide) _ Cert.ReferenceIdeal.Gen.inb_S1x6x14x14x128_S1x4x12x12x128_0_0_1_1_0 Cert.ReferenceIdeal.Gen.shapeCasts_S1x4x12x12x128_S4x12x12x128]
  rw [tap128 a12.view (Cert.ReferenceIdeal.Reg0.kernelRun.sl.r_1 c r0a1 r0h1 r0a2 r0h2 r0a3 r0h3 X G1 B1) (Cert.ReferenceIdeal.Reg0.kernelRun.sl.r_2 c r0a1 r0h1 r0a2 r0h2 X G1) 0 1 2 (by decide) (by decide) (by decide) _ Cert.ReferenceIdeal.Gen.inb_S1x6x14x14x128_S1x4x12x12x128_0_0_1_2_0 Cert.ReferenceIdeal.Gen.shapeCasts_S1x4x12x12x128_S4x12x12x128]
  rw [tap128 a12.view (Cert.ReferenceIdeal.Reg0.kernelRun.sl.r_1 c r0a1 r0h1 r0a2 r0h2 r0a3 r0h3 X G1 B1) (Cert.ReferenceIdeal.Reg0.kernelRun.sl.r_2 c r0a1 r0h1 r0a2 r0h2 X G1) 0 2 0 (by decide) (by decide) (by decide) _ Cert.ReferenceIdeal.Gen.inb_S1x6x14x14x128_S1x4x12x12x128_0_0_2_0_0 Cert.ReferenceIdeal.Gen.shapeCasts_S1x4x12x12x128_S4x12x12x128]
  rw [tap128 a12.view (Cert.ReferenceIdeal.Reg0.kernelRun.sl.r_1 c r0a1 r0h1 r0a2 r0h2 r0a3 r0h3 X G1 B1) (Cert.ReferenceIdeal.Reg0.kernelRun.sl.r_2 c r0a1 r0h1 r0a2 r0h2 X G1) 0 2 1 (by decide) (by decide) (by decide) _ Cert.ReferenceIdeal.Gen.inb_S1x6x14x14x128_S1x4x12x12x128_0_0_2_1_0 Cert.ReferenceIdeal.Gen.shapeCasts_S1x4x12x12x128_S4x12x12x128]
  rw [tap128 a12.view (Cert.ReferenceIdeal.Reg0.kernelRun.sl.r_1 c r0a1 r0h1 r0a2 r0h2 r0a3 r0h3 X G1 B1) (Cert.ReferenceIdeal.Reg0.kernelRun.sl.r_2 c r0a1 r0h1 r0a2 r0h2 X G1) 0 2 2 (by decide) (by decide) (by decide) _ Cert.ReferenceIdeal.Gen.inb_S1x6x14x14x128_S1x4x12x12x128_0_0_2_2_0 Cert.ReferenceIdeal.Gen.shapeCasts_S1x4x12x12x128_S4x12x12x128]
  rw [tap128 a12.view (Cert.ReferenceIdeal.Reg0.kernelRun.sl.r_1 c r0a1 r0h1 r0a2 r0h2 r0a3 r0h3 X G1 B1) (Cert.ReferenceIdeal.Reg0.kernelRun.sl.r_2 c r0a1 r0h1 r0a2 r0h2 X G1) 1 0 0 (by decide) (by decide) (by decide) _ Cert.ReferenceIdeal.Gen.inb_S1x6x14x14x128_S1x4x12x12x128_0_1_0_0_0 Cert.ReferenceIdeal.Gen.shapeCasts_S1x4x12x12x128_S4x12x12x128]
  rw [tap128 a12.view (Cert.ReferenceIdeal.Reg0.kernelRun.sl.r_1 c r0a1 r0h1 r0a2 r0h2 r0a3 r0h3 X G1 B1) (Cert.ReferenceIdeal.Reg0.kernelRun.sl.r_2 c r0a1 r0h1 r0a2 r0h2 X G1) 1 0 1 (by decide) (by decide) (by decide) _ Cert.ReferenceIdeal.Gen.inb_S1x6x14x14x128_S1x4x12x12x128_0_1_0_1_0 Cert.ReferenceIdeal.Gen.shapeCasts_S1x4x12x12x128_S4x12x12x128]
  rw [tap128 a12.view (Cert.ReferenceIdeal.Reg0.kernelRun.sl.r_1 c r0a1 r0h1 r0a2 r0h2 r0a3 r0h3 X G1 B1) (Cert.ReferenceIdeal.Reg0.kernelRun.sl.r_2 c r0a1 r0h1 r0a2 r0h2 X G1) 1 0 2 (by decide) (by decide) (by decide) _ Cert.ReferenceIdeal.Gen.inb_S1x6x14x14x128_S1x4x12x12x128_0_1_0_2_0 Cert.ReferenceIdeal.Gen.shapeCasts_S1x4x12x12x128_S4x12x12x128]
  rw [tap128 a12.view (Cert.ReferenceIdeal.Reg0.kernelRun.sl.r_1 c r0a1 r0h1 r0a2 r0h2 r0a3 r0h3 X G1 B1) (Cert.ReferenceIdeal.Reg0.kernelRun.sl.r_2 c r0a1 r0h1 r0a2 r0h2 X G1) 1 1 0 (by decide) (by decide) (by decide) _ Cert.ReferenceIdeal.Gen.inb_S1x6x14x14x128_S1x4x12x12x128_0_1_1_0_0 Cert.ReferenceIdeal.Gen.shapeCasts_S1x4x12x12x128_S4x12x12x128]
  rw [tap128 a12.view (Cert.ReferenceIdeal.Reg0.kernelRun.sl.r_1 c r0a1 r0h1 r0a2 r0h2 r0a3 r0h3 X G1 B1) (Cert.ReferenceIdeal.Reg0.kernelRun.sl.r_2 c r0a1 r0h1 r0a2 r0h2 X G1) 1 1 1 (by decide) (by decide) (by decide) _ Cert.ReferenceIdeal.Gen.inb_S1x6x14x14x128_S1x4x12x12x128_0_1_1_1_0 Cert.ReferenceIdeal.Gen.shapeCasts_S1x4x12x12x128_S4x12x12x128]
  rw [tap128 a12.view (Cert.ReferenceIdeal.Reg0.kernelRun.sl.r_1 c r0a1 r0h1 r0a2 r0h2 r0a3 r0h3 X G1 B1) (Cert.ReferenceIdeal.Reg0.kernelRun.sl.r_2 c r0a1 r0h1 r0a2 r0h2 X G1) 1 1 2 (by decide) (by decide) (by decide) _ Cert.ReferenceIdeal.Gen.inb_S1x6x14x14x128_S1x4x12x12x128_0_1_1_2_0 Cert.ReferenceIdeal.Gen.shapeCasts_S1x4x12x12x128_S4x12x12x128]
  rw [tap128 a12.view (Cert.ReferenceIdeal.Reg0.kernelRun.sl.r_1 c r0a1 r0h1 r0a2 r0h2 r0a3 r0h3 X G1 B1) (Cert.ReferenceIdeal.Reg0.kernelRun.sl.r_2 c r0a1 r0h1 r0a2 r0h2 X G1) 1 2 0 (by decide) (by decide) (by decide) _ Cert.ReferenceIdeal.Gen.inb_S1x6x14x14x128_S1x4x12x12x128_0_1_2_0_0 Cert.ReferenceIdeal.Gen.shapeCasts_S1x4x12x12x128_S4x12x12x128]
  rw [tap128 a12.view (Cert.ReferenceIdeal.Reg0.kernelRun.sl.r_1 c r0a1 r0h1 r0a2 r0h2 r0a3 r0h3 X G1 B1) (Cert.ReferenceIdeal.Reg0.kernelRun.sl.r_2 c r0a1 r0h1 r0a2 r0h2 X G1) 1 2 1 (by decide) (by decide) (by decide) _ Cert.ReferenceIdeal.Gen.inb_S1x6x14x14x128_S1x4x12x12x128_0_1_2_1_0 Cert.ReferenceIdeal.Gen.shapeCasts_S1x4x12x12x128_S4x12x12x128]
  rw [tap128 a12.view (Cert.ReferenceIdeal.Reg0.kernelRun.sl.r_1 c r0a1 r0h1 r0a2 r0h2 r0a3 r0h3 X G1 B1) (Cert.ReferenceIdeal.Reg0.kernelRun.sl.r_2 c r0a1 r0h1 r0a2 r0h2 X G1) 1 2 2 (by decide) (by decide) (by decide) _ Cert.ReferenceIdeal.Gen.inb_S1x6x14x14x128_S1x4x12x12x128_0_1_2_2_0 Cert.ReferenceIdeal.Gen.shapeCasts_S1x4x12x12x128_S4x12x12x128]
  rw [tap128 a12.view (Cert.ReferenceIdeal.Reg0.kernelRun.sl.r_1 c r0a1 r0h1 r0a2 r0h2 r0a3 r0h3 X G1 B1) (Cert.ReferenceIdeal.Reg0.kernelRun.sl.r_2 c r0a1 r0h1 r0a2 r0h2 X G1) 2 0 0 (by decide) (by decide) (by decide) _ Cert.ReferenceIdeal.Gen.inb_S1x6x14x14x128_S1x4x12x12x128_0_2_0_0_0 Cert.ReferenceIdeal.Gen.shapeCasts_S1x4x12x12x128_S4x12x12x128]
  rw [tap128 a12.view (Cert.ReferenceIdeal.Reg0.kernelRun.sl.r_1 c r0a1 r0h1 r0a2 r0h2 r0a3 r0h3 X G1 B1) (Cert.ReferenceIdeal.Reg0.kernelRun.sl.r_2 c r0a1 r0h1 r0a2 r0h2 X G1) 2 0 1 (by decide) (by decide) (by decide) _ Cert.ReferenceIdeal.Gen.inb_S1x6x14x14x128_S1x4x12x12x128_0_2_0_1_0 Cert.ReferenceIdeal.Gen.shapeCasts_S1x4x12x12x128_S4x12x12x128]
  rw [tap128 a12.view (Cert.ReferenceIdeal.Reg0.kernelRun.sl.r_1 c r0a1 r0h1 r0a2 r0h2 r0a3 r0h3 X G1 B1) (Cert.ReferenceIdeal.Reg0.kernelRun.sl.r_2 c r0a1 r0h1 r0a2 r0h2 X G1) 2 0 2 (by decide) (by decide) (by decide) _ Cert.ReferenceIdeal.Gen.inb_S1x6x14x14x128_S1x4x12x12x128_0_2_0_2_0 Cert.ReferenceIdeal.Gen.shapeCasts_S1x4x12x12x128_S4x12x12x128]
  rw [tap128 a12.view (Cert.ReferenceIdeal.Reg0.kernelRun.sl.r_1 c r0a1 r0h1 r0a2 r0h2 r0a3 r0h3 X G1 B1) (Cert.ReferenceIdeal.Reg0.kernelRun.sl.r_2 c r0a1 r0h1 r0a2 r0h2 X G1) 2 1 0 (by decide) (by decide) (by decide) _ Cert.ReferenceIdeal.Gen.inb_S1x6x14x14x128_S1x4x12x12x128_0_2_1_0_0 Cert.ReferenceIdeal.Gen.shapeCasts_S1x4x12x12x128_S4x12x12x128]
  rw [tap128 a12.view (Cert.ReferenceIdeal.Reg0.kernelRun.sl.r_1 c r0a1 r0h1 r0a2 r0h2 r0a3 r0h3 X G1 B1) (Cert.ReferenceIdeal.Reg0.kernelRun.sl.r_2 c r0a1 r0h1 r0a2 r0h2 X G1) 2 1 1 (by decide) (by decide) (by decide) _ Cert.ReferenceIdeal.Gen.inb_S1x6x14x14x128_S1x4x12x12x128_0_2_1_1_0 Cert.ReferenceIdeal.Gen.shapeCasts_S1x4x12x12x128_S4x12x12x128]
  rw [tap128 a12.view (Cert.ReferenceIdeal.Reg0.kernelRun.sl.r_1 c r0a1 r0h1 r0a2 r0h2 r0a3 r0h3 X G1 B1) (Cert.ReferenceIdeal.Reg0.kernelRun.sl.r_2 c r0a1 r0h1 r0a2 r0h2 X G1) 2 1 2 (by decide) (by decide) (by decide) _ Cert.ReferenceIdeal.Gen.inb_S1x6x14x14x128_S1x4x12x12x128_0_2_1_2_0 Cert.ReferenceIdeal.Gen.shapeCasts_S1x4x12x12x128_S4x12x12x128]
  rw [tap128 a12.view (Cert.ReferenceIdeal.Reg0.kernelRun.sl.r_1 c r0a1 r0h1 r0a2 r0h2 r0a3 r0h3 X G1 B1) (Cert.ReferenceIdeal.Reg0.kernelRun.sl.r_2 c r0a1 r0h1 r0a2 r0h2 X G1) 2 2 0 (by decide) (by decide) (by decide) _ Cert.ReferenceIdeal.Gen.inb_S1x6x14x14x128_S1x4x12x12x128_0_2_2_0_0 Cert.ReferenceIdeal.Gen.shapeCasts_S1x4x12x12x128_S4x12x12x128]
  rw [tap128 a12.view (Cert.ReferenceIdeal.Reg0.kernelRun.sl.r_1 c r0a1 r0h1 r0a2 r0h2 r0a3 r0h3 X G1 B1) (Cert.ReferenceIdeal.Reg0.kernelRun.sl.r_2 c r0a1 r0h1 r0a2 r0h2 X G1) 2 2 1 (by decide) (by decide) (by decide) _ Cert.ReferenceIdeal.Gen.inb_S1x6x14x14x128_S1x4x12x12x128_0_2_2_1_0 Cert.ReferenceIdeal.Gen.shapeCasts_S1x4x12x12x128_S4x12x12x128]
  rw [tap128 a12.view (Cert.ReferenceIdeal.Reg0.kernelRun.sl.r_1 c r0a1 r0h1 r0a2 r0h2 r0a3 r0h3 X G1 B1) (Cert.ReferenceIdeal.Reg0.kernelRun.sl.r_2 c r0a1 r0h1 r0a2 r0h2 X G1) 2 2 2 (by decide) (by decide) (by decide) _ Cert.ReferenceIdeal.Gen.inb_S1x6x14x14x128_S1x4x12x12x128_0_2_2_2_0 Cert.ReferenceIdeal.Gen.shapeCasts_S1x4x12x12x128_S4x12x12x128]
  rfl

end Cert.Bridge

end
-- ==== Proof.Core2.lean ====
import proofs.«168336_g2000006919451318_pallasbulk_203_2_alg».proof.Proof.Core1

set_option maxRecDepth 16384

noncomputable section

open Idealize.ShloMosaic Idealize.ShloMosaic.TcCoe Idealize.ShloMosaic.ValueIdx Cert.PadLib

namespace Cert.Bridge

/-! # One sample through the two programs: the whole block

The second normalisation acts on the same hidden activations, so its padded copy has the same 27 shifted windows in
the two programs; the second convolution, the summed bias row, the shortcut product of the sample with the shortcut
matrix and the final sum are then the same terms. -/

variable (c : Dev 1)
variable (i : Cert.KernelIdeal.grid0.Coords) (a1 : Memref Cert.KernelIdeal.sig .tc .vmem Cert.KernelIdeal.S1x576x128 .f32) (h1 : a1.IsWhole) (a2 : Memref Cert.KernelIdeal.sig .tc .vmem Cert.KernelIdeal.S1x128 .f32) (h2 : a2.IsWhole) (a3 : Memref Cert.KernelIdeal.sig .tc .vmem Cert.KernelIdeal.S1x128 .f32) (h3 : a3.IsWhole) (a4 : Memref Cert.KernelIdeal.sig .tc .vmem Cert.KernelIdeal.S3456x256 .bf16) (h4 : a4.IsWhole) (a5 : Memref Cert.KernelIdeal.sig .tc .vmem Cert.KernelIdeal.S1x256 .f32) (h5 : a5.IsWhole) (a6 : Memref Cert.KernelIdeal.sig .tc .vmem Cert.KernelIdeal.S1x256 .f32) (h6 : a6.IsWhole) (a7 : Memref Cert.KernelIdeal.sig .tc .vmem Cert.KernelIdeal.S1x256 .f32) (h7 : a7.IsWhole) (a8 : Memref Cert.KernelIdeal.sig .tc .vmem Cert.KernelIdeal.S6912x256 .bf16) (h8 : a8.IsWhole) (a9 : Memref Cert.KernelIdeal.sig .tc .vmem Cert.KernelIdeal.S1x256 .f32) (h9 : a9.IsWhole) (a10 : Memref Cert.KernelIdeal.sig .tc .vmem Cert.KernelIdeal.S128x256 .bf16) (h10 : a10.IsWhole) (a11 : Memref Cert.KernelIdeal.sig .tc .vmem Cert.KernelIdeal.S1x576x256 .f32) (h11 : a11.IsWhole) (a12 : Memref Cert.KernelIdeal.sig .tc .vmem Cert.KernelIdeal.S6x14x14x128 .bf16) (h12 : a12.IsWhole) (a13 : Memref Cert.KernelIdeal.sig .tc .vmem Cert.KernelIdeal.S6x14x14x256 .bf16) (h13 : a13.IsWhole)
variable (i0 : Cert.ReferenceIdeal.grid0.Coords) (r0a1 : Memref Cert.ReferenceIdeal.sig .tc .vmem Cert.ReferenceIdeal.S1x576x128 .f32) (r0h1 : r0a1.IsWhole) (r0a2 : Memref Cert.ReferenceIdeal.sig .tc .vmem Cert.ReferenceIdeal.S1x128 .f32) (r0h2 : r0a2.IsWhole) (r0a3 : Memref Cert.ReferenceIdeal.sig .tc .vmem Cert.ReferenceIdeal.S1x128 .f32) (r0h3 : r0a3.IsWhole) (r0a4 : Memref Cert.ReferenceIdeal.sig .tc .vmem Cert.ReferenceIdeal.S1x6x14x14x128 .f32) (r0h4 : r0a4.IsWhole)
variable (i1 : Cert.ReferenceIdeal.grid1.Coords) (r1a1 : Memref Cert.ReferenceIdeal.sig .tc .vmem Cert.ReferenceIdeal.S1x6x14x14x128 .f32) (r1h1 : r1a1.IsWhole) (r1a2 : Memref Cert.ReferenceIdeal.sig .tc .vmem Cert.ReferenceIdeal.S3456x256 .f32) (r1h2 : r1a2.IsWhole) (r1a3 : Memref Cert.ReferenceIdeal.sig .tc .vmem Cert.ReferenceIdeal.S1x256 .f32) (r1h3 : r1a3.IsWhole) (r1a4 : Memref Cert.ReferenceIdeal.sig .tc .vmem Cert.ReferenceIdeal.S1x576x256 .f32) (r1h4 : r1a4.IsWhole)
variable (i2 : Cert.ReferenceIdeal.grid2.Coords) (r2a1 : Memref Cert.ReferenceIdeal.sig .tc .vmem Cert.ReferenceIdeal.S1x576x256 .f32) (r2h1 : r2a1.IsWhole) (r2a2 : Memref Cert.ReferenceIdeal.sig .tc .vmem Cert.ReferenceIdeal.S1x256 .f32) (r2h2 : r2a2.IsWhole) (r2a3 : Memref Cert.ReferenceIdeal.sig .tc .vmem Cert.ReferenceIdeal.S1x256 .f32) (r2h3 : r2a3.IsWhole) (r2a4 : Memref Cert.ReferenceIdeal.sig .tc .vmem Cert.ReferenceIdeal.S1x6x14x14x256 .f32) (r2h4 : r2a4.IsWhole)
variable (i3 : Cert.ReferenceIdeal.grid3.Coords) (r3a1 : Memref Cert.ReferenceIdeal.sig .tc .vmem Cert.ReferenceIdeal.S1x6x14x14x256 .f32) (r3h1 : r3a1.IsWhole) (r3a2 : Memref Cert.ReferenceIdeal.sig .tc .vmem Cert.ReferenceIdeal.S6912x256 .f32) (r3h2 : r3a2.IsWhole) (r3a3 : Memref Cert.ReferenceIdeal.sig .tc .vmem Cert.ReferenceIdeal.S1x256 .f32) (r3h3 : r3a3.IsWhole) (r3a4 : Memref Cert.ReferenceIdeal.sig .tc .vmem Cert.ReferenceIdeal.S1x576x128 .f32) (r3h4 : r3a4.IsWhole) (r3a5 : Memref Cert.ReferenceIdeal.sig .tc .vmem Cert.ReferenceIdeal.S128x256 .f32) (r3h5 : r3a5.IsWhole) (r3a6 : Memref Cert.ReferenceIdeal.sig .tc .vmem Cert.ReferenceIdeal.S1x576x256 .f32) (r3h6 : r3a6.IsWhole)
variable (X : Vec Ideal Cert.ReferenceIdeal.S1x576x128 .f32) (G1 B1 : Vec Ideal Cert.ReferenceIdeal.S1x128 .f32) (W1 : Vec Ideal Cert.ReferenceIdeal.S3456x256 .f32) (C1 : Vec Ideal Cert.ReferenceIdeal.S1x256 .f32) (G2 B2 : Vec Ideal Cert.ReferenceIdeal.S1x256 .f32) (W2 : Vec Ideal Cert.ReferenceIdeal.S6912x256 .f32) (C2 : Vec Ideal Cert.ReferenceIdeal.S1x256 .f32) (NW : Vec Ideal Cert.ReferenceIdeal.S128x256 .f32)

/-- The one piece the fused kernel leaves in its output block. -/
theorem kout_val :
    (Cert.KernelIdeal.Body.kernelRun (F := Ideal) c i a1 h1 a2 h2 a3 h3 a4 h4 a5 h5 a6 h6 a7 h7 a8 h8 a9 h9 a10 h10 a11 h11 a12 h12 a13 h13 X G1 B1 W1 C1 G2 B2 W2 C2 NW).1
      = [(⟨Rect.unit (s := Cert.KernelIdeal.S1x576x256) ![0, 0, 0] Cert.KernelIdeal.S1x576x256.size Cert.KernelIdeal.Gen.inb_S1x576x256_S1x576x256_0_0_0,
          Cert.KernelIdeal.Gen.k0_pay1 (F := Ideal) (Cert.KernelIdeal.Body.kernelRun.sl.r_13 c a1 h1 a2 h2 a3 h3 a4 h4 a5 h5 a6 h6 a7 h7 a8 h8 a9 h9 a12 a13 X G1 B1 W1 C1 G2 B2 W2 C2) (Cert.KernelIdeal.Body.kernelRun.sl.r_14 c a1 h1 X) (Cert.KernelIdeal.Body.kernelRun.sl.r_15 c a10 h10 NW) Cert.KernelIdeal.Body.kernelRun.sl.cst_299⟩ : View.Piece (Elt Ideal) Cert.KernelIdeal.S1x576x256 .f32)] := rfl

/-- The one piece the reference's fourth call leaves in its output block, from any padded block. -/
theorem r3out_val (P2 : Vec Ideal Cert.ReferenceIdeal.S1x6x14x14x256 .f32) :
    (Cert.ReferenceIdeal.Reg3.kernelRun (F := Ideal) c i3 r3a1 r3h1 r3a2 r3h2 r3a3 r3h3 r3a4 r3h4 r3a5 r3h5 r3a6 r3h6 P2 W2 C2 X NW).1
      = [(⟨Rect.unit (s := Cert.ReferenceIdeal.S1x576x256) ![0, 0, 0] Cert.ReferenceIdeal.S1x576x256.size Cert.ReferenceIdeal.Gen.inb_S1x576x256_S1x576x256_0_0_0,
          Cert.ReferenceIdeal.Gen.k3_pay1 (F := Ideal) (Cert.ReferenceIdeal.Reg3.kernelRun.sl.r c r3a1 r3h1 r3a2 r3h2 r3a3 r3h3 P2 W2 C2) (Cert.ReferenceIdeal.Reg3.kernelRun.sl.r_1 c r3a4 r3h4 r3a5 r3h5 X NW)⟩ : View.Piece (Elt Ideal) Cert.ReferenceIdeal.S1x576x256 .f32)] := rfl

set_option maxHeartbeats 4000000 in
/-- The second convolution with its bias row: the same term in the two programs. -/
theorem second_conv_eq :
    Cert.KernelIdeal.Body.kernelRun.sl.r_13 (F := Ideal) c a1 h1 a2 h2 a3 h3 a4 h4 a5 h5 a6 h6 a7 h7 a8 h8 a9 h9 a12 a13 X G1 B1 W1 C1 G2 B2 W2 C2
      = Cert.ReferenceIdeal.Reg3.kernelRun.sl.r (F := Ideal) c r3a1 r3h1 r3a2 r3h2 r3a3 r3h3 (View.canon (Val := Elt Ideal) (blockPieces 256 Cert.ReferenceIdeal.Gen.inb_S1x6x14x14x256_S1x6x14x14x256_0_0_0_0_0 Cert.ReferenceIdeal.Gen.inb_S1x6x14x14x256_S1x4x12x12x256_0_2_1_1_0
        Cert.ReferenceIdeal.Gen.inb_S1x6x14x14x256_S1x2x12x12x256_0_0_1_1_0 (Cert.ReferenceIdeal.Gen.k2_pay2 (F := Ideal))
        (Cert.ReferenceIdeal.Gen.k2_pay3 (F := Ideal) (shiftR (hidK c a1 h1 a2 h2 a3 h3 a4 h4 a5 h5 a12 X G1 B1 W1 C1) G2 B2) (scaledR (hidK c a1 h1 a2 h2 a3 h3 a4 h4 a5 h5 a12 X G1 B1 W1 C1) G2))
        (Cert.ReferenceIdeal.Gen.k2_pay4 (F := Ideal) (shiftR (hidK c a1 h1 a2 h2 a3 h3 a4 h4 a5 h5 a12 X G1 B1 W1 C1) G2 B2) (scaledR (hidK c a1 h1 a2 h2 a3 h3 a4 h4 a5 h5 a12 X G1 B1 W1 C1) G2)))) W2 C2 := by
  unfold Cert.KernelIdeal.Body.kernelRun.sl.r_13 Cert.ReferenceIdeal.Reg3.kernelRun.sl.r
  simp only [Cert.KernelIdeal.Body.kernelRun.sl.v280, Cert.KernelIdeal.Body.kernelRun.sl.v281, Cert.KernelIdeal.Body.kernelRun.sl.v282, Cert.KernelIdeal.Body.kernelRun.sl.v283, Cert.KernelIdeal.Body.kernelRun.sl.v284, Cert.KernelIdeal.Body.kernelRun.sl.v285, Cert.KernelIdeal.Body.kernelRun.sl.v286, Cert.KernelIdeal.Body.kernelRun.sl.v287, Cert.KernelIdeal.Body.kernelRun.sl.v288, Cert.KernelIdeal.Body.kernelRun.sl.v289, Cert.KernelIdeal.Body.kernelRun.sl.v290, Cert.KernelIdeal.Body.kernelRun.sl.v291, Cert.KernelIdeal.Body.kernelRun.sl.v292, Cert.KernelIdeal.Body.kernelRun.sl.v293, Cert.KernelIdeal.Body.kernelRun.sl.v294, Cert.KernelIdeal.Body.kernelRun.sl.v295, Cert.KernelIdeal.Body.kernelRun.sl.v296, Cert.KernelIdeal.Body.kernelRun.sl.v297, Cert.KernelIdeal.Body.kernelRun.sl.v298, Cert.KernelIdeal.Body.kernelRun.sl.v299, Cert.KernelIdeal.Body.kernelRun.sl.v300, Cert.KernelIdeal.Body.kernelRun.sl.v301, Cert.KernelIdeal.Body.kernelRun.sl.v302, Cert.KernelIdeal.Body.kernelRun.sl.v303, Cert.KernelIdeal.Body.kernelRun.sl.v304, Cert.KernelIdeal.Body.kernelRun.sl.v305, Cert.KernelIdeal.Body.kernelRun.sl.v306, Cert.KernelIdeal.Body.kernelRun.sl.v307, Cert.KernelIdeal.Body.kernelRun.sl.v308, Cert.KernelIdeal.Body.kernelRun.sl.v309, Cert.KernelIdeal.Body.kernelRun.sl.v310, Cert.KernelIdeal.Body.kernelRun.sl.v311, Cert.KernelIdeal.Body.kernelRun.sl.v312, Cert.KernelIdeal.Body.kernelRun.sl.v313, Cert.KernelIdeal.Body.kernelRun.sl.v314, Cert.KernelIdeal.Body.kernelRun.sl.v315, Cert.KernelIdeal.Body.kernelRun.sl.v316, Cert.KernelIdeal.Body.kernelRun.sl.v317, Cert.KernelIdeal.Body.kernelRun.sl.v318, Cert.KernelIdeal.Body.kernelRun.sl.v319, Cert.KernelIdeal.Body.kernelRun.sl.v320, Cert.KernelIdeal.Body.kernelRun.sl.v322, Cert.KernelIdeal.Body.kernelRun.sl.v324, Cert.KernelIdeal.Body.kernelRun.sl.v326, Cert.KernelIdeal.Body.kernelRun.sl.v328, Cert.KernelIdeal.Body.kernelRun.sl.v330, Cert.KernelIdeal.Body.kernelRun.sl.v332,
    Cert.ReferenceIdeal.Reg3.kernelRun.sl.v1, Cert.ReferenceIdeal.Reg3.kernelRun.sl.v10, Cert.ReferenceIdeal.Reg3.kernelRun.sl.v11, Cert.ReferenceIdeal.Reg3.kernelRun.sl.v13, Cert.ReferenceIdeal.Reg3.kernelRun.sl.v14, Cert.ReferenceIdeal.Reg3.kernelRun.sl.v16, Cert.ReferenceIdeal.Reg3.kernelRun.sl.v17, Cert.ReferenceIdeal.Reg3.kernelRun.sl.v19, Cert.ReferenceIdeal.Reg3.kernelRun.sl.v2, Cert.ReferenceIdeal.Reg3.kernelRun.sl.v20, Cert.ReferenceIdeal.Reg3.kernelRun.sl.v22, Cert.ReferenceIdeal.Reg3.kernelRun.sl.v23, Cert.ReferenceIdeal.Reg3.kernelRun.sl.v25, Cert.ReferenceIdeal.Reg3.kernelRun.sl.v26, Cert.ReferenceIdeal.Reg3.kernelRun.sl.v28, Cert.ReferenceIdeal.Reg3.kernelRun.sl.v29, Cert.ReferenceIdeal.Reg3.kernelRun.sl.v31, Cert.ReferenceIdeal.Reg3.kernelRun.sl.v32, Cert.ReferenceIdeal.Reg3.kernelRun.sl.v34, Cert.ReferenceIdeal.Reg3.kernelRun.sl.v35, Cert.ReferenceIdeal.Reg3.kernelRun.sl.v37, Cert.ReferenceIdeal.Reg3.kernelRun.sl.v38, Cert.ReferenceIdeal.Reg3.kernelRun.sl.v4, Cert.ReferenceIdeal.Reg3.kernelRun.sl.v40, Cert.ReferenceIdeal.Reg3.kernelRun.sl.v41, Cert.ReferenceIdeal.Reg3.kernelRun.sl.v43, Cert.ReferenceIdeal.Reg3.kernelRun.sl.v44, Cert.ReferenceIdeal.Reg3.kernelRun.sl.v46, Cert.ReferenceIdeal.Reg3.kernelRun.sl.v47, Cert.ReferenceIdeal.Reg3.kernelRun.sl.v49, Cert.ReferenceIdeal.Reg3.kernelRun.sl.v5, Cert.ReferenceIdeal.Reg3.kernelRun.sl.v50, Cert.ReferenceIdeal.Reg3.kernelRun.sl.v52, Cert.ReferenceIdeal.Reg3.kernelRun.sl.v53, Cert.ReferenceIdeal.Reg3.kernelRun.sl.v55, Cert.ReferenceIdeal.Reg3.kernelRun.sl.v56, Cert.ReferenceIdeal.Reg3.kernelRun.sl.v58, Cert.ReferenceIdeal.Reg3.kernelRun.sl.v59, Cert.ReferenceIdeal.Reg3.kernelRun.sl.v61, Cert.ReferenceIdeal.Reg3.kernelRun.sl.v62, Cert.ReferenceIdeal.Reg3.kernelRun.sl.v64, Cert.ReferenceIdeal.Reg3.kernelRun.sl.v65, Cert.ReferenceIdeal.Reg3.kernelRun.sl.v7, Cert.ReferenceIdeal.Reg3.kernelRun.sl.v8]
  simp only [View.readAt_eq_ld, Memref.IsWhole.read_unread, View.ld_unit_zero (S := Cert.ReferenceIdeal.S6912x256) hz2, View.ld_unit_zero (S := Cert.ReferenceIdeal.S1x256) hz2]
  rw [scratch2_eq c a1 h1 a2 h2 a3 h3 a4 h4 a5 h5 a6 h6 a7 h7 a12 a13 X G1 B1 W1 C1 G2 B2]
  rw [tap256 a13.view (hidK c a1 h1 a2 h2 a3 h3 a4 h4 a5 h5 a12 X G1 B1 W1 C1) G2 B2 0 0 0 (by decide) (by decide) (by decide) _ Cert.ReferenceIdeal.Gen.inb_S1x6x14x14x256_S1x4x12x12x256_0_0_0_0_0 Cert.ReferenceIdeal.Gen.shapeCasts_S1x4x12x12x256_S4x12x12x256]
  rw [tap256 a13.view (hidK c a1 h1 a2 h2 a3 h3 a4 h4 a5 h5 a12 X G1 B1 W1 C1) G2 B2 0 0 1 (by decide) (by decide) (by decide) _ Cert.ReferenceIdeal.Gen.inb_S1x6x14x14x256_S1x4x12x12x256_0_0_0_1_0 Cert.ReferenceIdeal.Gen.shapeCasts_S1x4x12x12x256_S4x12x12x256]
  rw [tap256 a13.view (hidK c a1 h1 a2 h2 a3 h3 a4 h4 a5 h5 a12 X G1 B1 W1 C1) G2 B2 0 0 2 (by decide) (by decide) (by decide) _ Cert.ReferenceIdeal.Gen.inb_S1x6x14x14x256_S1x4x12x12x256_0_0_0_2_0 Cert.ReferenceIdeal.Gen.shapeCasts_S1x4x12x12x256_S4x12x12x256]
  rw [tap256 a13.view (hidK c a1 h1 a2 h2 a3 h3 a4 h4 a5 h5 a12 X G1 B1 W1 C1) G2 B2 0 1 0 (by decide) (by decide) (by decide) _ Cert.ReferenceIdeal.Gen.inb_S1x6x14x14x256_S1x4x12x12x256_0_0_1_0_0 Cert.ReferenceIdeal.Gen.shapeCasts_S1x4x12x12x256_S4x12x12x256]
  rw [tap256 a13.view (hidK c a1 h1 a2 h2 a3 h3 a4 h4 a5 h5 a12 X G1 B1 W1 C1) G2 B2 0 1 1 (by decide) (by decide) (by decide) _ Cert.ReferenceIdeal.Gen.inb_S1x6x14x14x256_S1x4x12x12x256_0_0_1_1_0 Cert.ReferenceIdeal.Gen.shapeCasts_S1x4x12x12x256_S4x12x12x256]
  rw [tap256 a13.view (hidK c a1 h1 a2 h2 a3 h3 a4 h4 a5 h5 a12 X G1 B1 W1 C1) G2 B2 0 1 2 (by decide) (by decide) (by decide) _ Cert.ReferenceIdeal.Gen.inb_S1x6x14x14x256_S1x4x12x12x256_0_0_1_2_0 Cert.ReferenceIdeal.Gen.shapeCasts_S1x4x12x12x256_S4x12x12x256]
  rw [tap256 a13.view (hidK c a1 h1 a2 h2 a3 h3 a4 h4 a5 h5 a12 X G1 B1 W1 C1) G2 B2 0 2 0 (by decide) (by decide) (by decide) _ Cert.ReferenceIdeal.Gen.inb_S1x6x14x14x256_S1x4x12x12x256_0_0_2_0_0 Cert.ReferenceIdeal.Gen.shapeCasts_S1x4x12x12x256_S4x12x12x256]
  rw [tap256 a13.view (hidK c a1 h1 a2 h2 a3 h3 a4 h4 a5 h5 a12 X G1 B1 W1 C1) G2 B2 0 2 1 (by decide) (by decide) (by decide) _ Cert.ReferenceIdeal.Gen.inb_S1x6x14x14x256_S1x4x12x12x256_0_0_2_1_0 Cert.ReferenceIdeal.Gen.shapeCasts_S1x4x12x12x256_S4x12x12x256]
  rw [tap256 a13.view (hidK c a1 h1 a2 h2 a3 h3 a4 h4 a5 h5 a12 X G1 B1 W1 C1) G2 B2 0 2 2 (by decide) (by decide) (by decide) _ Cert.ReferenceIdeal.Gen.inb_S1x6x14x14x256_S1x4x12x12x256_0_0_2_2_0 Cert.ReferenceIdeal.Gen.shapeCasts_S1x4x12x12x256_S4x12x12x256]
  rw [tap256 a13.view (hidK c a1 h1 a2 h2 a3 h3 a4 h4 a5 h5 a12 X G1 B1 W1 C1) G2 B2 1 0 0 (by decide) (by decide) (by decide) _ Cert.ReferenceIdeal.Gen.inb_S1x6x14x14x256_S1x4x12x12x256_0_1_0_0_0 Cert.ReferenceIdeal.Gen.shapeCasts_S1x4x12x12x256_S4x12x12x256]
  rw [tap256 a13.view (hidK c a1 h1 a2 h2 a3 h3 a4 h4 a5 h5 a12 X G1 B1 W1 C1) G2 B2 1 0 1 (by decide) (by decide) (by decide) _ Cert.ReferenceIdeal.Gen.inb_S1x6x14x14x256_S1x4x12x12x256_0_1_0_1_0 Cert.ReferenceIdeal.Gen.shapeCasts_S1x4x12x12x256_S4x12x12x256]
  rw [tap256 a13.view (hidK c a1 h1 a2 h2 a3 h3 a4 h4 a5 h5 a12 X G1 B1 W1 C1) G2 B2 1 0 2 (by decide) (by decide) (by decide) _ Cert.ReferenceIdeal.Gen.inb_S1x6x14x14x256_S1x4x12x12x256_0_1_0_2_0 Cert.ReferenceIdeal.Gen.shapeCasts_S1x4x12x12x256_S4x12x12x256]
  rw [tap256 a13.view (hidK c a1 h1 a2 h2 a3 h3 a4 h4 a5 h5 a12 X G1 B1 W1 C1) G2 B2 1 1 0 (by decide) (by decide) (by decide) _ Cert.ReferenceIdeal.Gen.inb_S1x6x14x14x256_S1x4x12x12x256_0_1_1_0_0 Cert.ReferenceIdeal.Gen.shapeCasts_S1x4x12x12x256_S4x12x12x256]
  rw [tap256 a13.view (hidK c a1 h1 a2 h2 a3 h3 a4 h4 a5 h5 a12 X G1 B1 W1 C1) G2 B2 1 1 1 (by decide) (by decide) (by decide) _ Cert.ReferenceIdeal.Gen.inb_S1x6x14x14x256_S1x4x12x12x256_0_1_1_1_0 Cert.ReferenceIdeal.Gen.shapeCasts_S1x4x12x12x256_S4x12x12x256]
  rw [tap256 a13.view (hidK c a1 h1 a2 h2 a3 h3 a4 h4 a5 h5 a12 X G1 B1 W1 C1) G2 B2 1 1 2 (by decide) (by decide) (by decide) _ Cert.ReferenceIdeal.Gen.inb_S1x6x14x14x256_S1x4x12x12x256_0_1_1_2_0 Cert.ReferenceIdeal.Gen.shapeCasts_S1x4x12x12x256_S4x12x12x256]
  rw [tap256 a13.view (hidK c a1 h1 a2 h2 a3 h3 a4 h4 a5 h5 a12 X G1 B1 W1 C1) G2 B2 1 2 0 (by decide) (by decide) (by decide) _ Cert.ReferenceIdeal.Gen.inb_S1x6x14x14x256_S1x4x12x12x256_0_1_2_0_0 Cert.ReferenceIdeal.Gen.shapeCasts_S1x4x12x12x256_S4x12x12x256]
  rw [tap256 a13.view (hidK c a1 h1 a2 h2 a3 h3 a4 h4 a5 h5 a12 X G1 B1 W1 C1) G2 B2 1 2 1 (by decide) (by decide) (by decide) _ Cert.ReferenceIdeal.Gen.inb_S1x6x14x14x256_S1x4x12x12x256_0_1_2_1_0 Cert.ReferenceIdeal.Gen.shapeCasts_S1x4x12x12x256_S4x12x12x256]
  rw [tap256 a13.view (hidK c a1 h1 a2 h2 a3 h3 a4 h4 a5 h5 a12 X G1 B1 W1 C1) G2 B2 1 2 2 (by decide) (by decide) (by decide) _ Cert.ReferenceIdeal.Gen.inb_S1x6x14x14x256_S1x4x12x12x256_0_1_2_2_0 Cert.ReferenceIdeal.Gen.shapeCasts_S1x4x12x12x256_S4x12x12x256]
  rw [tap256 a13.view (hidK c a1 h1 a2 h2 a3 h3 a4 h4 a5 h5 a12 X G1 B1 W1 C1) G2 B2 2 0 0 (by decide) (by decide) (by decide) _ Cert.ReferenceIdeal.Gen.inb_S1x6x14x14x256_S1x4x12x12x256_0_2_0_0_0 Cert.ReferenceIdeal.Gen.shapeCasts_S1x4x12x12x256_S4x12x12x256]
  rw [tap256 a13.view (hidK c a1 h1 a2 h2 a3 h3 a4 h4 a5 h5 a12 X G1 B1 W1 C1) G2 B2 2 0 1 (by decide) (by decide) (by decide) _ Cert.ReferenceIdeal.Gen.inb_S1x6x14x14x256_S1x4x12x12x256_0_2_0_1_0 Cert.ReferenceIdeal.Gen.shapeCasts_S1x4x12x12x256_S4x12x12x256]
  rw [tap256 a13.view (hidK c a1 h1 a2 h2 a3 h3 a4 h4 a5 h5 a12 X G1 B1 W1 C1) G2 B2 2 0 2 (by decide) (by decide) (by decide) _ Cert.ReferenceIdeal.Gen.inb_S1x6x14x14x256_S1x4x12x12x256_0_2_0_2_0 Cert.ReferenceIdeal.Gen.shapeCasts_S1x4x12x12x256_S4x12x12x256]
  rw [tap256 a13.view (hidK c a1 h1 a2 h2 a3 h3 a4 h4 a5 h5 a12 X G1 B1 W1 C1) G2 B2 2 1 0 (by decide) (by decide) (by decide) _ Cert.ReferenceIdeal.Gen.inb_S1x6x14x14x256_S1x4x12x12x256_0_2_1_0_0 Cert.ReferenceIdeal.Gen.shapeCasts_S1x4x12x12x256_S4x12x12x256]
  rw [tap256 a13.view (hidK c a1 h1 a2 h2 a3 h3 a4 h4 a5 h5 a12 X G1 B1 W1 C1) G2 B2 2 1 1 (by decide) (by decide) (by decide) _ Cert.ReferenceIdeal.Gen.inb_S1x6x14x14x256_S1x4x12x12x256_0_2_1_1_0 Cert.ReferenceIdeal.Gen.shapeCasts_S1x4x12x12x256_S4x12x12x256]
  rw [tap256 a13.view (hidK c a1 h1 a2 h2 a3 h3 a4 h4 a5 h5 a12 X G1 B1 W1 C1) G2 B2 2 1 2 (by decide) (by decide) (by decide) _ Cert.ReferenceIdeal.Gen.inb_S1x6x14x14x256_S1x4x12x12x256_0_2_1_2_0 Cert.ReferenceIdeal.Gen.shapeCasts_S1x4x12x12x256_S4x12x12x256]
  rw [tap256 a13.view (hidK c a1 h1 a2 h2 a3 h3 a4 h4 a5 h5 a12 X G1 B1 W1 C1) G2 B2 2 2 0 (by decide) (by decide) (by decide) _ Cert.ReferenceIdeal.Gen.inb_S1x6x14x14x256_S1x4x12x12x256_0_2_2_0_0 Cert.ReferenceIdeal.Gen.shapeCasts_S1x4x12x12x256_S4x12x12x256]
  rw [tap256 a13.view (hidK c a1 h1 a2 h2 a3 h3 a4 h4 a5 h5 a12 X G1 B1 W1 C1) G2 B2 2 2 1 (by decide) (by decide) (by decide) _ Cert.ReferenceIdeal.Gen.inb_S1x6x14x14x256_S1x4x12x12x256_0_2_2_1_0 Cert.ReferenceIdeal.Gen.shapeCasts_S1x4x12x12x256_S4x12x12x256]
  rw [tap256 a13.view (hidK c a1 h1 a2 h2 a3 h3 a4 h4 a5 h5 a12 X G1 B1 W1 C1) G2 B2 2 2 2 (by decide) (by decide) (by decide) _ Cert.ReferenceIdeal.Gen.inb_S1x6x14x14x256_S1x4x12x12x256_0_2_2_2_0 Cert.ReferenceIdeal.Gen.shapeCasts_S1x4x12x12x256_S4x12x12x256]
  rfl

set_option maxHeartbeats 4000000 in
/-- What the fused kernel leaves in its output block for one sample is what the reference's fourth call leaves in its,
    fed by its first three. -/
theorem sample_eq :
    View.canon (Val := Elt Ideal) (Cert.KernelIdeal.Body.kernelRun (F := Ideal) c i a1 h1 a2 h2 a3 h3 a4 h4 a5 h5 a6 h6 a7 h7 a8 h8 a9 h9 a10 h10 a11 h11 a12 h12 a13 h13 X G1 B1 W1 C1 G2 B2 W2 C2 NW).1
      = View.canon (Val := Elt Ideal) (Cert.ReferenceIdeal.Reg3.kernelRun (F := Ideal) c i3 r3a1 r3h1 r3a2 r3h2 r3a3 r3h3 r3a4 r3h4 r3a5 r3h5 r3a6 r3h6
          (View.canon (Val := Elt Ideal) (Cert.ReferenceIdeal.Reg2.kernelRun (F := Ideal) c i2 r2a1 r2h1 r2a2 r2h2 r2a3 r2h3 r2a4 r2h4
            (View.canon (Val := Elt Ideal) (Cert.ReferenceIdeal.Reg1.kernelRun (F := Ideal) c i1 r1a1 r1h1 r1a2 r1h2 r1a3 r1h3 r1a4 r1h4
              (View.canon (Val := Elt Ideal) (Cert.ReferenceIdeal.Reg0.kernelRun (F := Ideal) c i0 r0a1 r0h1 r0a2 r0h2 r0a3 r0h3 r0a4 r0h4 X G1 B1).1) W1 C1).1)
            G2 B2).1) W2 C2 X NW).1 := by
  rw [kout_val, r3out_val, View.canon_unit_zero hz3, View.canon_unit_zero hz3]
  rw [← hidden_eq c a1 h1 a2 h2 a3 h3 a4 h4 a5 h5 a12 i0 r0a1 r0h1 r0a2 r0h2 r0a3 r0h3 r0a4 r0h4 i1 r1a1 r1h1 r1a2 r1h2 r1a3 r1h3 r1a4 r1h4 X G1 B1 W1 C1]
  rw [block2_eq c i2 r2a1 r2h1 r2a2 r2h2 r2a3 r2h3 r2a4 r2h4 G2 B2]
  simp only [shapeCast_shapeCast]
  rw [second_conv_eq c a1 h1 a2 h2 a3 h3 a4 h4 a5 h5 a6 h6 a7 h7 a8 h8 a9 h9 a12 a13 r3a1 r3h1 r3a2 r3h2 r3a3 r3h3 X G1 B1 W1 C1 G2 B2 W2 C2]
  unfold Cert.KernelIdeal.Body.kernelRun.sl.r_14 Cert.KernelIdeal.Body.kernelRun.sl.r_15 Cert.KernelIdeal.Body.kernelRun.sl.r Cert.ReferenceIdeal.Reg3.kernelRun.sl.r_1
  simp only [View.readAt_eq_ld, Memref.IsWhole.read_unread, View.ld_unit_zero (S := Cert.ReferenceIdeal.S128x256) hz2, View.ld_unit_zero (S := Cert.ReferenceIdeal.S1x576x128) hz3]
  unfold Cert.KernelIdeal.Gen.k0_pay73
  rw [shapeCast_self]
  rfl

end Cert.Bridge

end
-- ==== Proof.HostIn.lean ====
import proofs.«168336_g2000006919451318_pallasbulk_203_2_alg».proof.Proof.KIFrame
import proofs.«168336_g2000006919451318_pallasbulk_203_2_alg».proof.Proof.RefRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.PureOps.Ideal

set_option maxRecDepth 16384

noncomputable section

/-!
# The host-side inputs of the two programs are the same arrays

Both programs feed their kernels the same arrays, computed by the same host operations from the same arguments: the
input moved channels-last and flattened to `[32, 576, 128]`, the affine scales and shifts as `[1, C]` rows, the two
filter banks flattened to `[27·Cin, Cout]`, the two second-stage biases added and made a row, and the shortcut
matrix. The fused program additionally rounds the three matrices to bf16, which on the extended reals is the
identity. Each equation below compares the reference's buffer at the boundary where its region reads it with the fused
program's buffer when its one region is entered, under the hypothesis that the two launch memories agree on the eleven
arguments.
-/

namespace Cert.Bridge.HostIn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (ρ' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))

/-! ## The reference's arguments at its segment boundaries

No host stretch and no region of the reference writes an argument, nor the transposed input before the last stretch
that reads it: each is walked back through the boundaries to the launch memory. -/

section Back
open Cert.ReferenceIdeal Cert.ReferenceIdeal.Gen Cert.ReferenceIdeal.Run

/-- A buffer that region 0 and the first host stretch do not write is as launched at region 0's exit. -/
theorem W2_back (c : Dev 1) (b : Ref sig .tc) (n0 : ∀ w, Pipeline.arrRef spec0 w ≠ b) (h0 : b ∉ hostOps0_W) :
    W2 m' ρ' c (Proc.devRef .tc b) = m' ((c : Thread nD τ).loc b) :=
  (W2_of_ne m' ρ' c b n0).trans (StableHlo.after_of_writes_sub hostOps0 _ hostOps0_writes h0)

/-- A buffer that regions 0, 1 and the first two host stretches do not write is as launched at region 1's exit. -/
theorem W4_back (c : Dev 1) (b : Ref sig .tc) (n0 : ∀ w, Pipeline.arrRef spec0 w ≠ b) (h0 : b ∉ hostOps0_W)
    (n1 : ∀ w, Pipeline.arrRef spec1 w ≠ b) (h1 : b ∉ hostOps1_W) :
    W4 m' ρ' c (Proc.devRef .tc b) = m' ((c : Thread nD τ).loc b) :=
  (W4_of_ne m' ρ' c b n1).trans ((StableHlo.after_of_writes_sub hostOps1 _ hostOps1_writes h1).trans
    (W2_back m' ρ' c b n0 h0))

/-- A buffer that regions 0, 1, 2 and the first three host stretches do not write is as launched at region 2's exit. -/
theorem W6_back (c : Dev 1) (b : Ref sig .tc) (n0 : ∀ w, Pipeline.arrRef spec0 w ≠ b) (h0 : b ∉ hostOps0_W)
    (n1 : ∀ w, Pipeline.arrRef spec1 w ≠ b) (h1 : b ∉ hostOps1_W)
    (n2 : ∀ w, Pipeline.arrRef spec2 w ≠ b) (h2 : b ∉ hostOps2_W) :
    W6 m' ρ' c (Proc.devRef .tc b) = m' ((c : Thread nD τ).loc b) :=
  (W6_of_ne m' ρ' c b n2).trans ((StableHlo.after_of_writes_sub hostOps2 _ hostOps2_writes h2).trans
    (W4_back m' ρ' c b n0 h0 n1 h1))

/-- The transposed input, written by the first host stretch only, is at region 2's exit what that stretch left. -/
theorem W6_v0 (c : Dev 1) :
    W6 m' ρ' c (Proc.devRef .tc main_v0) = W1 m' ρ' c (Proc.devRef .tc main_v0) :=
  (W6_of_ne m' ρ' c main_v0 (by decide)).trans
    ((StableHlo.after_of_writes_sub hostOps2 _ hostOps2_writes (by decide : main_v0 ∉ hostOps2_W)).trans
      ((W4_of_ne m' ρ' c main_v0 (by decide)).trans
        ((StableHlo.after_of_writes_sub hostOps1 _ hostOps1_writes (by decide : main_v0 ∉ hostOps1_W)).trans
          (W2_of_ne m' ρ' c main_v0 (by decide)))))

end Back

include hagree in
/-- The sample array `[32, 576, 128]` the first region reads: in both programs the reshape of the transpose of argument 0. -/
theorem in_x (c : Dev 1) :
    (Cert.ReferenceIdeal.Run.W1 m' ρ' c (Proc.devRef .tc Cert.ReferenceIdeal.main_v1) : (Cert.ReferenceIdeal.S32x576x128).Idx → EReal)
      = Cert.KernelIdeal.Gen.V m c Cert.KernelIdeal.main_v1 := by
  have e0 : Cert.ReferenceIdeal.Run.W0 m' ρ' c (Proc.devRef .tc Cert.ReferenceIdeal.main_arg0) = m ((c.tc : Thread Cert.KernelIdeal.nD Cert.KernelIdeal.τ).loc Cert.KernelIdeal.main_arg0) := (hagree c).1
  dsimp only [Cert.KernelIdeal.Gen.V, Cert.KernelIdeal.Gen.V0]
  simp only [Cert.KernelIdeal.Gen.hostOps0, List.flatten_cons, List.flatten_nil, List.append_nil, List.cons_append, List.nil_append]
  show StableHlo.after Cert.ReferenceIdeal.Gen.hostOps0 _ (Proc.devRef .tc Cert.ReferenceIdeal.main_v1) = _
  after_results
  rw [e0]
  rfl

include hagree in
/-- The first affine scale as a `[1, 128]` row: in both programs the reshape of argument 1. -/
theorem in_g1 (c : Dev 1) :
    (Cert.ReferenceIdeal.Run.W1 m' ρ' c (Proc.devRef .tc Cert.ReferenceIdeal.main_v2) : (Cert.ReferenceIdeal.S1x128).Idx → EReal)
      = Cert.KernelIdeal.Gen.V m c Cert.KernelIdeal.main_v9 := by
  have e1 : Cert.ReferenceIdeal.Run.W0 m' ρ' c (Proc.devRef .tc Cert.ReferenceIdeal.main_arg1) = m ((c.tc : Thread Cert.KernelIdeal.nD Cert.KernelIdeal.τ).loc Cert.KernelIdeal.main_arg1) := (hagree c).2.1
  dsimp only [Cert.KernelIdeal.Gen.V, Cert.KernelIdeal.Gen.V0]
  simp only [Cert.KernelIdeal.Gen.hostOps0, List.flatten_cons, List.flatten_nil, List.append_nil, List.cons_append, List.nil_append]
  show StableHlo.after Cert.ReferenceIdeal.Gen.hostOps0 _ (Proc.devRef .tc Cert.ReferenceIdeal.main_v2) = _
  after_results
  rw [e1]
  rfl

include hagree in
/-- The first affine shift as a `[1, 128]` row: in both programs the reshape of argument 2. -/
theorem in_b1 (c : Dev 1) :
    (Cert.ReferenceIdeal.Run.W1 m' ρ' c (Proc.devRef .tc Cert.ReferenceIdeal.main_v3) : (Cert.ReferenceIdeal.S1x128).Idx → EReal)
      = Cert.KernelIdeal.Gen.V m c Cert.KernelIdeal.main_v10 := by
  have e2 : Cert.ReferenceIdeal.Run.W0 m' ρ' c (Proc.devRef .tc Cert.ReferenceIdeal.main_arg2) = m ((c.tc : Thread Cert.KernelIdeal.nD Cert.KernelIdeal.τ).loc Cert.KernelIdeal.main_arg2) := (hagree c).2.2.1
  dsimp only [Cert.KernelIdeal.Gen.V, Cert.KernelIdeal.Gen.V0]
  simp only [Cert.KernelIdeal.Gen.hostOps0, List.flatten_cons, List.flatten_nil, List.append_nil, List.cons_append, List.nil_append]
  show StableHlo.after Cert.ReferenceIdeal.Gen.hostOps0 _ (Proc.devRef .tc Cert.ReferenceIdeal.main_v3) = _
  after_results
  rw [e2]
  rfl

include hagree in
/-- The first filter bank flattened to `[3456, 256]`: the reshape of argument 3, which the fused program also rounds (the identity on the extended reals). -/
theorem in_w1 (c : Dev 1) :
    (Cert.ReferenceIdeal.Run.W3 m' ρ' c (Proc.devRef .tc Cert.ReferenceIdeal.main_v5) : (Cert.ReferenceIdeal.S3456x256).Idx → EReal)
      = Cert.KernelIdeal.Gen.V m c Cert.KernelIdeal.main_v3 := by
  have e3 : Cert.ReferenceIdeal.Run.W2 m' ρ' c (Proc.devRef .tc Cert.ReferenceIdeal.main_arg3) = m ((c.tc : Thread Cert.KernelIdeal.nD Cert.KernelIdeal.τ).loc Cert.KernelIdeal.main_arg3) :=
    (W2_back m' ρ' c Cert.ReferenceIdeal.main_arg3 (by decide) (by decide)).trans (hagree c).2.2.2.1
  dsimp only [Cert.KernelIdeal.Gen.V, Cert.KernelIdeal.Gen.V0]
  simp only [Cert.KernelIdeal.Gen.hostOps0, List.flatten_cons, List.flatten_nil, List.append_nil, List.cons_append, List.nil_append]
  show StableHlo.after Cert.ReferenceIdeal.Gen.hostOps1 _ (Proc.devRef .tc Cert.ReferenceIdeal.main_v5) = _
  after_results
  rw [e3]
  rfl

include hagree in
/-- The first bias as a `[1, 256]` row: in both programs the reshape of argument 4. -/
theorem in_c1 (c : Dev 1) :
    (Cert.ReferenceIdeal.Run.W3 m' ρ' c (Proc.devRef .tc Cert.ReferenceIdeal.main_v6) : (Cert.ReferenceIdeal.S1x256).Idx → EReal)
      = Cert.KernelIdeal.Gen.V m c Cert.KernelIdeal.main_v11 := by
  have e4 : Cert.ReferenceIdeal.Run.W2 m' ρ' c (Proc.devRef .tc Cert.ReferenceIdeal.main_arg4) = m ((c.tc : Thread Cert.KernelIdeal.nD Cert.KernelIdeal.τ).loc Cert.KernelIdeal.main_arg4) :=
    (W2_back m' ρ' c Cert.ReferenceIdeal.main_arg4 (by decide) (by decide)).trans (hagree c).2.2.2.2.1
  dsimp only [Cert.KernelIdeal.Gen.V, Cert.KernelIdeal.Gen.V0]
  simp only [Cert.KernelIdeal.Gen.hostOps0, List.flatten_cons, List.flatten_nil, List.append_nil, List.cons_append, List.nil_append]
  show StableHlo.after Cert.ReferenceIdeal.Gen.hostOps1 _ (Proc.devRef .tc Cert.ReferenceIdeal.main_v6) = _
  after_results
  rw [e4]
  rfl

include hagree in
/-- The second affine scale as a `[1, 256]` row: in both programs the reshape of argument 5. -/
theorem in_g2 (c : Dev 1) :
    (Cert.ReferenceIdeal.Run.W5 m' ρ' c (Proc.devRef .tc Cert.ReferenceIdeal.main_v10) : (Cert.ReferenceIdeal.S1x256).Idx → EReal)
      = Cert.KernelIdeal.Gen.V m c Cert.KernelIdeal.main_v12 := by
  have e5 : Cert.ReferenceIdeal.Run.W4 m' ρ' c (Proc.devRef .tc Cert.ReferenceIdeal.main_arg5) = m ((c.tc : Thread Cert.KernelIdeal.nD Cert.KernelIdeal.τ).loc Cert.KernelIdeal.main_arg5) :=
    (W4_back m' ρ' c Cert.ReferenceIdeal.main_arg5 (by decide) (by decide) (by decide) (by decide)).trans (hagree c).2.2.2.2.2.1
  dsimp only [Cert.KernelIdeal.Gen.V, Cert.KernelIdeal.Gen.V0]
  simp only [Cert.KernelIdeal.Gen.hostOps0, List.flatten_cons, List.flatten_nil, List.append_nil, List.cons_append, List.nil_append]
  show StableHlo.after Cert.ReferenceIdeal.Gen.hostOps2 _ (Proc.devRef .tc Cert.ReferenceIdeal.main_v10) = _
  after_results
  rw [e5]
  rfl

include hagree in
/-- The second affine shift as a `[1, 256]` row: in both programs the reshape of argument 6. -/
theorem in_b2 (c : Dev 1) :
    (Cert.ReferenceIdeal.Run.W5 m' ρ' c (Proc.devRef .tc Cert.ReferenceIdeal.main_v11) : (Cert.ReferenceIdeal.S1x256).Idx → EReal)
      = Cert.KernelIdeal.Gen.V m c Cert.KernelIdeal.main_v13 := by
  have e6 : Cert.ReferenceIdeal.Run.W4 m' ρ' c (Proc.devRef .tc Cert.ReferenceIdeal.main_arg6) = m ((c.tc : Thread Cert.KernelIdeal.nD Cert.KernelIdeal.τ).loc Cert.KernelIdeal.main_arg6) :=
    (W4_back m' ρ' c Cert.ReferenceIdeal.main_arg6 (by decide) (by decide) (by decide) (by decide)).trans (hagree c).2.2.2.2.2.2.1
  dsimp only [Cert.KernelIdeal.Gen.V, Cert.KernelIdeal.Gen.V0]
  simp only [Cert.KernelIdeal.Gen.hostOps0, List.flatten_cons, List.flatten_nil, List.append_nil, List.cons_append, List.nil_append]
  show StableHlo.after Cert.ReferenceIdeal.Gen.hostOps2 _ (Proc.devRef .tc Cert.ReferenceIdeal.main_v11) = _
  after_results
  rw [e6]
  rfl

include hagree in
/-- The second filter bank flattened to `[6912, 256]`: the reshape of argument 7, which the fused program also rounds (the identity on the extended reals). -/
theorem in_w2 (c : Dev 1) :
    (Cert.ReferenceIdeal.Run.W7 m' ρ' c (Proc.devRef .tc Cert.ReferenceIdeal.main_v13) : (Cert.ReferenceIdeal.S6912x256).Idx → EReal)
      = Cert.KernelIdeal.Gen.V m c Cert.KernelIdeal.main_v5 := by
  have e7 : Cert.ReferenceIdeal.Run.W6 m' ρ' c (Proc.devRef .tc Cert.ReferenceIdeal.main_arg7) = m ((c.tc : Thread Cert.KernelIdeal.nD Cert.KernelIdeal.τ).loc Cert.KernelIdeal.main_arg7) :=
    (W6_back m' ρ' c Cert.ReferenceIdeal.main_arg7 (by decide) (by decide) (by decide) (by decide) (by decide) (by decide)).trans (hagree c).2.2.2.2.2.2.2.1
  dsimp only [Cert.KernelIdeal.Gen.V, Cert.KernelIdeal.Gen.V0]
  simp only [Cert.KernelIdeal.Gen.hostOps0, List.flatten_cons, List.flatten_nil, List.append_nil, List.cons_append, List.nil_append]
  show StableHlo.after Cert.ReferenceIdeal.Gen.hostOps3 _ (Proc.devRef .tc Cert.ReferenceIdeal.main_v13) = _
  after_results
  rw [e7]
  rfl

include hagree in
/-- The second-stage bias row `[1, 256]`: in both programs the reshape of the sum of arguments 8 and 10. -/
theorem in_c2 (c : Dev 1) :
    (Cert.ReferenceIdeal.Run.W7 m' ρ' c (Proc.devRef .tc Cert.ReferenceIdeal.main_v15) : (Cert.ReferenceIdeal.S1x256).Idx → EReal)
      = Cert.KernelIdeal.Gen.V m c Cert.KernelIdeal.main_v8 := by
  have e8 : Cert.ReferenceIdeal.Run.W6 m' ρ' c (Proc.devRef .tc Cert.ReferenceIdeal.main_arg8) = m ((c.tc : Thread Cert.KernelIdeal.nD Cert.KernelIdeal.τ).loc Cert.KernelIdeal.main_arg8) :=
    (W6_back m' ρ' c Cert.ReferenceIdeal.main_arg8 (by decide) (by decide) (by decide) (by decide) (by decide) (by decide)).trans (hagree c).2.2.2.2.2.2.2.2.1
  have e10 : Cert.ReferenceIdeal.Run.W6 m' ρ' c (Proc.devRef .tc Cert.ReferenceIdeal.main_arg10) = m ((c.tc : Thread Cert.KernelIdeal.nD Cert.KernelIdeal.τ).loc Cert.KernelIdeal.main_arg10) :=
    (W6_back m' ρ' c Cert.ReferenceIdeal.main_arg10 (by decide) (by decide) (by decide) (by decide) (by decide) (by decide)).trans (hagree c).2.2.2.2.2.2.2.2.2.2
  dsimp only [Cert.KernelIdeal.Gen.V, Cert.KernelIdeal.Gen.V0]
  simp only [Cert.KernelIdeal.Gen.hostOps0, List.flatten_cons, List.flatten_nil, List.append_nil, List.cons_append, List.nil_append]
  show StableHlo.after Cert.ReferenceIdeal.Gen.hostOps3 _ (Proc.devRef .tc Cert.ReferenceIdeal.main_v15) = _
  after_results
  rw [e8, e10]
  rfl

include hagree in
/-- The sample array again, as the last region reads it: the reshape of the transposed input the first host stretch left, which no later stretch or region writes. -/
theorem in_x3 (c : Dev 1) :
    (Cert.ReferenceIdeal.Run.W7 m' ρ' c (Proc.devRef .tc Cert.ReferenceIdeal.main_v16) : (Cert.ReferenceIdeal.S32x576x128).Idx → EReal)
      = Cert.KernelIdeal.Gen.V m c Cert.KernelIdeal.main_v1 := by
  have e0 : Cert.ReferenceIdeal.Run.W0 m' ρ' c (Proc.devRef .tc Cert.ReferenceIdeal.main_arg0) = m ((c.tc : Thread Cert.KernelIdeal.nD Cert.KernelIdeal.τ).loc Cert.KernelIdeal.main_arg0) := (hagree c).1
  dsimp only [Cert.KernelIdeal.Gen.V, Cert.KernelIdeal.Gen.V0]
  simp only [Cert.KernelIdeal.Gen.hostOps0, List.flatten_cons, List.flatten_nil, List.append_nil, List.cons_append, List.nil_append]
  show StableHlo.after Cert.ReferenceIdeal.Gen.hostOps3 _ (Proc.devRef .tc Cert.ReferenceIdeal.main_v16) = _
  after_results
  rw [W6_v0 m' ρ' c]
  after_results
  rw [e0]
  rfl

include hagree in
/-- The shortcut matrix `[128, 256]`: argument 9 itself in the reference, rounded (the identity on the extended reals) in the fused program. -/
theorem in_nw (c : Dev 1) :
    (Cert.ReferenceIdeal.Run.W7 m' ρ' c (Proc.devRef .tc Cert.ReferenceIdeal.main_arg9) : (Cert.ReferenceIdeal.S128x256).Idx → EReal)
      = Cert.KernelIdeal.Gen.V m c Cert.KernelIdeal.main_v6 := by
  have e9 : Cert.ReferenceIdeal.Run.W6 m' ρ' c (Proc.devRef .tc Cert.ReferenceIdeal.main_arg9) = m ((c.tc : Thread Cert.KernelIdeal.nD Cert.KernelIdeal.τ).loc Cert.KernelIdeal.main_arg9) :=
    (W6_back m' ρ' c Cert.ReferenceIdeal.main_arg9 (by decide) (by decide) (by decide) (by decide) (by decide) (by decide)).trans (hagree c).2.2.2.2.2.2.2.2.2.1
  dsimp only [Cert.KernelIdeal.Gen.V, Cert.KernelIdeal.Gen.V0]
  simp only [Cert.KernelIdeal.Gen.hostOps0, List.flatten_cons, List.flatten_nil, List.append_nil, List.cons_append, List.nil_append]
  after_results
  rw [e9]
  rfl

end Cert.Bridge.HostIn
-- ==== Proof.LeafIn.lean ====
import proofs.«168336_g2000006919451318_pallasbulk_203_2_alg».proof.Proof.HostIn
import proofs.«168336_g2000006919451318_pallasbulk_203_2_alg».proof.Proof.WinReads
import proofs.«168336_g2000006919451318_pallasbulk_203_2_alg».proof.Proof.KIFrame
import proofs.«168336_g2000006919451318_pallasbulk_203_2_alg».proof.Proof.RefRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.PureOps.Ideal

set_option maxRecDepth 16384

noncomputable section

/-!
# At every sample the two programs' kernels read the same input blocks

At sample `t` every input block one of the reference's four kernels reads from an argument-derived array is the block
the fused kernel reads: the sample's `[1, 576, 128]` block of the channels-last input (the first and the last region),
the affine rows, the flattened filter banks, the bias rows and the shortcut matrix. A whole window's block is its array,
a sample window's block read at `(0, p, q)` is its array at `(t, p, q)`; the arrays are equal by the host-side input
equalities.
-/

namespace Cert.Bridge.Leaf

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Bridge.HostIn

/-- Two equal rank-3 arrays agree at indices whose first coordinates have equal values and whose other coordinates
    are the same. -/
theorem sample_congr {α : Type} {n0 n1 n2 : Nat} (A B : (⟨3, ![n0, n1, n2]⟩ : Shape).Idx → α) (hAB : A = B)
    (i j : Fin n0) (hij : i.val = j.val) (p : Fin n1) (q : Fin n2) : A (ix3 i p q) = B (ix3 j p q) := by
  obtain rfl : i = j := Fin.ext hij
  exact congrFun hAB _
variable (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (ρ' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))

include hagree in
/-- The sample's `[1, 576, 128]` block of the channels-last input: what the reference's first region and the fused kernel read. -/
theorem leaf_x (c : Dev 1) (t0 : Fin Cert.ReferenceIdeal.cfg0.N) (t : Fin Cert.KernelIdeal.cfg0.N) (ht0 : t0.val = t.val) :
    (Cert.ReferenceIdeal.Reg0.iblk (Cert.ReferenceIdeal.Run.V1 m' ρ') c 0 t0 : (Cert.ReferenceIdeal.S1x576x128).Idx → EReal)
      = Cert.KernelIdeal.Gen.iblk m c 0 t := by
  unfold Cert.ReferenceIdeal.Reg0.iblk Cert.KernelIdeal.Gen.iblk
  funext y
  obtain ⟨a, p, q, rfl⟩ : ∃ (a : Fin 1) (p : Fin 576) (q : Fin 128), y = ix3 a p q := ⟨y 0, y 1, y 2, eq_ix3 y⟩
  obtain rfl : a = 0 := Subsingleton.elim _ _
  refine (Cert.WinReads.r0_read_0 t0 _ p q).trans ?_
  refine Eq.trans ?_ (Cert.WinReads.ki_read_0 t _ p q).symm
  exact sample_congr _ _ (in_x m m' ρ' hagree c) _ _ ht0 p q

include hagree in
/-- The first affine scale row: the reference's first region and the fused kernel read the same block. -/
theorem leaf_g1 (c : Dev 1) (t0 : Fin Cert.ReferenceIdeal.cfg0.N) (t : Fin Cert.KernelIdeal.cfg0.N) :
    (Cert.ReferenceIdeal.Reg0.iblk (Cert.ReferenceIdeal.Run.V1 m' ρ') c 1 t0 : (Cert.ReferenceIdeal.S1x128).Idx → EReal)
      = Cert.KernelIdeal.Gen.iblk m c 1 t := by
  unfold Cert.ReferenceIdeal.Reg0.iblk Cert.KernelIdeal.Gen.iblk
  refine (Cert.WinReads.r0_read_1 t0 _).trans ?_
  refine Eq.trans ?_ (Cert.WinReads.ki_read_1 (F := Ideal) t (Cert.KernelIdeal.Gen.V m c (Pipeline.arrRef Cert.KernelIdeal.spec0 1))).symm
  exact in_g1 m m' ρ' hagree c

include hagree in
/-- The first affine shift row: the reference's first region and the fused kernel read the same block. -/
theorem leaf_b1 (c : Dev 1) (t0 : Fin Cert.ReferenceIdeal.cfg0.N) (t : Fin Cert.KernelIdeal.cfg0.N) :
    (Cert.ReferenceIdeal.Reg0.iblk (Cert.ReferenceIdeal.Run.V1 m' ρ') c 2 t0 : (Cert.ReferenceIdeal.S1x128).Idx → EReal)
      = Cert.KernelIdeal.Gen.iblk m c 2 t := by
  unfold Cert.ReferenceIdeal.Reg0.iblk Cert.KernelIdeal.Gen.iblk
  refine (Cert.WinReads.r0_read_2 t0 _).trans ?_
  refine Eq.trans ?_ (Cert.WinReads.ki_read_2 (F := Ideal) t (Cert.KernelIdeal.Gen.V m c (Pipeline.arrRef Cert.KernelIdeal.spec0 2))).symm
  exact in_b1 m m' ρ' hagree c

include hagree in
/-- The first flattened filter bank: the reference's second region and the fused kernel read the same block. -/
theorem leaf_w1 (c : Dev 1) (t1 : Fin Cert.ReferenceIdeal.cfg1.N) (t : Fin Cert.KernelIdeal.cfg0.N) :
    (Cert.ReferenceIdeal.Reg1.iblk (Cert.ReferenceIdeal.Run.V3 m' ρ') c 1 t1 : (Cert.ReferenceIdeal.S3456x256).Idx → EReal)
      = Cert.KernelIdeal.Gen.iblk m c 3 t := by
  unfold Cert.ReferenceIdeal.Reg1.iblk Cert.KernelIdeal.Gen.iblk
  refine (Cert.WinReads.r1_read_1 t1 _).trans ?_
  refine Eq.trans ?_ (Cert.WinReads.ki_read_3 (F := Ideal) t (Cert.KernelIdeal.Gen.V m c (Pipeline.arrRef Cert.KernelIdeal.spec0 3))).symm
  exact in_w1 m m' ρ' hagree c

include hagree in
/-- The first bias row: the reference's second region and the fused kernel read the same block. -/
theorem leaf_c1 (c : Dev 1) (t1 : Fin Cert.ReferenceIdeal.cfg1.N) (t : Fin Cert.KernelIdeal.cfg0.N) :
    (Cert.ReferenceIdeal.Reg1.iblk (Cert.ReferenceIdeal.Run.V3 m' ρ') c 2 t1 : (Cert.ReferenceIdeal.S1x256).Idx → EReal)
      = Cert.KernelIdeal.Gen.iblk m c 4 t := by
  unfold Cert.ReferenceIdeal.Reg1.iblk Cert.KernelIdeal.Gen.iblk
  refine (Cert.WinReads.r1_read_2 t1 _).trans ?_
  refine Eq.trans ?_ (Cert.WinReads.ki_read_4 (F := Ideal) t (Cert.KernelIdeal.Gen.V m c (Pipeline.arrRef Cert.KernelIdeal.spec0 4))).symm
  exact in_c1 m m' ρ' hagree c

include hagree in
/-- The second affine scale row: the reference's third region and the fused kernel read the same block. -/
theorem leaf_g2 (c : Dev 1) (t2 : Fin Cert.ReferenceIdeal.cfg2.N) (t : Fin Cert.KernelIdeal.cfg0.N) :
    (Cert.ReferenceIdeal.Reg2.iblk (Cert.ReferenceIdeal.Run.V5 m' ρ') c 1 t2 : (Cert.ReferenceIdeal.S1x256).Idx → EReal)
      = Cert.KernelIdeal.Gen.iblk m c 5 t := by
  unfold Cert.ReferenceIdeal.Reg2.iblk Cert.KernelIdeal.Gen.iblk
  refine (Cert.WinReads.r2_read_1 t2 _).trans ?_
  refine Eq.trans ?_ (Cert.WinReads.ki_read_5 (F := Ideal) t (Cert.KernelIdeal.Gen.V m c (Pipeline.arrRef Cert.KernelIdeal.spec0 5))).symm
  exact in_g2 m m' ρ' hagree c

include hagree in
/-- The second affine shift row: the reference's third region and the fused kernel read the same block. -/
theorem leaf_b2 (c : Dev 1) (t2 : Fin Cert.ReferenceIdeal.cfg2.N) (t : Fin Cert.KernelIdeal.cfg0.N) :
    (Cert.ReferenceIdeal.Reg2.iblk (Cert.ReferenceIdeal.Run.V5 m' ρ') c 2 t2 : (Cert.ReferenceIdeal.S1x256).Idx → EReal)
      = Cert.KernelIdeal.Gen.iblk m c 6 t := by
  unfold Cert.ReferenceIdeal.Reg2.iblk Cert.KernelIdeal.Gen.iblk
  refine (Cert.WinReads.r2_read_2 t2 _).trans ?_
  refine Eq.trans ?_ (Cert.WinReads.ki_read_6 (F := Ideal) t (Cert.KernelIdeal.Gen.V m c (Pipeline.arrRef Cert.KernelIdeal.spec0 6))).symm
  exact in_b2 m m' ρ' hagree c

include hagree in
/-- The second flattened filter bank: the reference's last region and the fused kernel read the same block. -/
theorem leaf_w2 (c : Dev 1) (t3 : Fin Cert.ReferenceIdeal.cfg3.N) (t : Fin Cert.KernelIdeal.cfg0.N) :
    (Cert.ReferenceIdeal.Reg3.iblk (Cert.ReferenceIdeal.Run.V7 m' ρ') c 1 t3 : (Cert.ReferenceIdeal.S6912x256).Idx → EReal)
      = Cert.KernelIdeal.Gen.iblk m c 7 t := by
  unfold Cert.ReferenceIdeal.Reg3.iblk Cert.KernelIdeal.Gen.iblk
  refine (Cert.WinReads.r3_read_1 t3 _).trans ?_
  refine Eq.trans ?_ (Cert.WinReads.ki_read_7 (F := Ideal) t (Cert.KernelIdeal.Gen.V m c (Pipeline.arrRef Cert.KernelIdeal.spec0 7))).symm
  exact in_w2 m m' ρ' hagree c

include hagree in
/-- The second-stage bias row: the reference's last region and the fused kernel read the same block. -/
theorem leaf_c2 (c : Dev 1) (t3 : Fin Cert.ReferenceIdeal.cfg3.N) (t : Fin Cert.KernelIdeal.cfg0.N) :
    (Cert.ReferenceIdeal.Reg3.iblk (Cert.ReferenceIdeal.Run.V7 m' ρ') c 2 t3 : (Cert.ReferenceIdeal.S1x256).Idx → EReal)
      = Cert.KernelIdeal.Gen.iblk m c 8 t := by
  unfold Cert.ReferenceIdeal.Reg3.iblk Cert.KernelIdeal.Gen.iblk
  refine (Cert.WinReads.r3_read_2 t3 _).trans ?_
  refine Eq.trans ?_ (Cert.WinReads.ki_read_8 (F := Ideal) t (Cert.KernelIdeal.Gen.V m c (Pipeline.arrRef Cert.KernelIdeal.spec0 8))).symm
  exact in_c2 m m' ρ' hagree c

include hagree in
/-- The sample's `[1, 576, 128]` block of the channels-last input again: what the reference's last region and the fused kernel read. -/
theorem leaf_x3 (c : Dev 1) (t3 : Fin Cert.ReferenceIdeal.cfg3.N) (t : Fin Cert.KernelIdeal.cfg0.N) (ht3 : t3.val = t.val) :
    (Cert.ReferenceIdeal.Reg3.iblk (Cert.ReferenceIdeal.Run.V7 m' ρ') c 3 t3 : (Cert.ReferenceIdeal.S1x576x128).Idx → EReal)
      = Cert.KernelIdeal.Gen.iblk m c 0 t := by
  unfold Cert.ReferenceIdeal.Reg3.iblk Cert.KernelIdeal.Gen.iblk
  funext y
  obtain ⟨a, p, q, rfl⟩ : ∃ (a : Fin 1) (p : Fin 576) (q : Fin 128), y = ix3 a p q := ⟨y 0, y 1, y 2, eq_ix3 y⟩
  obtain rfl : a = 0 := Subsingleton.elim _ _
  refine (Cert.WinReads.r3_read_3 t3 _ p q).trans ?_
  refine Eq.trans ?_ (Cert.WinReads.ki_read_0 t _ p q).symm
  exact sample_congr _ _ (in_x3 m m' ρ' hagree c) _ _ ht3 p q

include hagree in
/-- The shortcut matrix: the reference's last region and the fused kernel read the same block. -/
theorem leaf_nw (c : Dev 1) (t3 : Fin Cert.ReferenceIdeal.cfg3.N) (t : Fin Cert.KernelIdeal.cfg0.N) :
    (Cert.ReferenceIdeal.Reg3.iblk (Cert.ReferenceIdeal.Run.V7 m' ρ') c 4 t3 : (Cert.ReferenceIdeal.S128x256).Idx → EReal)
      = Cert.KernelIdeal.Gen.iblk m c 9 t := by
  unfold Cert.ReferenceIdeal.Reg3.iblk Cert.KernelIdeal.Gen.iblk
  refine (Cert.WinReads.r3_read_4 t3 _).trans ?_
  refine Eq.trans ?_ (Cert.WinReads.ki_read_9 (F := Ideal) t (Cert.KernelIdeal.Gen.V m c (Pipeline.arrRef Cert.KernelIdeal.spec0 9))).symm
  exact in_nw m m' ρ' hagree c

end Cert.Bridge.Leaf
-- ==== Proof.KIValue.lean ====
import proofs.«168336_g2000006919451318_pallasbulk_203_2_alg».proof.Proof.Gen.KernelIdeal.Launch
import proofs.«168336_g2000006919451318_pallasbulk_203_2_alg».proof.Proof.Gen.KernelIdeal.Skeleton
import proofs.«168336_g2000006919451318_pallasbulk_203_2_alg».proof.Proof.Gen.KernelIdeal.Points
import proofs.«168336_g2000006919451318_pallasbulk_203_2_alg».proof.Proof.Gen.KernelIdeal.Frame
import proofs.«168336_g2000006919451318_pallasbulk_203_2_alg».proof.Proof.KIFrame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The fused program's result, named

After the region the program reshapes the [32, 576, 256] output array to [32, 4, 12, 12, 256] and moves the channel axis
forward. The result is those two host operations applied to the buffers as the region leaves them. -/

/-- The result buffer after the run: the host operations after the region, over the region's arrays at what its
    write-backs leave. -/
def result (c : Dev nD) : Buf (Elt F) ((c.tc : Thread nD τ).loc main_v16) :=
  Pipeline.afterTail₀ cfgs (dats m) 0 (V0 m) [hostOps1] c main_v16

/-- The run with the result named and every argument as launched. -/
theorem run_value : θ_run defs (onTc (τ := τ) (main (F := F))) ⟨m, fun _ => 0, ρ⟩ (fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).2 main_v16 (Pipeline.mem_restRefs_of main_v16 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩) (run_main m ρ)

end Cert.KernelIdeal.Body

end
-- ==== Proof.ResultEq.lean ====
import proofs.«168336_g2000006919451318_pallasbulk_203_2_alg».proof.Proof.KIValue
import proofs.«168336_g2000006919451318_pallasbulk_203_2_alg».proof.Proof.KIBlocks
import proofs.«168336_g2000006919451318_pallasbulk_203_2_alg».proof.Proof.RefRun
import proofs.«168336_g2000006919451318_pallasbulk_203_2_alg».proof.Proof.RefBlocks
import proofs.«168336_g2000006919451318_pallasbulk_203_2_alg».proof.Proof.WinReads
set_option maxRecDepth 16384
noncomputable section
namespace Cert.Bridge.Result
open Idealize.ShloMosaic Idealize.ShloMosaic.TcCoe Idealize.ShloMosaic.ValueIdx
variable {F : FTy → Type} [FloatOps F]

/-- The output array's shape: 32 samples of 576 positions by 256 channels. -/
abbrev SA : Shape := ⟨3, ![32, 576, 256]⟩
/-- One sample's block of the output array. -/
abbrev SB : Shape := ⟨3, ![1, 576, 256]⟩
/-- The output array with its positions as four frames of twelve rows and columns. -/
abbrev SM : Shape := ⟨5, ![32, 4, 12, 12, 256]⟩
/-- The result's shape: the channel axis moved forward. -/
abbrev SR : Shape := ⟨5, ![32, 256, 4, 12, 12]⟩

/-- The two host operations that turn the output array into the result: the reshape of the 576 positions into four
    frames of twelve rows and columns, then the transposition that moves the channel axis forward. -/
def tail (h1 : SA.ShapeCasts SM) (h2 : SM.Transposes [0, 4, 1, 2, 3] SR) (A : SA.Idx → Elt F .f32) : SR.Idx → Elt F .f32 :=
  transpose SR [0, 4, 1, 2, 3] (shapeCast SM A h1) h2

section KernelSide
open Cert.KernelIdeal Cert.KernelIdeal.Gen Cert.KernelIdeal.Body
variable (m : (ℓ : Loc nD τ sig) → Buf (Elt F) ℓ)

/-- The fused program's result is the two closing host operations of its output array after the run. -/
theorem ki_result (c : Dev nD) :
    (Body.result m c : SR.Idx → Elt F .f32)
      = tail Facts₀.shapeCasts_S32x576x256_S32x4x12x12x256 Facts₀.transposes_S32x4x12x12x256_S32x256x4x12x12_0_4_1_2_3
          ((dats m 0 c).arrAt 10 cfg0.N) := by
  have hA := Pipeline.withArrays_arr spec0 launch0.win.arr_inj c (V0 m c) (fun w => (dats m 0 c).arrAt w cfg0.N) 10
  unfold Body.result Pipeline.afterTail₀
  show StableHlo.after hostOps1 _ (Proc.devRef .tc main_v16) = _
  after_results
  exact congrArg (tail _ _) hA

/-- The fused program's output array at sample `t` is what grid point `t` wrote back. -/
theorem ki_arr_apply (c : Dev nD) (t : Fin cfg0.N) (p : Fin 576) (q : Fin 256) :
    ((dats m 0 c).arrAt 10 cfg0.N : SA.Idx → Elt F .f32) (ix3 (⟨t.val, lt_of_lt_of_eq t.isLt N_0⟩ : Fin 32) p q)
      = ((dats m 0 c).flushed 10 t : SB.Idx → Elt F .f32) (ix3 (0 : Fin 1) p q) :=
  (Cert.WinReads.ki_read_10 t _ p q).symm.trans (congrFun (blocks_out m c t) (ix3 (0 : Fin 1) p q))

end KernelSide

section ReferenceSide
open Cert.ReferenceIdeal Cert.ReferenceIdeal.Gen Cert.ReferenceIdeal.Run
variable (m' : (ℓ : Loc nD τ sig) → Buf (Elt F) ℓ) (ρ' : Dev nD → PrngReg)

/-- The reference's result is the same two closing host operations of its last region's output array. -/
theorem ref_result (c : Dev nD) :
    (W9 m' ρ' c (Proc.devRef .tc main_v19) : SR.Idx → Elt F .f32)
      = tail Facts₀.shapeCasts_S32x576x256_S32x4x12x12x256 Facts₀.transposes_S32x4x12x12x256_S32x256x4x12x12_0_4_1_2_3
          ((Reg3.dat (V7 m' ρ') c).arrAt 5 cfg3.N) := by
  have hA := W8_arr m' ρ' c 5
  show StableHlo.after hostOps4 (W8 m' ρ' c) (Proc.devRef .tc main_v19) = _
  generalize W8 m' ρ' c = Wv at hA ⊢
  after_results
  exact congrArg (tail _ _) hA

/-- The reference's last output array at sample `t` is what grid point `t` of the last region wrote back. -/
theorem ref_arr_apply (c : Dev nD) (t : Fin cfg3.N) (p : Fin 576) (q : Fin 256) :
    ((Reg3.dat (V7 m' ρ') c).arrAt 5 cfg3.N : SA.Idx → Elt F .f32) (ix3 (⟨t.val, lt_of_lt_of_eq t.isLt N_3⟩ : Fin 32) p q)
      = ((Reg3.dat (V7 m' ρ') c).flushed 5 t : SB.Idx → Elt F .f32) (ix3 (0 : Fin 1) p q) :=
  (Cert.WinReads.r3_read_5 t _ p q).symm.trans (congrFun (Reg3.blocks_out (V7 m' ρ') c t) (ix3 (0 : Fin 1) p q))

end ReferenceSide

/-- If the two programs write back the same block at every sample, their results are equal: each output array is the
    stack of its per-sample blocks, and the results are the same two host operations of the arrays. -/
theorem result_eq_of_blocks
    (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ)
    (ρ' : Dev Cert.ReferenceIdeal.nD → PrngReg) (c : Dev 1)
    (hblk : ∀ (t : Fin Cert.KernelIdeal.cfg0.N) (t3 : Fin Cert.ReferenceIdeal.cfg3.N), t3.val = t.val →
      ((Cert.KernelIdeal.Body.dats m 0 c).flushed 10 t : SB.Idx → Elt F .f32)
        = (Cert.ReferenceIdeal.Reg3.dat (Cert.ReferenceIdeal.Run.V7 m' ρ') c).flushed 5 t3) :
    (Cert.ReferenceIdeal.Run.W9 m' ρ' c (Proc.devRef .tc Cert.ReferenceIdeal.main_v19) : SR.Idx → Elt F .f32)
      = Cert.KernelIdeal.Body.result m c := by
  have hArr : ((Cert.ReferenceIdeal.Reg3.dat (Cert.ReferenceIdeal.Run.V7 m' ρ') c).arrAt 5 Cert.ReferenceIdeal.cfg3.N : SA.Idx → Elt F .f32)
      = (Cert.KernelIdeal.Body.dats m 0 c).arrAt 10 Cert.KernelIdeal.cfg0.N := by
    funext i
    obtain ⟨n, p, q, rfl⟩ : ∃ (n : Fin 32) (p : Fin 576) (q : Fin 256), i = ix3 n p q := ⟨i 0, i 1, i 2, eq_ix3 i⟩
    have hk := ki_arr_apply m c (⟨n.val, lt_of_lt_of_eq n.isLt Cert.KernelIdeal.Gen.N_0.symm⟩ : Fin Cert.KernelIdeal.cfg0.N) p q
    have hr := ref_arr_apply m' ρ' c (⟨n.val, lt_of_lt_of_eq n.isLt Cert.ReferenceIdeal.Gen.N_3.symm⟩ : Fin Cert.ReferenceIdeal.cfg3.N) p q
    exact hr.trans ((congrFun (hblk _ _ rfl) (ix3 (0 : Fin 1) p q)).symm.trans hk.symm)
  refine (ref_result m' ρ' c).trans (Eq.trans ?_ (ki_result m c).symm)
  exact congrArg (tail _ _) hArr

end Cert.Bridge.Result
-- ==== Proof.Hook.lean ====
import proofs.«168336_g2000006919451318_pallasbulk_203_2_alg».proof.Proof.Flushed
import proofs.«168336_g2000006919451318_pallasbulk_203_2_alg».proof.Proof.Core2
import proofs.«168336_g2000006919451318_pallasbulk_203_2_alg».proof.Proof.LeafIn
import proofs.«168336_g2000006919451318_pallasbulk_203_2_alg».proof.Proof.ResultEq
import proofs.«168336_g2000006919451318_pallasbulk_203_2_alg».proof.Proof.Gen.Pre_finite_inputs
import proofs.«168336_g2000006919451318_pallasbulk_203_2_alg».proof.Defs

set_option maxRecDepth 16384

noncomputable section

open Idealize.ShloMosaic Idealize.ShloMosaic.TcCoe Idealize.SL.Sem

namespace Cert.Bridge

/-! # The two programs' results are equal

At every sample the fused kernel's output block is the reference's: the reference's fourth call reads what its third
left at that sample, which reads what the second left, which reads what the first left; the remaining inputs are the
same functions of the agreed arguments; and one sample through the two programs gives the same block. The output
arrays are the stacks of these blocks, and the results the same two host operations of them. -/

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (ρ' : Dev Cert.ReferenceIdeal.nD → PrngReg)
variable (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)))

include hagree in
set_option maxHeartbeats 1000000 in
/-- The reference's write-back at a sample, with its argument-derived inputs replaced by the fused kernel's. -/
theorem ref_flushed_leaf (c : Dev 1) (t : Fin Cert.KernelIdeal.cfg0.N) (t3 : Fin Cert.ReferenceIdeal.cfg3.N) (ht : t3.val = t.val) :
    (Cert.ReferenceIdeal.Reg3.dat (Cert.ReferenceIdeal.Run.V7 m' ρ') c).flushed 5 t3
      = View.canon (Val := Elt Ideal) (Cert.ReferenceIdeal.Reg3.kernelRun c (Cert.ReferenceIdeal.grid3.coords t3) (Cert.ReferenceIdeal.Reg3.ms0 t3) (Cert.ReferenceIdeal.Reg3.hs0 t3) (Cert.ReferenceIdeal.Reg3.ms1 t3) (Cert.ReferenceIdeal.Reg3.hs1 t3) (Cert.ReferenceIdeal.Reg3.ms2 t3) (Cert.ReferenceIdeal.Reg3.hs2 t3) (Cert.ReferenceIdeal.Reg3.ms3 t3) (Cert.ReferenceIdeal.Reg3.hs3 t3) (Cert.ReferenceIdeal.Reg3.ms4 t3) (Cert.ReferenceIdeal.Reg3.hs4 t3) (Cert.ReferenceIdeal.Reg3.ms5 t3) (Cert.ReferenceIdeal.Reg3.hs5 t3)
        (View.canon (Val := Elt Ideal) (Cert.ReferenceIdeal.Reg2.kernelRun c (Cert.ReferenceIdeal.grid2.coords (⟨t.val, lt_of_lt_of_eq (lt_of_lt_of_eq t.isLt Cert.KernelIdeal.Gen.N_0) Cert.ReferenceIdeal.Gen.N_2.symm⟩ : Fin Cert.ReferenceIdeal.cfg2.N)) (Cert.ReferenceIdeal.Reg2.ms0 (⟨t.val, lt_of_lt_of_eq (lt_of_lt_of_eq t.isLt Cert.KernelIdeal.Gen.N_0) Cert.ReferenceIdeal.Gen.N_2.symm⟩ : Fin Cert.ReferenceIdeal.cfg2.N)) (Cert.ReferenceIdeal.Reg2.hs0 (⟨t.val, lt_of_lt_of_eq (lt_of_lt_of_eq t.isLt Cert.KernelIdeal.Gen.N_0) Cert.ReferenceIdeal.Gen.N_2.symm⟩ : Fin Cert.ReferenceIdeal.cfg2.N)) (Cert.ReferenceIdeal.Reg2.ms1 (⟨t.val, lt_of_lt_of_eq (lt_of_lt_of_eq t.isLt Cert.KernelIdeal.Gen.N_0) Cert.ReferenceIdeal.Gen.N_2.symm⟩ : Fin Cert.ReferenceIdeal.cfg2.N)) (Cert.ReferenceIdeal.Reg2.hs1 (⟨t.val, lt_of_lt_of_eq (lt_of_lt_of_eq t.isLt Cert.KernelIdeal.Gen.N_0) Cert.ReferenceIdeal.Gen.N_2.symm⟩ : Fin Cert.ReferenceIdeal.cfg2.N)) (Cert.ReferenceIdeal.Reg2.ms2 (⟨t.val, lt_of_lt_of_eq (lt_of_lt_of_eq t.isLt Cert.KernelIdeal.Gen.N_0) Cert.ReferenceIdeal.Gen.N_2.symm⟩ : Fin Cert.ReferenceIdeal.cfg2.N)) (Cert.ReferenceIdeal.Reg2.hs2 (⟨t.val, lt_of_lt_of_eq (lt_of_lt_of_eq t.isLt Cert.KernelIdeal.Gen.N_0) Cert.ReferenceIdeal.Gen.N_2.symm⟩ : Fin Cert.ReferenceIdeal.cfg2.N)) (Cert.ReferenceIdeal.Reg2.ms3 (⟨t.val, lt_of_lt_of_eq (lt_of_lt_of_eq t.isLt Cert.KernelIdeal.Gen.N_0) Cert.ReferenceIdeal.Gen.N_2.symm⟩ : Fin Cert.ReferenceIdeal.cfg2.N)) (Cert.ReferenceIdeal.Reg2.hs3 (⟨t.val, lt_of_lt_of_eq (lt_of_lt_of_eq t.isLt Cert.KernelIdeal.Gen.N_0) Cert.ReferenceIdeal.Gen.N_2.symm⟩ : Fin Cert.ReferenceIdeal.cfg2.N))
          (View.canon (Val := Elt Ideal) (Cert.ReferenceIdeal.Reg1.kernelRun c (Cert.ReferenceIdeal.grid1.coords (⟨t.val, lt_of_lt_of_eq (lt_of_lt_of_eq t.isLt Cert.KernelIdeal.Gen.N_0) Cert.ReferenceIdeal.Gen.N_1.symm⟩ : Fin Cert.ReferenceIdeal.cfg1.N)) (Cert.ReferenceIdeal.Reg1.ms0 (⟨t.val, lt_of_lt_of_eq (lt_of_lt_of_eq t.isLt Cert.KernelIdeal.Gen.N_0) Cert.ReferenceIdeal.Gen.N_1.symm⟩ : Fin Cert.ReferenceIdeal.cfg1.N)) (Cert.ReferenceIdeal.Reg1.hs0 (⟨t.val, lt_of_lt_of_eq (lt_of_lt_of_eq t.isLt Cert.KernelIdeal.Gen.N_0) Cert.ReferenceIdeal.Gen.N_1.symm⟩ : Fin Cert.ReferenceIdeal.cfg1.N)) (Cert.ReferenceIdeal.Reg1.ms1 (⟨t.val, lt_of_lt_of_eq (lt_of_lt_of_eq t.isLt Cert.KernelIdeal.Gen.N_0) Cert.ReferenceIdeal.Gen.N_1.symm⟩ : Fin Cert.ReferenceIdeal.cfg1.N)) (Cert.ReferenceIdeal.Reg1.hs1 (⟨t.val, lt_of_lt_of_eq (lt_of_lt_of_eq t.isLt Cert.KernelIdeal.Gen.N_0) Cert.ReferenceIdeal.Gen.N_1.symm⟩ : Fin Cert.ReferenceIdeal.cfg1.N)) (Cert.ReferenceIdeal.Reg1.ms2 (⟨t.val, lt_of_lt_of_eq (lt_of_lt_of_eq t.isLt Cert.KernelIdeal.Gen.N_0) Cert.ReferenceIdeal.Gen.N_1.symm⟩ : Fin Cert.ReferenceIdeal.cfg1.N)) (Cert.ReferenceIdeal.Reg1.hs2 (⟨t.val, lt_of_lt_of_eq (lt_of_lt_of_eq t.isLt Cert.KernelIdeal.Gen.N_0) Cert.ReferenceIdeal.Gen.N_1.symm⟩ : Fin Cert.ReferenceIdeal.cfg1.N)) (Cert.ReferenceIdeal.Reg1.ms3 (⟨t.val, lt_of_lt_of_eq (lt_of_lt_of_eq t.isLt Cert.KernelIdeal.Gen.N_0) Cert.ReferenceIdeal.Gen.N_1.symm⟩ : Fin Cert.ReferenceIdeal.cfg1.N)) (Cert.ReferenceIdeal.Reg1.hs3 (⟨t.val, lt_of_lt_of_eq (lt_of_lt_of_eq t.isLt Cert.KernelIdeal.Gen.N_0) Cert.ReferenceIdeal.Gen.N_1.symm⟩ : Fin Cert.ReferenceIdeal.cfg1.N))
            (View.canon (Val := Elt Ideal) (Cert.ReferenceIdeal.Reg0.kernelRun c (Cert.ReferenceIdeal.grid0.coords (⟨t.val, lt_of_lt_of_eq (lt_of_lt_of_eq t.isLt Cert.KernelIdeal.Gen.N_0) Cert.ReferenceIdeal.Gen.N_0.symm⟩ : Fin Cert.ReferenceIdeal.cfg0.N)) (Cert.ReferenceIdeal.Reg0.ms0 (⟨t.val, lt_of_lt_of_eq (lt_of_lt_of_eq t.isLt Cert.KernelIdeal.Gen.N_0) Cert.ReferenceIdeal.Gen.N_0.symm⟩ : Fin Cert.ReferenceIdeal.cfg0.N)) (Cert.ReferenceIdeal.Reg0.hs0 (⟨t.val, lt_of_lt_of_eq (lt_of_lt_of_eq t.isLt Cert.KernelIdeal.Gen.N_0) Cert.ReferenceIdeal.Gen.N_0.symm⟩ : Fin Cert.ReferenceIdeal.cfg0.N)) (Cert.ReferenceIdeal.Reg0.ms1 (⟨t.val, lt_of_lt_of_eq (lt_of_lt_of_eq t.isLt Cert.KernelIdeal.Gen.N_0) Cert.ReferenceIdeal.Gen.N_0.symm⟩ : Fin Cert.ReferenceIdeal.cfg0.N)) (Cert.ReferenceIdeal.Reg0.hs1 (⟨t.val, lt_of_lt_of_eq (lt_of_lt_of_eq t.isLt Cert.KernelIdeal.Gen.N_0) Cert.ReferenceIdeal.Gen.N_0.symm⟩ : Fin Cert.ReferenceIdeal.cfg0.N)) (Cert.ReferenceIdeal.Reg0.ms2 (⟨t.val, lt_of_lt_of_eq (lt_of_lt_of_eq t.isLt Cert.KernelIdeal.Gen.N_0) Cert.ReferenceIdeal.Gen.N_0.symm⟩ : Fin Cert.ReferenceIdeal.cfg0.N)) (Cert.ReferenceIdeal.Reg0.hs2 (⟨t.val, lt_of_lt_of_eq (lt_of_lt_of_eq t.isLt Cert.KernelIdeal.Gen.N_0) Cert.ReferenceIdeal.Gen.N_0.symm⟩ : Fin Cert.ReferenceIdeal.cfg0.N)) (Cert.ReferenceIdeal.Reg0.ms3 (⟨t.val, lt_of_lt_of_eq (lt_of_lt_of_eq t.isLt Cert.KernelIdeal.Gen.N_0) Cert.ReferenceIdeal.Gen.N_0.symm⟩ : Fin Cert.ReferenceIdeal.cfg0.N)) (Cert.ReferenceIdeal.Reg0.hs3 (⟨t.val, lt_of_lt_of_eq (lt_of_lt_of_eq t.isLt Cert.KernelIdeal.Gen.N_0) Cert.ReferenceIdeal.Gen.N_0.symm⟩ : Fin Cert.ReferenceIdeal.cfg0.N)) (Cert.KernelIdeal.Gen.iblk m c 0 t) (Cert.KernelIdeal.Gen.iblk m c 1 t) (Cert.KernelIdeal.Gen.iblk m c 2 t)).1)
            (Cert.KernelIdeal.Gen.iblk m c 3 t) (Cert.KernelIdeal.Gen.iblk m c 4 t)).1)
          (Cert.KernelIdeal.Gen.iblk m c 5 t) (Cert.KernelIdeal.Gen.iblk m c 6 t)).1)
        (Cert.KernelIdeal.Gen.iblk m c 7 t) (Cert.KernelIdeal.Gen.iblk m c 8 t) (Cert.KernelIdeal.Gen.iblk m c 0 t) (Cert.KernelIdeal.Gen.iblk m c 9 t)).1 := by
  rw [ref_flushed m' ρ' c ⟨t.val, lt_of_lt_of_eq (lt_of_lt_of_eq t.isLt Cert.KernelIdeal.Gen.N_0) Cert.ReferenceIdeal.Gen.N_0.symm⟩
    ⟨t.val, lt_of_lt_of_eq (lt_of_lt_of_eq t.isLt Cert.KernelIdeal.Gen.N_0) Cert.ReferenceIdeal.Gen.N_1.symm⟩
    ⟨t.val, lt_of_lt_of_eq (lt_of_lt_of_eq t.isLt Cert.KernelIdeal.Gen.N_0) Cert.ReferenceIdeal.Gen.N_2.symm⟩ t3 rfl rfl ht]
  rw [Cert.Bridge.Leaf.leaf_x m m' ρ' hagree c _ t rfl, Cert.Bridge.Leaf.leaf_g1 m m' ρ' hagree c _ t, Cert.Bridge.Leaf.leaf_b1 m m' ρ' hagree c _ t,
    Cert.Bridge.Leaf.leaf_w1 m m' ρ' hagree c _ t, Cert.Bridge.Leaf.leaf_c1 m m' ρ' hagree c _ t,
    Cert.Bridge.Leaf.leaf_g2 m m' ρ' hagree c _ t, Cert.Bridge.Leaf.leaf_b2 m m' ρ' hagree c _ t,
    Cert.Bridge.Leaf.leaf_w2 m m' ρ' hagree c t3 t, Cert.Bridge.Leaf.leaf_c2 m m' ρ' hagree c t3 t,
    Cert.Bridge.Leaf.leaf_x3 m m' ρ' hagree c t3 t ht, Cert.Bridge.Leaf.leaf_nw m m' ρ' hagree c t3 t]

include hagree in
set_option maxHeartbeats 1000000 in
/-- What the two programs write back at a sample is the same block. -/
theorem flushed_eq (c : Dev 1) (t : Fin Cert.KernelIdeal.cfg0.N) (t3 : Fin Cert.ReferenceIdeal.cfg3.N) (ht : t3.val = t.val) :
    ((Cert.KernelIdeal.Body.dats m 0 c).flushed 10 t : Cert.Bridge.Result.SB.Idx → Elt Ideal .f32)
      = (Cert.ReferenceIdeal.Reg3.dat (Cert.ReferenceIdeal.Run.V7 m' ρ') c).flushed 5 t3 :=
  (ker_flushed m c t).trans
    ((sample_eq c (Cert.KernelIdeal.grid0.coords t) (Cert.KernelIdeal.Body.ms0 t) (Cert.KernelIdeal.Body.hs0 t) (Cert.KernelIdeal.Body.ms1 t) (Cert.KernelIdeal.Body.hs1 t) (Cert.KernelIdeal.Body.ms2 t) (Cert.KernelIdeal.Body.hs2 t) (Cert.KernelIdeal.Body.ms3 t) (Cert.KernelIdeal.Body.hs3 t) (Cert.KernelIdeal.Body.ms4 t) (Cert.KernelIdeal.Body.hs4 t) (Cert.KernelIdeal.Body.ms5 t) (Cert.KernelIdeal.Body.hs5 t) (Cert.KernelIdeal.Body.ms6 t) (Cert.KernelIdeal.Body.hs6 t) (Cert.KernelIdeal.Body.ms7 t) (Cert.KernelIdeal.Body.hs7 t) (Cert.KernelIdeal.Body.ms8 t) (Cert.KernelIdeal.Body.hs8 t) (Cert.KernelIdeal.Body.ms9 t) (Cert.KernelIdeal.Body.hs9 t) (Cert.KernelIdeal.Body.ms10 t) (Cert.KernelIdeal.Body.hs10 t) Cert.KernelIdeal.Body.sc0 (Memref.isWhole_whole _) Cert.KernelIdeal.Body.sc1 (Memref.isWhole_whole _)
        (Cert.ReferenceIdeal.grid0.coords _) (Cert.ReferenceIdeal.Reg0.ms0 _) (Cert.ReferenceIdeal.Reg0.hs0 _) (Cert.ReferenceIdeal.Reg0.ms1 _) (Cert.ReferenceIdeal.Reg0.hs1 _) (Cert.ReferenceIdeal.Reg0.ms2 _) (Cert.ReferenceIdeal.Reg0.hs2 _) (Cert.ReferenceIdeal.Reg0.ms3 _) (Cert.ReferenceIdeal.Reg0.hs3 _) (Cert.ReferenceIdeal.grid1.coords _) (Cert.ReferenceIdeal.Reg1.ms0 _) (Cert.ReferenceIdeal.Reg1.hs0 _) (Cert.ReferenceIdeal.Reg1.ms1 _) (Cert.ReferenceIdeal.Reg1.hs1 _) (Cert.ReferenceIdeal.Reg1.ms2 _) (Cert.ReferenceIdeal.Reg1.hs2 _) (Cert.ReferenceIdeal.Reg1.ms3 _) (Cert.ReferenceIdeal.Reg1.hs3 _)
        (Cert.ReferenceIdeal.grid2.coords _) (Cert.ReferenceIdeal.Reg2.ms0 _) (Cert.ReferenceIdeal.Reg2.hs0 _) (Cert.ReferenceIdeal.Reg2.ms1 _) (Cert.ReferenceIdeal.Reg2.hs1 _) (Cert.ReferenceIdeal.Reg2.ms2 _) (Cert.ReferenceIdeal.Reg2.hs2 _) (Cert.ReferenceIdeal.Reg2.ms3 _) (Cert.ReferenceIdeal.Reg2.hs3 _) (Cert.ReferenceIdeal.grid3.coords t3) (Cert.ReferenceIdeal.Reg3.ms0 t3) (Cert.ReferenceIdeal.Reg3.hs0 t3) (Cert.ReferenceIdeal.Reg3.ms1 t3) (Cert.ReferenceIdeal.Reg3.hs1 t3) (Cert.ReferenceIdeal.Reg3.ms2 t3) (Cert.ReferenceIdeal.Reg3.hs2 t3) (Cert.ReferenceIdeal.Reg3.ms3 t3) (Cert.ReferenceIdeal.Reg3.hs3 t3) (Cert.ReferenceIdeal.Reg3.ms4 t3) (Cert.ReferenceIdeal.Reg3.hs4 t3) (Cert.ReferenceIdeal.Reg3.ms5 t3) (Cert.ReferenceIdeal.Reg3.hs5 t3)
        (Cert.KernelIdeal.Gen.iblk m c 0 t) (Cert.KernelIdeal.Gen.iblk m c 1 t) (Cert.KernelIdeal.Gen.iblk m c 2 t) (Cert.KernelIdeal.Gen.iblk m c 3 t) (Cert.KernelIdeal.Gen.iblk m c 4 t) (Cert.KernelIdeal.Gen.iblk m c 5 t) (Cert.KernelIdeal.Gen.iblk m c 6 t) (Cert.KernelIdeal.Gen.iblk m c 7 t) (Cert.KernelIdeal.Gen.iblk m c 8 t) (Cert.KernelIdeal.Gen.iblk m c 9 t)).trans
      (ref_flushed_leaf m m' ρ' hagree c t t3 ht).symm)

/-- At the ideal instance, from memories agreeing on the arguments, both programs run, end with equal results, and
    leave their arguments unchanged. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Body.result m c, Cert.KernelIdeal.Body.run_value m ρ, ?_⟩
  refine (θ_run Cert.ReferenceIdeal.defs _ _).mono (fun _ h c => ⟨(h c).1.trans ?_, (h c).2⟩) (Cert.ReferenceIdeal.Run.run m' ρ')
  exact Cert.Bridge.Result.result_eq_of_blocks m m' ρ' c (fun t t3 ht => flushed_eq m m' ρ' hagree c t t3 ht)

end Cert.Bridge

end
-- ==== Proof.lean ====
/- The certificate of the fused 3-D residual block against its four-call reference.

   Per sample, both programs compute group normalisation and SiLU of the [576, 128] activations, a zero-padded copy
   of them whose two leading frames repeat the first frame, a 3x3x3 convolution as one matrix product over the 27
   shifted windows of that copy, a second normalise-pad-convolve stage at 256 channels, and a 1x1x1 shortcut product
   of the input added to the result. The fused kernel keeps the two padded copies in scratch buffers and rounds them
   and the matrices to bf16 on the way, which on the extended reals is the identity; the reference writes the padded
   copies and the hidden activations to arrays between its calls.

   Frames: each kernel body is run once symbolically on arbitrary staging buffers; the stores it leaves in its output
   block are the run's witness and cover the block; the launch theorems turn that into a run of the whole program in
   which every argument array ends as launched. Nothing was rewritten by the idealisation, so the second conjunct is
   trivial. Values: the padded buffer after its three writes holds the same entry at every index in the two programs
   (zero at the border rows and columns, the activations inside, the first frame repeated in front), hence the same
   27 windows; everything else is the same operations in the same order; the output arrays are the stacks of the
   per-sample blocks and the results the same two host operations of them. -/
import proofs.«168336_g2000006919451318_pallasbulk_203_2_alg».proof.Defs
import proofs.«168336_g2000006919451318_pallasbulk_203_2_alg».proof.Proof.Gen.Kernel
import proofs.«168336_g2000006919451318_pallasbulk_203_2_alg».proof.Proof.Gen.KernelIdeal
import proofs.«168336_g2000006919451318_pallasbulk_203_2_alg».proof.Proof.Gen.ReferenceIdeal
import proofs.«168336_g2000006919451318_pallasbulk_203_2_alg».proof.Proof.Gen.Pre_finite_inputs
import proofs.«168336_g2000006919451318_pallasbulk_203_2_alg».proof.Proof.KFrame
import proofs.«168336_g2000006919451318_pallasbulk_203_2_alg».proof.Proof.KIFrame
import proofs.«168336_g2000006919451318_pallasbulk_203_2_alg».proof.Proof.RefRun
import proofs.«168336_g2000006919451318_pallasbulk_203_2_alg».proof.Proof.Hook
import Idealize.ShloMosaic.Adequacy
import Idealize.ShloMosaic.Init

noncomputable section

namespace Cert.Proof

open Idealize.ShloMosaic Idealize.SL.Sem

/-- The word-level kernel runs to the end, faults nowhere, and leaves its arguments unchanged. -/
theorem frame_k : @Cert.frame_Kernel Cert.Kernel.Gen.facts Cert.Pre_finite_inputs.Gen.facts :=
  fun m ρ _ => Cert.Kernel.Body.frame m ρ
/-- So does its idealisation. -/
theorem frame_ki : @Cert.frame_KernelIdeal Cert.KernelIdeal.Gen.facts Cert.Pre_finite_inputs.Gen.facts :=
  fun m ρ _ => Cert.KernelIdeal.Body.frame m ρ
/-- So does the idealised reference, through its four calls. -/
theorem frame_ri : @Cert.frame_ReferenceIdeal Cert.ReferenceIdeal.Gen.facts Cert.Pre_finite_inputs.Gen.facts :=
  fun m ρ _ => Cert.ReferenceIdeal.Run.frame m ρ

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Bridge.algebraic⟩

end Cert.Proof

end
